-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v53_0)) (v1 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53_0) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24_0) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S2x128x256 : Shape := ⟨3, ![2, 128, 256]⟩
abbrev S2x1x256 : Shape := ⟨3, ![2, 1, 256]⟩
abbrev S2x512x256 : Shape := ⟨3, ![2, 512, 256]⟩
abbrev S512x20 : Shape := ⟨2, ![512, 20]⟩
abbrev S1x20 : Shape := ⟨2, ![1, 20]⟩
abbrev S20x32 : Shape := ⟨2, ![20, 32]⟩
abbrev S1x32 : Shape := ⟨2, ![1, 32]⟩
abbrev S2x4096x4096 : Shape := ⟨3, ![2, 4096, 4096]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S2x128x256 : S_.BroadcastsInDim S2x128x256 (![] : Fin 0 → Fin S2x128x256.rank)
  reducesTo_S2x128x256_S_d0_1_2 : S2x128x256.ReducesTo [0, 1, 2] S_
  bcast_S_S2x1x256 : S_.BroadcastsInDim S2x1x256 (![] : Fin 0 → Fin S2x1x256.rank)
  reducesTo_S2x1x256_S_d0_1_2 : S2x1x256.ReducesTo [0, 1, 2] S_
  bcast_S_S2x512x256 : S_.BroadcastsInDim S2x512x256 (![] : Fin 0 → Fin S2x512x256.rank)
  reducesTo_S2x512x256_S_d0_1_2 : S2x512x256.ReducesTo [0, 1, 2] S_
  bcast_S_S512x20 : S_.BroadcastsInDim S512x20 (![] : Fin 0 → Fin S512x20.rank)
  reducesTo_S512x20_S_d0_1 : S512x20.ReducesTo [0, 1] S_
  bcast_S_S1x20 : S_.BroadcastsInDim S1x20 (![] : Fin 0 → Fin S1x20.rank)
  reducesTo_S1x20_S_d0_1 : S1x20.ReducesTo [0, 1] S_
  bcast_S_S20x32 : S_.BroadcastsInDim S20x32 (![] : Fin 0 → Fin S20x32.rank)
  reducesTo_S20x32_S_d0_1 : S20x32.ReducesTo [0, 1] S_
  bcast_S_S1x32 : S_.BroadcastsInDim S1x32 (![] : Fin 0 → Fin S1x32.rank)
  reducesTo_S1x32_S_d0_1 : S1x32.ReducesTo [0, 1] S_
  bitsLt_bf16_f32 : FTy.bits .bf16 < FTy.bits .f32
  bcast_S_S2x4096x4096 : S_.BroadcastsInDim S2x4096x4096 (![] : Fin 0 → Fin S2x4096x4096.rank)
  reducesTo_S2x4096x4096_S_d0_1_2 : S2x4096x4096.ReducesTo [0, 1, 2] S_

variable [Facts]

def fn_part3 {F : FTy → Type} [FloatOps F] (main_arg11 : FVec F S2x4096x4096 .bf16) (main_v48 : IVec S_ 1) (main_v49 : FVec F S1x32 .f32) (main_v50 : FVec F S1x32 .f32) : IVec S_ 1 :=
  let main_v51 : IVec S1x32 1 := cmpf .olt main_v49 main_v50
  let main_c_19 : IVec S_ 1 := constantI S_ 1 1#1
  let main_v52 : IVec S_ 1 := (fun x v => Host.reduce IntOp.andi x v reducesTo_S1x32_S_d0_1 h_S_) main_v51 main_c_19
  let main_v53 : IVec S_ 1 := andi main_v48 main_v52
  let main_v54 : FVec F S2x4096x4096 .f32 := (extf .f32 · bitsLt_bf16_f32) main_arg11
  let main_v55 : FVec F S2x4096x4096 .f32 := Host.absf main_v54
  let main_cst_20 : FVec F S_ .f32 := constant S_ .f32 0x7F800000#32
  let main_v56 : FVec F S2x4096x4096 .f32 := broadcastInDim S2x4096x4096 ![] bcast_S_S2x4096x4096 main_cst_20
  let main_v57 : IVec S2x4096x4096 1 := cmpf .olt main_v55 main_v56
  let main_c_21 : IVec S_ 1 := constantI S_ 1 1#1
  let main_v58 : IVec S_ 1 := (fun x v => Host.reduce IntOp.andi x v reducesTo_S2x4096x4096_S_d0_1_2 h_S_) main_v57 main_c_21
  let main_v59 : IVec S_ 1 := andi main_v53 main_v58
  main_v59

def fn_part2 {F : FTy → Type} [FloatOps F] (main_arg7 : FVec F S512x20 .f32) (main_arg8 : FVec F S1x20 .f32) (main_arg9 : FVec F S20x32 .f32) (main_arg10 : FVec F S1x32 .f32) (main_arg11 : FVec F S2x4096x4096 .bf16) (main_v33 : IVec S_ 1) : IVec S_ 1 :=
  let main_v34 : FVec F S512x20 .f32 := Host.absf main_arg7
  let main_cst_12 : FVec F S_ .f32 := constant S_ .f32 0x7F800000#32
  let main_v35 : FVec F S512x20 .f32 := broadcastInDim S512x20 ![] bcast_S_S512x20 main_cst_12
  let main_v36 : IVec S512x20 1 := cmpf .olt main_v34 main_v35
  let main_c_13 : IVec S_ 1 := constantI S_ 1 1#1
  let main_v37 : IVec S_ 1 := (fun x v => Host.reduce IntOp.andi x v reducesTo_S512x20_S_d0_1 h_S_) main_v36 main_c_13
  let main_v38 : IVec S_ 1 := andi main_v33 main_v37
  let main_v39 : FVec F S1x20 .f32 := Host.absf main_arg8
  let main_cst_14 : FVec F S_ .f32 := constant S_ .f32 0x7F800000#32
  let main_v40 : FVec F S1x20 .f32 := broadcastInDim S1x20 ![] bcast_S_S1x20 main_cst_14
  let main_v41 : IVec S1x20 1 := cmpf .olt main_v39 main_v40
  let main_c_15 : IVec S_ 1 := constantI S_ 1 1#1
  let main_v42 : IVec S_ 1 := (fun x v => Host.reduce IntOp.andi x v reducesTo_S1x20_S_d0_1 h_S_) main_v41 main_c_15
  let main_v43 : IVec S_ 1 := andi main_v38 main_v42
  let main_v44 : FVec F S20x32 .f32 := Host.absf main_arg9
  let main_cst_16 : FVec F S_ .f32 := constant S_ .f32 0x7F800000#32
  let main_v45 : FVec F S20x32 .f32 := broadcastInDim S20x32 ![] bcast_S_S20x32 main_cst_16
  let main_v46 : IVec S20x32 1 := cmpf .olt main_v44 main_v45
  let main_c_17 : IVec S_ 1 := constantI S_ 1 1#1
  let main_v47 : IVec S_ 1 := (fun x v => Host.reduce IntOp.andi x v reducesTo_S20x32_S_d0_1 h_S_) main_v46 main_c_17
  let main_v48 : IVec S_ 1 := andi main_v43 main_v47
  let main_v49 : FVec F S1x32 .f32 := Host.absf main_arg10
  let main_cst_18 : FVec F S_ .f32 := constant S_ .f32 0x7F800000#32
  let main_v50 : FVec F S1x32 .f32 := broadcastInDim S1x32 ![] bcast_S_S1x32 main_cst_18
  fn_part3 (F := F) main_arg11 main_v48 main_v49 main_v50

def fn_part1 {F : FTy → Type} [FloatOps F] (main_arg4 : FVec F S2x512x256 .f32) (main_arg5 : FVec F S2x512x256 .f32) (main_arg6 : FVec F S2x1x256 .f32) (main_arg7 : FVec F S512x20 .f32) (main_arg8 : FVec F S1x20 .f32) (main_arg9 : FVec F S20x32 .f32) (main_arg10 : FVec F S1x32 .f32) (main_arg11 : FVec F S2x4096x4096 .bf16) (main_v13 : IVec S_ 1) (main_v16 : IVec S2x1x256 1) : IVec S_ 1 :=
  let main_c_5 : IVec S_ 1 := constantI S_ 1 1#1
  let main_v17 : IVec S_ 1 := (fun x v => Host.reduce IntOp.andi x v reducesTo_S2x1x256_S_d0_1_2 h_S_) main_v16 main_c_5
  let main_v18 : IVec S_ 1 := andi main_v13 main_v17
  let main_v19 : FVec F S2x512x256 .f32 := Host.absf main_arg4
  let main_cst_6 : FVec F S_ .f32 := constant S_ .f32 0x7F800000#32
  let main_v20 : FVec F S2x512x256 .f32 := broadcastInDim S2x512x256 ![] bcast_S_S2x512x256 main_cst_6
  let main_v21 : IVec S2x512x256 1 := cmpf .olt main_v19 main_v20
  let main_c_7 : IVec S_ 1 := constantI S_ 1 1#1
  let main_v22 : IVec S_ 1 := (fun x v => Host.reduce IntOp.andi x v reducesTo_S2x512x256_S_d0_1_2 h_S_) main_v21 main_c_7
  let main_v23 : IVec S_ 1 := andi main_v18 main_v22
  let main_v24 : FVec F S2x512x256 .f32 := Host.absf main_arg5
  let main_cst_8 : FVec F S_ .f32 := constant S_ .f32 0x7F800000#32
  let main_v25 : FVec F S2x512x256 .f32 := broadcastInDim S2x512x256 ![] bcast_S_S2x512x256 main_cst_8
  let main_v26 : IVec S2x512x256 1 := cmpf .olt main_v24 main_v25
  let main_c_9 : IVec S_ 1 := constantI S_ 1 1#1
  let main_v27 : IVec S_ 1 := (fun x v => Host.reduce IntOp.andi x v reducesTo_S2x512x256_S_d0_1_2 h_S_) main_v26 main_c_9
  let main_v28 : IVec S_ 1 := andi main_v23 main_v27
  let main_v29 : FVec F S2x1x256 .f32 := Host.absf main_arg6
  let main_cst_10 : FVec F S_ .f32 := constant S_ .f32 0x7F800000#32
  let main_v30 : FVec F S2x1x256 .f32 := broadcastInDim S2x1x256 ![] bcast_S_S2x1x256 main_cst_10
  let main_v31 : IVec S2x1x256 1 := cmpf .olt main_v29 main_v30
  let main_c_11 : IVec S_ 1 := constantI S_ 1 1#1
  let main_v32 : IVec S_ 1 := (fun x v => Host.reduce IntOp.andi x v reducesTo_S2x1x256_S_d0_1_2 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4096x128 .f32) (main_arg1 : FVec F S2x128x256 .f32) (main_arg2 : FVec F S2x128x256 .f32) (main_arg3 : FVec F S2x1x256 .f32) (main_arg4 : FVec F S2x512x256 .f32) (main_arg5 : FVec F S2x512x256 .f32) (main_arg6 : FVec F S2x1x256 .f32) (main_arg7 : FVec F S512x20 .f32) (main_arg8 : FVec F S1x20 .f32) (main_arg9 : FVec F S20x32 .f32) (main_arg10 : FVec F S1x32 .f32) (main_arg11 : FVec F S2x4096x4096 .bf16) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S2x128x256 .f32 := Host.absf main_arg1
  let main_cst_0 : FVec F S_ .f32 := constant S_ .f32 0x7F800000#32
  let main_v5 : FVec F S2x128x256 .f32 := broadcastInDim S2x128x256 ![] bcast_S_S2x128x256 main_cst_0
  let main_v6 : IVec S2x128x256 1 := cmpf .olt main_v4 main_v5
  let main_c_1 : IVec S_ 1 := constantI S_ 1 1#1
  let main_v7 : IVec S_ 1 := (fun x v => Host.reduce IntOp.andi x v reducesTo_S2x128x256_S_d0_1_2 h_S_) main_v6 main_c_1
  let main_v8 : IVec S_ 1 := andi main_v3 main_v7
  let main_v9 : FVec F S2x128x256 .f32 := Host.absf main_arg2
  let main_cst_2 : FVec F S_ .f32 := constant S_ .f32 0x7F800000#32
  let main_v10 : FVec F S2x128x256 .f32 := broadcastInDim S2x128x256 ![] bcast_S_S2x128x256 main_cst_2
  let main_v11 : IVec S2x128x256 1 := cmpf .olt main_v9 main_v10
  let main_c_3 : IVec S_ 1 := constantI S_ 1 1#1
  let main_v12 : IVec S_ 1 := (fun x v => Host.reduce IntOp.andi x v reducesTo_S2x128x256_S_d0_1_2 h_S_) main_v11 main_c_3
  let main_v13 : IVec S_ 1 := andi main_v8 main_v12
  let main_v14 : FVec F S2x1x256 .f32 := Host.absf main_arg3
  let main_cst_4 : FVec F S_ .f32 := constant S_ .f32 0x7F800000#32
  let main_v15 : FVec F S2x1x256 .f32 := broadcastInDim S2x1x256 ![] bcast_S_S2x1x256 main_cst_4
  let main_v16 : IVec S2x1x256 1 := cmpf .olt main_v14 main_v15
  fn_part1 (F := F) main_arg4 main_arg5 main_arg6 main_arg7 main_arg8 main_arg9 main_arg10 main_arg11 main_v13 main_v16
-- ==== Kernel.lean ====
abbrev S4096x128 : Shape := ⟨2, ![4096, 128]⟩
abbrev S2x128x256 : Shape := ⟨3, ![2, 128, 256]⟩
abbrev S2x1x256 : Shape := ⟨3, ![2, 1, 256]⟩
abbrev S2x512x256 : Shape := ⟨3, ![2, 512, 256]⟩
abbrev S512x20 : Shape := ⟨2, ![512, 20]⟩
abbrev S1x20 : Shape := ⟨2, ![1, 20]⟩
abbrev S20x32 : Shape := ⟨2, ![20, 32]⟩
abbrev S1x32 : Shape := ⟨2, ![1, 32]⟩
abbrev S2x4096x4096 : Shape := ⟨3, ![2, 4096, 4096]⟩
abbrev S_ : Shape := ⟨0, ![]⟩
abbrev S384x512 : Shape := ⟨2, ![384, 512]⟩
abbrev S1x128x256 : Shape := ⟨3, ![1, 128, 256]⟩
abbrev S128x256 : Shape := ⟨2, ![128, 256]⟩
abbrev S1 : Shape := ⟨1, ![1]⟩
abbrev S2 : Shape := ⟨1, ![2]⟩
abbrev S128x512 : Shape := ⟨2, ![128, 512]⟩
abbrev S1x512 : Shape := ⟨2, ![1, 512]⟩
abbrev S1x512x256 : Shape := ⟨3, ![1, 512, 256]⟩
abbrev S512x256 : Shape := ⟨2, ![512, 256]⟩
abbrev S512x512 : Shape := ⟨2, ![512, 512]⟩
abbrev S512x1024 : Shape := ⟨2, ![512, 1024]⟩
abbrev S512x128 : Shape := ⟨2, ![512, 128]⟩
abbrev S1x128 : Shape := ⟨2, ![1, 128]⟩
abbrev S128x128 : Shape := ⟨2, ![128, 128]⟩
abbrev S4096x512 : Shape := ⟨2, ![4096, 512]⟩
abbrev S2x512x4096 : Shape := ⟨3, ![2, 512, 4096]⟩
abbrev S1024x4096 : Shape := ⟨2, ![1024, 4096]⟩
abbrev S1024x128 : Shape := ⟨2, ![1024, 128]⟩
abbrev S512x384 : Shape := ⟨2, ![512, 384]⟩
abbrev S1x512x4096 : Shape := ⟨3, ![1, 512, 4096]⟩
abbrev S512x4096 : Shape := ⟨2, ![512, 4096]⟩
abbrev S4096x256 : Shape := ⟨2, ![4096, 256]⟩
abbrev S4096x32 : Shape := ⟨2, ![4096, 32]⟩

abbrev nBuf : Space → Nat
  | .hbm => 84
  | .vmem => 26
  | .smem => 0
  | _ => 0

abbrev bufTy : (tb : Table) → Fin (tcTables nBuf tb) → BufTy
  | .hbm, ⟨0, _⟩ => ⟨S4096x128, .f32⟩
  | .hbm, ⟨1, _⟩ => ⟨S2x128x256, .f32⟩
  | .hbm, ⟨2, _⟩ => ⟨S2x128x256, .f32⟩
  | .hbm, ⟨3, _⟩ => ⟨S2x1x256, .f32⟩
  | .hbm, ⟨4, _⟩ => ⟨S2x512x256, .f32⟩
  | .hbm, ⟨5, _⟩ => ⟨S2x512x256, .f32⟩
  | .hbm, ⟨6, _⟩ => ⟨S2x1x256, .f32⟩
  | .hbm, ⟨7, _⟩ => ⟨S512x20, .f32⟩
  | .hbm, ⟨8, _⟩ => ⟨S1x20, .f32⟩
  | .hbm, ⟨9, _⟩ => ⟨S20x32, .f32⟩
  | .hbm, ⟨10, _⟩ => ⟨S1x32, .f32⟩
  | .hbm, ⟨11, _⟩ => ⟨S2x4096x4096, .bf16⟩
  | .hbm, ⟨12, _⟩ => ⟨S4096x128, .bf16⟩
  | .hbm, ⟨13, _⟩ => ⟨S_, .f32⟩
  | .hbm, ⟨14, _⟩ => ⟨S384x512, .f32⟩
  | .hbm, ⟨15, _⟩ => ⟨S1x128x256, .f32⟩
  | .hbm, ⟨16, _⟩ => ⟨S128x256, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S384x512, .f32⟩
  | .hbm, ⟨23, _⟩ => ⟨S1x128x256, .f32⟩
  | .hbm, ⟨24, _⟩ => ⟨S128x256, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S384x512, .f32⟩
  | .hbm, ⟨31, _⟩ => ⟨S1x128x256, .f32⟩
  | .hbm, ⟨32, _⟩ => ⟨S128x256, .f32⟩
  | .hbm, ⟨33, _⟩ => ⟨S1x128x256, .f32⟩
  | .hbm, ⟨34, _⟩ => ⟨S128x256, .f32⟩
  | .hbm, ⟨35, _⟩ => ⟨S128x512, .f32⟩
  | .hbm, ⟨36, _⟩ => ⟨S_, .i32⟩
  | .hbm, ⟨37, _⟩ => ⟨S1, .i32⟩
  | .hbm, ⟨38, _⟩ => ⟨S384x512, .f32⟩
  | .hbm, ⟨39, _⟩ => ⟨S384x512, .bf16⟩
  | .hbm, ⟨40, _⟩ => ⟨S1x512, .f32⟩
  | .hbm, ⟨41, _⟩ => ⟨S1x512x256, .f32⟩
  | .hbm, ⟨42, _⟩ => ⟨S512x256, .f32⟩
  | .hbm, ⟨43, _⟩ => ⟨S1x512x256, .f32⟩
  | .hbm, ⟨44, _⟩ => ⟨S512x256, .f32⟩
  | .hbm, ⟨45, _⟩ => ⟨S512x512, .f32⟩
  | .hbm, ⟨46, _⟩ => ⟨S1x512x256, .f32⟩
  | .hbm, ⟨47, _⟩ => ⟨S512x256, .f32⟩
  | .hbm, ⟨48, _⟩ => ⟨S1x512x256, .f32⟩
  | .hbm, ⟨49, _⟩ => ⟨S512x256, .f32⟩
  | .hbm, ⟨50, _⟩ => ⟨S512x512, .f32⟩
  | .hbm, ⟨51, _⟩ => ⟨S512x1024, .f32⟩
  | .hbm, ⟨52, _⟩ => ⟨S512x1024, .bf16⟩
  | .hbm, ⟨53, _⟩ => ⟨S1x512, .f32⟩
  | .hbm, ⟨54, _⟩ => ⟨S_, .bf16⟩
  | .hbm, ⟨55, _⟩ => ⟨S512x128, .bf16⟩
  | .hbm, ⟨56, _⟩ => ⟨S512x20, .bf16⟩
  | .hbm, ⟨57, _⟩ => ⟨S_, .i32⟩
  | .hbm, ⟨58, _⟩ => ⟨S1, .i32⟩
  | .hbm, ⟨59, _⟩ => ⟨S512x128, .bf16⟩
  | .hbm, ⟨60, _⟩ => ⟨S_, .f32⟩
  | .hbm, ⟨61, _⟩ => ⟨S1x128, .f32⟩
  | .hbm, ⟨62, _⟩ => ⟨S_, .i32⟩
  | .hbm, ⟨63, _⟩ => ⟨S1, .i32⟩
  | .hbm, ⟨64, _⟩ => ⟨S1x128, .f32⟩
  | .hbm, ⟨65, _⟩ => ⟨S_, .bf16⟩
  | .hbm, ⟨66, _⟩ => ⟨S128x128, .bf16⟩
  | .hbm, ⟨67, _⟩ => ⟨S20x32, .bf16⟩
  | .hbm, ⟨68, _⟩ => ⟨S_, .i32⟩
  | .hbm, ⟨69, _⟩ => ⟨S1, .i32⟩
  | .hbm, ⟨70, _⟩ => ⟨S_, .i32⟩
  | .hbm, ⟨71, _⟩ => ⟨S1, .i32⟩
  | .hbm, ⟨72, _⟩ => ⟨S2, .i32⟩
  | .hbm, ⟨73, _⟩ => ⟨S128x128, .bf16⟩
  | .hbm, ⟨74, _⟩ => ⟨S_, .f32⟩
  | .hbm, ⟨75, _⟩ => ⟨S1x128, .f32⟩
  | .hbm, ⟨76, _⟩ => ⟨S_, .i32⟩
  | .hbm, ⟨77, _⟩ => ⟨S1, .i32⟩
  | .hbm, ⟨78, _⟩ => ⟨S1x128, .f32⟩
  | .hbm, ⟨79, _⟩ => ⟨S4096x512, .bf16⟩
  | .hbm, ⟨80, _⟩ => ⟨S4096x512, .f32⟩
  | .hbm, ⟨81, _⟩ => ⟨S4096x512, .f32⟩
  | .hbm, ⟨82, _⟩ => ⟨S4096x128, .f32⟩
  | .hbm, ⟨83, _⟩ => ⟨S4096x32, .f32⟩
  | .local _ .vmem, ⟨0, _⟩ => ⟨S2x512x4096, .bf16⟩
  | .local _ .vmem, ⟨1, _⟩ => ⟨S2x512x4096, .bf16⟩
  | .local _ .vmem, ⟨2, _⟩ => ⟨S4096x128, .bf16⟩
  | .local _ .vmem, ⟨3, _⟩ => ⟨S512x128, .bf16⟩
  | .local _ .vmem, ⟨4, _⟩ => ⟨S512x128, .bf16⟩
  | .local _ .vmem, ⟨5, _⟩ => ⟨S384x512, .bf16⟩
  | .local _ .vmem, ⟨6, _⟩ => ⟨S1x512, .f32⟩
  | .local _ .vmem, ⟨7, _⟩ => ⟨S512x1024, .bf16⟩
  | .local _ .vmem, ⟨8, _⟩ => ⟨S1x512, .f32⟩
  | .local _ .vmem, ⟨9, _⟩ => ⟨S512x512, .bf16⟩
  | .local _ .vmem, ⟨10, _⟩ => ⟨S512x512, .bf16⟩
  | .local _ .vmem, ⟨11, _⟩ => ⟨S512x512, .f32⟩
  | .local _ .vmem, ⟨12, _⟩ => ⟨S512x512, .f32⟩
  | .local _ .vmem, ⟨13, _⟩ => ⟨S2x512x4096, .bf16⟩
  | .local _ .vmem, ⟨14, _⟩ => ⟨S2x512x4096, .bf16⟩
  | .local _ .vmem, ⟨15, _⟩ => ⟨S4096x512, .bf16⟩
  | .local _ .vmem, ⟨16, _⟩ => ⟨S512x512, .f32⟩
  | .local _ .vmem, ⟨17, _⟩ => ⟨S512x512, .f32⟩
  | .local _ .vmem, ⟨18, _⟩ => ⟨S512x128, .bf16⟩
  | .local _ .vmem, ⟨19, _⟩ => ⟨S1x128, .f32⟩
  | .local _ .vmem, ⟨20, _⟩ => ⟨S128x128, .bf16⟩
  | .local _ .vmem, ⟨21, _⟩ => ⟨S1x128, .f32⟩
  | .local _ .vmem, ⟨22, _⟩ => ⟨S512x512, .f32⟩
  | .local _ .vmem, ⟨23, _⟩ => ⟨S512x512, .f32⟩
  | .local _ .vmem, ⟨24, _⟩ => ⟨S512x128, .f32⟩
  | .local _ .vmem, ⟨25, _⟩ => ⟨S512x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_c_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_c_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_c_5 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_c_7 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_c_9 : Ref sig .tc := ⟨.hbm, 68, rfl⟩
abbrev main_v45 : Ref sig .tc := ⟨.hbm, 69, rfl⟩
abbrev main_c_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_11 : Ref sig .tc := ⟨.hbm, 74, rfl⟩
abbrev main_v49 : Ref sig .tc := ⟨.hbm, 75, rfl⟩
abbrev main_c_12 : Ref sig .tc := ⟨.hbm, 76, rfl⟩
abbrev main_v50 : Ref sig .tc := ⟨.hbm, 77, rfl⟩
abbrev main_v51 : Ref sig .tc := ⟨.hbm, 78, rfl⟩
abbrev main_v52_0 : Ref sig .tc := ⟨.hbm, 79, rfl⟩
abbrev main_v52_1 : Ref sig .tc := ⟨.hbm, 80, rfl⟩
abbrev main_v53_0 : Ref sig .tc := ⟨.hbm, 81, rfl⟩
abbrev main_v53_1 : Ref sig .tc := ⟨.hbm, 82, rfl⟩
abbrev main_v54 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc1_sem8_0 : DmaSem sig := 24
abbrev cc1_sem8_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2x512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S512x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bitsLt_bf16_f32 : FTy.bits .bf16 < FTy.bits .f32
  bcast_S_S384x512 : S_.BroadcastsInDim S384x512 (![] : Fin 0 → Fin S384x512.rank)
  slices_S2x128x256_S1x128x256_0_0_0 : S2x128x256.Slices ![0, 0, 0] S1x128x256
  shapeCasts_S1x128x256_S128x256 : S1x128x256.ShapeCasts S128x256
  bcast_S_S1 : S_.BroadcastsInDim S1 (![] : Fin 0 → Fin S1.rank)
  concatenates_S1_S1_S2_d0 : Shape.Concatenates [S1, S1] S2 0
  slices_S2x128x256_S1x128x256_1_0_0 : S2x128x256.Slices ![1, 0, 0] S1x128x256
  concatenates_S128x256_S128x256_S128x512_d1 : Shape.Concatenates [S128x256, S128x256] S128x512 1
  shapeCasts_S2x1x256_S1x512 : S2x1x256.ShapeCasts S1x512
  slices_S2x512x256_S1x512x256_0_0_0 : S2x512x256.Slices ![0, 0, 0] S1x512x256
  shapeCasts_S1x512x256_S512x256 : S1x512x256.ShapeCasts S512x256
  slices_S2x512x256_S1x512x256_1_0_0 : S2x512x256.Slices ![1, 0, 0] S1x512x256
  concatenates_S512x256_S512x256_S512x512_d1 : Shape.Concatenates [S512x256, S512x256] S512x512 1
  concatenates_S512x512_S512x512_S512x1024_d1 : Shape.Concatenates [S512x512, S512x512] S512x1024 1
  bcast_S_S512x128 : S_.BroadcastsInDim S512x128 (![] : Fin 0 → Fin S512x128.rank)
  bcast_S_S1x128 : S_.BroadcastsInDim S1x128 (![] : Fin 0 → Fin S1x128.rank)
  bcast_S_S128x128 : S_.BroadcastsInDim S128x128 (![] : Fin 0 → Fin S128x128.rank)
  inb_S2x512x4096_S2x512x4096_0_0_0 : ∀ a, (![0, 0, 0] : Fin 3 → Nat) a + S2x512x4096.size a ≤ S2x512x4096.size a
  h_S2x512x4096 : 0 < S2x512x4096.numel
  shapeCasts_S2x512x4096_S1024x4096 : S2x512x4096.ShapeCasts S1024x4096
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  slices_S1024x128_o0_0_S512x128 : S1024x128.Slices ![0, 0] S512x128
  slices_S1024x128_o512_0_S512x128 : S1024x128.Slices ![512, 0] S512x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  concatenates_S512x128_S512x128_S512x128_S512x384_d1 : Shape.Concatenates [S512x128, S512x128, S512x128] S512x384 1
  inb_S384x512_S384x512_0_0 : ∀ a, (![0, 0] : Fin 2 → Nat) a + S384x512.size a ≤ S384x512.size a
  h_S384x512 : 0 < S384x512.numel
  shapeCasts_S384x512_S384x512 : S384x512.ShapeCasts S384x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  slices_S512x1024_o0_0_S512x512 : S512x1024.Slices ![0, 0] S512x512
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  slices_S512x1024_o0_512_S512x512 : S512x1024.Slices ![0, 512] S512x512
  inb_S2x512x4096_S1x512x4096_0_0_0 : ∀ a, (![0, 0, 0] : Fin 3 → Nat) a + S1x512x4096.size a ≤ S2x512x4096.size a
  h_S1x512x4096 : 0 < S1x512x4096.numel
  shapeCasts_S1x512x4096_S512x4096 : S1x512x4096.ShapeCasts S512x4096
  inb_S4096x512_S4096x256_0_0 : ∀ a, (![0, 0] : Fin 2 → Nat) a + S4096x256.size a ≤ S4096x512.size a
  h_S4096x256 : 0 < S4096x256.numel
  shapeCasts_S4096x256_S4096x256 : S4096x256.ShapeCasts S4096x256
  inb_S2x512x4096_S1x512x4096_1_0_0 : ∀ a, (![1, 0, 0] : Fin 3 → Nat) a + S1x512x4096.size a ≤ S2x512x4096.size a
  inb_S4096x512_S4096x256_0_256 : ∀ a, (![0, 256] : Fin 2 → Nat) a + S4096x256.size a ≤ S4096x512.size a
  shapeCasts_S512x512_S512x512 : S512x512.ShapeCasts S512x512
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S4096x128_S4096x32_0_0 : S4096x128.Slices ![0, 0] S4096x32
  scatter_S384x512_S2_S128x256_01_n_01_0_wf : ScatterDims.WF S384x512 S2 S128x256 [0, 1] [] [0, 1] 0
  scatter_S384x512_S1_S128x512_01_n_0_0_wf : ScatterDims.WF S384x512 S1 S128x512 [0, 1] [] [0] 0
  scatter_S512x128_S1_S512x20_01_n_1_0_wf : ScatterDims.WF S512x128 S1 S512x20 [0, 1] [] [1] 0
  scatter_S1x128_S1_S1x20_01_n_1_0_wf : ScatterDims.WF S1x128 S1 S1x20 [0, 1] [] [1] 0
  scatter_S128x128_S2_S20x32_01_n_01_0_wf : ScatterDims.WF S128x128 S2 S20x32 [0, 1] [] [0, 1] 0
  scatter_S1x128_S1_S1x32_01_n_1_0_wf : ScatterDims.WF S1x128 S1 S1x32 [0, 1] [] [1] 0
  dot_S1024x4096_S4096x128_S1024x128_1_0_0_1_n_n_wf : DotDims.WF S1024x4096 S4096x128 S1024x128 [1] [0] [0] [1] [] []
  dot_S512x384_S384x512_S512x512_1_0_0_1_n_n_wf : DotDims.WF S512x384 S384x512 S512x512 [1] [0] [0] [1] [] []
  dot_S512x512_S512x1024_S512x1024_1_0_0_1_n_n_wf : DotDims.WF S512x512 S512x1024 S512x1024 [1] [0] [0] [1] [] []
  dot_S512x4096_S4096x256_S512x256_1_0_0_1_n_n_wf : DotDims.WF S512x4096 S4096x256 S512x256 [1] [0] [0] [1] [] []
  dot_S512x512_S512x128_S512x128_1_0_0_1_n_n_wf : DotDims.WF S512x512 S512x128 S512x128 [1] [0] [0] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x4096.size a ≤ S2x4096x4096.size a
  hwx0_0 : ∀ i : grid0.Coords, EltTy.bits .bf16 = 32 ∨ (Rect.block (s := S2x4096x4096) S2x512x4096.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .bf16 = 32 ∨ (Rect.block (s := S4096x128) S4096x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S4096x128.size a
  hwx0_2 : ∀ i : grid0.Coords, EltTy.bits .bf16 = 32 ∨ (Rect.block (s := S4096x128) S512x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x512.size a ≤ S384x512.size a
  hwx0_3 : ∀ i : grid0.Coords, EltTy.bits .bf16 = 32 ∨ (Rect.block (s := S384x512) S384x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S512x1024.size a
  hwx0_5 : ∀ i : grid0.Coords, EltTy.bits .bf16 = 32 ∨ (Rect.block (s := S512x1024) S512x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S4096x512.size a
  hwx0_7 : ∀ i : grid0.Coords, EltTy.bits .bf16 = 32 ∨ (Rect.block (s := S4096x512) S512x512.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S4096x512.size a
  hwx0_8 : ∀ i : grid0.Coords, EltTy.bits .f32 = 32 ∨ (Rect.block (s := S4096x512) S512x512.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x512x4096.size a ≤ S2x4096x4096.size a
  hwx1_0 : ∀ i : grid1.Coords, EltTy.bits .bf16 = 32 ∨ (Rect.block (s := S2x4096x4096) S2x512x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x512.size a ≤ S4096x512.size a
  hwx1_1 : ∀ i : grid1.Coords, EltTy.bits .bf16 = 32 ∨ (Rect.block (s := S4096x512) S4096x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S4096x512.size a
  hwx1_2 : ∀ i : grid1.Coords, EltTy.bits .f32 = 32 ∨ (Rect.block (s := S4096x512) S512x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S512x128.size a
  hwx1_3 : ∀ i : grid1.Coords, EltTy.bits .bf16 = 32 ∨ (Rect.block (s := S512x128) S512x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x512.size a ≤ S4096x512.size a
  hwx1_7 : ∀ i : grid1.Coords, EltTy.bits .f32 = 32 ∨ (Rect.block (s := S4096x512) S512x512.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S512x128.size a ≤ S4096x128.size a
  hwx1_8 : ∀ i : grid1.Coords, EltTy.bits .f32 = 32 ∨ (Rect.block (s := S4096x128) S512x128.size (cc1_transform_8 i) (hinb1_8 i)).WholeWords (EltTy.packing .f32)

variable [Facts₀]

def scatter_S384x512_S2_S128x256_01_n_01_0 : ScatterDims S384x512 S2 S128x256 where
  updateWindowDims := [0, 1]
  insertedWindowDims := []
  scatterDimsToOperandDims := [0, 1]
  indexVectorDim := 0
  wf := scatter_S384x512_S2_S128x256_01_n_01_0_wf
def scatter_S384x512_S1_S128x512_01_n_0_0 : ScatterDims S384x512 S1 S128x512 where
  updateWindowDims := [0, 1]
  insertedWindowDims := []
  scatterDimsToOperandDims := [0]
  indexVectorDim := 0
  wf := scatter_S384x512_S1_S128x512_01_n_0_0_wf
def scatter_S512x128_S1_S512x20_01_n_1_0 : ScatterDims S512x128 S1 S512x20 where
  updateWindowDims := [0, 1]
  insertedWindowDims := []
  scatterDimsToOperandDims := [1]
  indexVectorDim := 0
  wf := scatter_S512x128_S1_S512x20_01_n_1_0_wf
def scatter_S1x128_S1_S1x20_01_n_1_0 : ScatterDims S1x128 S1 S1x20 where
  updateWindowDims := [0, 1]
  insertedWindowDims := []
  scatterDimsToOperandDims := [1]
  indexVectorDim := 0
  wf := scatter_S1x128_S1_S1x20_01_n_1_0_wf
def scatter_S128x128_S2_S20x32_01_n_01_0 : ScatterDims S128x128 S2 S20x32 where
  updateWindowDims := [0, 1]
  insertedWindowDims := []
  scatterDimsToOperandDims := [0, 1]
  indexVectorDim := 0
  wf := scatter_S128x128_S2_S20x32_01_n_01_0_wf
def scatter_S1x128_S1_S1x32_01_n_1_0 : ScatterDims S1x128 S1 S1x32 where
  updateWindowDims := [0, 1]
  insertedWindowDims := []
  scatterDimsToOperandDims := [1]
  indexVectorDim := 0
  wf := scatter_S1x128_S1_S1x32_01_n_1_0_wf
def dot_S1024x4096_S4096x128_S1024x128_1_0_0_1_n_n : DotDims S1024x4096 S4096x128 S1024x128 where
  lhsContracting := [1]
  rhsContracting := [0]
  lhsNonContracting := [0]
  rhsNonContracting := [1]
  lhsBatch := []
  rhsBatch := []
  wf := dot_S1024x4096_S4096x128_S1024x128_1_0_0_1_n_n_wf
def dot_S512x384_S384x512_S512x512_1_0_0_1_n_n : DotDims S512x384 S384x512 S512x512 where
  lhsContracting := [1]
  rhsContracting := [0]
  lhsNonContracting := [0]
  rhsNonContracting := [1]
  lhsBatch := []
  rhsBatch := []
  wf := dot_S512x384_S384x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg11) S2x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S384x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S512x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v35) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v52_0) S512x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v52_1) S512x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg11) S2x512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52_0) S4096x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52_1) S512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v39) S512x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v51) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v53_0) S512x512.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v53_1) S512x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S4096x128 : Shape := ⟨2, ![4096, 128]⟩
abbrev S2x128x256 : Shape := ⟨3, ![2, 128, 256]⟩
abbrev S2x1x256 : Shape := ⟨3, ![2, 1, 256]⟩
abbrev S2x512x256 : Shape := ⟨3, ![2, 512, 256]⟩
abbrev S512x20 : Shape := ⟨2, ![512, 20]⟩
abbrev S1x20 : Shape := ⟨2, ![1, 20]⟩
abbrev S20x32 : Shape := ⟨2, ![20, 32]⟩
abbrev S1x32 : Shape := ⟨2, ![1, 32]⟩
abbrev S2x4096x4096 : Shape := ⟨3, ![2, 4096, 4096]⟩
abbrev S0 : Shape := ⟨1, ![0]⟩
abbrev S_ : Shape := ⟨0, ![]⟩
abbrev S4096x512 : Shape := ⟨2, ![4096, 512]⟩
abbrev S2x512x2048 : Shape := ⟨3, ![2, 512, 2048]⟩
abbrev S2048x128 : Shape := ⟨2, ![2048, 128]⟩
abbrev S512x128 : Shape := ⟨2, ![512, 128]⟩
abbrev S512x512 : Shape := ⟨2, ![512, 512]⟩
abbrev S1024x128 : Shape := ⟨2, ![1024, 128]⟩
abbrev S1024x2048 : Shape := ⟨2, ![1024, 2048]⟩
abbrev S1x128x256 : Shape := ⟨3, ![1, 128, 256]⟩
abbrev S128x256 : Shape := ⟨2, ![128, 256]⟩
abbrev S512x256 : Shape := ⟨2, ![512, 256]⟩
abbrev S1x1x256 : Shape := ⟨3, ![1, 1, 256]⟩
abbrev S1x256 : Shape := ⟨2, ![1, 256]⟩
abbrev S1 : Shape := ⟨1, ![1]⟩
abbrev S1x128 : Shape := ⟨2, ![1, 128]⟩
abbrev S128x128 : Shape := ⟨2, ![128, 128]⟩
abbrev S2 : Shape := ⟨1, ![2]⟩
abbrev S2048x512 : Shape := ⟨2, ![2048, 512]⟩
abbrev S1024x512 : Shape := ⟨2, ![1024, 512]⟩
abbrev S1x512x256 : Shape := ⟨3, ![1, 512, 256]⟩
abbrev S4096x32 : Shape := ⟨2, ![4096, 32]⟩

abbrev nBuf : Space → Nat
  | .hbm => 50
  | .vmem => 30
  | .smem => 0
  | _ => 0

abbrev bufTy : (tb : Table) → Fin (tcTables nBuf tb) → BufTy
  | .hbm, ⟨0, _⟩ => ⟨S4096x128, .f32⟩
  | .hbm, ⟨1, _⟩ => ⟨S2x128x256, .f32⟩
  | .hbm, ⟨2, _⟩ => ⟨S2x128x256, .f32⟩
  | .hbm, ⟨3, _⟩ => ⟨S2x1x256, .f32⟩
  | .hbm, ⟨4, _⟩ => ⟨S2x512x256, .f32⟩
  | .hbm, ⟨5, _⟩ => ⟨S2x512x256, .f32⟩
  | .hbm, ⟨6, _⟩ => ⟨S2x1x256, .f32⟩
  | .hbm, ⟨7, _⟩ => ⟨S512x20, .f32⟩
  | .hbm, ⟨8, _⟩ => ⟨S1x20, .f32⟩
  | .hbm, ⟨9, _⟩ => ⟨S20x32, .f32⟩
  | .hbm, ⟨10, _⟩ => ⟨S1x32, .f32⟩
  | .hbm, ⟨11, _⟩ => ⟨S2x4096x4096, .bf16⟩
  | .hbm, ⟨12, _⟩ => ⟨S0, .i32⟩
  | .hbm, ⟨13, _⟩ => ⟨S_, .bf16⟩
  | .hbm, ⟨14, _⟩ => ⟨S4096x128, .bf16⟩
  | .hbm, ⟨15, _⟩ => ⟨S4096x128, .bf16⟩
  | .hbm, ⟨16, _⟩ => ⟨S4096x128, .bf16⟩
  | .hbm, ⟨17, _⟩ => ⟨S2x128x256, .bf16⟩
  | .hbm, ⟨18, _⟩ => ⟨S2x128x256, .bf16⟩
  | .hbm, ⟨19, _⟩ => ⟨S4096x512, .bf16⟩
  | .hbm, ⟨20, _⟩ => ⟨S2x512x256, .bf16⟩
  | .hbm, ⟨21, _⟩ => ⟨S2x512x256, .bf16⟩
  | .hbm, ⟨22, _⟩ => ⟨S_, .bf16⟩
  | .hbm, ⟨23, _⟩ => ⟨S512x128, .bf16⟩
  | .hbm, ⟨24, _⟩ => ⟨S512x20, .bf16⟩
  | .hbm, ⟨25, _⟩ => ⟨S_, .i32⟩
  | .hbm, ⟨26, _⟩ => ⟨S1, .i32⟩
  | .hbm, ⟨27, _⟩ => ⟨S512x128, .bf16⟩
  | .hbm, ⟨28, _⟩ => ⟨S_, .f32⟩
  | .hbm, ⟨29, _⟩ => ⟨S1x128, .f32⟩
  | .hbm, ⟨30, _⟩ => ⟨S_, .i32⟩
  | .hbm, ⟨31, _⟩ => ⟨S1, .i32⟩
  | .hbm, ⟨32, _⟩ => ⟨S1x128, .f32⟩
  | .hbm, ⟨33, _⟩ => ⟨S_, .bf16⟩
  | .hbm, ⟨34, _⟩ => ⟨S128x128, .bf16⟩
  | .hbm, ⟨35, _⟩ => ⟨S20x32, .bf16⟩
  | .hbm, ⟨36, _⟩ => ⟨S_, .i32⟩
  | .hbm, ⟨37, _⟩ => ⟨S1, .i32⟩
  | .hbm, ⟨38, _⟩ => ⟨S_, .i32⟩
  | .hbm, ⟨39, _⟩ => ⟨S1, .i32⟩
  | .hbm, ⟨40, _⟩ => ⟨S2, .i32⟩
  | .hbm, ⟨41, _⟩ => ⟨S128x128, .bf16⟩
  | .hbm, ⟨42, _⟩ => ⟨S_, .f32⟩
  | .hbm, ⟨43, _⟩ => ⟨S1x128, .f32⟩
  | .hbm, ⟨44, _⟩ => ⟨S_, .i32⟩
  | .hbm, ⟨45, _⟩ => ⟨S1, .i32⟩
  | .hbm, ⟨46, _⟩ => ⟨S1x128, .f32⟩
  | .hbm, ⟨47, _⟩ => ⟨S4096x512, .f32⟩
  | .hbm, ⟨48, _⟩ => ⟨S4096x128, .f32⟩
  | .hbm, ⟨49, _⟩ => ⟨S4096x32, .f32⟩
  | .local _ .vmem, ⟨0, _⟩ => ⟨S2x512x2048, .bf16⟩
  | .local _ .vmem, ⟨1, _⟩ => ⟨S2x512x2048, .bf16⟩
  | .local _ .vmem, ⟨2, _⟩ => ⟨S2048x128, .bf16⟩
  | .local _ .vmem, ⟨3, _⟩ => ⟨S2048x128, .bf16⟩
  | .local _ .vmem, ⟨4, _⟩ => ⟨S512x128, .bf16⟩
  | .local _ .vmem, ⟨5, _⟩ => ⟨S512x128, .bf16⟩
  | .local _ .vmem, ⟨6, _⟩ => ⟨S2x128x256, .bf16⟩
  | .local _ .vmem, ⟨7, _⟩ => ⟨S2x128x256, .bf16⟩
  | .local _ .vmem, ⟨8, _⟩ => ⟨S2x1x256, .f32⟩
  | .local _ .vmem, ⟨9, _⟩ => ⟨S512x512, .bf16⟩
  | .local _ .vmem, ⟨10, _⟩ => ⟨S512x512, .bf16⟩
  | .local _ .vmem, ⟨11, _⟩ => ⟨S1024x128, .f32⟩
  | .local _ .vmem, ⟨12, _⟩ => ⟨S2x512x2048, .bf16⟩
  | .local _ .vmem, ⟨13, _⟩ => ⟨S2x512x2048, .bf16⟩
  | .local _ .vmem, ⟨14, _⟩ => ⟨S2048x512, .bf16⟩
  | .local _ .vmem, ⟨15, _⟩ => ⟨S2048x512, .bf16⟩
  | .local _ .vmem, ⟨16, _⟩ => ⟨S512x512, .bf16⟩
  | .local _ .vmem, ⟨17, _⟩ => ⟨S512x512, .bf16⟩
  | .local _ .vmem, ⟨18, _⟩ => ⟨S2x512x256, .bf16⟩
  | .local _ .vmem, ⟨19, _⟩ => ⟨S2x512x256, .bf16⟩
  | .local _ .vmem, ⟨20, _⟩ => ⟨S2x1x256, .f32⟩
  | .local _ .vmem, ⟨21, _⟩ => ⟨S512x128, .bf16⟩
  | .local _ .vmem, ⟨22, _⟩ => ⟨S1x128, .f32⟩
  | .local _ .vmem, ⟨23, _⟩ => ⟨S128x128, .bf16⟩
  | .local _ .vmem, ⟨24, _⟩ => ⟨S1x128, .f32⟩
  | .local _ .vmem, ⟨25, _⟩ => ⟨S512x512, .f32⟩
  | .local _ .vmem, ⟨26, _⟩ => ⟨S512x512, .f32⟩
  | .local _ .vmem, ⟨27, _⟩ => ⟨S512x128, .f32⟩
  | .local _ .vmem, ⟨28, _⟩ => ⟨S512x128, .f32⟩
  | .local _ .vmem, ⟨29, _⟩ => ⟨S1024x512, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_c_3 : Ref sig .tc := ⟨.hbm, 30, rfl⟩
abbrev main_v13 : Ref sig .tc := ⟨.hbm, 31, rfl⟩
abbrev main_v14 : Ref sig .tc := ⟨.hbm, 32, rfl⟩
abbrev main_cst_4 : Ref sig .tc := ⟨.hbm, 33, rfl⟩
abbrev main_v15 : Ref sig .tc := ⟨.hbm, 34, rfl⟩
abbrev main_v16 : Ref sig .tc := ⟨.hbm, 35, rfl⟩
abbrev main_c_5 : Ref sig .tc := ⟨.hbm, 36, rfl⟩
abbrev main_v17 : Ref sig .tc := ⟨.hbm, 37, rfl⟩
abbrev main_c_6 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_7 : Ref sig .tc := ⟨.hbm, 42, rfl⟩
abbrev main_v21 : Ref sig .tc := ⟨.hbm, 43, rfl⟩
abbrev main_c_8 : Ref sig .tc := ⟨.hbm, 44, rfl⟩
abbrev main_v22 : Ref sig .tc := ⟨.hbm, 45, rfl⟩
abbrev main_v23 : Ref sig .tc := ⟨.hbm, 46, rfl⟩
abbrev main_v24_0 : Ref sig .tc := ⟨.hbm, 47, rfl⟩
abbrev main_v24_1 : Ref sig .tc := ⟨.hbm, 48, rfl⟩
abbrev main_v25 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg10_1 : Ref sig .tc := ⟨.vmem, 26, rfl⟩
abbrev cc1_stg11_0 : Ref sig .tc := ⟨.vmem, 27, rfl⟩
abbrev cc1_stg11_1 : Ref sig .tc := ⟨.vmem, 28, rfl⟩
abbrev cc1_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem10_1 : DmaSem sig := 25
abbrev cc1_sem11_0 : DmaSem sig := 26
abbrev cc1_sem11_1 : DmaSem sig := 27

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![8, 2], ![false, false]⟩

def k1_cond2 (i : grid1.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_9 : BitVec 32 := 0#32
  let v15 : BitVec 1 := Scalar.cmpi .ne v14 c0_i32_9
  v15

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2x512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S2x512x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S2x512x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S2x1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S512x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S128x128 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 2 → Memref sig .tc .vmem S512x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 2 → Memref sig .tc .vmem S512x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

class Facts₀ : Prop where
  hz_S0 : S0.numel = 0
  bcast_S_S4096x128 : S_.BroadcastsInDim S4096x128 (![] : Fin 0 → Fin S4096x128.rank)
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2x512x2048_S2x512x2048_0_0_0 : ∀ a, (![0, 0, 0] : Fin 3 → Nat) a + S2x512x2048.size a ≤ S2x512x2048.size a
  h_S2x512x2048 : 0 < S2x512x2048.numel
  shapeCasts_S2x512x2048_S1024x2048 : S2x512x2048.ShapeCasts S1024x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1024x128_S512x128_0_0 : ∀ a, (![0, 0] : Fin 2 → Nat) a + S512x128.size a ≤ S1024x128.size a
  inb_S2x128x256_S1x128x256_0_0_0 : ∀ a, (![0, 0, 0] : Fin 3 → Nat) a + S1x128x256.size a ≤ S2x128x256.size a
  h_S1x128x256 : 0 < S1x128x256.numel
  shapeCasts_S1x128x256_S128x256 : S1x128x256.ShapeCasts S128x256
  inb_S2x1x256_S1x1x256_0_0_0 : ∀ a, (![0, 0, 0] : Fin 3 → Nat) a + S1x1x256.size a ≤ S2x1x256.size a
  h_S1x1x256 : 0 < S1x1x256.numel
  shapeCasts_S1x1x256_S1x256 : S1x1x256.ShapeCasts S1x256
  broadcasts_S1x256_S512x256 : S1x256.Broadcasts S512x256
  inb_S1024x128_S512x128_512_0 : ∀ a, (![512, 0] : Fin 2 → Nat) a + S512x128.size a ≤ S1024x128.size a
  inb_S2x128x256_S1x128x256_1_0_0 : ∀ a, (![1, 0, 0] : Fin 3 → Nat) a + S1x128x256.size a ≤ S2x128x256.size a
  inb_S2x1x256_S1x1x256_1_0_0 : ∀ a, (![1, 0, 0] : Fin 3 → Nat) a + S1x1x256.size a ≤ S2x1x256.size a
  concatenates_S512x256_S512x256_S512x512_d1 : Shape.Concatenates [S512x256, S512x256] S512x512 1
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  bcast_S_S512x128 : S_.BroadcastsInDim S512x128 (![] : Fin 0 → Fin S512x128.rank)
  bcast_S_S1 : S_.BroadcastsInDim S1 (![] : Fin 0 → Fin S1.rank)
  bcast_S_S1x128 : S_.BroadcastsInDim S1x128 (![] : Fin 0 → Fin S1x128.rank)
  bcast_S_S128x128 : S_.BroadcastsInDim S128x128 (![] : Fin 0 → Fin S128x128.rank)
  concatenates_S1_S1_S2_d0 : Shape.Concatenates [S1, S1] S2 0
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S512x512_S512x512 : S512x512.ShapeCasts S512x512
  inb_S1024x512_S512x512_0_0 : ∀ a, (![0, 0] : Fin 2 → Nat) a + S512x512.size a ≤ S1024x512.size a
  inb_S2x512x256_S1x512x256_0_0_0 : ∀ a, (![0, 0, 0] : Fin 3 → Nat) a + S1x512x256.size a ≤ S2x512x256.size a
  h_S1x512x256 : 0 < S1x512x256.numel
  shapeCasts_S1x512x256_S512x256 : S1x512x256.ShapeCasts S512x256
  inb_S1024x512_S512x512_512_0 : ∀ a, (![512, 0] : Fin 2 → Nat) a + S512x512.size a ≤ S1024x512.size a
  inb_S2x512x256_S1x512x256_1_0_0 : ∀ a, (![1, 0, 0] : Fin 3 → Nat) a + S1x512x256.size a ≤ S2x512x256.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S4096x128_S4096x32_0_0 : S4096x128.Slices ![0, 0] S4096x32
  scatter_S4096x128_S0_S4096x128_01_n_n_0_wf : ScatterDims.WF S4096x128 S0 S4096x128 [0, 1] [] [] 0
  dot_S1024x2048_S2048x128_S1024x128_1_0_0_1_n_n_wf : DotDims.WF S1024x2048 S2048x128 S1024x128 [1] [0] [0] [1] [] []
  dot_S512x128_S128x256_S512x256_1_0_0_1_n_n_wf : DotDims.WF S512x128 S128x256 S512x256 [1] [0] [0] [1] [] []
  scatter_S512x128_S1_S512x20_01_n_1_0_wf : ScatterDims.WF S512x128 S1 S512x20 [0, 1] [] [1] 0
  scatter_S1x128_S1_S1x20_01_n_1_0_wf : ScatterDims.WF S1x128 S1 S1x20 [0, 1] [] [1] 0
  scatter_S128x128_S2_S20x32_01_n_01_0_wf : ScatterDims.WF S128x128 S2 S20x32 [0, 1] [] [0, 1] 0
  scatter_S1x128_S1_S1x32_01_n_1_0_wf : ScatterDims.WF S1x128 S1 S1x32 [0, 1] [] [1] 0
  dot_S1024x2048_S2048x512_S1024x512_1_0_0_1_n_n_wf : DotDims.WF S1024x2048 S2048x512 S1024x512 [1] [0] [0] [1] [] []
  dot_S512x512_S512x256_S512x256_1_0_0_1_n_n_wf : DotDims.WF S512x512 S512x256 S512x256 [1] [0] [0] [1] [] []
  dot_S512x512_S512x128_S512x128_1_0_0_1_n_n_wf : DotDims.WF S512x512 S512x128 S512x128 [1] [0] [0] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x2048.size a ≤ S2x4096x4096.size a
  hwx0_0 : ∀ i : grid0.Coords, EltTy.bits .bf16 = 32 ∨ (Rect.block (s := S2x4096x4096) S2x512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S4096x128.size a
  hwx0_1 : ∀ i : grid0.Coords, EltTy.bits .bf16 = 32 ∨ (Rect.block (s := S4096x128) S2048x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S4096x128.size a
  hwx0_2 : ∀ i : grid0.Coords, EltTy.bits .bf16 = 32 ∨ (Rect.block (s := S4096x128) S512x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x128x256.size a ≤ S2x128x256.size a
  hwx0_3 : ∀ i : grid0.Coords, EltTy.bits .bf16 = 32 ∨ (Rect.block (s := S2x128x256) S2x128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x128x256.size a ≤ S2x128x256.size a
  hwx0_4 : ∀ i : grid0.Coords, EltTy.bits .bf16 = 32 ∨ (Rect.block (s := S2x128x256) S2x128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x1x256.size a ≤ S2x1x256.size a
  hwx0_5 : ∀ i : grid0.Coords, EltTy.bits .f32 = 32 ∨ (Rect.block (s := S2x1x256) S2x1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S4096x512.size a
  hwx0_6 : ∀ i : grid0.Coords, EltTy.bits .bf16 = 32 ∨ (Rect.block (s := S4096x512) S512x512.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x512x2048.size a ≤ S2x4096x4096.size a
  hwx1_0 : ∀ i : grid1.Coords, EltTy.bits .bf16 = 32 ∨ (Rect.block (s := S2x4096x4096) S2x512x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S4096x512.size a
  hwx1_1 : ∀ i : grid1.Coords, EltTy.bits .bf16 = 32 ∨ (Rect.block (s := S4096x512) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S4096x512.size a
  hwx1_2 : ∀ i : grid1.Coords, EltTy.bits .bf16 = 32 ∨ (Rect.block (s := S4096x512) S512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2x512x256.size a ≤ S2x512x256.size a
  hwx1_3 : ∀ i : grid1.Coords, EltTy.bits .bf16 = 32 ∨ (Rect.block (s := S2x512x256) S2x512x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2x512x256.size a ≤ S2x512x256.size a
  hwx1_4 : ∀ i : grid1.Coords, EltTy.bits .bf16 = 32 ∨ (Rect.block (s := S2x512x256) S2x512x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2x1x256.size a ≤ S2x1x256.size a
  hwx1_5 : ∀ i : grid1.Coords, EltTy.bits .f32 = 32 ∨ (Rect.block (s := S2x1x256) S2x1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512x128.size a ≤ S512x128.size a
  hwx1_6 : ∀ i : grid1.Coords, EltTy.bits .bf16 = 32 ∨ (Rect.block (s := S512x128) S512x128.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .bf16 = 32 ∨ (Rect.block (s := S128x128) S128x128.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S512x512.size a ≤ S4096x512.size a
  hwx1_10 : ∀ i : grid1.Coords, EltTy.bits .f32 = 32 ∨ (Rect.block (s := S4096x512) S512x512.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S512x128.size a ≤ S4096x128.size a
  hwx1_11 : ∀ i : grid1.Coords, EltTy.bits .f32 = 32 ∨ (Rect.block (s := S4096x128) S512x128.size (cc1_transform_11 i) (hinb1_11 i)).WholeWords (EltTy.packing .f32)

variable [Facts₀]

def scatter_S4096x128_S0_S4096x128_01_n_n_0 : ScatterDims S4096x128 S0 S4096x128 where
  updateWindowDims := [0, 1]
  insertedWindowDims := []
  scatterDimsToOperandDims := []
  indexVectorDim := 0
  wf := scatter_S4096x128_S0_S4096x128_01_n_n_0_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def scatter_S512x128_S1_S512x20_01_n_1_0 : ScatterDims S512x128 S1 S512x20 where
  updateWindowDims := [0, 1]
  insertedWindowDims := []
  scatterDimsToOperandDims := [1]
  indexVectorDim := 0
  wf := scatter_S512x128_S1_S512x20_01_n_1_0_wf
def scatter_S1x128_S1_S1x20_01_n_1_0 : ScatterDims S1x128 S1 S1x20 where
  updateWindowDims := [0, 1]
  insertedWindowDims := []
  scatterDimsToOperandDims := [1]
  indexVectorDim := 0
  wf := scatter_S1x128_S1_S1x20_01_n_1_0_wf
def scatter_S128x128_S2_S20x32_01_n_01_0 : ScatterDims S128x128 S2 S20x32 where
  updateWindowDims := [0, 1]
  insertedWindowDims := []
  scatterDimsToOperandDims := [0, 1]
  indexVectorDim := 0
  wf := scatter_S128x128_S2_S20x32_01_n_01_0_wf
def scatter_S1x128_S1_S1x32_01_n_1_0 : ScatterDims S1x128 S1 S1x32 where
  updateWindowDims := [0, 1]
  insertedWindowDims := []
  scatterDimsToOperandDims := [1]
  indexVectorDim := 0
  wf := scatter_S1x128_S1_S1x32_01_n_1_0_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg11) S2x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2x128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S2x128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S2x1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_arg11) S2x512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S2x512x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S2x512x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S2x1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11) S512x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v14) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v20) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v23) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v24_0) S512x512.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v24_1) S512x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev idle1 : Fin 12 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k1_cond2 i == 1#1) | 11 => fun i => !(k1_cond2 i == 1#1) | ⟨_ + 12, h⟩ => absurd h (Nat.not_lt.2 (Nat.le_add_left _ _))

class Facts : Prop extends Facts₀ where

variable [Facts]
-- ==== Proof.KBody0.lean ====
/-
  The first pipeline's body half of the frame, at any float instance: what each window's staging buffer holds when the
  body runs at a grid point (its block of the array as the region finds it), what the body's two stores leave in the two output
  buffers as functions of the seven input blocks, and the body's separation-logic triple at every point.
-/
import proofs.«130397_g2000105430876207_pallasbulk_1247_2_alg».proof.Proof.Gen.KernelIdeal.Launch
import proofs.«130397_g2000105430876207_pallasbulk_1247_2_alg».proof.Proof.Gen.KernelIdeal.Skeleton
import proofs.«130397_g2000105430876207_pallasbulk_1247_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, instantiated by the run
variable (V : (c : Dev nD) → (b : Ref sig .tc) → Buf (Elt F) ((c : Thread nD τ).loc b))

/-! # The first pipeline, at the entry contents `V` -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether or not it was fetched there
    (an unfetched window's block index has not moved), for any proof data over the entry contents whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes through -/

abbrev r0_0 : Rect S2x512x4096 := Rect.unit (s := S2x512x4096) ![0, 0, 0] S2x512x4096.size inb_S2x512x4096_S2x512x4096_0_0_0
abbrev r0_1 : Rect S4096x128 := Rect.unit (s := S4096x128) ![0, 0] S4096x128.size inb_S4096x128_S4096x128_0_0
abbrev r0_2 : Rect S512x128 := Rect.unit (s := S512x128) ![0, 0] S512x128.size inb_S512x128_S512x128_0_0
abbrev r0_3 : Rect S384x512 := Rect.unit (s := S384x512) ![0, 0] S384x512.size inb_S384x512_S384x512_0_0
abbrev r0_4 : Rect S1x512 := Rect.unit (s := S1x512) ![0, 0] S1x512.size inb_S1x512_S1x512_0_0
abbrev r0_5 : Rect S512x1024 := Rect.unit (s := S512x1024) ![0, 0] S512x1024.size inb_S512x1024_S512x1024_0_0
abbrev r0_6 : Rect S512x512 := Rect.unit (s := S512x512) ![0, 0] S512x512.size inb_S512x512_S512x512_0_0

/-! ## What the body leaves in each output window's buffer -/

/-- Window 7's staging buffer after the body, as a function of the input windows' blocks: its one store, covering the buffer. -/
def out0_7 (x0 : Vec F S2x512x4096 .bf16) (x1 : Vec F S4096x128 .bf16) (x2 : Vec F S512x128 .bf16) (x3 : Vec F S384x512 .bf16) (x4 : Vec F S1x512 .f32) (x5 : Vec F S512x1024 .bf16) (x6 : Vec F S1x512 .f32) : Vec F S512x512 .bf16 :=
  View.canon [⟨r0_6, k0_pay2 (View.ld x0 r0_0) (View.ld x1 r0_1) (View.ld x2 r0_2) (View.ld x3 r0_3) (View.ld x4 r0_4) (View.ld x5 r0_5)⟩]

/-- The store's rectangle is the whole buffer. -/
theorem cover0_7 (p0 : Vec F S512x512 .bf16) (y : S512x512.Idx) :
    ∃ pc ∈ ([⟨r0_6, p0⟩] : List (View.Piece (Elt F) S512x512 .bf16)), y ∈ pc.1.set :=
  View.cover_of_tiled [⟨r0_6, p0⟩] S512x512.size (by rfl) y

/-- Window 8's staging buffer after the body, as a function of the input windows' blocks: its one store, covering the buffer. -/
def out0_8 (x0 : Vec F S2x512x4096 .bf16) (x1 : Vec F S4096x128 .bf16) (x2 : Vec F S512x128 .bf16) (x3 : Vec F S384x512 .bf16) (x4 : Vec F S1x512 .f32) (x5 : Vec F S512x1024 .bf16) (x6 : Vec F S1x512 .f32) : Vec F S512x512 .f32 :=
  View.canon [⟨r0_6, k0_pay3 (View.ld x0 r0_0) (View.ld x1 r0_1) (View.ld x2 r0_2) (View.ld x3 r0_3) (View.ld x4 r0_4) (View.ld x5 r0_5) (View.ld x6 r0_4)⟩]

/-- The store's rectangle is the whole buffer. -/
theorem cover0_8 (p0 : Vec F S512x512 .f32) (y : S512x512.Idx) :
    ∃ pc ∈ ([⟨r0_6, p0⟩] : List (View.Piece (Elt F) S512x512 .f32)), y ∈ pc.1.set :=
  View.cover_of_tiled [⟨r0_6, p0⟩] S512x512.size (by rfl) y

/-! ## The body's triple -/

set_option maxHeartbeats 4000000 in
/-- The kernel body on whole staging memrefs, the inputs' at read contents and the outputs' at anything, runs to the
    continuation holding the inputs' as they were and each output's at its `out0_w` of the inputs'. -/
theorem sound_kernel0 (c : Dev nD) (E : Set ℕ) (i : grid0.Coords) (arg1 : Memref sig .tc .vmem S2x512x4096 .bf16) (harg1 : arg1.IsWhole) (arg2 : Memref sig .tc .vmem S4096x128 .bf16) (harg2 : arg2.IsWhole) (arg3 : Memref sig .tc .vmem S512x128 .bf16) (harg3 : arg3.IsWhole) (arg4 : Memref sig .tc .vmem S384x512 .bf16) (harg4 : arg4.IsWhole) (arg5 : Memref sig .tc .vmem S1x512 .f32) (harg5 : arg5.IsWhole) (arg6 : Memref sig .tc .vmem S512x1024 .bf16) (harg6 : arg6.IsWhole) (arg7 : Memref sig .tc .vmem S1x512 .f32) (harg7 : arg7.IsWhole) (arg8 : Memref sig .tc .vmem S512x512 .bf16) (harg8 : arg8.IsWhole) (arg9 : Memref sig .tc .vmem S512x512 .f32) (harg9 : arg9.IsWhole)
    (x0 : Vec F S2x512x4096 .bf16) (x1 : Vec F S4096x128 .bf16) (x2 : Vec F S512x128 .bf16) (x3 : Vec F S384x512 .bf16) (x4 : Vec F S1x512 .f32) (x5 : Vec F S512x1024 .bf16) (x6 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6) ∗ owns (c : Thread nD τ) arg9 fullShare (out0_8 x0 x1 x2 x3 x4 x5 x6)) -∗ K ⟨⟩))
      ⊢ wp frame (wpE (defs₀ (F := F)) Variants.none c none) E (cc0__l0_kernel i arg1 harg1 arg2 harg2 arg3 harg3 arg4 harg4 arg5 harg5 arg6 harg6 arg7 harg7 arg8 harg8 arg9 harg9) K := by
  simp only [cc0__l0_kernel_eq_skeleton]; unfold cc0__l0_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover0_7 _)
  iexists _; isplitr
  swap; · iexact H8
  ipureintro
  try dsimp only
  exact View.read_writes_eq_canon _ _ _ (cover0_8 _)

/-! ## The pipeline's proof data -/

/-- The proof data of the first pipeline on core `c`: the arrays as the region finds them; after the body at point `t` each
    input's buffer at its block and each output's at `out0_w` of the input blocks; the invariant is the scoped rest and the
    generator register, untouched; nothing owed. Windows 1 and 2 read ONE array (the node features, whole and by row tile):
    each holds half of it, every other window its array whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
  Φ _ := Pipeline.ΦA spec0 c
  q w := match w with
    | ⟨1, _⟩ => fullShare.left
    | ⟨2, _⟩ => fullShare.right
    | _ => fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

set_option maxHeartbeats 1000000 in
/-- The body at any point: the inputs' memrefs hold their blocks, so the body's triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ (grid0.coords t) _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KBody1.lean ====
/-
  The second pipeline's body half of the frame, at any float instance: what each window's staging buffer holds when the
  body runs at a grid point, what the body's two stores leave in the two output buffers as functions of the seven input blocks
  (window 0's block is read as its two slices along the leading axis and window 1's as its two 256-column halves: in the
  shared vocabulary's reading, one pair per edge type), and the body's
  separation-logic triple at every point.
-/
import proofs.«130397_g2000105430876207_pallasbulk_1247_2_alg».proof.Proof.Gen.KernelIdeal.Launch
import proofs.«130397_g2000105430876207_pallasbulk_1247_2_alg».proof.Proof.Gen.KernelIdeal.Skeleton
import proofs.«130397_g2000105430876207_pallasbulk_1247_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, instantiated by the run
variable (V : (c : Dev nD) → (b : Ref sig .tc) → Buf (Elt F) ((c : Thread nD τ).loc b))

/-! # The second pipeline, at the entry contents `V` -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether or not it was fetched there
    (an unfetched window's block index has not moved), for any proof data over the entry contents whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes through -/

abbrev r1_0 : Rect S2x512x4096 := Rect.unit (s := S2x512x4096) ![0, 0, 0] S1x512x4096.size inb_S2x512x4096_S1x512x4096_0_0_0
abbrev r1_1 : Rect S4096x512 := Rect.unit (s := S4096x512) ![0, 0] S4096x256.size inb_S4096x512_S4096x256_0_0
abbrev r1_2 : Rect S2x512x4096 := Rect.unit (s := S2x512x4096) ![1, 0, 0] S1x512x4096.size inb_S2x512x4096_S1x512x4096_1_0_0
abbrev r1_3 : Rect S4096x512 := Rect.unit (s := S4096x512) ![0, 256] S4096x256.size inb_S4096x512_S4096x256_0_256
abbrev r1_4 : Rect S512x512 := Rect.unit (s := S512x512) ![0, 0] S512x512.size inb_S512x512_S512x512_0_0
abbrev r1_5 : Rect S512x128 := Rect.unit (s := S512x128) ![0, 0] S512x128.size inb_S512x128_S512x128_0_0
abbrev r1_6 : Rect S1x128 := Rect.unit (s := S1x128) ![0, 0] S1x128.size inb_S1x128_S1x128_0_0
abbrev r1_7 : Rect S128x128 := Rect.unit (s := S128x128) ![0, 0] S128x128.size inb_S128x128_S128x128_0_0

/-! ## What the body leaves in each output window's buffer -/

/-- Window 7's staging buffer after the body, as a function of the input windows' blocks: its one store, covering the buffer. -/
def out1_7 (x0 : Vec F S2x512x4096 .bf16) (x1 : Vec F S4096x512 .bf16) (x2 : Vec F S512x512 .f32) (x3 : Vec F S512x128 .bf16) (x4 : Vec F S1x128 .f32) (x5 : Vec F S128x128 .bf16) (x6 : Vec F S1x128 .f32) : Vec F S512x512 .f32 :=
  View.canon [⟨r1_4, k1_pay2 (View.ld x0 r1_0) (View.ld x1 r1_1) (View.ld x0 r1_2) (View.ld x1 r1_3) (View.ld x2 r1_4)⟩]

/-- The store's rectangle is the whole buffer. -/
theorem cover1_7 (p0 : Vec F S512x512 .f32) (y : S512x512.Idx) :
    ∃ pc ∈ ([⟨r1_4, p0⟩] : List (View.Piece (Elt F) S512x512 .f32)), y ∈ pc.1.set :=
  View.cover_of_tiled [⟨r1_4, p0⟩] S512x512.size (by rfl) y

/-- Window 8's staging buffer after the body, as a function of the input windows' blocks: its one store, covering the buffer. -/
def out1_8 (x0 : Vec F S2x512x4096 .bf16) (x1 : Vec F S4096x512 .bf16) (x2 : Vec F S512x512 .f32) (x3 : Vec F S512x128 .bf16) (x4 : Vec F S1x128 .f32) (x5 : Vec F S128x128 .bf16) (x6 : Vec F S1x128 .f32) : Vec F S512x128 .f32 :=
  View.canon [⟨r1_5, k1_pay1 (k1_pay3 (View.ld x0 r1_0) (View.ld x1 r1_1) (View.ld x0 r1_2) (View.ld x1 r1_3) (View.ld x2 r1_4) (View.ld x3 r1_5) (View.ld x4 r1_6) (View.ld x5 r1_7)) (View.ld x6 r1_6)⟩]

/-- The store's rectangle is the whole buffer. -/
theorem cover1_8 (p0 : Vec F S512x128 .f32) (y : S512x128.Idx) :
    ∃ pc ∈ ([⟨r1_5, p0⟩] : List (View.Piece (Elt F) S512x128 .f32)), y ∈ pc.1.set :=
  View.cover_of_tiled [⟨r1_5, p0⟩] S512x128.size (by rfl) y

/-! ## The body's triple -/

set_option maxHeartbeats 4000000 in
/-- The kernel body on whole staging memrefs, the inputs' at read contents and the outputs' at anything, runs to the
    continuation holding the inputs' as they were and each output's at its `out1_w` of the inputs'. -/
theorem sound_kernel1 (c : Dev nD) (E : Set ℕ) (i : grid1.Coords) (arg1 : Memref sig .tc .vmem S2x512x4096 .bf16) (harg1 : arg1.IsWhole) (arg2 : Memref sig .tc .vmem S4096x512 .bf16) (harg2 : arg2.IsWhole) (arg3 : Memref sig .tc .vmem S512x512 .f32) (harg3 : arg3.IsWhole) (arg4 : Memref sig .tc .vmem S512x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S512x512 .f32) (harg8 : arg8.IsWhole) (arg9 : Memref sig .tc .vmem S512x128 .f32) (harg9 : arg9.IsWhole)
    (x0 : Vec F S2x512x4096 .bf16) (x1 : Vec F S4096x512 .bf16) (x2 : Vec F S512x512 .f32) (x3 : Vec F S512x128 .bf16) (x4 : Vec F S1x128 .f32) (x5 : Vec F S128x128 .bf16) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6) ∗ owns (c : Thread nD τ) arg9 fullShare (out1_8 x0 x1 x2 x3 x4 x5 x6)) -∗ K ⟨⟩))
      ⊢ wp frame (wpE (defs₀ (F := F)) Variants.none c none) E (cc1__l1_kernel i arg1 harg1 arg2 harg2 arg3 harg3 arg4 harg4 arg5 harg5 arg6 harg6 arg7 harg7 arg8 harg8 arg9 harg9) K := by
  simp only [cc1__l1_kernel_eq_skeleton]; unfold cc1__l1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover1_7 _)
  iexists _; isplitr
  swap; · iexact H8
  ipureintro
  try dsimp only
  exact View.read_writes_eq_canon _ _ _ (cover1_8 _)

/-! ## The pipeline's proof data -/

/-- The proof data of the second pipeline on core `c`: the arrays as the region finds them; after the body at point `t` each
    input's buffer at its block and each output's at `out1_w` of the input blocks; the invariant is the scoped rest and the
    generator register, untouched; nothing owed; every array held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

set_option maxHeartbeats 1000000 in
/-- The body at any point: the inputs' memrefs hold their blocks, so the body's triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ (grid1.coords t) _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KRun.lean ====
/-
  The frame run of the kernel program, at any float instance. The program is a stretch of host operations, two pipelines and
  one closing slice. The core's unscoped buffers are followed from the launch through the four segments as one valuation
  per boundary: after the host stretch; after the first pipeline (its two result arrays at what its write-backs leave, every
  other buffer as entered); after the second pipeline (likewise); after the slice. Each pipeline's arrays are carved out
  of the unscoped buffers at its entry and put back at its exit. The first pipeline reads one array through two windows:
  that buffer's full share is split into two halves at the entry and joined again at the exit. Every weakly fair
  execution then terminates with every unscoped buffer at the last valuation, which is read back at the arguments (as
  launched) and at the two results.
-/
import proofs.«130397_g2000105430876207_pallasbulk_1247_2_alg».proof.Proof.KBody0
import proofs.«130397_g2000105430876207_pallasbulk_1247_2_alg».proof.Proof.KBody1
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first pipeline's arrays among the core's unscoped buffers

Windows 1 and 2 of the first pipeline read ONE array. The eight distinct buffers behind the nine windows, each whole at the
full share, are the pipeline's nine arrays at the shares the proof data name: the shared buffer's full share is the
sum of the two halves windows 1 and 2 hold. Stated over an abstract valuation and abstract proof data. -/

/-- The share each window of the first pipeline holds its array at. -/
def sh0 : Fin cfg0.W → PosShare TreeShare := fun w => match w with
  | ⟨1, _⟩ => fullShare.left
  | ⟨2, _⟩ => fullShare.right
  | _ => fullShare

section Shared

variable {c : Dev nD} (dat : Dat τ (Elt F) Unit ℕ (UR sig nD τ) ℕ cfg0 c)
  (hs : ∀ w, dat.share w = sh0 w)
  (Vv : (b : Ref sig .tc) → Buf (Elt F) ((c : Thread nD τ).loc b))
  (G : (w : Fin cfg0.W) → Buf (Elt F) ((cfg0.win w).arr.view.loc (c : Thread nD τ)))
  (hG : ∀ w, G w = Vv (Pipeline.arrRef spec0 w))

include hs hG in
/-- The arrays, each a whole buffer, window by window at its share and at the valuation's contents. -/
theorem arrays0_eq : (dat.arrays G : sProp 𝕄)
    = bigSep Finset.univ fun w : Fin cfg0.W => (((c : Thread nD τ).loc (Pipeline.arrRef spec0 w)) ↦{sh0 w} Vv (Pipeline.arrRef spec0 w) : sProp 𝕄) := by
  unfold Dat.arrays
  exact bigSep_congr fun w _ => by rw [(arr_whole0 w).set_eq_univ, hs w, hG w]

/-- The eight distinct buffers behind the windows, one by one. -/
theorem arrBufs0_eq : (Pipeline.arrBufs spec0 c Vv : sProp 𝕄)
    = iprop((((c : Thread nD τ).loc (Pipeline.arrRef spec0 0)) ↦{fullShare} Vv (Pipeline.arrRef spec0 0))
        ∗ (((c : Thread nD τ).loc (Pipeline.arrRef spec0 1)) ↦{fullShare} Vv (Pipeline.arrRef spec0 1))
        ∗ (((c : Thread nD τ).loc (Pipeline.arrRef spec0 3)) ↦{fullShare} Vv (Pipeline.arrRef spec0 3))
        ∗ (((c : Thread nD τ).loc (Pipeline.arrRef spec0 4)) ↦{fullShare} Vv (Pipeline.arrRef spec0 4))
        ∗ (((c : Thread nD τ).loc (Pipeline.arrRef spec0 5)) ↦{fullShare} Vv (Pipeline.arrRef spec0 5))
        ∗ (((c : Thread nD τ).loc (Pipeline.arrRef spec0 6)) ↦{fullShare} Vv (Pipeline.arrRef spec0 6))
        ∗ (((c : Thread nD τ).loc (Pipeline.arrRef spec0 7)) ↦{fullShare} Vv (Pipeline.arrRef spec0 7))
        ∗ (((c : Thread nD τ).loc (Pipeline.arrRef spec0 8)) ↦{fullShare} Vv (Pipeline.arrRef spec0 8))) := by
  unfold Pipeline.arrBufs
  exact bigSep_eq_bigSepL_of_eq [Pipeline.arrRef spec0 0, Pipeline.arrRef spec0 1, Pipeline.arrRef spec0 3, Pipeline.arrRef spec0 4, Pipeline.arrRef spec0 5,
    Pipeline.arrRef spec0 6, Pipeline.arrRef spec0 7, Pipeline.arrRef spec0 8] (by decide) (by decide) _

include hs hG in
/-- ENTRY: the buffers at the full share make the arrays at the windows' shares. -/
theorem arrays0_of_arrBufs : (Pipeline.arrBufs spec0 c Vv : sProp 𝕄) ⊢ dat.arrays G := by
  rewrite [arrBufs0_eq, arrays0_eq dat hs Vv G hG, bigSep_W0]
  iintro ⟨H0, H1, H3, H4, H5, H6, H7, H8⟩
  ihave H12 := (pointsTo_share (PosShare.mem_left_op_right fullShare)).1 $$ H1
  icases H12 with ⟨H1, H2⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

include hs hG in
/-- EXIT: the arrays at the windows' shares give the buffers back at the full share. -/
theorem arrBufs0_of_arrays : (dat.arrays G : sProp 𝕄) ⊢ Pipeline.arrBufs spec0 c Vv := by
  rewrite [arrBufs0_eq, arrays0_eq dat hs Vv G hG, bigSep_W0]
  iintro ⟨H0, H1, H2, H3, H4, H5, H6, H7, H8⟩
  ihave H12 := (pointsTo_share (PosShare.mem_left_op_right fullShare)).2 $$ [H1 H2]
  · isplitl [H1]; · iexact H1
    iexact H2
  isplitl [H0]; · iexact H0
  isplitl [H12]; · iexact H12
  isplitl [H3]; · iexact H3
  isplitl [H4]; · iexact H4
  isplitl [H5]; · iexact H5
  isplitl [H6]; · iexact H6
  isplitl [H7]; · iexact H7
  iexact H8

end Shared

section Shared0

variable {c : Dev nD} (dat : Dat τ (Elt F) Unit ℕ (UR sig nD τ) ℕ cfg0 c)
  (hs : ∀ w, dat.share w = sh0 w)

include hs in
/-- ENTRY of the first pipeline: the core's unscoped buffers at a valuation are the pipeline's arrays at the proof data's
    entry contents (read off the valuation) and the unscoped rest. -/
theorem entry0 (Vv : (b : Ref sig .tc) → Buf (Elt F) ((c : Thread nD τ).loc b)) (hA : ∀ w, dat.A w = Vv (Pipeline.arrRef spec0 w)) :
    (unscopedBufs c Vv : sProp 𝕄) ⊢ iprop(dat.arrays (dat.arrAt · 0) ∗ Pipeline.unscopedRest spec0 c Vv) := by
  rewrite [Pipeline.unscopedBufs_split₀ cfgs (0 : Fin 2) winFacts₀0.arr_unscoped c Vv]
  exact sep_mono (arrays0_of_arrBufs dat hs Vv (dat.arrAt · 0) hA) .rfl

include hs in
/-- EXIT of the first pipeline: its arrays at contents `G` and the unscoped rest at `Vv` are the core's unscoped buffers at
    any valuation that has the arrays at `G` and agrees with `Vv` off them. -/
theorem exit0 (Vv Vv' : (b : Ref sig .tc) → Buf (Elt F) ((c : Thread nD τ).loc b))
    (G : (w : Fin cfg0.W) → Buf (Elt F) ((cfg0.win w).arr.view.loc (c : Thread nD τ)))
    (hG : ∀ w, G w = Vv' (Pipeline.arrRef spec0 w))
    (hrest : ∀ b, b ∉ Finset.univ.image (Pipeline.arrRef spec0) → Vv' b = Vv b) :
    iprop(dat.arrays G ∗ Pipeline.unscopedRest spec0 c Vv) ⊢ (unscopedBufs c Vv' : sProp 𝕄) := by
  rewrite [Pipeline.unscopedBufs_split₀ cfgs (0 : Fin 2) winFacts₀0.arr_unscoped c Vv']
  refine sep_mono (arrBufs0_of_arrays dat hs Vv' G hG) (Entails.of_eq ?_)
  unfold Pipeline.unscopedRest
  exact bigSep_congr fun b hb => by rw [hrest b (Finset.mem_sdiff.mp hb).2]

end Shared0

/-- The first pipeline's proof data hold the shares above: an output's array whole, an input's at the share named. -/
theorem share0 (V : (c : Dev nD) → (b : Ref sig .tc) → Buf (Elt F) ((c : Thread nD τ).loc b)) (c : Dev nD) :
    ∀ w : Fin cfg0.W, (dat0 V c).share w = sh0 w := fun w =>
  match w with
  | ⟨0, _⟩ => rfl | ⟨1, _⟩ => rfl | ⟨2, _⟩ => rfl | ⟨3, _⟩ => rfl | ⟨4, _⟩ => rfl
  | ⟨5, _⟩ => rfl | ⟨6, _⟩ => rfl | ⟨7, _⟩ => rfl | ⟨8, _⟩ => rfl

variable (m : (ℓ : Loc nD τ sig) → Buf (Elt F) ℓ) (ρ : Dev nD → PrngReg)

/-! # The buffer contents at each segment boundary -/

/-- Core `c`'s buffers at launch. -/
abbrev W0 : Dev nD → Valuation τ sig (Elt F) := fun c b => (s₀ m ρ).mem ((c : Dev nD), b)
/-- After the host stretch: the first pipeline's entry. -/
abbrev W2 : Dev nD → Valuation τ sig (Elt F) := fun c => StableHlo.after hostOps0 (W0 m ρ c)
/-- The same read at the TensorCore's references. -/
abbrev V2 : (c : Dev nD) → (b : Ref sig .tc) → Buf (Elt F) ((c : Thread nD τ).loc b) := fun c b => W2 m ρ c b
/-- At the first pipeline's exit (the second's entry): its two result arrays at what its write-backs leave, every other
    buffer as entered. -/
def W3 (c : Dev nD) : Valuation τ sig (Elt F) :=
  Function.update (Function.update (W2 m ρ c) (Proc.devRef .tc main_v52_0) ((dat0 (V2 m ρ) c).arrAt 7 cfg0.N))
    (Proc.devRef .tc main_v52_1) ((dat0 (V2 m ρ) c).arrAt 8 cfg0.N)
/-- The same read at the TensorCore's references. -/
abbrev V3 : (c : Dev nD) → (b : Ref sig .tc) → Buf (Elt F) ((c : Thread nD τ).loc b) := fun c b => W3 m ρ c b
/-- At the second pipeline's exit: its arrays at what the pipeline leaves (an input as entered, an output's write-backs
    folded), every other buffer as entered. -/
def W4 (c : Dev nD) : Valuation τ sig (Elt F) :=
  Pipeline.withArrays spec1 c (W3 m ρ c) fun w => (dat1 (V3 m ρ) c).arrAt w cfg1.N
/-- The same read at the TensorCore's references. -/
abbrev V4 : (c : Dev nD) → (b : Ref sig .tc) → Buf (Elt F) ((c : Thread nD τ).loc b) := fun c b => W4 m ρ c b
/-- After the closing slice: the end. -/
abbrev W5 : Dev nD → Valuation τ sig (Elt F) := fun c => StableHlo.after hostOps2 (W4 m ρ c)

/-! ## The first pipeline's exit contents, buffer by buffer -/

theorem W3_of_ne (c : Dev nD) (b : Ref sig .tc) (h7 : b ≠ main_v52_0) (h8 : b ≠ main_v52_1) :
    W3 m ρ c (Proc.devRef .tc b) = W2 m ρ c (Proc.devRef .tc b) := by
  unfold W3
  rw [Function.update_of_ne (StableHlo.devRef_ne_of_ne h8), Function.update_of_ne (StableHlo.devRef_ne_of_ne h7)]
theorem W3_main_v52_0 (c : Dev nD) : W3 m ρ c (Proc.devRef .tc main_v52_0) = (dat0 (V2 m ρ) c).arrAt 7 cfg0.N := by
  unfold W3
  rw [Function.update_of_ne (StableHlo.devRef_ne_of_ne (by decide)), Function.update_self]
theorem W3_main_v52_1 (c : Dev nD) : W3 m ρ c (Proc.devRef .tc main_v52_1) = (dat0 (V2 m ρ) c).arrAt 8 cfg0.N := by
  unfold W3
  rw [Function.update_self]

/-- At the first pipeline's exit each of its arrays holds what the pipeline leaves, -/
theorem hF0 (c : Dev nD) : ∀ w : Fin cfg0.W, (dat0 (V2 m ρ) c).arrAt w cfg0.N = V3 m ρ c (Pipeline.arrRef spec0 w) := by
  have hin : ∀ (w : Fin cfg0.W) (hw : (cfg0.win w).isOut = false) (h7 : Pipeline.arrRef spec0 w ≠ main_v52_0)
      (h8 : Pipeline.arrRef spec0 w ≠ main_v52_1), (dat0 (V2 m ρ) c).arrAt w cfg0.N = V3 m ρ c (Pipeline.arrRef spec0 w) :=
    fun w hw h7 h8 => ((dat0 (V2 m ρ) c).arrAt_in w hw _).trans ((A_eq0 (V2 m ρ) c w).trans (W3_of_ne m ρ c _ h7 h8).symm)
  intro w
  match w with
  | ⟨0, _⟩ => exact hin 0 rfl (by decide) (by decide)
  | ⟨1, _⟩ => exact hin 1 rfl (by decide) (by decide)
  | ⟨2, _⟩ => exact hin 2 rfl (by decide) (by decide)
  | ⟨3, _⟩ => exact hin 3 rfl (by decide) (by decide)
  | ⟨4, _⟩ => exact hin 4 rfl (by decide) (by decide)
  | ⟨5, _⟩ => exact hin 5 rfl (by decide) (by decide)
  | ⟨6, _⟩ => exact hin 6 rfl (by decide) (by decide)
  | ⟨7, _⟩ => exact (W3_main_v52_0 m ρ c).symm
  | ⟨8, _⟩ => exact (W3_main_v52_1 m ρ c).symm
/-- and every other buffer what it held at entry. -/
theorem hrest0 (c : Dev nD) : ∀ b, b ∉ Finset.univ.image (Pipeline.arrRef spec0) → V3 m ρ c b = V2 m ρ c b :=
  fun b hb => W3_of_ne m ρ c b
    (fun e => hb (Finset.mem_image.mpr ⟨7, Finset.mem_univ _, e.symm⟩))
    (fun e => hb (Finset.mem_image.mpr ⟨8, Finset.mem_univ _, e.symm⟩))

/-! ## The second pipeline's exit contents -/

theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! # What the host stretches write -/

/-- No operation of the host stretches allocates a buffer. -/
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-- The references the first host stretch writes: one per operation, none an argument, none a pipeline's result. -/
abbrev hostOps0_W : List (Ref sig .tc) := [main_v0, main_cst, main_v1, main_v2, main_v3, main_c, main_v4, main_c_0, main_v5, main_v6, main_v7, main_v8, main_v9, main_c_1, main_v10, main_c_2, main_v11, main_v12, main_v13, main_v14, main_v15, main_v16, main_v17, main_v18, main_c_3, main_v19, main_v20, main_v21, main_v22, main_v23, main_v24, main_v25, main_v26, main_v27, main_v28, main_v29, main_v30, main_v31, main_v32, main_v33, main_v34, main_v35, main_cst_4, main_v36, main_v37, main_c_5, main_v38, main_v39, main_cst_6, main_v40, main_c_7, main_v41, main_v42, main_cst_8, main_v43, main_v44, main_c_9, main_v45, main_c_10, main_v46, main_v47, main_v48, main_cst_11, main_v49, main_c_12, main_v50, main_v51]
set_option maxHeartbeats 4000000 in
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The closing slice writes its result only. -/
abbrev hostOps2_W : List (Ref sig .tc) := [main_v54]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  exact List.mem_map_of_mem (by decide)

/-- A buffer the first host stretch does not write is as launched at the first pipeline's entry. -/
theorem W2_of (c : Dev nD) (r : Ref sig .tc) (h : r ∉ hostOps0_W) : W2 m ρ c (Proc.devRef .tc r) = W0 m ρ c (Proc.devRef .tc r) :=
  StableHlo.after_of_writes_sub hostOps0 _ hostOps0_writes h
/-- A buffer the closing slice does not write ends as the second pipeline left it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-! # The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it owes,
    which is nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator
    register at some state. -/
abbrev Tₙ (c : Dev nD) : sProp 𝕄 := iprop(StableHlo.held (c : Thread nD τ) (Pipeline.ucRefs τ sig) (W5 m ρ c) ∗ ∃ r, prngReg c r)

/-! # The pipelines as segments -/

set_option backward.isDefEq.respectTransparency.types false in
/-- THE FIRST PIPELINE over the thread state: entered from every unscoped buffer at `W2`, left at `W3`. Its arrays are
    carved out of the unscoped buffers (the array two windows read split into halves: `entry0`) and put back at the exit
    contents (`exit0`); the generator register goes into the class invariant and out; nothing owed; no semaphore of
    the kernel's own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := entry0 (dat0 (V2 m ρ) c) (share0 (V2 m ρ) c) (V2 m ρ c) (A_eq0 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 (dat0 (V2 m ρ) c) (share0 (V2 m ρ) c) (V2 m ρ c) (V3 m ρ c) ((dat0 (V2 m ρ) c).arrAt · cfg0.N)
      (hF0 m ρ c) (hrest0 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- THE SECOND PIPELINE over the thread state: entered from every unscoped buffer at `W3`, left at `W4`. Its arrays are
    distinct buffers: split out of the unscoped buffers and put back at the exit contents by the library's lemmas. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # The program as segments, and the launch -/

/-- The program's four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W4 m ρ)) ]

set_option backward.isDefEq.respectTransparency.types false in
set_option maxHeartbeats 4000000 in
/-- THE RUN: from any memory with zero counters, every weakly fair execution of the program on the TensorCores terminates,
    nothing faulting, and every final state has every unscoped buffer at the last valuation. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c =>
      show iprop(StableHlo.held (c : Thread nD τ) (Pipeline.ucRefs τ sig) (W5 m ρ c)
            ∗ (∃ r, prngReg c r) ∗ ∃ W, owes (c : Thread nD τ) (0 : CellTallies nD τ sig Unit) W)
          ⊢ iprop((StableHlo.held (c : Thread nD τ) (Pipeline.ucRefs τ sig) (W5 m ρ c) ∗ ∃ r, prngReg c r)
            ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-! # The last valuation read back -/

/-- Argument 0 ends as launched: no host operation writes it and no pipeline stages it. -/
theorem W5_main_arg0 (c : Dev nD) : W5 m ρ c (Proc.devRef .tc main_arg0) = m ((c : Thread nD τ).loc main_arg0) :=
  (W5_of m ρ c main_arg0 (by decide)).trans <| (W4_of_ne m ρ c main_arg0 (by decide)).trans <|
    (W3_of_ne m ρ c main_arg0 (by decide) (by decide)).trans <| (W2_of m ρ c main_arg0 (by decide)).trans rfl
/-- Argument 1 ends as launched: no host operation writes it and no pipeline stages it. -/
theorem W5_main_arg1 (c : Dev nD) : W5 m ρ c (Proc.devRef .tc main_arg1) = m ((c : Thread nD τ).loc main_arg1) :=
  (W5_of m ρ c main_arg1 (by decide)).trans <| (W4_of_ne m ρ c main_arg1 (by decide)).trans <|
    (W3_of_ne m ρ c main_arg1 (by decide) (by decide)).trans <| (W2_of m ρ c main_arg1 (by decide)).trans rfl
/-- Argument 2 ends as launched: no host operation writes it and no pipeline stages it. -/
theorem W5_main_arg2 (c : Dev nD) : W5 m ρ c (Proc.devRef .tc main_arg2) = m ((c : Thread nD τ).loc main_arg2) :=
  (W5_of m ρ c main_arg2 (by decide)).trans <| (W4_of_ne m ρ c main_arg2 (by decide)).trans <|
    (W3_of_ne m ρ c main_arg2 (by decide) (by decide)).trans <| (W2_of m ρ c main_arg2 (by decide)).trans rfl
/-- Argument 3 ends as launched: no host operation writes it and no pipeline stages it. -/
theorem W5_main_arg3 (c : Dev nD) : W5 m ρ c (Proc.devRef .tc main_arg3) = m ((c : Thread nD τ).loc main_arg3) :=
  (W5_of m ρ c main_arg3 (by decide)).trans <| (W4_of_ne m ρ c main_arg3 (by decide)).trans <|
    (W3_of_ne m ρ c main_arg3 (by decide) (by decide)).trans <| (W2_of m ρ c main_arg3 (by decide)).trans rfl
/-- Argument 4 ends as launched: no host operation writes it and no pipeline stages it. -/
theorem W5_main_arg4 (c : Dev nD) : W5 m ρ c (Proc.devRef .tc main_arg4) = m ((c : Thread nD τ).loc main_arg4) :=
  (W5_of m ρ c main_arg4 (by decide)).trans <| (W4_of_ne m ρ c main_arg4 (by decide)).trans <|
    (W3_of_ne m ρ c main_arg4 (by decide) (by decide)).trans <| (W2_of m ρ c main_arg4 (by decide)).trans rfl
/-- Argument 5 ends as launched: no host operation writes it and no pipeline stages it. -/
theorem W5_main_arg5 (c : Dev nD) : W5 m ρ c (Proc.devRef .tc main_arg5) = m ((c : Thread nD τ).loc main_arg5) :=
  (W5_of m ρ c main_arg5 (by decide)).trans <| (W4_of_ne m ρ c main_arg5 (by decide)).trans <|
    (W3_of_ne m ρ c main_arg5 (by decide) (by decide)).trans <| (W2_of m ρ c main_arg5 (by decide)).trans rfl
/-- Argument 6 ends as launched: no host operation writes it and no pipeline stages it. -/
theorem W5_main_arg6 (c : Dev nD) : W5 m ρ c (Proc.devRef .tc main_arg6) = m ((c : Thread nD τ).loc main_arg6) :=
  (W5_of m ρ c main_arg6 (by decide)).trans <| (W4_of_ne m ρ c main_arg6 (by decide)).trans <|
    (W3_of_ne m ρ c main_arg6 (by decide) (by decide)).trans <| (W2_of m ρ c main_arg6 (by decide)).trans rfl
/-- Argument 7 ends as launched: no host operation writes it and no pipeline stages it. -/
theorem W5_main_arg7 (c : Dev nD) : W5 m ρ c (Proc.devRef .tc main_arg7) = m ((c : Thread nD τ).loc main_arg7) :=
  (W5_of m ρ c main_arg7 (by decide)).trans <| (W4_of_ne m ρ c main_arg7 (by decide)).trans <|
    (W3_of_ne m ρ c main_arg7 (by decide) (by decide)).trans <| (W2_of m ρ c main_arg7 (by decide)).trans rfl
/-- Argument 8 ends as launched: no host operation writes it and no pipeline stages it. -/
theorem W5_main_arg8 (c : Dev nD) : W5 m ρ c (Proc.devRef .tc main_arg8) = m ((c : Thread nD τ).loc main_arg8) :=
  (W5_of m ρ c main_arg8 (by decide)).trans <| (W4_of_ne m ρ c main_arg8 (by decide)).trans <|
    (W3_of_ne m ρ c main_arg8 (by decide) (by decide)).trans <| (W2_of m ρ c main_arg8 (by decide)).trans rfl
/-- Argument 9 ends as launched: no host operation writes it and no pipeline stages it. -/
theorem W5_main_arg9 (c : Dev nD) : W5 m ρ c (Proc.devRef .tc main_arg9) = m ((c : Thread nD τ).loc main_arg9) :=
  (W5_of m ρ c main_arg9 (by decide)).trans <| (W4_of_ne m ρ c main_arg9 (by decide)).trans <|
    (W3_of_ne m ρ c main_arg9 (by decide) (by decide)).trans <| (W2_of m ρ c main_arg9 (by decide)).trans rfl
/-- Argument 10 ends as launched: no host operation writes it and no pipeline stages it. -/
theorem W5_main_arg10 (c : Dev nD) : W5 m ρ c (Proc.devRef .tc main_arg10) = m ((c : Thread nD τ).loc main_arg10) :=
  (W5_of m ρ c main_arg10 (by decide)).trans <| (W4_of_ne m ρ c main_arg10 (by decide)).trans <|
    (W3_of_ne m ρ c main_arg10 (by decide) (by decide)).trans <| (W2_of m ρ c main_arg10 (by decide)).trans rfl
/-- Argument 11 ends as launched: both pipelines read it through an input window, which leaves its array as entered. -/
theorem W5_main_arg11 (c : Dev nD) : W5 m ρ c (Proc.devRef .tc main_arg11) = m ((c : Thread nD τ).loc main_arg11) :=
  (W5_of m ρ c main_arg11 (by decide)).trans <|
    ((W4_arr m ρ c 0).trans (((dat1 (V3 m ρ) c).arrAt_in 0 rfl _).trans (A_eq1 (V3 m ρ) c 0))).trans <|
    (W3_of_ne m ρ c main_arg11 (by decide) (by decide)).trans <| (W2_of m ρ c main_arg11 (by decide)).trans rfl

/-- The second pipeline's first result ends at what its write-backs leave. -/
theorem W5_main_v53_0 (c : Dev nD) : W5 m ρ c (Proc.devRef .tc main_v53_0) = (dat1 (V3 m ρ) c).arrAt 7 cfg1.N :=
  (W5_of m ρ c main_v53_0 (by decide)).trans (W4_arr m ρ c 7)

/-- The program's last result is the leading 32 columns of what the second pipeline's write-backs leave in its second result. -/
theorem W5_main_v54 (c : Dev nD) : W5 m ρ c (Proc.devRef .tc main_v54)
    = extractStridedSlice S4096x32 ![0, 0] ((dat1 (V3 m ρ) c).arrAt 8 cfg1.N : (⟨S4096x128, .f32⟩ : BufTy).Contents (Elt F)) slices_S4096x128_S4096x32_0_0 := by
  show StableHlo.after hostOps2 (W4 m ρ c) (Proc.devRef .tc main_v54) = _
  after_results
  exact congrArg (fun x : (⟨S4096x128, .f32⟩ : BufTy).Contents (Elt F) => extractStridedSlice S4096x32 ![0, 0] x slices_S4096x128_S4096x32_0_0) (W4_arr m ρ c 8)

/-- The second pipeline finds the first pipeline's two results at what its write-backs leave, -/
theorem V3_main_v52_0 (c : Dev nD) : V3 m ρ c main_v52_0 = (dat0 (V2 m ρ) c).arrAt 7 cfg0.N := W3_main_v52_0 m ρ c
theorem V3_main_v52_1 (c : Dev nD) : V3 m ρ c main_v52_1 = (dat0 (V2 m ρ) c).arrAt 8 cfg0.N := W3_main_v52_1 m ρ c
/-- and every other array of its own as the first pipeline found it. -/
theorem V3_main_arg11 (c : Dev nD) : V3 m ρ c main_arg11 = V2 m ρ c main_arg11 := W3_of_ne m ρ c main_arg11 (by decide) (by decide)
theorem V3_main_v39 (c : Dev nD) : V3 m ρ c main_v39 = V2 m ρ c main_v39 := W3_of_ne m ρ c main_v39 (by decide) (by decide)
theorem V3_main_v42 (c : Dev nD) : V3 m ρ c main_v42 = V2 m ρ c main_v42 := W3_of_ne m ρ c main_v42 (by decide) (by decide)
theorem V3_main_v48 (c : Dev nD) : V3 m ρ c main_v48 = V2 m ρ c main_v48 := W3_of_ne m ρ c main_v48 (by decide) (by decide)
theorem V3_main_v51 (c : Dev nD) : V3 m ρ c main_v51 = V2 m ρ c main_v51 := W3_of_ne m ρ c main_v51 (by decide) (by decide)

end Cert.KernelIdeal.Hand

end
-- ==== Proof.BBody0.lean ====
/-
  The first pipeline's body half of the frame, at any float instance: what each window's staging buffer holds when the
  body runs at a grid point (its block of the array as the region finds it), what the body's two stores leave in the two output
  buffers as functions of the seven input blocks, and the body's separation-logic triple at every point.
-/
import proofs.«130397_g2000105430876207_pallasbulk_1247_2_alg».proof.Proof.Gen.Kernel.Launch
import proofs.«130397_g2000105430876207_pallasbulk_1247_2_alg».proof.Proof.Gen.Kernel.Skeleton
import proofs.«130397_g2000105430876207_pallasbulk_1247_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, instantiated by the run
variable (V : (c : Dev nD) → (b : Ref sig .tc) → Buf (Elt F) ((c : Thread nD τ).loc b))

/-! # The first pipeline, at the entry contents `V` -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether or not it was fetched there
    (an unfetched window's block index has not moved), for any proof data over the entry contents whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes through -/

abbrev r0_0 : Rect S2x512x4096 := Rect.unit (s := S2x512x4096) ![0, 0, 0] S2x512x4096.size inb_S2x512x4096_S2x512x4096_0_0_0
abbrev r0_1 : Rect S4096x128 := Rect.unit (s := S4096x128) ![0, 0] S4096x128.size inb_S4096x128_S4096x128_0_0
abbrev r0_2 : Rect S512x128 := Rect.unit (s := S512x128) ![0, 0] S512x128.size inb_S512x128_S512x128_0_0
abbrev r0_3 : Rect S384x512 := Rect.unit (s := S384x512) ![0, 0] S384x512.size inb_S384x512_S384x512_0_0
abbrev r0_4 : Rect S1x512 := Rect.unit (s := S1x512) ![0, 0] S1x512.size inb_S1x512_S1x512_0_0
abbrev r0_5 : Rect S512x1024 := Rect.unit (s := S512x1024) ![0, 0] S512x1024.size inb_S512x1024_S512x1024_0_0
abbrev r0_6 : Rect S512x512 := Rect.unit (s := S512x512) ![0, 0] S512x512.size inb_S512x512_S512x512_0_0

/-! ## What the body leaves in each output window's buffer -/

/-- Window 7's staging buffer after the body, as a function of the input windows' blocks: its one store, covering the buffer. -/
def out0_7 (x0 : Vec F S2x512x4096 .bf16) (x1 : Vec F S4096x128 .bf16) (x2 : Vec F S512x128 .bf16) (x3 : Vec F S384x512 .bf16) (x4 : Vec F S1x512 .f32) (x5 : Vec F S512x1024 .bf16) (x6 : Vec F S1x512 .f32) : Vec F S512x512 .bf16 :=
  View.canon [⟨r0_6, k0_pay2 (View.ld x0 r0_0) (View.ld x1 r0_1) (View.ld x2 r0_2) (View.ld x3 r0_3) (View.ld x4 r0_4) (View.ld x5 r0_5)⟩]

/-- The store's rectangle is the whole buffer. -/
theorem cover0_7 (p0 : Vec F S512x512 .bf16) (y : S512x512.Idx) :
    ∃ pc ∈ ([⟨r0_6, p0⟩] : List (View.Piece (Elt F) S512x512 .bf16)), y ∈ pc.1.set :=
  View.cover_of_tiled [⟨r0_6, p0⟩] S512x512.size (by rfl) y

/-- Window 8's staging buffer after the body, as a function of the input windows' blocks: its one store, covering the buffer. -/
def out0_8 (x0 : Vec F S2x512x4096 .bf16) (x1 : Vec F S4096x128 .bf16) (x2 : Vec F S512x128 .bf16) (x3 : Vec F S384x512 .bf16) (x4 : Vec F S1x512 .f32) (x5 : Vec F S512x1024 .bf16) (x6 : Vec F S1x512 .f32) : Vec F S512x512 .f32 :=
  View.canon [⟨r0_6, k0_pay3 (View.ld x0 r0_0) (View.ld x1 r0_1) (View.ld x2 r0_2) (View.ld x3 r0_3) (View.ld x4 r0_4) (View.ld x5 r0_5) (View.ld x6 r0_4)⟩]

/-- The store's rectangle is the whole buffer. -/
theorem cover0_8 (p0 : Vec F S512x512 .f32) (y : S512x512.Idx) :
    ∃ pc ∈ ([⟨r0_6, p0⟩] : List (View.Piece (Elt F) S512x512 .f32)), y ∈ pc.1.set :=
  View.cover_of_tiled [⟨r0_6, p0⟩] S512x512.size (by rfl) y

/-! ## The body's triple -/

set_option maxHeartbeats 4000000 in
/-- The kernel body on whole staging memrefs, the inputs' at read contents and the outputs' at anything, runs to the
    continuation holding the inputs' as they were and each output's at its `out0_w` of the inputs'. -/
theorem sound_kernel0 (c : Dev nD) (E : Set ℕ) (i : grid0.Coords) (arg1 : Memref sig .tc .vmem S2x512x4096 .bf16) (harg1 : arg1.IsWhole) (arg2 : Memref sig .tc .vmem S4096x128 .bf16) (harg2 : arg2.IsWhole) (arg3 : Memref sig .tc .vmem S512x128 .bf16) (harg3 : arg3.IsWhole) (arg4 : Memref sig .tc .vmem S384x512 .bf16) (harg4 : arg4.IsWhole) (arg5 : Memref sig .tc .vmem S1x512 .f32) (harg5 : arg5.IsWhole) (arg6 : Memref sig .tc .vmem S512x1024 .bf16) (harg6 : arg6.IsWhole) (arg7 : Memref sig .tc .vmem S1x512 .f32) (harg7 : arg7.IsWhole) (arg8 : Memref sig .tc .vmem S512x512 .bf16) (harg8 : arg8.IsWhole) (arg9 : Memref sig .tc .vmem S512x512 .f32) (harg9 : arg9.IsWhole)
    (x0 : Vec F S2x512x4096 .bf16) (x1 : Vec F S4096x128 .bf16) (x2 : Vec F S512x128 .bf16) (x3 : Vec F S384x512 .bf16) (x4 : Vec F S1x512 .f32) (x5 : Vec F S512x1024 .bf16) (x6 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6) ∗ owns (c : Thread nD τ) arg9 fullShare (out0_8 x0 x1 x2 x3 x4 x5 x6)) -∗ K ⟨⟩))
      ⊢ wp frame (wpE (defs₀ (F := F)) Variants.none c none) E (cc0__l0_kernel i arg1 harg1 arg2 harg2 arg3 harg3 arg4 harg4 arg5 harg5 arg6 harg6 arg7 harg7 arg8 harg8 arg9 harg9) K := by
  simp only [cc0__l0_kernel_eq_skeleton]; unfold cc0__l0_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover0_7 _)
  iexists _; isplitr
  swap; · iexact H8
  ipureintro
  try dsimp only
  exact View.read_writes_eq_canon _ _ _ (cover0_8 _)

/-! ## The pipeline's proof data -/

/-- The proof data of the first pipeline on core `c`: the arrays as the region finds them; after the body at point `t` each
    input's buffer at its block and each output's at `out0_w` of the input blocks; the invariant is the scoped rest and the
    generator register, untouched; nothing owed. Windows 1 and 2 read ONE array (the node features, whole and by row tile):
    each holds half of it, every other window its array whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
  Φ _ := Pipeline.ΦA spec0 c
  q w := match w with
    | ⟨1, _⟩ => fullShare.left
    | ⟨2, _⟩ => fullShare.right
    | _ => fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

set_option maxHeartbeats 1000000 in
/-- The body at any point: the inputs' memrefs hold their blocks, so the body's triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ (grid0.coords t) _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BBody1.lean ====
/-
  The second pipeline's body half of the frame, at any float instance: what each window's staging buffer holds when the
  body runs at a grid point, what the body's two stores leave in the two output buffers as functions of the seven input blocks
  (window 0's block is read as its two slices along the leading axis and window 1's as its two 256-column halves: in the
  shared vocabulary's reading, one pair per edge type), and the body's
  separation-logic triple at every point.
-/
import proofs.«130397_g2000105430876207_pallasbulk_1247_2_alg».proof.Proof.Gen.Kernel.Launch
import proofs.«130397_g2000105430876207_pallasbulk_1247_2_alg».proof.Proof.Gen.Kernel.Skeleton
import proofs.«130397_g2000105430876207_pallasbulk_1247_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, instantiated by the run
variable (V : (c : Dev nD) → (b : Ref sig .tc) → Buf (Elt F) ((c : Thread nD τ).loc b))

/-! # The second pipeline, at the entry contents `V` -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether or not it was fetched there
    (an unfetched window's block index has not moved), for any proof data over the entry contents whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes through -/

abbrev r1_0 : Rect S2x512x4096 := Rect.unit (s := S2x512x4096) ![0, 0, 0] S1x512x4096.size inb_S2x512x4096_S1x512x4096_0_0_0
abbrev r1_1 : Rect S4096x512 := Rect.unit (s := S4096x512) ![0, 0] S4096x256.size inb_S4096x512_S4096x256_0_0
abbrev r1_2 : Rect S2x512x4096 := Rect.unit (s := S2x512x4096) ![1, 0, 0] S1x512x4096.size inb_S2x512x4096_S1x512x4096_1_0_0
abbrev r1_3 : Rect S4096x512 := Rect.unit (s := S4096x512) ![0, 256] S4096x256.size inb_S4096x512_S4096x256_0_256
abbrev r1_4 : Rect S512x512 := Rect.unit (s := S512x512) ![0, 0] S512x512.size inb_S512x512_S512x512_0_0
abbrev r1_5 : Rect S512x128 := Rect.unit (s := S512x128) ![0, 0] S512x128.size inb_S512x128_S512x128_0_0
abbrev r1_6 : Rect S1x128 := Rect.unit (s := S1x128) ![0, 0] S1x128.size inb_S1x128_S1x128_0_0
abbrev r1_7 : Rect S128x128 := Rect.unit (s := S128x128) ![0, 0] S128x128.size inb_S128x128_S128x128_0_0

/-! ## What the body leaves in each output window's buffer -/

/-- Window 7's staging buffer after the body, as a function of the input windows' blocks: its one store, covering the buffer. -/
def out1_7 (x0 : Vec F S2x512x4096 .bf16) (x1 : Vec F S4096x512 .bf16) (x2 : Vec F S512x512 .f32) (x3 : Vec F S512x128 .bf16) (x4 : Vec F S1x128 .f32) (x5 : Vec F S128x128 .bf16) (x6 : Vec F S1x128 .f32) : Vec F S512x512 .f32 :=
  View.canon [⟨r1_4, k1_pay2 (View.ld x0 r1_0) (View.ld x1 r1_1) (View.ld x0 r1_2) (View.ld x1 r1_3) (View.ld x2 r1_4)⟩]

/-- The store's rectangle is the whole buffer. -/
theorem cover1_7 (p0 : Vec F S512x512 .f32) (y : S512x512.Idx) :
    ∃ pc ∈ ([⟨r1_4, p0⟩] : List (View.Piece (Elt F) S512x512 .f32)), y ∈ pc.1.set :=
  View.cover_of_tiled [⟨r1_4, p0⟩] S512x512.size (by rfl) y

/-- Window 8's staging buffer after the body, as a function of the input windows' blocks: its one store, covering the buffer. -/
def out1_8 (x0 : Vec F S2x512x4096 .bf16) (x1 : Vec F S4096x512 .bf16) (x2 : Vec F S512x512 .f32) (x3 : Vec F S512x128 .bf16) (x4 : Vec F S1x128 .f32) (x5 : Vec F S128x128 .bf16) (x6 : Vec F S1x128 .f32) : Vec F S512x128 .f32 :=
  View.canon [⟨r1_5, k1_pay1 (k1_pay3 (View.ld x0 r1_0) (View.ld x1 r1_1) (View.ld x0 r1_2) (View.ld x1 r1_3) (View.ld x2 r1_4) (View.ld x3 r1_5) (View.ld x4 r1_6) (View.ld x5 r1_7)) (View.ld x6 r1_6)⟩]

/-- The store's rectangle is the whole buffer. -/
theorem cover1_8 (p0 : Vec F S512x128 .f32) (y : S512x128.Idx) :
    ∃ pc ∈ ([⟨r1_5, p0⟩] : List (View.Piece (Elt F) S512x128 .f32)), y ∈ pc.1.set :=
  View.cover_of_tiled [⟨r1_5, p0⟩] S512x128.size (by rfl) y

/-! ## The body's triple -/

set_option maxHeartbeats 4000000 in
/-- The kernel body on whole staging memrefs, the inputs' at read contents and the outputs' at anything, runs to the
    continuation holding the inputs' as they were and each output's at its `out1_w` of the inputs'. -/
theorem sound_kernel1 (c : Dev nD) (E : Set ℕ) (i : grid1.Coords) (arg1 : Memref sig .tc .vmem S2x512x4096 .bf16) (harg1 : arg1.IsWhole) (arg2 : Memref sig .tc .vmem S4096x512 .bf16) (harg2 : arg2.IsWhole) (arg3 : Memref sig .tc .vmem S512x512 .f32) (harg3 : arg3.IsWhole) (arg4 : Memref sig .tc .vmem S512x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S512x512 .f32) (harg8 : arg8.IsWhole) (arg9 : Memref sig .tc .vmem S512x128 .f32) (harg9 : arg9.IsWhole)
    (x0 : Vec F S2x512x4096 .bf16) (x1 : Vec F S4096x512 .bf16) (x2 : Vec F S512x512 .f32) (x3 : Vec F S512x128 .bf16) (x4 : Vec F S1x128 .f32) (x5 : Vec F S128x128 .bf16) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6) ∗ owns (c : Thread nD τ) arg9 fullShare (out1_8 x0 x1 x2 x3 x4 x5 x6)) -∗ K ⟨⟩))
      ⊢ wp frame (wpE (defs₀ (F := F)) Variants.none c none) E (cc1__l1_kernel i arg1 harg1 arg2 harg2 arg3 harg3 arg4 harg4 arg5 harg5 arg6 harg6 arg7 harg7 arg8 harg8 arg9 harg9) K := by
  simp only [cc1__l1_kernel_eq_skeleton]; unfold cc1__l1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover1_7 _)
  iexists _; isplitr
  swap; · iexact H8
  ipureintro
  try dsimp only
  exact View.read_writes_eq_canon _ _ _ (cover1_8 _)

/-! ## The pipeline's proof data -/

/-- The proof data of the second pipeline on core `c`: the arrays as the region finds them; after the body at point `t` each
    input's buffer at its block and each output's at `out1_w` of the input blocks; the invariant is the scoped rest and the
    generator register, untouched; nothing owed; every array held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

set_option maxHeartbeats 1000000 in
/-- The body at any point: the inputs' memrefs hold their blocks, so the body's triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ (grid1.coords t) _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BRun.lean ====
/-
  The frame run of the kernel program, at any float instance. The program is a stretch of host operations, two pipelines and
  one closing slice. The core's unscoped buffers are followed from the launch through the four segments as one valuation
  per boundary: after the host stretch; after the first pipeline (its two result arrays at what its write-backs leave, every
  other buffer as entered); after the second pipeline (likewise); after the slice. Each pipeline's arrays are carved out
  of the unscoped buffers at its entry and put back at its exit. The first pipeline reads one array through two windows:
  that buffer's full share is split into two halves at the entry and joined again at the exit. Every weakly fair
  execution then terminates with every unscoped buffer at the last valuation, which is read back at the arguments (as
  launched) and at the two results.
-/
import proofs.«130397_g2000105430876207_pallasbulk_1247_2_alg».proof.Proof.BBody0
import proofs.«130397_g2000105430876207_pallasbulk_1247_2_alg».proof.Proof.BBody1
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first pipeline's arrays among the core's unscoped buffers

Windows 1 and 2 of the first pipeline read ONE array. The eight distinct buffers behind the nine windows, each whole at the
full share, are the pipeline's nine arrays at the shares the proof data name: the shared buffer's full share is the
sum of the two halves windows 1 and 2 hold. Stated over an abstract valuation and abstract proof data. -/

/-- The share each window of the first pipeline holds its array at. -/
def sh0 : Fin cfg0.W → PosShare TreeShare := fun w => match w with
  | ⟨1, _⟩ => fullShare.left
  | ⟨2, _⟩ => fullShare.right
  | _ => fullShare

section Shared

variable {c : Dev nD} (dat : Dat τ (Elt F) Unit ℕ (UR sig nD τ) ℕ cfg0 c)
  (hs : ∀ w, dat.share w = sh0 w)
  (Vv : (b : Ref sig .tc) → Buf (Elt F) ((c : Thread nD τ).loc b))
  (G : (w : Fin cfg0.W) → Buf (Elt F) ((cfg0.win w).arr.view.loc (c : Thread nD τ)))
  (hG : ∀ w, G w = Vv (Pipeline.arrRef spec0 w))

include hs hG in
/-- The arrays, each a whole buffer, window by window at its share and at the valuation's contents. -/
theorem arrays0_eq : (dat.arrays G : sProp 𝕄)
    = bigSep Finset.univ fun w : Fin cfg0.W => (((c : Thread nD τ).loc (Pipeline.arrRef spec0 w)) ↦{sh0 w} Vv (Pipeline.arrRef spec0 w) : sProp 𝕄) := by
  unfold Dat.arrays
  exact bigSep_congr fun w _ => by rw [(arr_whole0 w).set_eq_univ, hs w, hG w]

/-- The eight distinct buffers behind the windows, one by one. -/
theorem arrBufs0_eq : (Pipeline.arrBufs spec0 c Vv : sProp 𝕄)
    = iprop((((c : Thread nD τ).loc (Pipeline.arrRef spec0 0)) ↦{fullShare} Vv (Pipeline.arrRef spec0 0))
        ∗ (((c : Thread nD τ).loc (Pipeline.arrRef spec0 1)) ↦{fullShare} Vv (Pipeline.arrRef spec0 1))
        ∗ (((c : Thread nD τ).loc (Pipeline.arrRef spec0 3)) ↦{fullShare} Vv (Pipeline.arrRef spec0 3))
        ∗ (((c : Thread nD τ).loc (Pipeline.arrRef spec0 4)) ↦{fullShare} Vv (Pipeline.arrRef spec0 4))
        ∗ (((c : Thread nD τ).loc (Pipeline.arrRef spec0 5)) ↦{fullShare} Vv (Pipeline.arrRef spec0 5))
        ∗ (((c : Thread nD τ).loc (Pipeline.arrRef spec0 6)) ↦{fullShare} Vv (Pipeline.arrRef spec0 6))
        ∗ (((c : Thread nD τ).loc (Pipeline.arrRef spec0 7)) ↦{fullShare} Vv (Pipeline.arrRef spec0 7))
        ∗ (((c : Thread nD τ).loc (Pipeline.arrRef spec0 8)) ↦{fullShare} Vv (Pipeline.arrRef spec0 8))) := by
  unfold Pipeline.arrBufs
  exact bigSep_eq_bigSepL_of_eq [Pipeline.arrRef spec0 0, Pipeline.arrRef spec0 1, Pipeline.arrRef spec0 3, Pipeline.arrRef spec0 4, Pipeline.arrRef spec0 5,
    Pipeline.arrRef spec0 6, Pipeline.arrRef spec0 7, Pipeline.arrRef spec0 8] (by decide) (by decide) _

include hs hG in
/-- ENTRY: the buffers at the full share make the arrays at the windows' shares. -/
theorem arrays0_of_arrBufs : (Pipeline.arrBufs spec0 c Vv : sProp 𝕄) ⊢ dat.arrays G := by
  rewrite [arrBufs0_eq, arrays0_eq dat hs Vv G hG, bigSep_W0]
  iintro ⟨H0, H1, H3, H4, H5, H6, H7, H8⟩
  ihave H12 := (pointsTo_share (PosShare.mem_left_op_right fullShare)).1 $$ H1
  icases H12 with ⟨H1, H2⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

include hs hG in
/-- EXIT: the arrays at the windows' shares give the buffers back at the full share. -/
theorem arrBufs0_of_arrays : (dat.arrays G : sProp 𝕄) ⊢ Pipeline.arrBufs spec0 c Vv := by
  rewrite [arrBufs0_eq, arrays0_eq dat hs Vv G hG, bigSep_W0]
  iintro ⟨H0, H1, H2, H3, H4, H5, H6, H7, H8⟩
  ihave H12 := (pointsTo_share (PosShare.mem_left_op_right fullShare)).2 $$ [H1 H2]
  · isplitl [H1]; · iexact H1
    iexact H2
  isplitl [H0]; · iexact H0
  isplitl [H12]; · iexact H12
  isplitl [H3]; · iexact H3
  isplitl [H4]; · iexact H4
  isplitl [H5]; · iexact H5
  isplitl [H6]; · iexact H6
  isplitl [H7]; · iexact H7
  iexact H8

end Shared

section Shared0

variable {c : Dev nD} (dat : Dat τ (Elt F) Unit ℕ (UR sig nD τ) ℕ cfg0 c)
  (hs : ∀ w, dat.share w = sh0 w)

include hs in
/-- ENTRY of the first pipeline: the core's unscoped buffers at a valuation are the pipeline's arrays at the proof data's
    entry contents (read off the valuation) and the unscoped rest. -/
theorem entry0 (Vv : (b : Ref sig .tc) → Buf (Elt F) ((c : Thread nD τ).loc b)) (hA : ∀ w, dat.A w = Vv (Pipeline.arrRef spec0 w)) :
    (unscopedBufs c Vv : sProp 𝕄) ⊢ iprop(dat.arrays (dat.arrAt · 0) ∗ Pipeline.unscopedRest spec0 c Vv) := by
  rewrite [Pipeline.unscopedBufs_split₀ cfgs (0 : Fin 2) winFacts₀0.arr_unscoped c Vv]
  exact sep_mono (arrays0_of_arrBufs dat hs Vv (dat.arrAt · 0) hA) .rfl

include hs in
/-- EXIT of the first pipeline: its arrays at contents `G` and the unscoped rest at `Vv` are the core's unscoped buffers at
    any valuation that has the arrays at `G` and agrees with `Vv` off them. -/
theorem exit0 (Vv Vv' : (b : Ref sig .tc) → Buf (Elt F) ((c : Thread nD τ).loc b))
    (G : (w : Fin cfg0.W) → Buf (Elt F) ((cfg0.win w).arr.view.loc (c : Thread nD τ)))
    (hG : ∀ w, G w = Vv' (Pipeline.arrRef spec0 w))
    (hrest : ∀ b, b ∉ Finset.univ.image (Pipeline.arrRef spec0) → Vv' b = Vv b) :
    iprop(dat.arrays G ∗ Pipeline.unscopedRest spec0 c Vv) ⊢ (unscopedBufs c Vv' : sProp 𝕄) := by
  rewrite [Pipeline.unscopedBufs_split₀ cfgs (0 : Fin 2) winFacts₀0.arr_unscoped c Vv']
  refine sep_mono (arrBufs0_of_arrays dat hs Vv' G hG) (Entails.of_eq ?_)
  unfold Pipeline.unscopedRest
  exact bigSep_congr fun b hb => by rw [hrest b (Finset.mem_sdiff.mp hb).2]

end Shared0

/-- The first pipeline's proof data hold the shares above: an output's array whole, an input's at the share named. -/
theorem share0 (V : (c : Dev nD) → (b : Ref sig .tc) → Buf (Elt F) ((c : Thread nD τ).loc b)) (c : Dev nD) :
    ∀ w : Fin cfg0.W, (dat0 V c).share w = sh0 w := fun w =>
  match w with
  | ⟨0, _⟩ => rfl | ⟨1, _⟩ => rfl | ⟨2, _⟩ => rfl | ⟨3, _⟩ => rfl | ⟨4, _⟩ => rfl
  | ⟨5, _⟩ => rfl | ⟨6, _⟩ => rfl | ⟨7, _⟩ => rfl | ⟨8, _⟩ => rfl

variable (m : (ℓ : Loc nD τ sig) → Buf (Elt F) ℓ) (ρ : Dev nD → PrngReg)

/-! # The buffer contents at each segment boundary -/

/-- Core `c`'s buffers at launch. -/
abbrev W0 : Dev nD → Valuation τ sig (Elt F) := fun c b => (s₀ m ρ).mem ((c : Dev nD), b)
/-- After the host stretch: the first pipeline's entry. -/
abbrev W2 : Dev nD → Valuation τ sig (Elt F) := fun c => StableHlo.after hostOps0 (W0 m ρ c)
/-- The same read at the TensorCore's references. -/
abbrev V2 : (c : Dev nD) → (b : Ref sig .tc) → Buf (Elt F) ((c : Thread nD τ).loc b) := fun c b => W2 m ρ c b
/-- At the first pipeline's exit (the second's entry): its two result arrays at what its write-backs leave, every other
    buffer as entered. -/
def W3 (c : Dev nD) : Valuation τ sig (Elt F) :=
  Function.update (Function.update (W2 m ρ c) (Proc.devRef .tc main_v52_0) ((dat0 (V2 m ρ) c).arrAt 7 cfg0.N))
    (Proc.devRef .tc main_v52_1) ((dat0 (V2 m ρ) c).arrAt 8 cfg0.N)
/-- The same read at the TensorCore's references. -/
abbrev V3 : (c : Dev nD) → (b : Ref sig .tc) → Buf (Elt F) ((c : Thread nD τ).loc b) := fun c b => W3 m ρ c b
/-- At the second pipeline's exit: its arrays at what the pipeline leaves (an input as entered, an output's write-backs
    folded), every other buffer as entered. -/
def W4 (c : Dev nD) : Valuation τ sig (Elt F) :=
  Pipeline.withArrays spec1 c (W3 m ρ c) fun w => (dat1 (V3 m ρ) c).arrAt w cfg1.N
/-- The same read at the TensorCore's references. -/
abbrev V4 : (c : Dev nD) → (b : Ref sig .tc) → Buf (Elt F) ((c : Thread nD τ).loc b) := fun c b => W4 m ρ c b
/-- After the closing slice: the end. -/
abbrev W5 : Dev nD → Valuation τ sig (Elt F) := fun c => StableHlo.after hostOps2 (W4 m ρ c)

/-! ## The first pipeline's exit contents, buffer by buffer -/

theorem W3_of_ne (c : Dev nD) (b : Ref sig .tc) (h7 : b ≠ main_v52_0) (h8 : b ≠ main_v52_1) :
    W3 m ρ c (Proc.devRef .tc b) = W2 m ρ c (Proc.devRef .tc b) := by
  unfold W3
  rw [Function.update_of_ne (StableHlo.devRef_ne_of_ne h8), Function.update_of_ne (StableHlo.devRef_ne_of_ne h7)]
theorem W3_main_v52_0 (c : Dev nD) : W3 m ρ c (Proc.devRef .tc main_v52_0) = (dat0 (V2 m ρ) c).arrAt 7 cfg0.N := by
  unfold W3
  rw [Function.update_of_ne (StableHlo.devRef_ne_of_ne (by decide)), Function.update_self]
theorem W3_main_v52_1 (c : Dev nD) : W3 m ρ c (Proc.devRef .tc main_v52_1) = (dat0 (V2 m ρ) c).arrAt 8 cfg0.N := by
  unfold W3
  rw [Function.update_self]

/-- At the first pipeline's exit each of its arrays holds what the pipeline leaves, -/
theorem hF0 (c : Dev nD) : ∀ w : Fin cfg0.W, (dat0 (V2 m ρ) c).arrAt w cfg0.N = V3 m ρ c (Pipeline.arrRef spec0 w) := by
  have hin : ∀ (w : Fin cfg0.W) (hw : (cfg0.win w).isOut = false) (h7 : Pipeline.arrRef spec0 w ≠ main_v52_0)
      (h8 : Pipeline.arrRef spec0 w ≠ main_v52_1), (dat0 (V2 m ρ) c).arrAt w cfg0.N = V3 m ρ c (Pipeline.arrRef spec0 w) :=
    fun w hw h7 h8 => ((dat0 (V2 m ρ) c).arrAt_in w hw _).trans ((A_eq0 (V2 m ρ) c w).trans (W3_of_ne m ρ c _ h7 h8).symm)
  intro w
  match w with
  | ⟨0, _⟩ => exact hin 0 rfl (by decide) (by decide)
  | ⟨1, _⟩ => exact hin 1 rfl (by decide) (by decide)
  | ⟨2, _⟩ => exact hin 2 rfl (by decide) (by decide)
  | ⟨3, _⟩ => exact hin 3 rfl (by decide) (by decide)
  | ⟨4, _⟩ => exact hin 4 rfl (by decide) (by decide)
  | ⟨5, _⟩ => exact hin 5 rfl (by decide) (by decide)
  | ⟨6, _⟩ => exact hin 6 rfl (by decide) (by decide)
  | ⟨7, _⟩ => exact (W3_main_v52_0 m ρ c).symm
  | ⟨8, _⟩ => exact (W3_main_v52_1 m ρ c).symm
/-- and every other buffer what it held at entry. -/
theorem hrest0 (c : Dev nD) : ∀ b, b ∉ Finset.univ.image (Pipeline.arrRef spec0) → V3 m ρ c b = V2 m ρ c b :=
  fun b hb => W3_of_ne m ρ c b
    (fun e => hb (Finset.mem_image.mpr ⟨7, Finset.mem_univ _, e.symm⟩))
    (fun e => hb (Finset.mem_image.mpr ⟨8, Finset.mem_univ _, e.symm⟩))

/-! ## The second pipeline's exit contents -/

theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! # What the host stretches write -/

/-- No operation of the host stretches allocates a buffer. -/
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-- The references the first host stretch writes: one per operation, none an argument, none a pipeline's result. -/
abbrev hostOps0_W : List (Ref sig .tc) := [main_v0, main_cst, main_v1, main_v2, main_v3, main_c, main_v4, main_c_0, main_v5, main_v6, main_v7, main_v8, main_v9, main_c_1, main_v10, main_c_2, main_v11, main_v12, main_v13, main_v14, main_v15, main_v16, main_v17, main_v18, main_c_3, main_v19, main_v20, main_v21, main_v22, main_v23, main_v24, main_v25, main_v26, main_v27, main_v28, main_v29, main_v30, main_v31, main_v32, main_v33, main_v34, main_v35, main_cst_4, main_v36, main_v37, main_c_5, main_v38, main_v39, main_cst_6, main_v40, main_c_7, main_v41, main_v42, main_cst_8, main_v43, main_v44, main_c_9, main_v45, main_c_10, main_v46, main_v47, main_v48, main_cst_11, main_v49, main_c_12, main_v50, main_v51]
set_option maxHeartbeats 4000000 in
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The closing slice writes its result only. -/
abbrev hostOps2_W : List (Ref sig .tc) := [main_v54]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  exact List.mem_map_of_mem (by decide)

/-- A buffer the first host stretch does not write is as launched at the first pipeline's entry. -/
theorem W2_of (c : Dev nD) (r : Ref sig .tc) (h : r ∉ hostOps0_W) : W2 m ρ c (Proc.devRef .tc r) = W0 m ρ c (Proc.devRef .tc r) :=
  StableHlo.after_of_writes_sub hostOps0 _ hostOps0_writes h
/-- A buffer the closing slice does not write ends as the second pipeline left it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-! # The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it owes,
    which is nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator
    register at some state. -/
abbrev Tₙ (c : Dev nD) : sProp 𝕄 := iprop(StableHlo.held (c : Thread nD τ) (Pipeline.ucRefs τ sig) (W5 m ρ c) ∗ ∃ r, prngReg c r)

/-! # The pipelines as segments -/

set_option backward.isDefEq.respectTransparency.types false in
/-- THE FIRST PIPELINE over the thread state: entered from every unscoped buffer at `W2`, left at `W3`. Its arrays are
    carved out of the unscoped buffers (the array two windows read split into halves: `entry0`) and put back at the exit
    contents (`exit0`); the generator register goes into the class invariant and out; nothing owed; no semaphore of
    the kernel's own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := entry0 (dat0 (V2 m ρ) c) (share0 (V2 m ρ) c) (V2 m ρ c) (A_eq0 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 (dat0 (V2 m ρ) c) (share0 (V2 m ρ) c) (V2 m ρ c) (V3 m ρ c) ((dat0 (V2 m ρ) c).arrAt · cfg0.N)
      (hF0 m ρ c) (hrest0 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- THE SECOND PIPELINE over the thread state: entered from every unscoped buffer at `W3`, left at `W4`. Its arrays are
    distinct buffers: split out of the unscoped buffers and put back at the exit contents by the library's lemmas. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # The program as segments, and the launch -/

/-- The program's four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W4 m ρ)) ]

set_option backward.isDefEq.respectTransparency.types false in
set_option maxHeartbeats 4000000 in
/-- THE RUN: from any memory with zero counters, every weakly fair execution of the program on the TensorCores terminates,
    nothing faulting, and every final state has every unscoped buffer at the last valuation. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c =>
      show iprop(StableHlo.held (c : Thread nD τ) (Pipeline.ucRefs τ sig) (W5 m ρ c)
            ∗ (∃ r, prngReg c r) ∗ ∃ W, owes (c : Thread nD τ) (0 : CellTallies nD τ sig Unit) W)
          ⊢ iprop((StableHlo.held (c : Thread nD τ) (Pipeline.ucRefs τ sig) (W5 m ρ c) ∗ ∃ r, prngReg c r)
            ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-! # The last valuation read back -/

/-- Argument 0 ends as launched: no host operation writes it and no pipeline stages it. -/
theorem W5_main_arg0 (c : Dev nD) : W5 m ρ c (Proc.devRef .tc main_arg0) = m ((c : Thread nD τ).loc main_arg0) :=
  (W5_of m ρ c main_arg0 (by decide)).trans <| (W4_of_ne m ρ c main_arg0 (by decide)).trans <|
    (W3_of_ne m ρ c main_arg0 (by decide) (by decide)).trans <| (W2_of m ρ c main_arg0 (by decide)).trans rfl
/-- Argument 1 ends as launched: no host operation writes it and no pipeline stages it. -/
theorem W5_main_arg1 (c : Dev nD) : W5 m ρ c (Proc.devRef .tc main_arg1) = m ((c : Thread nD τ).loc main_arg1) :=
  (W5_of m ρ c main_arg1 (by decide)).trans <| (W4_of_ne m ρ c main_arg1 (by decide)).trans <|
    (W3_of_ne m ρ c main_arg1 (by decide) (by decide)).trans <| (W2_of m ρ c main_arg1 (by decide)).trans rfl
/-- Argument 2 ends as launched: no host operation writes it and no pipeline stages it. -/
theorem W5_main_arg2 (c : Dev nD) : W5 m ρ c (Proc.devRef .tc main_arg2) = m ((c : Thread nD τ).loc main_arg2) :=
  (W5_of m ρ c main_arg2 (by decide)).trans <| (W4_of_ne m ρ c main_arg2 (by decide)).trans <|
    (W3_of_ne m ρ c main_arg2 (by decide) (by decide)).trans <| (W2_of m ρ c main_arg2 (by decide)).trans rfl
/-- Argument 3 ends as launched: no host operation writes it and no pipeline stages it. -/
theorem W5_main_arg3 (c : Dev nD) : W5 m ρ c (Proc.devRef .tc main_arg3) = m ((c : Thread nD τ).loc main_arg3) :=
  (W5_of m ρ c main_arg3 (by decide)).trans <| (W4_of_ne m ρ c main_arg3 (by decide)).trans <|
    (W3_of_ne m ρ c main_arg3 (by decide) (by decide)).trans <| (W2_of m ρ c main_arg3 (by decide)).trans rfl
/-- Argument 4 ends as launched: no host operation writes it and no pipeline stages it. -/
theorem W5_main_arg4 (c : Dev nD) : W5 m ρ c (Proc.devRef .tc main_arg4) = m ((c : Thread nD τ).loc main_arg4) :=
  (W5_of m ρ c main_arg4 (by decide)).trans <| (W4_of_ne m ρ c main_arg4 (by decide)).trans <|
    (W3_of_ne m ρ c main_arg4 (by decide) (by decide)).trans <| (W2_of m ρ c main_arg4 (by decide)).trans rfl
/-- Argument 5 ends as launched: no host operation writes it and no pipeline stages it. -/
theorem W5_main_arg5 (c : Dev nD) : W5 m ρ c (Proc.devRef .tc main_arg5) = m ((c : Thread nD τ).loc main_arg5) :=
  (W5_of m ρ c main_arg5 (by decide)).trans <| (W4_of_ne m ρ c main_arg5 (by decide)).trans <|
    (W3_of_ne m ρ c main_arg5 (by decide) (by decide)).trans <| (W2_of m ρ c main_arg5 (by decide)).trans rfl
/-- Argument 6 ends as launched: no host operation writes it and no pipeline stages it. -/
theorem W5_main_arg6 (c : Dev nD) : W5 m ρ c (Proc.devRef .tc main_arg6) = m ((c : Thread nD τ).loc main_arg6) :=
  (W5_of m ρ c main_arg6 (by decide)).trans <| (W4_of_ne m ρ c main_arg6 (by decide)).trans <|
    (W3_of_ne m ρ c main_arg6 (by decide) (by decide)).trans <| (W2_of m ρ c main_arg6 (by decide)).trans rfl
/-- Argument 7 ends as launched: no host operation writes it and no pipeline stages it. -/
theorem W5_main_arg7 (c : Dev nD) : W5 m ρ c (Proc.devRef .tc main_arg7) = m ((c : Thread nD τ).loc main_arg7) :=
  (W5_of m ρ c main_arg7 (by decide)).trans <| (W4_of_ne m ρ c main_arg7 (by decide)).trans <|
    (W3_of_ne m ρ c main_arg7 (by decide) (by decide)).trans <| (W2_of m ρ c main_arg7 (by decide)).trans rfl
/-- Argument 8 ends as launched: no host operation writes it and no pipeline stages it. -/
theorem W5_main_arg8 (c : Dev nD) : W5 m ρ c (Proc.devRef .tc main_arg8) = m ((c : Thread nD τ).loc main_arg8) :=
  (W5_of m ρ c main_arg8 (by decide)).trans <| (W4_of_ne m ρ c main_arg8 (by decide)).trans <|
    (W3_of_ne m ρ c main_arg8 (by decide) (by decide)).trans <| (W2_of m ρ c main_arg8 (by decide)).trans rfl
/-- Argument 9 ends as launched: no host operation writes it and no pipeline stages it. -/
theorem W5_main_arg9 (c : Dev nD) : W5 m ρ c (Proc.devRef .tc main_arg9) = m ((c : Thread nD τ).loc main_arg9) :=
  (W5_of m ρ c main_arg9 (by decide)).trans <| (W4_of_ne m ρ c main_arg9 (by decide)).trans <|
    (W3_of_ne m ρ c main_arg9 (by decide) (by decide)).trans <| (W2_of m ρ c main_arg9 (by decide)).trans rfl
/-- Argument 10 ends as launched: no host operation writes it and no pipeline stages it. -/
theorem W5_main_arg10 (c : Dev nD) : W5 m ρ c (Proc.devRef .tc main_arg10) = m ((c : Thread nD τ).loc main_arg10) :=
  (W5_of m ρ c main_arg10 (by decide)).trans <| (W4_of_ne m ρ c main_arg10 (by decide)).trans <|
    (W3_of_ne m ρ c main_arg10 (by decide) (by decide)).trans <| (W2_of m ρ c main_arg10 (by decide)).trans rfl
/-- Argument 11 ends as launched: both pipelines read it through an input window, which leaves its array as entered. -/
theorem W5_main_arg11 (c : Dev nD) : W5 m ρ c (Proc.devRef .tc main_arg11) = m ((c : Thread nD τ).loc main_arg11) :=
  (W5_of m ρ c main_arg11 (by decide)).trans <|
    ((W4_arr m ρ c 0).trans (((dat1 (V3 m ρ) c).arrAt_in 0 rfl _).trans (A_eq1 (V3 m ρ) c 0))).trans <|
    (W3_of_ne m ρ c main_arg11 (by decide) (by decide)).trans <| (W2_of m ρ c main_arg11 (by decide)).trans rfl

/-- The second pipeline's first result ends at what its write-backs leave. -/
theorem W5_main_v53_0 (c : Dev nD) : W5 m ρ c (Proc.devRef .tc main_v53_0) = (dat1 (V3 m ρ) c).arrAt 7 cfg1.N :=
  (W5_of m ρ c main_v53_0 (by decide)).trans (W4_arr m ρ c 7)

/-- The program's last result is the leading 32 columns of what the second pipeline's write-backs leave in its second result. -/
theorem W5_main_v54 (c : Dev nD) : W5 m ρ c (Proc.devRef .tc main_v54)
    = extractStridedSlice S4096x32 ![0, 0] ((dat1 (V3 m ρ) c).arrAt 8 cfg1.N : (⟨S4096x128, .f32⟩ : BufTy).Contents (Elt F)) slices_S4096x128_S4096x32_0_0 := by
  show StableHlo.after hostOps2 (W4 m ρ c) (Proc.devRef .tc main_v54) = _
  after_results
  exact congrArg (fun x : (⟨S4096x128, .f32⟩ : BufTy).Contents (Elt F) => extractStridedSlice S4096x32 ![0, 0] x slices_S4096x128_S4096x32_0_0) (W4_arr m ρ c 8)

/-- The second pipeline finds the first pipeline's two results at what its write-backs leave, -/
theorem V3_main_v52_0 (c : Dev nD) : V3 m ρ c main_v52_0 = (dat0 (V2 m ρ) c).arrAt 7 cfg0.N := W3_main_v52_0 m ρ c
theorem V3_main_v52_1 (c : Dev nD) : V3 m ρ c main_v52_1 = (dat0 (V2 m ρ) c).arrAt 8 cfg0.N := W3_main_v52_1 m ρ c
/-- and every other array of its own as the first pipeline found it. -/
theorem V3_main_arg11 (c : Dev nD) : V3 m ρ c main_arg11 = V2 m ρ c main_arg11 := W3_of_ne m ρ c main_arg11 (by decide) (by decide)
theorem V3_main_v39 (c : Dev nD) : V3 m ρ c main_v39 = V2 m ρ c main_v39 := W3_of_ne m ρ c main_v39 (by decide) (by decide)
theorem V3_main_v42 (c : Dev nD) : V3 m ρ c main_v42 = V2 m ρ c main_v42 := W3_of_ne m ρ c main_v42 (by decide) (by decide)
theorem V3_main_v48 (c : Dev nD) : V3 m ρ c main_v48 = V2 m ρ c main_v48 := W3_of_ne m ρ c main_v48 (by decide) (by decide)
theorem V3_main_v51 (c : Dev nD) : V3 m ρ c main_v51 = V2 m ρ c main_v51 := W3_of_ne m ρ c main_v51 (by decide) (by decide)

end Cert.Kernel.Hand

end
-- ==== Proof.RBody0.lean ====
/-
  The frame half of the reference program's first kernel region (the first graph-convolution layer), by hand, at a
  parameter `V`: the contents of the core's buffers when the region is entered.

  The grid is 8 row tiles × 2 halves of the source axis; point t is (row tile t / 2, half t % 2).  The body keeps one
  accumulator between points: at a first-half point it is zeroed and receives A-block · source rows; at a last-half point
  it receives the second half's product, and the layer's projection of the sum is stored whole into the output's block,
  which the pipeline writes back there.  At first-half points the output's buffer is idle.

  Stated here: the windows' blocks (`iblk0`), what the accumulator holds after each point (`scAt0`) and what the output's
  buffer holds after a last-half point (`outAt0`), in terms of the program's named payloads; the proof data `dat0`; the
  body obligation; and the region invariant's two ends.
-/
import proofs.«130397_g2000105430876207_pallasbulk_1247_2_alg».proof.Proof.Gen.ReferenceIdeal.Launch
import proofs.«130397_g2000105430876207_pallasbulk_1247_2_alg».proof.Proof.Gen.ReferenceIdeal.Skeleton
import proofs.«130397_g2000105430876207_pallasbulk_1247_2_alg».proof.Proof.Gen.ReferenceIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

/-! ## Whole-buffer loads and stores, over an abstract shape -/

section Whole

variable {sg : RefSig} {κ : Kind} {sp : Space} {S : Shape} {e : EltTy} {Val : EltTy → Type} [∀ e, Nonempty (Val e)]

/-- A store through the whole-shape rectangle at zero offsets, made last, is what the buffer then reads. -/
theorem read_writes_whole (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons.mpr (Or.inl rfl), View.mem_set_unit_zero h inb y⟩)).trans
    (View.canon_cons_unit_zero h inb w L)

/-- A load through that rectangle reads the contents. -/
theorem readAt_whole (v : View sg κ sp S e) (f : v.ty.Contents Val) {off : Fin S.rank → ℕ} (h : off = fun _ => 0)
    (inb : ∀ a, off a + S.size a ≤ S.size a) :
    v.readAt Val (Rect.unit off S.size inb).toLoadRect f = v.read Val f :=
  (View.readAt_eq_ld v f _).trans (View.ld_unit_zero h inb _)

/-- A load through any rectangle of what one whole-shape store left reads the payload there. -/
theorem readCov_whole_ld (v : View sg κ sp S e) {off : Fin S.rank → ℕ} (h : off = fun _ => 0)
    (inb : ∀ a, off a + S.size a ≤ S.size a) (w : S.Idx → Val e) (B : Rect S) :
    v.readCov [(⟨Rect.unit off S.size inb, w⟩ : View.Piece Val S e)] B.toLoadRect = View.ld w B :=
  (View.readCov_eq_canon_ld v _ B (fun y => ⟨_, List.mem_singleton_self _, View.mem_set_unit_zero h inb y⟩)).trans
    (by rw [View.canon_unit_zero h inb w])

end Whole

theorem z2 : (![0, 0] : Fin 2 → ℕ) = fun _ => 0 := by funext a; fin_cases a <;> rfl
theorem z3 : (![0, 0, 0] : Fin 3 → ℕ) = fun _ => 0 := by funext a; fin_cases a <;> rfl

/-! ## Region 0: the body's two branch conditions, in closed form over the grid -/

/-- The reset condition (the source half is the first). -/
abbrev cond0_0 (i : grid0.Coords) : Prop := (Scalar.cmpi .ne (Scalar.extui (Scalar.cmpi .eq (BitVec.ofNat 32 (i 1).val) 0#32)) 0#32) = 1#1
/-- The projection condition (the source half is the last). -/
abbrev cond0_1 (i : grid0.Coords) : Prop := k0_cond2 i = 1#1

theorem hcond0_0 : ∀ t : Fin cfg0.N, cond0_0 (grid0.coords t) ↔ t.val % 2 = 0 :=
  (by decide +kernel : ∀ t : Fin grid0.N, cond0_0 (grid0.coords t) ↔ t.val % 2 = 0)
theorem hcond0_1 : ∀ t : Fin cfg0.N, cond0_1 (grid0.coords t) ↔ t.val % 2 = 1 :=
  (by decide +kernel : ∀ t : Fin grid0.N, cond0_1 (grid0.coords t) ↔ t.val % 2 = 1)

/-! ## The body's rectangles -/

abbrev rS0 : Rect S1024x128 := Rect.unit (s := S1024x128) ![0, 0] S1024x128.size inb_S1024x128_S1024x128_0_0
/-- Rows 0 … 511 of the accumulator (edge type 0), -/
abbrev rLo0 : Rect S1024x128 := Rect.unit (s := S1024x128) ![0, 0] S512x128.size inb_S1024x128_S512x128_0_0
/-- rows 512 … 1023 (edge type 1). -/
abbrev rHi0 : Rect S1024x128 := Rect.unit (s := S1024x128) ![512, 0] S512x128.size inb_S1024x128_S512x128_512_0
/-- Type 0 / type 1 of a per-type weight, -/
abbrev rW0_0 : Rect S2x128x256 := Rect.unit (s := S2x128x256) ![0, 0, 0] S1x128x256.size inb_S2x128x256_S1x128x256_0_0_0
abbrev rW0_1 : Rect S2x128x256 := Rect.unit (s := S2x128x256) ![1, 0, 0] S1x128x256.size inb_S2x128x256_S1x128x256_1_0_0
/-- of the per-type bias. -/
abbrev rB_0 : Rect S2x1x256 := Rect.unit (s := S2x1x256) ![0, 0, 0] S1x1x256.size inb_S2x1x256_S1x1x256_0_0_0
abbrev rB_1 : Rect S2x1x256 := Rect.unit (s := S2x1x256) ![1, 0, 0] S1x1x256.size inb_S2x1x256_S1x1x256_1_0_0

/-! ## What the body leaves -/

/-- The accumulator after a point: the accumulator before it plus the block of A times the source rows. -/
def acc0 (x0 : Vec F S2x512x2048 .bf16) (xs : Vec F S1024x128 .f32) (x1 : Vec F S2048x128 .bf16) : Vec F S1024x128 .f32 :=
  k0_pay2 x0 xs x1

/-- The output block a last-half point stores: the projection of the accumulator `s` (as the point's own accumulation left
    it), the self rows `x2`, the weights `x3`, `x4` and the bias `x5`. -/
def out0_6 (x2 : Vec F S512x128 .bf16) (s : Vec F S1024x128 .f32) (x3 x4 : Vec F S2x128x256 .bf16) (x5 : Vec F S2x1x256 .f32) :
    Vec F S512x512 .bf16 :=
  k0_pay3 (k0_pay5 x2 (View.ld s rLo0) (View.ld x3 rW0_0) (View.ld x4 rW0_0) (View.ld x5 rB_0))
    (k0_pay6 x2 (View.ld s rHi0) (View.ld x3 rW0_1) (View.ld x4 rW0_1) (View.ld x5 rB_1)) (Scalar.ofBits .f32 0x00000000#32)

/-! ## The body's two runs -/

set_option maxHeartbeats 1000000 in
/-- A first-half point: the accumulator is zeroed and the block's product added; the output's buffer and the
    inputs the projection alone reads are not touched. -/
theorem run0_even (c : Dev nD) (E : Set ℕ) (i : grid0.Coords) (arg2 : Memref sig .tc .vmem S2x512x2048 .bf16) (harg2 : arg2.IsWhole) (arg3 : Memref sig .tc .vmem S2048x128 .bf16) (harg3 : arg3.IsWhole) (arg4 : Memref sig .tc .vmem S512x128 .bf16) (harg4 : arg4.IsWhole) (arg5 : Memref sig .tc .vmem S2x128x256 .bf16) (harg5 : arg5.IsWhole) (arg6 : Memref sig .tc .vmem S2x128x256 .bf16) (harg6 : arg6.IsWhole) (arg7 : Memref sig .tc .vmem S2x1x256 .f32) (harg7 : arg7.IsWhole) (arg8 : Memref sig .tc .vmem S512x512 .bf16) (harg8 : arg8.IsWhole) (arg9 : Memref sig .tc .vmem S1024x128 .f32) (harg9 : arg9.IsWhole)
    (hc0 : cond0_0 i) (hc1 : ¬cond0_1 i)
    (x0 : Vec F S2x512x2048 .bf16) (x1 : Vec F S2048x128 .bf16) (K : PUnit → sProp 𝕄) :
    iprop(owns (c : Thread nD τ) arg2 fullShare x0 ∗ owns (c : Thread nD τ) arg3 fullShare x1 ∗ (∃ d, owns (c : Thread nD τ) arg9 fullShare d)
        ∗ (iprop(owns (c : Thread nD τ) arg2 fullShare x0 ∗ owns (c : Thread nD τ) arg3 fullShare x1 ∗ owns (c : Thread nD τ) arg9 fullShare (acc0 x0 (k0_pay1 (F := F)) x1)) -∗ K ⟨⟩))
      ⊢ wp frame (wpE (defs₀ (F := F)) Variants.none c none) E (cc0_sage_layer_kernel i arg2 harg2 arg3 harg3 arg4 harg4 arg5 harg5 arg6 harg6 arg7 harg7 arg8 harg8 arg9 harg9) K := by
  simp only [cc0_sage_layer_kernel_eq_skeleton]; unfold cc0_sage_layer_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  unfold run0_even.sl.v5 run0_even.sl.HS_1 acc0
  refine (read_writes_whole _ _ z2 _ _ _).trans ?_
  rw [readAt_whole _ _ z3, readAt_whole _ _ z2, View.readCov_unit_zero _ z2]

set_option maxHeartbeats 2000000 in
/-- A last-half point: the block's product is added to the accumulator the first half left, and the projection of the
    sum is stored whole into the output's buffer. -/
theorem run0_odd (c : Dev nD) (E : Set ℕ) (i : grid0.Coords) (arg2 : Memref sig .tc .vmem S2x512x2048 .bf16) (harg2 : arg2.IsWhole) (arg3 : Memref sig .tc .vmem S2048x128 .bf16) (harg3 : arg3.IsWhole) (arg4 : Memref sig .tc .vmem S512x128 .bf16) (harg4 : arg4.IsWhole) (arg5 : Memref sig .tc .vmem S2x128x256 .bf16) (harg5 : arg5.IsWhole) (arg6 : Memref sig .tc .vmem S2x128x256 .bf16) (harg6 : arg6.IsWhole) (arg7 : Memref sig .tc .vmem S2x1x256 .f32) (harg7 : arg7.IsWhole) (arg8 : Memref sig .tc .vmem S512x512 .bf16) (harg8 : arg8.IsWhole) (arg9 : Memref sig .tc .vmem S1024x128 .f32) (harg9 : arg9.IsWhole)
    (hc0 : ¬cond0_0 i) (hc1 : cond0_1 i)
    (x0 : Vec F S2x512x2048 .bf16) (x1 : Vec F S2048x128 .bf16) (x2 : Vec F S512x128 .bf16) (x3 x4 : Vec F S2x128x256 .bf16) (x5 : Vec F S2x1x256 .f32)
    (xs : Vec F S1024x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out0_6 x2 (acc0 x0 xs x1) x3 x4 x5) ∗ owns (c : Thread nD τ) arg9 fullShare (acc0 x0 xs x1)) -∗ K ⟨⟩))
      ⊢ wp frame (wpE (defs₀ (F := F)) Variants.none c none) E (cc0_sage_layer_kernel i arg2 harg2 arg3 harg3 arg4 harg4 arg5 harg5 arg6 harg6 arg7 harg7 arg8 harg8 arg9 harg9) K := by
  simp only [cc0_sage_layer_kernel_eq_skeleton]; unfold cc0_sage_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  subst hf0; subst hf1; subst hf2; subst hf3; subst hf4; subst hf5; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    unfold run0_odd.sl.r run0_odd.sl.r_1 run0_odd.sl.cst_37 out0_6 acc0
    refine (read_writes_whole _ _ z2 _ _ _).trans ?_
    unfold run0_odd.sl.v18 run0_odd.sl.v33 run0_odd.sl.HS_1
    rw [readCov_whole_ld _ z2, readCov_whole_ld _ z2]
    repeat (first | rw [readAt_whole _ _ z2] | rw [readAt_whole _ _ z3])
    try rfl
  iexists _; isplitr
  swap; · iexact HS
  ipureintro
  unfold run0_odd.sl.HS_1 acc0
  refine (read_writes_whole _ _ z2 _ _ _).trans ?_
  repeat (first | rw [readAt_whole _ _ z2] | rw [readAt_whole _ _ z3])
  try rfl

/-! ## Region 0 at the entry contents `V`: the windows' blocks -/

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's buffer holds its block at every point, fetched there or not, for any proof data whose array is
    `V`'s and whose body leaves the block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## Where the output is idle -/

theorem idle0_6_even : ∀ t : Fin cfg0.N, t.val % 2 = 0 → cfg0.idle 6 (grid0.coords t) = true := by decide +kernel
theorem live0_6_odd : ∀ t : Fin cfg0.N, t.val % 2 = 1 → cfg0.idle 6 (grid0.coords t) = false := by decide +kernel
theorem noFlush0_6_even : ∀ t : Fin cfg0.N, t.val % 2 = 0 → (cfg0.win 6).flush t = false := by decide +kernel

/-! ## What the accumulator and the output's buffer hold after each point -/

/-- The point before. -/
abbrev prev0 (t : Fin cfg0.N) : Fin cfg0.N := ⟨t.val - 1, Nat.lt_of_le_of_lt (Nat.sub_le _ _) t.isLt⟩

/-- The accumulator after point `t`: at a first-half point zero plus that half's product; at a last-half point the
    first half's (the point before) plus this half's. -/
def scAt0 (c : Dev nD) (t : Fin cfg0.N) : Vec F S1024x128 .f32 :=
  acc0 (iblk0 V c 0 t)
    (if t.val % 2 = 0 then (k0_pay1 (F := F) : Vec F S1024x128 .f32)
      else acc0 (iblk0 V c 0 (prev0 t)) (k0_pay1 (F := F)) (iblk0 V c 1 (prev0 t)))
    (iblk0 V c 1 t)

theorem scAt0_even (c : Dev nD) (t : Fin cfg0.N) (h : t.val % 2 = 0) :
    scAt0 V c t = acc0 (iblk0 V c 0 t) (k0_pay1 (F := F)) (iblk0 V c 1 t) := by
  unfold scAt0; rw [if_pos h]

theorem scAt0_odd (c : Dev nD) (t : Fin cfg0.N) (h : t.val % 2 = 1) :
    scAt0 V c t = acc0 (iblk0 V c 0 t) (scAt0 V c (prev0 t)) (iblk0 V c 1 t) := by
  have hp : (prev0 t).val % 2 = 0 := by show (t.val - 1) % 2 = 0; omega
  rw [scAt0_even V c (prev0 t) hp]
  unfold scAt0; rw [if_neg (by omega)]

/-- The output's buffer after point `t` (consulted at the last-half points only: at the others the buffer is idle). -/
def outAt0 (c : Dev nD) (t : Fin cfg0.N) : Vec F S512x512 .bf16 :=
  out0_6 (iblk0 V c 2 t) (scAt0 V c t) (iblk0 V c 3 t) (iblk0 V c 4 t) (iblk0 V c 5 t)

/-! ## The invariant: the accumulator at its tracked contents beside the other scoped buffers -/

abbrev scM0 : Memref sig .tc .vmem S1024x128 .f32 := Memref.whole cc0_scratch0

/-- Everything of the class invariant but the accumulator: what gives the invariant back for the accumulator at any contents. -/
def restOf0 (c : Dev nD) : sProp 𝕄 :=
  iprop((∃ d, owns (c : Thread nD τ) scM0 fullShare d) -∗ (Pipeline.ΦA spec0 c : sProp 𝕄))

/-- The class invariant hands out the accumulator. -/
theorem PhiA0_split (c : Dev nD) :
    (Pipeline.ΦA spec0 c : sProp 𝕄) ⊢ iprop((∃ d, owns (c : Thread nD τ) scM0 fullShare d) ∗ restOf0 (F := F) c) := by
  unfold restOf0 Pipeline.ΦA
  rw [scopedRest0_eq]
  simp only [scM0, owns_whole]
  iintro ⟨⟨HS, HR⟩, Hg⟩
  isplitl [HS]; · iexact HS
  iintro HS
  isplitl [HS HR]
  · isplitl [HS]; · iexact HS
    iexact HR
  iexact Hg

/-- And takes it back. -/
theorem PhiA0_join (c : Dev nD) :
    iprop((∃ d, owns (c : Thread nD τ) scM0 fullShare d) ∗ restOf0 (F := F) c) ⊢ (Pipeline.ΦA spec0 c : sProp 𝕄) := by
  unfold restOf0
  iintro ⟨HS, HR⟩
  iapply HR; iexact HS

/-- Before point `n`: the class invariant before the first, then the accumulator at what the point before left. -/
def PhiS0 (c : Dev nD) : (n : ℕ) → n ≤ cfg0.N → sProp 𝕄
  | 0, _ => Pipeline.ΦA spec0 c
  | n + 1, hn => iprop(owns (c : Thread nD τ) scM0 fullShare (scAt0 V c ⟨n, hn⟩) ∗ restOf0 c)

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0 fullShare (scAt0 V c ⟨n, hn⟩) ∗ restOf0 c) := rfl

theorem PhiS0_pos (c : Dev nD) (n : ℕ) (h : n ≤ cfg0.N) (hz : n ≠ 0) :
    PhiS0 V c n h = iprop(owns (c : Thread nD τ) scM0 fullShare (scAt0 V c ⟨n - 1, by omega⟩) ∗ restOf0 c) := by
  cases n with
  | zero => exact absurd rfl hz
  | succ n => rfl

/-- At any point the invariant hands out the accumulator at some contents. -/
theorem PhiS0_any (c : Dev nD) (n : ℕ) (h : n ≤ cfg0.N) :
    PhiS0 V c n h ⊢ iprop((∃ d, owns (c : Thread nD τ) scM0 fullShare d) ∗ restOf0 (F := F) c) := by
  cases n with
  | zero => exact PhiA0_split c
  | succ n =>
    rw [PhiS0_succ]
    iintro ⟨HS, HR⟩
    isplitl [HS]; · iexists _; iexact HS
    iexact HR

/-! ## The proof data -/

/-- Region 0's proof data on core `c`: the arrays as the region finds them; after the body each input's buffer at its
    block, the output's at `outAt0`; the invariant `PhiS0`; the shared array's two windows hold a half each; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => outAt0 V c t
  Φ t := PhiS0 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

theorem live0_0 : ∀ t : Fin cfg0.N, cfg0.idle 0 (grid0.coords t) = false := fun _ => rfl
theorem live0_1 : ∀ t : Fin cfg0.N, cfg0.idle 1 (grid0.coords t) = false := fun _ => rfl
theorem live0_2 : ∀ t : Fin cfg0.N, cfg0.idle 2 (grid0.coords t) = false := fun _ => rfl
theorem live0_3 : ∀ t : Fin cfg0.N, cfg0.idle 3 (grid0.coords t) = false := fun _ => rfl
theorem live0_4 : ∀ t : Fin cfg0.N, cfg0.idle 4 (grid0.coords t) = false := fun _ => rfl
theorem live0_5 : ∀ t : Fin cfg0.N, cfg0.idle 5 (grid0.coords t) = false := fun _ => rfl

theorem leaves0_0 (c : Dev nD) (t : Fin cfg0.N) :
    (dat0 V c).leavesExact 0 t = owns (c : Thread nD τ) (st0_0 t) fullShare (iblk0 V c 0 t) := by
  unfold Dat.leavesExact; rw [live0_0 t, after0_0]
theorem leaves0_1 (c : Dev nD) (t : Fin cfg0.N) :
    (dat0 V c).leavesExact 1 t = owns (c : Thread nD τ) (st0_1 t) fullShare (iblk0 V c 1 t) := by
  unfold Dat.leavesExact; rw [live0_1 t, after0_1]
theorem leaves0_2 (c : Dev nD) (t : Fin cfg0.N) :
    (dat0 V c).leavesExact 2 t = owns (c : Thread nD τ) (st0_2 t) fullShare (iblk0 V c 2 t) := by
  unfold Dat.leavesExact; rw [live0_2 t, after0_2]
theorem leaves0_3 (c : Dev nD) (t : Fin cfg0.N) :
    (dat0 V c).leavesExact 3 t = owns (c : Thread nD τ) (st0_3 t) fullShare (iblk0 V c 3 t) := by
  unfold Dat.leavesExact; rw [live0_3 t, after0_3]
theorem leaves0_4 (c : Dev nD) (t : Fin cfg0.N) :
    (dat0 V c).leavesExact 4 t = owns (c : Thread nD τ) (st0_4 t) fullShare (iblk0 V c 4 t) := by
  unfold Dat.leavesExact; rw [live0_4 t, after0_4]
theorem leaves0_5 (c : Dev nD) (t : Fin cfg0.N) :
    (dat0 V c).leavesExact 5 t = owns (c : Thread nD τ) (st0_5 t) fullShare (iblk0 V c 5 t) := by
  unfold Dat.leavesExact; rw [live0_5 t, after0_5]

theorem PhiS0_succ' (c : Dev nD) (t : Fin cfg0.N) :
    PhiS0 V c (t.val + 1) t.isLt = iprop(owns (c : Thread nD τ) scM0 fullShare (scAt0 V c t) ∗ restOf0 c) := rfl

theorem PhiS0_pos' (c : Dev nD) (t : Fin cfg0.N) (hz : t.val ≠ 0) :
    PhiS0 V c t.val (Nat.le_of_lt t.isLt) = iprop(owns (c : Thread nD τ) scM0 fullShare (scAt0 V c (prev0 t)) ∗ restOf0 c) :=
  PhiS0_pos V c _ _ hz

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4000000 in
/-- The body at any point. A first-half point (even position): the invariant hands out the accumulator at whatever it
    holds, the run zeroes it and leaves the half's product; the output's buffer goes back as found. A last-half point (odd):
    the accumulator holds what the point before left; the run adds this half's product and stores the projection. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ']
  rw [leaves0_0, leaves0_1, leaves0_2, leaves0_3, leaves0_4, leaves0_5, PhiS0_castSucc]
  by_cases h0 : t.val % 2 = 0
  · have h1 : ¬ t.val % 2 = 1 := by omega
    rw [Dat.leavesExact_idle (dat0 V c) 6 t (idle0_6_even t h0) (noFlush0_6_even t h0), scAt0_even V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := (PhiS0_any V c t.val _) $$ HΦ
    icases HΦ' with ⟨HS, HR⟩
    iapply (run0_even c Set.univ (grid0.coords t) _ _ _ _ _ _ _ _ _ _ _ _ _ _ _ _ ((hcond0_0 t).mpr h0) (fun h => h1 ((hcond0_1 t).mp h)) (iblk0 V c 0 t) (iblk0 V c 1 t) _)
    isplitl [H0]; · iexact H0
    isplitl [H1]; · iexact H1
    isplitl [HS]; · iexact HS
    iintro ⟨H0, H1, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists d6; iexact H6
  · have h1 : t.val % 2 = 1 := by omega
    have hz : t.val ≠ 0 := by omega
    rw [show (dat0 V c).leavesExact 6 t = owns (c : Thread nD τ) (st0_6 t) fullShare (outAt0 V c t) from by
      unfold Dat.leavesExact; rw [live0_6_odd t h1, after0_6]]
    rw [PhiS0_pos' V c t hz]
    unfold outAt0
    rw [scAt0_odd V c t h1]
    iintro ⟨⟨HS, HR⟩, Ho, ⟨%d0, H0⟩, ⟨%d1, H1⟩, ⟨%d2, H2⟩, ⟨%d3, H3⟩, ⟨%d4, H4⟩, ⟨%d5, H5⟩, ⟨%d6, H6⟩⟩
    iapply (run0_odd c Set.univ (grid0.coords t) _ _ _ _ _ _ _ _ _ _ _ _ _ _ _ _ (fun h => h0 ((hcond0_0 t).mp h)) ((hcond0_1 t).mpr h1)
      (iblk0 V c 0 t) (iblk0 V c 1 t) (iblk0 V c 2 t) (iblk0 V c 3 t) (iblk0 V c 4 t) (iblk0 V c 5 t) (scAt0 V c (prev0 t)) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The class invariant is the invariant before the first point, -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- and the invariant after the last point gives it back: the accumulator's contents are forgotten. -/
theorem hout0 (c : Dev nD) : (dat0 V c).Φ (Fin.last cfg0.N) ⊢ (Pipeline.ΦA spec0 c : sProp 𝕄) := by
  rw [show (dat0 V c).Φ (Fin.last cfg0.N) = PhiS0 V c (Fin.last cfg0.N).val (Nat.le_of_lt_succ (Fin.last cfg0.N).isLt) from rfl]
  exact (PhiS0_any V c _ _).trans (PhiA0_join c)

/-- The same two in the shape a region's record asks: the generator register and the scoped buffers no window stages
    (beside anything `P`, dropped) make the invariant before the first point, -/
theorem hinR0 (c : Dev nD) (P : sProp 𝕄) :
    iprop((∃ r, prngReg c r) ∗ P ∗ Pipeline.scopedRest (Ix := Unit) (Name := ℕ) (U := UR sig nD τ) (Lvl := ℕ) (Val := Elt F) spec0 c) ⊢ (dat0 V c).Φ 0 := by
  refine .trans ?_ (hin0 V c)
  unfold Pipeline.ΦA
  iintro ⟨Hp, -, Hr⟩
  isplitl [Hr]; · iexact Hr
  iexact Hp

/-- and the invariant after the last point gives them back. -/
theorem houtR0 (c : Dev nD) :
    (dat0 V c).Φ (Fin.last cfg0.N) ⊢ iprop((∃ r, prngReg c r) ∗ Pipeline.scopedRest (Ix := Unit) (Name := ℕ) (U := UR sig nD τ) (Lvl := ℕ) (Val := Elt F) spec0 c) := by
  refine (hout0 V c).trans ?_
  unfold Pipeline.ΦA
  iintro ⟨Hr, Hp⟩
  isplitl [Hp]; · iexact Hp
  iexact Hr

/-- The shares the arrays are held at: the shared array's two windows a half each, every other array whole. -/
theorem share0 (c : Dev nD) : ∀ w : Fin cfg0.W, (dat0 V c).share w = if w = 1 then fullShare.left else if w = 2 then fullShare.right else fullShare := by
  intro w; fin_cases w <;> rfl

end Region0

end Cert.ReferenceIdeal.Hand

end
-- ==== Proof.RBody1.lean ====
/-
  The frame half of the reference program's second kernel region (the second graph-convolution layer with the
  perceptron head), by hand, at a parameter `V`: the contents of the core's buffers when the region is entered.

  Same grid and same accumulation as the first layer's region; at a last-half point the layer's projection of the sum is
  stored whole into the embedding output's block and its perceptron head into the prediction output's block.

  Stated here: the windows' blocks (`iblk1`), what the accumulator holds after each point (`scAt1`), what the outputs'
  buffers hold after a last-half point (`outAt1_10`, `outAt1_11`), the proof data `dat1`, the body obligation and the
  region invariant's two ends.
-/
import proofs.«130397_g2000105430876207_pallasbulk_1247_2_alg».proof.Proof.RBody0

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

/-! ## Region 1: the body's two branch conditions, in closed form over the grid -/

abbrev cond1_0 (i : grid1.Coords) : Prop := (Scalar.cmpi .ne (Scalar.extui (Scalar.cmpi .eq (BitVec.ofNat 32 (i 1).val) 0#32)) 0#32) = 1#1
abbrev cond1_1 (i : grid1.Coords) : Prop := k1_cond2 i = 1#1

theorem hcond1_0 : ∀ t : Fin cfg1.N, cond1_0 (grid1.coords t) ↔ t.val % 2 = 0 :=
  (by decide +kernel : ∀ t : Fin grid1.N, cond1_0 (grid1.coords t) ↔ t.val % 2 = 0)
theorem hcond1_1 : ∀ t : Fin cfg1.N, cond1_1 (grid1.coords t) ↔ t.val % 2 = 1 :=
  (by decide +kernel : ∀ t : Fin grid1.N, cond1_1 (grid1.coords t) ↔ t.val % 2 = 1)

/-! ## The body's rectangles -/

abbrev rS1 : Rect S1024x512 := Rect.unit (s := S1024x512) ![0, 0] S1024x512.size inb_S1024x512_S1024x512_0_0
/-- Rows 0 … 511 of the accumulator (edge type 0), -/
abbrev rLo1 : Rect S1024x512 := Rect.unit (s := S1024x512) ![0, 0] S512x512.size inb_S1024x512_S512x512_0_0
/-- rows 512 … 1023 (edge type 1). -/
abbrev rHi1 : Rect S1024x512 := Rect.unit (s := S1024x512) ![512, 0] S512x512.size inb_S1024x512_S512x512_512_0
/-- Type 0 / type 1 of a per-type weight. -/
abbrev rW1_0 : Rect S2x512x256 := Rect.unit (s := S2x512x256) ![0, 0, 0] S1x512x256.size inb_S2x512x256_S1x512x256_0_0_0
abbrev rW1_1 : Rect S2x512x256 := Rect.unit (s := S2x512x256) ![1, 0, 0] S1x512x256.size inb_S2x512x256_S1x512x256_1_0_0

/-! ## What the body leaves -/

/-- The accumulator after a point: the accumulator before it plus the block of A times the source rows. -/
def acc1 (x0 : Vec F S2x512x2048 .bf16) (xs : Vec F S1024x512 .f32) (x1 : Vec F S2048x512 .bf16) : Vec F S1024x512 .f32 :=
  k1_pay2 x0 xs x1

/-- The two types' projections of the accumulator `s`, the self rows `x2`, the weights `x3`, `x4` and the bias `x5`
    (the second before its rectifier, which the store's payload applies). -/
def proj1_lo (x2 : Vec F S512x512 .bf16) (s : Vec F S1024x512 .f32) (x3 x4 : Vec F S2x512x256 .bf16) (x5 : Vec F S2x1x256 .f32) :
    FVec F S512x256 .f32 :=
  k1_pay6 x2 (View.ld s rLo1) (View.ld x3 rW1_0) (View.ld x4 rW1_0) (View.ld x5 rB_0)
def proj1_hi (x2 : Vec F S512x512 .bf16) (s : Vec F S1024x512 .f32) (x3 x4 : Vec F S2x512x256 .bf16) (x5 : Vec F S2x1x256 .f32) :
    FVec F S512x256 .f32 :=
  k1_pay7 x2 (View.ld s rHi1) (View.ld x3 rW1_1) (View.ld x4 rW1_1) (View.ld x5 rB_1)

/-- The embedding block a last-half point stores, -/
def out1_10 (x2 : Vec F S512x512 .bf16) (s : Vec F S1024x512 .f32) (x3 x4 : Vec F S2x512x256 .bf16) (x5 : Vec F S2x1x256 .f32) :
    Vec F S512x512 .f32 :=
  k1_pay3 (proj1_lo x2 s x3 x4 x5) (proj1_hi x2 s x3 x4 x5) (Scalar.ofBits .f32 0x00000000#32)

/-- and the prediction block: the perceptron head (`x6` … `x9`) of that embedding. -/
def out1_11 (x2 : Vec F S512x512 .bf16) (s : Vec F S1024x512 .f32) (x3 x4 : Vec F S2x512x256 .bf16) (x5 : Vec F S2x1x256 .f32)
    (x6 : Vec F S512x128 .bf16) (x7 : Vec F S1x128 .f32) (x8 : Vec F S128x128 .bf16) (x9 : Vec F S1x128 .f32) : Vec F S512x128 .f32 :=
  k1_pay4 (proj1_lo x2 s x3 x4 x5) (proj1_hi x2 s x3 x4 x5) (Scalar.ofBits .f32 0x00000000#32) x6 x7 x8 x9

/-! ## The body's two runs -/

set_option maxHeartbeats 1000000 in
/-- A first-half point: the accumulator is zeroed and the block's product added; nothing else is touched. -/
theorem run1_even (c : Dev nD) (E : Set ℕ) (i : grid1.Coords) (arg2 : Memref sig .tc .vmem S2x512x2048 .bf16) (harg2 : arg2.IsWhole) (arg3 : Memref sig .tc .vmem S2048x512 .bf16) (harg3 : arg3.IsWhole) (arg4 : Memref sig .tc .vmem S512x512 .bf16) (harg4 : arg4.IsWhole) (arg5 : Memref sig .tc .vmem S2x512x256 .bf16) (harg5 : arg5.IsWhole) (arg6 : Memref sig .tc .vmem S2x512x256 .bf16) (harg6 : arg6.IsWhole) (arg7 : Memref sig .tc .vmem S2x1x256 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S128x128 .bf16) (harg10 : arg10.IsWhole) (arg11 : Memref sig .tc .vmem S1x128 .f32) (harg11 : arg11.IsWhole) (arg12 : Memref sig .tc .vmem S512x512 .f32) (harg12 : arg12.IsWhole) (arg13 : Memref sig .tc .vmem S512x128 .f32) (harg13 : arg13.IsWhole) (arg14 : Memref sig .tc .vmem S1024x512 .f32) (harg14 : arg14.IsWhole)
    (hc0 : cond1_0 i) (hc1 : ¬cond1_1 i)
    (x0 : Vec F S2x512x2048 .bf16) (x1 : Vec F S2048x512 .bf16) (K : PUnit → sProp 𝕄) :
    iprop(owns (c : Thread nD τ) arg2 fullShare x0 ∗ owns (c : Thread nD τ) arg3 fullShare x1 ∗ (∃ d, owns (c : Thread nD τ) arg14 fullShare d)
        ∗ (iprop(owns (c : Thread nD τ) arg2 fullShare x0 ∗ owns (c : Thread nD τ) arg3 fullShare x1 ∗ owns (c : Thread nD τ) arg14 fullShare (acc1 x0 (k1_pay1 (F := F)) x1)) -∗ K ⟨⟩))
      ⊢ wp frame (wpE (defs₀ (F := F)) Variants.none c none) E (cc1_sage_layer_mlp_kernel i arg2 harg2 arg3 harg3 arg4 harg4 arg5 harg5 arg6 harg6 arg7 harg7 arg8 harg8 arg9 harg9 arg10 harg10 arg11 harg11 arg12 harg12 arg13 harg13 arg14 harg14) K := by
  simp only [cc1_sage_layer_mlp_kernel_eq_skeleton]; unfold cc1_sage_layer_mlp_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  unfold run1_even.sl.v5 run1_even.sl.HS_1 acc1
  refine (read_writes_whole _ _ z2 _ _ _).trans ?_
  rw [readAt_whole _ _ z3, readAt_whole _ _ z2, View.readCov_unit_zero _ z2]

set_option maxHeartbeats 4000000 in
/-- A last-half point: the block's product is added to the accumulator the first half left, and the projection of the
    sum and its perceptron head are stored whole into the two outputs' buffers. -/
theorem run1_odd (c : Dev nD) (E : Set ℕ) (i : grid1.Coords) (arg2 : Memref sig .tc .vmem S2x512x2048 .bf16) (harg2 : arg2.IsWhole) (arg3 : Memref sig .tc .vmem S2048x512 .bf16) (harg3 : arg3.IsWhole) (arg4 : Memref sig .tc .vmem S512x512 .bf16) (harg4 : arg4.IsWhole) (arg5 : Memref sig .tc .vmem S2x512x256 .bf16) (harg5 : arg5.IsWhole) (arg6 : Memref sig .tc .vmem S2x512x256 .bf16) (harg6 : arg6.IsWhole) (arg7 : Memref sig .tc .vmem S2x1x256 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S128x128 .bf16) (harg10 : arg10.IsWhole) (arg11 : Memref sig .tc .vmem S1x128 .f32) (harg11 : arg11.IsWhole) (arg12 : Memref sig .tc .vmem S512x512 .f32) (harg12 : arg12.IsWhole) (arg13 : Memref sig .tc .vmem S512x128 .f32) (harg13 : arg13.IsWhole) (arg14 : Memref sig .tc .vmem S1024x512 .f32) (harg14 : arg14.IsWhole)
    (hc0 : ¬cond1_0 i) (hc1 : cond1_1 i)
    (x0 : Vec F S2x512x2048 .bf16) (x1 : Vec F S2048x512 .bf16) (x2 : Vec F S512x512 .bf16) (x3 x4 : Vec F S2x512x256 .bf16) (x5 : Vec F S2x1x256 .f32)
    (x6 : Vec F S512x128 .bf16) (x7 : Vec F S1x128 .f32) (x8 : Vec F S128x128 .bf16) (x9 : Vec F S1x128 .f32)
    (xs : Vec F S1024x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
        ∗ (∃ d, owns (c : Thread nD τ) arg12 fullShare d) ∗ (∃ d, owns (c : Thread nD τ) arg13 fullShare d) ∗ owns (c : Thread nD τ) arg14 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg12 fullShare (out1_10 x2 (acc1 x0 xs x1) x3 x4 x5) ∗ owns (c : Thread nD τ) arg13 fullShare (out1_11 x2 (acc1 x0 xs x1) x3 x4 x5 x6 x7 x8 x9)
            ∗ owns (c : Thread nD τ) arg14 fullShare (acc1 x0 xs x1)) -∗ K ⟨⟩))
      ⊢ wp frame (wpE (defs₀ (F := F)) Variants.none c none) E (cc1_sage_layer_mlp_kernel i arg2 harg2 arg3 harg3 arg4 harg4 arg5 harg5 arg6 harg6 arg7 harg7 arg8 harg8 arg9 harg9 arg10 harg10 arg11 harg11 arg12 harg12 arg13 harg13 arg14 harg14) K := by
  simp only [cc1_sage_layer_mlp_kernel_eq_skeleton]; unfold cc1_sage_layer_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs, %hfs, HS⟩, Hk⟩
  subst hf0; subst hf1; subst hf2; subst hf3; subst hf4; subst hf5; subst hf6; subst hf7; subst hf8; subst hf9; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    unfold run1_odd.sl.r run1_odd.sl.r_1 run1_odd.sl.cst_37 out1_10 proj1_lo proj1_hi acc1
    refine (read_writes_whole _ _ z2 _ _ _).trans ?_
    unfold run1_odd.sl.v18 run1_odd.sl.v33 run1_odd.sl.HS_1
    rw [readCov_whole_ld _ z2, readCov_whole_ld _ z2]
    repeat (first | rw [readAt_whole _ _ z2] | rw [readAt_whole _ _ z3])
    try rfl
  isplitl [H11]
  · iexists _; isplitr
    swap; · iexact H11
    ipureintro
    unfold run1_odd.sl.r run1_odd.sl.r_1 run1_odd.sl.cst_37 out1_11 proj1_lo proj1_hi acc1
    refine (read_writes_whole _ _ z2 _ _ _).trans ?_
    unfold run1_odd.sl.v18 run1_odd.sl.v33 run1_odd.sl.HS_1
    rw [readCov_whole_ld _ z2, readCov_whole_ld _ z2]
    repeat (first | rw [readAt_whole _ _ z2] | rw [readAt_whole _ _ z3])
    try rfl
  iexists _; isplitr
  swap; · iexact HS
  ipureintro
  unfold run1_odd.sl.HS_1 acc1
  refine (read_writes_whole _ _ z2 _ _ _).trans ?_
  repeat (first | rw [readAt_whole _ _ z2] | rw [readAt_whole _ _ z3])
  try rfl

/-! ## Region 1 at the entry contents `V`: the windows' blocks -/

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's buffer holds its block at every point, fetched there or not, for any proof data whose array is
    `V`'s and whose body leaves the block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## Where the outputs are idle -/

theorem idle1_10_even : ∀ t : Fin cfg1.N, t.val % 2 = 0 → cfg1.idle 10 (grid1.coords t) = true := by decide +kernel
theorem live1_10_odd : ∀ t : Fin cfg1.N, t.val % 2 = 1 → cfg1.idle 10 (grid1.coords t) = false := by decide +kernel
theorem noFlush1_10_even : ∀ t : Fin cfg1.N, t.val % 2 = 0 → (cfg1.win 10).flush t = false := by decide +kernel
theorem idle1_11_even : ∀ t : Fin cfg1.N, t.val % 2 = 0 → cfg1.idle 11 (grid1.coords t) = true := by decide +kernel
theorem live1_11_odd : ∀ t : Fin cfg1.N, t.val % 2 = 1 → cfg1.idle 11 (grid1.coords t) = false := by decide +kernel
theorem noFlush1_11_even : ∀ t : Fin cfg1.N, t.val % 2 = 0 → (cfg1.win 11).flush t = false := by decide +kernel

/-! ## What the accumulator and the outputs' buffers hold after each point -/

/-- The point before. -/
abbrev prev1 (t : Fin cfg1.N) : Fin cfg1.N := ⟨t.val - 1, Nat.lt_of_le_of_lt (Nat.sub_le _ _) t.isLt⟩

/-- The accumulator after point `t`: at a first-half point zero plus that half's product; at a last-half point the
    first half's (the point before) plus this half's. -/
def scAt1 (c : Dev nD) (t : Fin cfg1.N) : Vec F S1024x512 .f32 :=
  acc1 (iblk1 V c 0 t)
    (if t.val % 2 = 0 then (k1_pay1 (F := F) : Vec F S1024x512 .f32)
      else acc1 (iblk1 V c 0 (prev1 t)) (k1_pay1 (F := F)) (iblk1 V c 1 (prev1 t)))
    (iblk1 V c 1 t)

theorem scAt1_even (c : Dev nD) (t : Fin cfg1.N) (h : t.val % 2 = 0) :
    scAt1 V c t = acc1 (iblk1 V c 0 t) (k1_pay1 (F := F)) (iblk1 V c 1 t) := by
  unfold scAt1; rw [if_pos h]

theorem scAt1_odd (c : Dev nD) (t : Fin cfg1.N) (h : t.val % 2 = 1) :
    scAt1 V c t = acc1 (iblk1 V c 0 t) (scAt1 V c (prev1 t)) (iblk1 V c 1 t) := by
  have hp : (prev1 t).val % 2 = 0 := by show (t.val - 1) % 2 = 0; omega
  rw [scAt1_even V c (prev1 t) hp]
  unfold scAt1; rw [if_neg (by omega)]

/-- The embedding output's buffer after point `t` (consulted at the last-half points only), -/
def outAt1_10 (c : Dev nD) (t : Fin cfg1.N) : Vec F S512x512 .f32 :=
  out1_10 (iblk1 V c 2 t) (scAt1 V c t) (iblk1 V c 3 t) (iblk1 V c 4 t) (iblk1 V c 5 t)

/-- and the prediction output's. -/
def outAt1_11 (c : Dev nD) (t : Fin cfg1.N) : Vec F S512x128 .f32 :=
  out1_11 (iblk1 V c 2 t) (scAt1 V c t) (iblk1 V c 3 t) (iblk1 V c 4 t) (iblk1 V c 5 t)
    (iblk1 V c 6 t) (iblk1 V c 7 t) (iblk1 V c 8 t) (iblk1 V c 9 t)

/-! ## The invariant: the accumulator at its tracked contents beside the other scoped buffers -/

abbrev scM1 : Memref sig .tc .vmem S1024x512 .f32 := Memref.whole cc1_scratch0

/-- Everything of the class invariant but the accumulator. -/
def restOf1 (c : Dev nD) : sProp 𝕄 :=
  iprop((∃ d, owns (c : Thread nD τ) scM1 fullShare d) -∗ (Pipeline.ΦA spec1 c : sProp 𝕄))

/-- The class invariant hands out the accumulator (the last of the scoped buffers no window stages). -/
theorem PhiA1_split (c : Dev nD) :
    (Pipeline.ΦA spec1 c : sProp 𝕄) ⊢ iprop((∃ d, owns (c : Thread nD τ) scM1 fullShare d) ∗ restOf1 (F := F) c) := by
  unfold restOf1 Pipeline.ΦA
  rw [scopedRest1_eq]
  simp only [scM1, owns_whole]
  iintro ⟨⟨R0, R1, R2, R3, R4, R5, R6, R7, R8, R9, R10, R11, HS⟩, Hg⟩
  isplitl [HS]; · iexact HS
  iintro HS
  isplitl [R0 R1 R2 R3 R4 R5 R6 R7 R8 R9 R10 R11 HS]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    iexact HS
  iexact Hg

/-- And takes it back. -/
theorem PhiA1_join (c : Dev nD) :
    iprop((∃ d, owns (c : Thread nD τ) scM1 fullShare d) ∗ restOf1 (F := F) c) ⊢ (Pipeline.ΦA spec1 c : sProp 𝕄) := by
  unfold restOf1
  iintro ⟨HS, HR⟩
  iapply HR; iexact HS

/-- Before point `n`: the class invariant before the first, then the accumulator at what the point before left. -/
def PhiS1 (c : Dev nD) : (n : ℕ) → n ≤ cfg1.N → sProp 𝕄
  | 0, _ => Pipeline.ΦA spec1 c
  | n + 1, hn => iprop(owns (c : Thread nD τ) scM1 fullShare (scAt1 V c ⟨n, hn⟩) ∗ restOf1 c)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare (scAt1 V c ⟨n, hn⟩) ∗ restOf1 c) := rfl

theorem PhiS1_pos (c : Dev nD) (n : ℕ) (h : n ≤ cfg1.N) (hz : n ≠ 0) :
    PhiS1 V c n h = iprop(owns (c : Thread nD τ) scM1 fullShare (scAt1 V c ⟨n - 1, by omega⟩) ∗ restOf1 c) := by
  cases n with
  | zero => exact absurd rfl hz
  | succ n => rfl

/-- At any point the invariant hands out the accumulator at some contents. -/
theorem PhiS1_any (c : Dev nD) (n : ℕ) (h : n ≤ cfg1.N) :
    PhiS1 V c n h ⊢ iprop((∃ d, owns (c : Thread nD τ) scM1 fullShare d) ∗ restOf1 (F := F) c) := by
  cases n with
  | zero => exact PhiA1_split c
  | succ n =>
    rw [PhiS1_succ]
    iintro ⟨HS, HR⟩
    isplitl [HS]; · iexists _; iexact HS
    iexact HR

/-! ## The proof data -/

/-- Region 1's proof data on core `c`: the arrays as the region finds them; after the body each input's buffer at its
    block, the outputs' at `outAt1_10`, `outAt1_11`; the invariant `PhiS1`; the shared array's two windows hold a half
    each; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => outAt1_10 V c t
    | ⟨11, _⟩ => outAt1_11 V c t
  Φ t := PhiS1 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = outAt1_10 V c t := by dsimp only [dat1]
theorem after1_11 (c : Dev nD) (t : Fin cfg1.N) : (dat1 V c).after 11 t = outAt1_11 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-! ## The body obligation, at a generic point -/

theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
theorem live1_3 : ∀ t : Fin cfg1.N, cfg1.idle 3 (grid1.coords t) = false := fun _ => rfl
theorem live1_4 : ∀ t : Fin cfg1.N, cfg1.idle 4 (grid1.coords t) = false := fun _ => rfl
theorem live1_5 : ∀ t : Fin cfg1.N, cfg1.idle 5 (grid1.coords t) = false := fun _ => rfl
theorem live1_6 : ∀ t : Fin cfg1.N, cfg1.idle 6 (grid1.coords t) = false := fun _ => rfl
theorem live1_7 : ∀ t : Fin cfg1.N, cfg1.idle 7 (grid1.coords t) = false := fun _ => rfl
theorem live1_8 : ∀ t : Fin cfg1.N, cfg1.idle 8 (grid1.coords t) = false := fun _ => rfl
theorem live1_9 : ∀ t : Fin cfg1.N, cfg1.idle 9 (grid1.coords t) = false := fun _ => rfl

theorem leaves1_0 (c : Dev nD) (t : Fin cfg1.N) :
    (dat1 V c).leavesExact 0 t = owns (c : Thread nD τ) (st1_0 t) fullShare (iblk1 V c 0 t) := by
  unfold Dat.leavesExact; rw [live1_0 t, after1_0]
theorem leaves1_1 (c : Dev nD) (t : Fin cfg1.N) :
    (dat1 V c).leavesExact 1 t = owns (c : Thread nD τ) (st1_1 t) fullShare (iblk1 V c 1 t) := by
  unfold Dat.leavesExact; rw [live1_1 t, after1_1]
theorem leaves1_2 (c : Dev nD) (t : Fin cfg1.N) :
    (dat1 V c).leavesExact 2 t = owns (c : Thread nD τ) (st1_2 t) fullShare (iblk1 V c 2 t) := by
  unfold Dat.leavesExact; rw [live1_2 t, after1_2]
theorem leaves1_3 (c : Dev nD) (t : Fin cfg1.N) :
    (dat1 V c).leavesExact 3 t = owns (c : Thread nD τ) (st1_3 t) fullShare (iblk1 V c 3 t) := by
  unfold Dat.leavesExact; rw [live1_3 t, after1_3]
theorem leaves1_4 (c : Dev nD) (t : Fin cfg1.N) :
    (dat1 V c).leavesExact 4 t = owns (c : Thread nD τ) (st1_4 t) fullShare (iblk1 V c 4 t) := by
  unfold Dat.leavesExact; rw [live1_4 t, after1_4]
theorem leaves1_5 (c : Dev nD) (t : Fin cfg1.N) :
    (dat1 V c).leavesExact 5 t = owns (c : Thread nD τ) (st1_5 t) fullShare (iblk1 V c 5 t) := by
  unfold Dat.leavesExact; rw [live1_5 t, after1_5]
theorem leaves1_6 (c : Dev nD) (t : Fin cfg1.N) :
    (dat1 V c).leavesExact 6 t = owns (c : Thread nD τ) (st1_6 t) fullShare (iblk1 V c 6 t) := by
  unfold Dat.leavesExact; rw [live1_6 t, after1_6]
theorem leaves1_7 (c : Dev nD) (t : Fin cfg1.N) :
    (dat1 V c).leavesExact 7 t = owns (c : Thread nD τ) (st1_7 t) fullShare (iblk1 V c 7 t) := by
  unfold Dat.leavesExact; rw [live1_7 t, after1_7]
theorem leaves1_8 (c : Dev nD) (t : Fin cfg1.N) :
    (dat1 V c).leavesExact 8 t = owns (c : Thread nD τ) (st1_8 t) fullShare (iblk1 V c 8 t) := by
  unfold Dat.leavesExact; rw [live1_8 t, after1_8]
theorem leaves1_9 (c : Dev nD) (t : Fin cfg1.N) :
    (dat1 V c).leavesExact 9 t = owns (c : Thread nD τ) (st1_9 t) fullShare (iblk1 V c 9 t) := by
  unfold Dat.leavesExact; rw [live1_9 t, after1_9]

theorem PhiS1_succ' (c : Dev nD) (t : Fin cfg1.N) :
    PhiS1 V c (t.val + 1) t.isLt = iprop(owns (c : Thread nD τ) scM1 fullShare (scAt1 V c t) ∗ restOf1 c) := rfl

theorem PhiS1_pos' (c : Dev nD) (t : Fin cfg1.N) (hz : t.val ≠ 0) :
    PhiS1 V c t.val (Nat.le_of_lt t.isLt) = iprop(owns (c : Thread nD τ) scM1 fullShare (scAt1 V c (prev1 t)) ∗ restOf1 c) :=
  PhiS1_pos V c _ _ hz

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t)

set_option maxHeartbeats 8000000 in
/-- The body at any point: as for the first layer's region, with two outputs. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).owesAt () t.succ = (dat1 V c).owesAt () t.castSucc from rfl]
  rw [show (dat1 V c).Φ t.succ = PhiS1 V c (t.val + 1) t.isLt from rfl, PhiS1_succ']
  rw [leaves1_0, leaves1_1, leaves1_2, leaves1_3, leaves1_4, leaves1_5, leaves1_6, leaves1_7, leaves1_8, leaves1_9, PhiS1_castSucc]
  by_cases h0 : t.val % 2 = 0
  · have h1 : ¬ t.val % 2 = 1 := by omega
    rw [Dat.leavesExact_idle (dat1 V c) 10 t (idle1_10_even t h0) (noFlush1_10_even t h0),
      Dat.leavesExact_idle (dat1 V c) 11 t (idle1_11_even t h0) (noFlush1_11_even t h0), scAt1_even V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    ihave HΦ' := (PhiS1_any V c t.val _) $$ HΦ
    icases HΦ' with ⟨HS, HR⟩
    iapply (run1_even c Set.univ (grid1.coords t) _ _ _ _ _ _ _ _ _ _ _ _ _ _ _ _ _ _ _ _ _ _ _ _ _ _ ((hcond1_0 t).mpr h0) (fun h => h1 ((hcond1_1 t).mp h)) (iblk1 V c 0 t) (iblk1 V c 1 t) _)
    isplitl [H0]; · iexact H0
    isplitl [H1]; · iexact H1
    isplitl [HS]; · iexact HS
    iintro ⟨H0, H1, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists d10; iexact H10
    iexists d11; iexact H11
  · have h1 : t.val % 2 = 1 := by omega
    have hz : t.val ≠ 0 := by omega
    rw [show (dat1 V c).leavesExact 10 t = owns (c : Thread nD τ) (st1_10 t) fullShare (outAt1_10 V c t) from by
      unfold Dat.leavesExact; rw [live1_10_odd t h1, after1_10]]
    rw [show (dat1 V c).leavesExact 11 t = owns (c : Thread nD τ) (st1_11 t) fullShare (outAt1_11 V c t) from by
      unfold Dat.leavesExact; rw [live1_11_odd t h1, after1_11]]
    rw [PhiS1_pos' V c t hz]
    unfold outAt1_10 outAt1_11
    rw [scAt1_odd V c t h1]
    iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run1_odd c Set.univ (grid1.coords t) _ _ _ _ _ _ _ _ _ _ _ _ _ _ _ _ _ _ _ _ _ _ _ _ _ _ (fun h => h0 ((hcond1_0 t).mp h)) ((hcond1_1 t).mpr h1)
      (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (scAt1 V c (prev1 t)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS]; · iexact HS
    iintro ⟨H0, H1, H2, H3, H4, H5, H6, H7, H8, H9, H10, H11, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The class invariant is the invariant before the first point, -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- and the invariant after the last point gives it back: the accumulator's contents are forgotten. -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl]
  exact (PhiS1_any V c _ _).trans (PhiA1_join c)

/-- The same two in the shape a region's record asks. -/
theorem hinR1 (c : Dev nD) (P : sProp 𝕄) :
    iprop((∃ r, prngReg c r) ∗ P ∗ Pipeline.scopedRest (Ix := Unit) (Name := ℕ) (U := UR sig nD τ) (Lvl := ℕ) (Val := Elt F) spec1 c) ⊢ (dat1 V c).Φ 0 := by
  refine .trans ?_ (hin1 V c)
  unfold Pipeline.ΦA
  iintro ⟨Hp, -, Hr⟩
  isplitl [Hr]; · iexact Hr
  iexact Hp

theorem houtR1 (c : Dev nD) :
    (dat1 V c).Φ (Fin.last cfg1.N) ⊢ iprop((∃ r, prngReg c r) ∗ Pipeline.scopedRest (Ix := Unit) (Name := ℕ) (U := UR sig nD τ) (Lvl := ℕ) (Val := Elt F) spec1 c) := by
  refine (hout1 V c).trans ?_
  unfold Pipeline.ΦA
  iintro ⟨Hr, Hp⟩
  isplitl [Hp]; · iexact Hp
  iexact Hr

/-- The shares the arrays are held at: the shared array's two windows a half each, every other array whole. -/
theorem share1 (c : Dev nD) : ∀ w : Fin cfg1.W, (dat1 V c).share w = if w = 1 then fullShare.left else if w = 2 then fullShare.right else fullShare := by
  intro w; fin_cases w <;> rfl

end Region1

end Cert.ReferenceIdeal.Hand

end
-- ==== Proof.RRun.lean ====
/-
  The reference program's run.  Its main function is three stretches of host operations around two pipelined regions.
  In both regions windows 1 and 2 read ONE array, so the array's full share is dealt in two halves to the two windows at
  entry and joined again at exit.  The buffer contents at each boundary are the launch memory pushed through the host
  stretches, with each region's output arrays at what the region's pipeline wrote (the write-backs of all its points
  folded).  The run: every weakly fair execution terminates and the final memory holds the last boundary's contents at
  every unscoped buffer; then each result is read back off those contents.
-/
import proofs.«130397_g2000105430876207_pallasbulk_1247_2_alg».proof.Proof.Gen.ReferenceIdeal.Regions
import proofs.«130397_g2000105430876207_pallasbulk_1247_2_alg».proof.Proof.RBody0
import proofs.«130397_g2000105430876207_pallasbulk_1247_2_alg».proof.Proof.RBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first pipeline's arrays among the core's unscoped buffers

Windows 1 and 2 of the first pipeline read ONE array. The 6 distinct buffers behind the 7 windows, each whole at the
full share, are the pipeline's 7 arrays at the shares the proof data name: the shared buffer's full share is the sum of
the two halves windows 1 and 2 hold. Stated over an abstract valuation and abstract proof data. -/

/-- The share each window of the first pipeline holds its array at. -/
def sh0 : Fin cfg0.W → PosShare TreeShare := fun w => if w = 1 then fullShare.left else if w = 2 then fullShare.right else fullShare

section Shared0

variable {c : Dev nD} (dat : Dat τ (Elt F) Unit ℕ (UR sig nD τ) ℕ cfg0 c)
  (hs : ∀ w, dat.share w = sh0 w)
  (Vv : (b : Ref sig .tc) → Buf (Elt F) ((c : Thread nD τ).loc b))
  (G : (w : Fin cfg0.W) → Buf (Elt F) ((cfg0.win w).arr.view.loc (c : Thread nD τ)))
  (hG : ∀ w, G w = Vv (Pipeline.arrRef spec0 w))

include hs hG in
/-- The arrays, each a whole buffer, window by window at its share and at the valuation's contents. -/
theorem arrays0_eq : (dat.arrays G : sProp 𝕄)
    = bigSep Finset.univ fun w : Fin cfg0.W => (((c : Thread nD τ).loc (Pipeline.arrRef spec0 w)) ↦{sh0 w} Vv (Pipeline.arrRef spec0 w) : sProp 𝕄) := by
  unfold Dat.arrays
  exact bigSep_congr fun w _ => by rw [(arr_whole0 w).set_eq_univ, hs w, hG w]

/-- The distinct buffers behind the windows, one by one. -/
theorem arrBufs0_eq : (Pipeline.arrBufs spec0 c Vv : sProp 𝕄)
    = iprop((((c : Thread nD τ).loc (Pipeline.arrRef spec0 0)) ↦{fullShare} Vv (Pipeline.arrRef spec0 0))
        ∗ (((c : Thread nD τ).loc (Pipeline.arrRef spec0 1)) ↦{fullShare} Vv (Pipeline.arrRef spec0 1))
        ∗ (((c : Thread nD τ).loc (Pipeline.arrRef spec0 3)) ↦{fullShare} Vv (Pipeline.arrRef spec0 3))
        ∗ (((c : Thread nD τ).loc (Pipeline.arrRef spec0 4)) ↦{fullShare} Vv (Pipeline.arrRef spec0 4))
        ∗ (((c : Thread nD τ).loc (Pipeline.arrRef spec0 5)) ↦{fullShare} Vv (Pipeline.arrRef spec0 5))
        ∗ (((c : Thread nD τ).loc (Pipeline.arrRef spec0 6)) ↦{fullShare} Vv (Pipeline.arrRef spec0 6))) := by
  unfold Pipeline.arrBufs
  exact bigSep_eq_bigSepL_of_eq [Pipeline.arrRef spec0 0, Pipeline.arrRef spec0 1, Pipeline.arrRef spec0 3, Pipeline.arrRef spec0 4, Pipeline.arrRef spec0 5, Pipeline.arrRef spec0 6] (by decide) (by decide) _

include hs hG in
/-- ENTRY: the buffers at the full share make the arrays at the windows' shares. -/
theorem arrays0_of_arrBufs : (Pipeline.arrBufs spec0 c Vv : sProp 𝕄) ⊢ dat.arrays G := by
  rewrite [arrBufs0_eq, arrays0_eq dat hs Vv G hG, bigSep_W0]
  iintro ⟨H0, H1, H3, H4, H5, H6⟩
  ihave H12 := (pointsTo_share (PosShare.mem_left_op_right fullShare)).1 $$ H1
  icases H12 with ⟨H1, H2⟩
  isplitl [H0]; · iexact H0
  isplitl [H1]; · iexact H1
  isplitl [H2]; · iexact H2
  isplitl [H3]; · iexact H3
  isplitl [H4]; · iexact H4
  isplitl [H5]; · iexact H5
  iexact H6

include hs hG in
/-- EXIT: the arrays at the windows' shares give the buffers back at the full share. -/
theorem arrBufs0_of_arrays : (dat.arrays G : sProp 𝕄) ⊢ Pipeline.arrBufs spec0 c Vv := by
  rewrite [arrBufs0_eq, arrays0_eq dat hs Vv G hG, bigSep_W0]
  iintro ⟨H0, H1, H2, H3, H4, H5, H6⟩
  ihave H12 := (pointsTo_share (PosShare.mem_left_op_right fullShare)).2 $$ [H1 H2]
  · isplitl [H1]; · iexact H1
    iexact H2
  isplitl [H0]; · iexact H0
  isplitl [H12]; · iexact H12
  isplitl [H3]; · iexact H3
  isplitl [H4]; · iexact H4
  isplitl [H5]; · iexact H5
  iexact H6

include hs in
/-- ENTRY, whole: a core's unscoped buffers at a valuation are the arrays at the proof data's entry contents (read off
    the valuation) and the unscoped rest. -/
theorem entry0 (hA : ∀ w, dat.A w = Vv (Pipeline.arrRef spec0 w)) :
    (unscopedBufs c Vv : sProp 𝕄) ⊢ iprop(dat.arrays (dat.arrAt · 0) ∗ Pipeline.unscopedRest spec0 c Vv) := by
  rewrite [Pipeline.unscopedBufs_split₀ cfgs (0 : Fin 2) winFacts₀0.arr_unscoped c Vv]
  exact sep_mono (arrays0_of_arrBufs dat hs Vv (dat.arrAt · 0) hA) .rfl

include hs in
/-- EXIT, whole: the arrays at contents G and the unscoped rest at a valuation are the unscoped buffers at any valuation
    that has the arrays at G and agrees with the first off them. -/
theorem exit0 (Vv' : (b : Ref sig .tc) → Buf (Elt F) ((c : Thread nD τ).loc b))
    (hG' : ∀ w, G w = Vv' (Pipeline.arrRef spec0 w))
    (hrest : ∀ b, b ∉ Finset.univ.image (Pipeline.arrRef spec0) → Vv' b = Vv b) :
    iprop(dat.arrays G ∗ Pipeline.unscopedRest spec0 c Vv) ⊢ (unscopedBufs c Vv' : sProp 𝕄) := by
  rewrite [Pipeline.unscopedBufs_split₀ cfgs (0 : Fin 2) winFacts₀0.arr_unscoped c Vv']
  refine sep_mono (arrBufs0_of_arrays dat hs Vv' G hG') (Entails.of_eq ?_)
  unfold Pipeline.unscopedRest
  exact bigSep_congr fun b hb => by rw [hrest b (Finset.mem_sdiff.mp hb).2]

end Shared0

/-! ## The second pipeline's arrays among the core's unscoped buffers

Windows 1 and 2 of the second pipeline read ONE array. The 11 distinct buffers behind the 12 windows, each whole at the
full share, are the pipeline's 12 arrays at the shares the proof data name: the shared buffer's full share is the sum of
the two halves windows 1 and 2 hold. Stated over an abstract valuation and abstract proof data. -/

/-- The share each window of the second pipeline holds its array at. -/
def sh1 : Fin cfg1.W → PosShare TreeShare := fun w => if w = 1 then fullShare.left else if w = 2 then fullShare.right else fullShare

section Shared1

variable {c : Dev nD} (dat : Dat τ (Elt F) Unit ℕ (UR sig nD τ) ℕ cfg1 c)
  (hs : ∀ w, dat.share w = sh1 w)
  (Vv : (b : Ref sig .tc) → Buf (Elt F) ((c : Thread nD τ).loc b))
  (G : (w : Fin cfg1.W) → Buf (Elt F) ((cfg1.win w).arr.view.loc (c : Thread nD τ)))
  (hG : ∀ w, G w = Vv (Pipeline.arrRef spec1 w))

include hs hG in
/-- The arrays, each a whole buffer, window by window at its share and at the valuation's contents. -/
theorem arrays1_eq : (dat.arrays G : sProp 𝕄)
    = bigSep Finset.univ fun w : Fin cfg1.W => (((c : Thread nD τ).loc (Pipeline.arrRef spec1 w)) ↦{sh1 w} Vv (Pipeline.arrRef spec1 w) : sProp 𝕄) := by
  unfold Dat.arrays
  exact bigSep_congr fun w _ => by rw [(arr_whole1 w).set_eq_univ, hs w, hG w]

/-- The distinct buffers behind the windows, one by one. -/
theorem arrBufs1_eq : (Pipeline.arrBufs spec1 c Vv : sProp 𝕄)
    = iprop((((c : Thread nD τ).loc (Pipeline.arrRef spec1 0)) ↦{fullShare} Vv (Pipeline.arrRef spec1 0))
        ∗ (((c : Thread nD τ).loc (Pipeline.arrRef spec1 1)) ↦{fullShare} Vv (Pipeline.arrRef spec1 1))
        ∗ (((c : Thread nD τ).loc (Pipeline.arrRef spec1 3)) ↦{fullShare} Vv (Pipeline.arrRef spec1 3))
        ∗ (((c : Thread nD τ).loc (Pipeline.arrRef spec1 4)) ↦{fullShare} Vv (Pipeline.arrRef spec1 4))
        ∗ (((c : Thread nD τ).loc (Pipeline.arrRef spec1 5)) ↦{fullShare} Vv (Pipeline.arrRef spec1 5))
        ∗ (((c : Thread nD τ).loc (Pipeline.arrRef spec1 6)) ↦{fullShare} Vv (Pipeline.arrRef spec1 6))
        ∗ (((c : Thread nD τ).loc (Pipeline.arrRef spec1 7)) ↦{fullShare} Vv (Pipeline.arrRef spec1 7))
        ∗ (((c : Thread nD τ).loc (Pipeline.arrRef spec1 8)) ↦{fullShare} Vv (Pipeline.arrRef spec1 8))
        ∗ (((c : Thread nD τ).loc (Pipeline.arrRef spec1 9)) ↦{fullShare} Vv (Pipeline.arrRef spec1 9))
        ∗ (((c : Thread nD τ).loc (Pipeline.arrRef spec1 10)) ↦{fullShare} Vv (Pipeline.arrRef spec1 10))
        ∗ (((c : Thread nD τ).loc (Pipeline.arrRef spec1 11)) ↦{fullShare} Vv (Pipeline.arrRef spec1 11))) := by
  unfold Pipeline.arrBufs
  exact bigSep_eq_bigSepL_of_eq [Pipeline.arrRef spec1 0, Pipeline.arrRef spec1 1, Pipeline.arrRef spec1 3, Pipeline.arrRef spec1 4, Pipeline.arrRef spec1 5, Pipeline.arrRef spec1 6, Pipeline.arrRef spec1 7, Pipeline.arrRef spec1 8, Pipeline.arrRef spec1 9, Pipeline.arrRef spec1 10, Pipeline.arrRef spec1 11] (by decide) (by decide) _

include hs hG in
/-- ENTRY: the buffers at the full share make the arrays at the windows' shares. -/
theorem arrays1_of_arrBufs : (Pipeline.arrBufs spec1 c Vv : sProp 𝕄) ⊢ dat.arrays G := by
  rewrite [arrBufs1_eq, arrays1_eq dat hs Vv G hG, bigSep_W1]
  iintro ⟨H0, H1, H3, H4, H5, H6, H7, H8, H9, H10, H11⟩
  ihave H12 := (pointsTo_share (PosShare.mem_left_op_right fullShare)).1 $$ H1
  icases H12 with ⟨H1, H2⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

include hs hG in
/-- EXIT: the arrays at the windows' shares give the buffers back at the full share. -/
theorem arrBufs1_of_arrays : (dat.arrays G : sProp 𝕄) ⊢ Pipeline.arrBufs spec1 c Vv := by
  rewrite [arrBufs1_eq, arrays1_eq dat hs Vv G hG, bigSep_W1]
  iintro ⟨H0, H1, H2, H3, H4, H5, H6, H7, H8, H9, H10, H11⟩
  ihave H12 := (pointsTo_share (PosShare.mem_left_op_right fullShare)).2 $$ [H1 H2]
  · isplitl [H1]; · iexact H1
    iexact H2
  isplitl [H0]; · iexact H0
  isplitl [H12]; · iexact H12
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

include hs in
/-- ENTRY, whole: a core's unscoped buffers at a valuation are the arrays at the proof data's entry contents (read off
    the valuation) and the unscoped rest. -/
theorem entry1 (hA : ∀ w, dat.A w = Vv (Pipeline.arrRef spec1 w)) :
    (unscopedBufs c Vv : sProp 𝕄) ⊢ iprop(dat.arrays (dat.arrAt · 0) ∗ Pipeline.unscopedRest spec1 c Vv) := by
  rewrite [Pipeline.unscopedBufs_split₀ cfgs (1 : Fin 2) winFacts₀1.arr_unscoped c Vv]
  exact sep_mono (arrays1_of_arrBufs dat hs Vv (dat.arrAt · 0) hA) .rfl

include hs in
/-- EXIT, whole: the arrays at contents G and the unscoped rest at a valuation are the unscoped buffers at any valuation
    that has the arrays at G and agrees with the first off them. -/
theorem exit1 (Vv' : (b : Ref sig .tc) → Buf (Elt F) ((c : Thread nD τ).loc b))
    (hG' : ∀ w, G w = Vv' (Pipeline.arrRef spec1 w))
    (hrest : ∀ b, b ∉ Finset.univ.image (Pipeline.arrRef spec1) → Vv' b = Vv b) :
    iprop(dat.arrays G ∗ Pipeline.unscopedRest spec1 c Vv) ⊢ (unscopedBufs c Vv' : sProp 𝕄) := by
  rewrite [Pipeline.unscopedBufs_split₀ cfgs (1 : Fin 2) winFacts₀1.arr_unscoped c Vv']
  refine sep_mono (arrBufs1_of_arrays dat hs Vv' G hG') (Entails.of_eq ?_)
  unfold Pipeline.unscopedRest
  exact bigSep_congr fun b hb => by rw [hrest b (Finset.mem_sdiff.mp hb).2]

end Shared1

/-! # The run: the buffer contents at each boundary, with the regions' results chosen -/

variable (m : (ℓ : Loc nD τ sig) → Buf (Elt F) ℓ)

/-- The contents region 0 is entered from, read at the TensorCore's references. -/
abbrev Vr1 : (c : Dev nD) → (b : Ref sig .tc) → Buf (Elt F) ((c : Thread nD τ).loc b) := fun c b => Gen.V1 m c b

/-- What region 0 leaves in its output array: the write-backs of all its points folded. -/
abbrev o2 (c : Dev nD) : Buf (Elt F) ((c : Thread nD τ).loc main_v5) := (dat0 (Vr1 m) c).arrAt 6 cfg0.N

/-- The unknowns with region 0's result chosen (what the second host stretch and region 1 read). -/
def outs2 : Gen.Outs (F := F) := fun _ r c =>
  if h : r = main_v5 then h ▸ o2 m c else m ((c : Thread nD τ).loc r)

theorem outs2_v5 (c : Dev nD) : outs2 m 2 main_v5 c = o2 m c := by
  unfold outs2; rw [dif_pos rfl]

/-- The contents region 1 is entered from, read at the TensorCore's references. -/
abbrev Vr3 : (c : Dev nD) → (b : Ref sig .tc) → Buf (Elt F) ((c : Thread nD τ).loc b) := fun c b => Gen.V3 m (outs2 m) c b

/-- What region 1 leaves in its two output arrays. -/
abbrev o4a (c : Dev nD) : Buf (Elt F) ((c : Thread nD τ).loc main_v24_0) := (dat1 (Vr3 m) c).arrAt 10 cfg1.N
abbrev o4b (c : Dev nD) : Buf (Elt F) ((c : Thread nD τ).loc main_v24_1) := (dat1 (Vr3 m) c).arrAt 11 cfg1.N

/-- The unknowns of the conditional frame, all chosen: each region's output arrays at what its pipeline leaves. -/
def outsR : Gen.Outs (F := F) := fun _ r c =>
  if h : r = main_v5 then h ▸ o2 m c
  else if h : r = main_v24_0 then h ▸ o4a m c
  else if h : r = main_v24_1 then h ▸ o4b m c
  else m ((c : Thread nD τ).loc r)

theorem outsR_v5 (c : Dev nD) : outsR m 2 main_v5 c = o2 m c := by
  unfold outsR; rw [dif_pos rfl]
theorem outsR_v24_0 (c : Dev nD) : outsR m 4 main_v24_0 c = o4a m c := by
  unfold outsR; rw [dif_neg (by decide), dif_pos rfl]
theorem outsR_v24_1 (c : Dev nD) : outsR m 4 main_v24_1 c = o4b m c := by
  unfold outsR; rw [dif_neg (by decide), dif_neg (by decide), dif_pos rfl]

/-- The two choices agree where the second host stretch reads them. -/
theorem V2_outsR (c : Dev nD) : Gen.V2 m (outsR m) c = Gen.V2 m (outs2 m) c := by
  unfold Gen.V2; rw [outsR_v5, outs2_v5]
theorem V3_outsR (c : Dev nD) : Gen.V3 m (outsR m) c = Gen.V3 m (outs2 m) c := by
  unfold Gen.V3; rw [V2_outsR]

/-- The choices, spelled at the proof data's arrays (for a caller that names them so). -/
theorem outs2_v5_arr (c : Dev nD) : outs2 m 2 main_v5 c = (dat0 (fun c b => Gen.V1 m c b) c).arrAt 6 cfg0.N := outs2_v5 m c
theorem outsR_v5_arr (c : Dev nD) : outsR m 2 main_v5 c = (dat0 (fun c b => Gen.V1 m c b) c).arrAt 6 cfg0.N := outsR_v5 m c
theorem outsR_v24_0_arr (c : Dev nD) :
    outsR m 4 main_v24_0 c = (dat1 (fun c b => Gen.V3 m (outs2 m) c b) c).arrAt 10 cfg1.N := outsR_v24_0 m c
theorem outsR_v24_1_arr (c : Dev nD) :
    outsR m 4 main_v24_1 c = (dat1 (fun c b => Gen.V3 m (outs2 m) c b) c).arrAt 11 cfg1.N := outsR_v24_1 m c

/-! ## Each region's arrays at its exit, and everything else unchanged -/

/-- An input window's array at the exit of region 0 is what the region was entered from, which the exit contents keep. -/
theorem inF0 (c : Dev nD) (w : Fin cfg0.W) (hin : (cfg0.win w).isOut = false)
    (hne : Pipeline.arrRef spec0 w ∉ ([main_v5] : List (Ref sig .tc))) :
    (dat0 (Vr1 m) c).arrAt w cfg0.N = Gen.V2 m (outsR m) c (Pipeline.arrRef spec0 w) :=
  ((dat0 (Vr1 m) c).arrAt_in w hin _).trans ((A_eq0 (Vr1 m) c w).trans (Gen.V2_of m (outsR m) c _ hne).symm)

/-- The exit contents at region 0's output array. -/
theorem V2_v5 (c : Dev nD) : Gen.V2 m (outsR m) c main_v5 = o2 m c := by
  unfold Gen.V2; rw [Function.update_self, outsR_v5]

theorem hF0 (c : Dev nD) : ∀ w : Fin cfg0.W, (dat0 (Vr1 m) c).arrAt w cfg0.N = Gen.V2 m (outsR m) c (Pipeline.arrRef spec0 w)
  | ⟨0, _⟩ => inF0 m c 0 rfl (by decide)
  | ⟨1, _⟩ => inF0 m c 1 rfl (by decide)
  | ⟨2, _⟩ => inF0 m c 2 rfl (by decide)
  | ⟨3, _⟩ => inF0 m c 3 rfl (by decide)
  | ⟨4, _⟩ => inF0 m c 4 rfl (by decide)
  | ⟨5, _⟩ => inF0 m c 5 rfl (by decide)
  | ⟨6, _⟩ => (V2_v5 m c).symm

theorem hrest0 (c : Dev nD) : ∀ b, b ∉ Finset.univ.image (Pipeline.arrRef spec0) → Gen.V2 m (outsR m) c b = Vr1 m c b :=
  fun b hb => Gen.V2_of m (outsR m) c b fun h => hb (by
    rw [List.mem_singleton] at h; subst h
    exact Finset.mem_image.mpr ⟨6, Finset.mem_univ _, rfl⟩)

theorem inF1 (c : Dev nD) (w : Fin cfg1.W) (hin : (cfg1.win w).isOut = false)
    (hne : Pipeline.arrRef spec1 w ∉ ([main_v24_0, main_v24_1] : List (Ref sig .tc))) :
    (dat1 (Vr3 m) c).arrAt w cfg1.N = Gen.V4 m (outsR m) c (Pipeline.arrRef spec1 w) :=
  ((dat1 (Vr3 m) c).arrAt_in w hin _).trans ((A_eq1 (Vr3 m) c w).trans
    (((Gen.V4_of m (outsR m) c _ hne).trans (congrFun (V3_outsR m c) _)).symm))

theorem V4_v24_0 (c : Dev nD) : Gen.V4 m (outsR m) c main_v24_0 = o4a m c := by
  unfold Gen.V4
  rw [Function.update_of_ne (StableHlo.devRef_ne_of_ne (by decide) : (Proc.devRef .tc main_v24_0 : DevRef τ sig) ≠ Proc.devRef .tc main_v24_1),
    Function.update_self, outsR_v24_0]
theorem V4_v24_1 (c : Dev nD) : Gen.V4 m (outsR m) c main_v24_1 = o4b m c := by
  unfold Gen.V4; rw [Function.update_self, outsR_v24_1]

theorem hF1 (c : Dev nD) : ∀ w : Fin cfg1.W, (dat1 (Vr3 m) c).arrAt w cfg1.N = Gen.V4 m (outsR m) c (Pipeline.arrRef spec1 w)
  | ⟨0, _⟩ => inF1 m c 0 rfl (by decide)
  | ⟨1, _⟩ => inF1 m c 1 rfl (by decide)
  | ⟨2, _⟩ => inF1 m c 2 rfl (by decide)
  | ⟨3, _⟩ => inF1 m c 3 rfl (by decide)
  | ⟨4, _⟩ => inF1 m c 4 rfl (by decide)
  | ⟨5, _⟩ => inF1 m c 5 rfl (by decide)
  | ⟨6, _⟩ => inF1 m c 6 rfl (by decide)
  | ⟨7, _⟩ => inF1 m c 7 rfl (by decide)
  | ⟨8, _⟩ => inF1 m c 8 rfl (by decide)
  | ⟨9, _⟩ => inF1 m c 9 rfl (by decide)
  | ⟨10, _⟩ => (V4_v24_0 m c).symm
  | ⟨11, _⟩ => (V4_v24_1 m c).symm

theorem hrest1 (c : Dev nD) : ∀ b, b ∉ Finset.univ.image (Pipeline.arrRef spec1) → Gen.V4 m (outsR m) c b = Vr3 m c b :=
  fun b hb => (Gen.V4_of m (outsR m) c b fun h => hb (by
    rcases List.mem_cons.mp h with rfl | h
    · exact Finset.mem_image.mpr ⟨10, Finset.mem_univ _, rfl⟩
    · rw [List.mem_singleton] at h; subst h
      exact Finset.mem_image.mpr ⟨11, Finset.mem_univ _, rfl⟩)).trans (congrFun (V3_outsR m c) _)

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (Vr1 m) c
  | ⟨1, _⟩ => fun c => dat1 (Vr3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its owes, at nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- REGION 0: entered from every unscoped buffer at the contents after the first host stretch, left with its output array
    at what the pipeline wrote. The arrays are split out of the unscoped buffers (the shared one in two halves) and put back. -/
def reg0 : Pipeline.RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (body_obligation0 (Vr1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outsR m) c) ∗ R c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := entry0 (pdats m 0 c) (share0 (Vr1 m) c) (Vr1 m c) (fun w => A_eq0 (Vr1 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hinR0 (Vr1 m) c _
  hout c := by
    rw [Pipeline.ownSems0_none]
    refine (houtR0 (Vr1 m) c).trans ?_
    iintro ⟨Hp, Hr⟩
    isplitl [Hp]; · iexact Hp
    isplitr; · iempintro
    iexact Hr
  hexit c := by
    have hjoin := exit0 (pdats m 0 c) (share0 (Vr1 m) c) (Vr1 m c) ((pdats m 0 c).arrAt · cfg0.N)
      (fun b => Gen.V2 m (outsR m) c b) (hF0 m c) (hrest0 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- REGION 1: entered from every unscoped buffer at the contents after the second host stretch, left with its two output
    arrays at what the pipeline wrote. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vr3 m) c).loose
  hwaits := Pipeline.hwaits_of_owed_zero _ _ _ _ L lv 1 fun _ _ => rfl
  pre c := iprop(StableHlo.held (c : Thread nD τ) (Pipeline.ucRefs τ sig) (Gen.V3 m (outsR m) c) ∗ R c)
  post c := iprop(StableHlo.held (c : Thread nD τ) (Pipeline.ucRefs τ sig) (Gen.V4 m (outsR m) c) ∗ R c)
  X c := iprop(∃ r, prngReg c r)
  Y c := iprop(∃ r, prngReg c r)
  Z c := Pipeline.unscopedRest (Ix := Unit) (Name := ℕ) (U := UR sig nD τ) (Lvl := ℕ) spec1 c (Vr3 m c)
  hentry c := by
    rw [Pipeline.ownSems0_none, V3_outsR m c]
    have hsplit := entry1 (pdats m 1 c) (share1 (Vr3 m) c) (Vr3 m c) (fun w => A_eq1 (Vr3 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hinR1 (Vr3 m) c _
  hout c := by
    rw [Pipeline.ownSems0_none]
    refine (houtR1 (Vr3 m) c).trans ?_
    iintro ⟨Hp, Hr⟩
    isplitl [Hp]; · iexact Hp
    isplitr; · iempintro
    iexact Hr
  hexit c := by
    have hjoin := exit1 (pdats m 1 c) (share1 (Vr3 m) c) (Vr3 m c) ((pdats m 1 c).arrAt · cfg1.N)
      (fun b => Gen.V4 m (outsR m) c b) (hF1 m c) (hrest1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of the program on the TensorCores terminates,
    nothing faulting, and every final memory holds, at every unscoped buffer, the last boundary's contents: the launch
    memory through the three host stretches, with each region's output arrays at what its pipeline wrote. -/
theorem run (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = Gen.V5 m (outsR m) c b) := by
  refine Pipeline.θ_run_regions_kit_dev (pcfgs (F := F)) Gen.adm (pdats m) () cellOf_inj emb₁ defs₀ 𝒱₀ L lv m ρ main
    (Gen.segs m (outsR m) 𝒱₀ L lv (fun _ c => R c) () (pdats m) (reg0 m) (reg1 m))
    (fun c Q => by
      rewrite [main_chain c, Pipeline.Seg.run_eq_chain,
        show (Gen.segs m (outsR m) 𝒱₀ L lv (fun _ c => R c) () (pdats m) (reg0 m) (reg1 m) c).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V5 m (outsR m) c) ∗ ∃ r, prngReg c r))
    (hch := fun c => ⟨.rfl, .rfl, .rfl, .rfl, .rfl,
      show iprop(StableHlo.held (c : Thread nD τ) (Pipeline.ucRefs τ sig) (Gen.V5 m (outsR m) c) ∗ (∃ r, prngReg c r)
            ∗ ∃ W, owes (c : Thread nD τ) (0 : CellTallies nD τ sig Unit) W)
          ⊢ (iprop((StableHlo.held (c : Thread nD τ) (Pipeline.ucRefs τ sig) (Gen.V5 m (outsR m) c) ∗ ∃ r, prngReg c r)
            ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V5 m (outsR m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V5 m (outsR m) c) s')
      isplitl [Hh] <;> iassumption)
    (hQ := fun _ h => h)

/-! ## Reading the last contents back -/

/-- What region 0 leaves in its output array is what the second host stretch and region 1 find there. -/
theorem V3_v5 (c : Dev nD) : Gen.V3 m (outsR m) c main_v5 = o2 m c :=
  (Gen.V3_of m (outsR m) c main_v5 (by decide)).trans (V2_v5 m c)
theorem Vr3_v5 (c : Dev nD) : Vr3 m c main_v5 = o2 m c :=
  (congrFun (V3_outsR m c) _).symm.trans (V3_v5 m c)

/-- The contents region 1 is entered from: the second host stretch over the first stretch's contents with region 0's result. -/
theorem Vr3_eq (c : Dev nD) : Gen.V3 m (outs2 m) c = StableHlo.after hostOps1 (Function.update (Gen.V1 m c) main_v5 (o2 m c)) := by
  unfold Gen.V3 Gen.V2; rw [outs2_v5]

/-- The first result: region 1's first output array as its pipeline leaves it. -/
theorem V5_v24_0 (c : Dev nD) : Gen.V5 m (outsR m) c main_v24_0 = (dat1 (Vr3 m) c).arrAt 10 cfg1.N :=
  (Gen.V5_of m (outsR m) c main_v24_0 (by decide)).trans (V4_v24_0 m c)

/-- Region 1's second output array reaches the end as its pipeline leaves it. -/
theorem V5_v24_1 (c : Dev nD) : Gen.V5 m (outsR m) c main_v24_1 = (dat1 (Vr3 m) c).arrAt 11 cfg1.N :=
  (Gen.V5_of m (outsR m) c main_v24_1 (by decide)).trans (V4_v24_1 m c)

/-- The second result: the leading 32 columns of region 1's second output array. -/
theorem V5_v25 (c : Dev nD) : Gen.V5 m (outsR m) c main_v25
    = extractStridedSlice S4096x32 ![0, 0] ((dat1 (Vr3 m) c).arrAt 11 cfg1.N) slices_S4096x128_S4096x32_0_0 := by
  show StableHlo.after hostOps2 (Gen.V4 m (outsR m) c) (Proc.devRef .tc main_v25) = _
  after_results
  exact congrArg (fun x => extractStridedSlice S4096x32 ![0, 0] x slices_S4096x128_S4096x32_0_0) (V4_v24_1 m c)

end Cert.ReferenceIdeal.Hand

end
-- ==== Proof.Spec.lean ====
/-
  The mathematics both programs meet in, over the extended reals, as plain functions of arrays indexed by
  coordinates.  A two-layer relational graph convolution over two edge types followed by a two-layer perceptron:
  per edge type t the aggregation  agg_t = A_t · X,  the layer  relu(agg_t · Wl_t + X · Wr_t + b_t),  the two types'
  256 columns side by side (512 columns); then the head  relu(emb · w1 + b1) · w2 + b2.
  One program evaluates layer 1 as written (aggregate, then project); the other projects first
  (Y = E · Wl, P = E · Wr + b) and aggregates the projection, A_t · Y_t + P.  The two agree when every entry is a
  real number (the product A · (E · W) = (A · E) · W needs distributivity, which fails at infinities).
-/
import Idealize.ShloMosaic.PureOps.Ideal
import Idealize.ShloMosaic.Lib.ValueIdx

noncomputable section

open scoped BigOperators

namespace Cert.Spec

open Idealize.ShloMosaic Idealize.ShloMosaic.ValueIdx

/-! ## Arrays by coordinates -/

/-- A rank-2 array read at coordinates. -/
def cur2 {n0 n1 : Nat} (X : (⟨2, ![n0, n1]⟩ : Shape).Idx → EReal) (i : Fin n0) (k : Fin n1) : EReal := X (ix2 i k)
/-- A rank-3 array read at coordinates. -/
def cur3 {n0 n1 n2 : Nat} (X : (⟨3, ![n0, n1, n2]⟩ : Shape).Idx → EReal) (a : Fin n0) (b : Fin n1) (c : Fin n2) : EReal :=
  X (ix3 a b c)
/-- The one row of a [1, n] array. -/
def row {n : Nat} (X : (⟨2, ![1, n]⟩ : Shape).Idx → EReal) (j : Fin n) : EReal := X (ix2 0 j)
/-- A per-type bias [2, 1, n] read at (type, column). -/
def bias3 {n : Nat} (X : (⟨3, ![2, 1, n]⟩ : Shape).Idx → EReal) (t : Fin 2) (c : Fin n) : EReal := X (ix3 t 0 c)

/-! ## Columns of the concatenation of the two types, and the two halves of the source axis -/

/-- The edge type a column of the 512-wide concatenation belongs to. -/
def ty (j : Fin 512) : Fin 2 := ⟨j.val / 256, by omega⟩
/-- Its column inside the type's 256. -/
def col (j : Fin 512) : Fin 256 := ⟨j.val % 256, Nat.mod_lt _ (by norm_num)⟩
/-- Source node n of the first half of the 4096 sources. -/
def lo (n : Fin 2048) : Fin 4096 := ⟨n.val, by omega⟩
/-- Source node n of the second half. -/
def hi (n : Fin 2048) : Fin 4096 := ⟨2048 + n.val, by omega⟩

def relu (v : EReal) : EReal := max v 0

/-! ## The perceptron head, the same in both programs (weights already padded to 128 lanes) -/

def hid (emb : Fin 4096 → Fin 512 → EReal) (w1p : Fin 512 → Fin 128 → EReal) (b1p : Fin 128 → EReal)
    (i : Fin 4096) (h : Fin 128) : EReal :=
  relu ((∑ k, emb i k * w1p k h) + b1p h)

def head (emb : Fin 4096 → Fin 512 → EReal) (w1p : Fin 512 → Fin 128 → EReal) (b1p : Fin 128 → EReal)
    (w2p : Fin 128 → Fin 128 → EReal) (b2p : Fin 128 → EReal) (i : Fin 4096) (o : Fin 128) : EReal :=
  (∑ h, hid emb w1p b1p i h * w2p h o) + b2p o

/-! ## The layer as written: aggregate over the sources in two halves from a zero accumulator, then project -/

/-- The aggregation of one type: the accumulator starts at zero and takes the two halves of the source axis in turn. -/
def aggR {D : Nat} (A : Fin 2 → Fin 4096 → Fin 4096 → EReal) (X : Fin 4096 → Fin D → EReal)
    (t : Fin 2) (i : Fin 4096) (k : Fin D) : EReal :=
  (0 + ∑ n : Fin 2048, A t i (lo n) * X (lo n) k) + ∑ n : Fin 2048, A t i (hi n) * X (hi n) k

/-- One layer: relu(agg_t · Wl_t + X · Wr_t + b_t), type t's 256 columns at columns 256 t … 256 t + 255. -/
def layerR {D : Nat} (A : Fin 2 → Fin 4096 → Fin 4096 → EReal) (X : Fin 4096 → Fin D → EReal)
    (wl wr : Fin 2 → Fin D → Fin 256 → EReal) (b : Fin 2 → Fin 256 → EReal) (i : Fin 4096) (j : Fin 512) : EReal :=
  relu (((∑ k, aggR A X (ty j) i k * wl (ty j) k (col j)) + (∑ k, X i k * wr (ty j) k (col j))) + b (ty j) (col j))

/-! ## The other program's arrangement -/

/-- The whole-axis aggregation of one type. -/
def aggK (A : Fin 2 → Fin 4096 → Fin 4096 → EReal) (xb : Fin 4096 → Fin 128 → EReal)
    (t : Fin 2) (i : Fin 4096) (k : Fin 128) : EReal := ∑ n, A t i n * xb n k

/-- Row i of [agg_0 | agg_1 | x]: 384 columns. -/
def zK (A : Fin 2 → Fin 4096 → Fin 4096 → EReal) (xb : Fin 4096 → Fin 128 → EReal) (i : Fin 4096) (k : Fin 384) : EReal :=
  if h : k.val < 128 then aggK A xb 0 i ⟨k.val, h⟩
  else if h2 : k.val < 256 then aggK A xb 1 i ⟨k.val - 128, by omega⟩
  else xb i ⟨k.val - 256, by omega⟩

/-- Layer 0 through the stacked weight: relu(z · W0 + b). -/
def e0K (A : Fin 2 → Fin 4096 → Fin 4096 → EReal) (xb : Fin 4096 → Fin 128 → EReal)
    (W0 : Fin 384 → Fin 512 → EReal) (b0c : Fin 512 → EReal) (i : Fin 4096) (j : Fin 512) : EReal :=
  relu ((∑ k, zK A xb i k * W0 k j) + b0c j)

/-- The layer-1 pre-projection of the layer-0 embedding: 1024 columns, [E · Wl | E · Wr]. -/
def ypK (A : Fin 2 → Fin 4096 → Fin 4096 → EReal) (xb : Fin 4096 → Fin 128 → EReal)
    (W0 : Fin 384 → Fin 512 → EReal) (b0c : Fin 512 → EReal) (W1 : Fin 512 → Fin 1024 → EReal)
    (i : Fin 4096) (j : Fin 1024) : EReal :=
  ∑ k, e0K A xb W0 b0c i k * W1 k j

/-- Its first 512 columns. -/
def y1K (A : Fin 2 → Fin 4096 → Fin 4096 → EReal) (xb : Fin 4096 → Fin 128 → EReal)
    (W0 : Fin 384 → Fin 512 → EReal) (b0c : Fin 512 → EReal) (W1 : Fin 512 → Fin 1024 → EReal)
    (i : Fin 4096) (j : Fin 512) : EReal :=
  ypK A xb W0 b0c W1 i ⟨j.val, by omega⟩

/-- Its last 512 columns plus the layer-1 bias. -/
def p1K (A : Fin 2 → Fin 4096 → Fin 4096 → EReal) (xb : Fin 4096 → Fin 128 → EReal)
    (W0 : Fin 384 → Fin 512 → EReal) (b0c : Fin 512 → EReal) (W1 : Fin 512 → Fin 1024 → EReal) (b1c : Fin 512 → EReal)
    (i : Fin 4096) (j : Fin 512) : EReal :=
  ypK A xb W0 b0c W1 i ⟨512 + j.val, by omega⟩ + b1c j

/-- Layer 1 from the pre-projection: relu(A_t · Y_t + P). -/
def embK (A : Fin 2 → Fin 4096 → Fin 4096 → EReal) (Y1 P1 : Fin 4096 → Fin 512 → EReal) (i : Fin 4096) (j : Fin 512) : EReal :=
  relu ((∑ n, A (ty j) i n * Y1 n j) + P1 i j)

/-! ## The packed weights -/

/-- A per-type bias as one 512-wide row. -/
def bcat (b : Fin 2 → Fin 256 → EReal) (j : Fin 512) : EReal := b (ty j) (col j)

/-- The stacked layer-0 weight, 384 × 512: the two types' Wl on the diagonal blocks (zero off them) over [Wr_0 | Wr_1]. -/
def W0of (wl0 wr0 : Fin 2 → Fin 128 → Fin 256 → EReal) (k : Fin 384) (j : Fin 512) : EReal :=
  if h : k.val < 128 then (if (ty j).val = 0 then wl0 0 ⟨k.val, h⟩ (col j) else 0)
  else if h2 : k.val < 256 then (if (ty j).val = 1 then wl0 1 ⟨k.val - 128, by omega⟩ (col j) else 0)
  else wr0 (ty j) ⟨k.val - 256, by omega⟩ (col j)

/-- The layer-1 weights side by side, 512 × 1024: [Wl_0 | Wl_1 | Wr_0 | Wr_1]. -/
def W1of (wl1 wr1 : Fin 2 → Fin 512 → Fin 256 → EReal) (k : Fin 512) (j : Fin 1024) : EReal :=
  if h : j.val < 512 then wl1 (ty ⟨j.val, h⟩) k (col ⟨j.val, h⟩)
  else wr1 (ty ⟨j.val - 512, by omega⟩) k (col ⟨j.val - 512, by omega⟩)

end Cert.Spec

end
-- ==== Proof.KPay0.lean ====
/-
  The values the first region's body stores, read at one element of the 512 x 512 output blocks, over the
  extended reals.  The body multiplies the [2, 512, 4096] adjacency block, viewed as 1024 rows, by the whole
  feature array (one sum over the 4096 sources per type), lays the two types' aggregations and the tile's own
  feature rows side by side (384 columns), applies the stacked layer-0 weight, the bias and the rectifier, and
  multiplies by the 512 x 1024 layer-1 weights.  A format change is the identity on the extended reals and a
  product into a zero accumulator is the plain sum, so each stored element is exactly the corresponding term of
  Spec.lean, whatever the tile: the lemmas below are stated for arbitrary vectors in the places of the loaded
  blocks, and only ask how row p of each block is row i of the array it was cut from.
-/
import proofs.«130397_g2000105430876207_pallasbulk_1247_2_alg».proof.Proof.Gen.KernelIdeal.Skeleton
import proofs.«130397_g2000105430876207_pallasbulk_1247_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.HandVal

open Idealize.ShloMosaic Idealize.SL.Sem Idealize.ShloMosaic.ValueIdx Cert.KernelIdeal Cert.KernelIdeal.Gen

/-! ## The three products of the first region -/

/-! The product 1024×4096 by 4096×128 into a zero accumulator, read at (p, q): the plain sum over the 4096 contraction positions. -/

theorem mm_agg_l0 (i : S1024x128.Idx) (q : dot_S1024x4096_S4096x128_S1024x128_1_0_0_1_n_n.contr.Idx) : (dot_S1024x4096_S4096x128_S1024x128_1_0_0_1_n_n.lhsIdx i q 0).val = (i 0).val := by
  unfold DotDims.lhsIdx
  rw [dif_neg (show ¬(0 : Fin S1024x4096.rank) ∈ dot_S1024x4096_S4096x128_S1024x128_1_0_0_1_n_n.lhsBatch by decide), dif_pos (show (0 : Fin S1024x4096.rank) ∈ dot_S1024x4096_S4096x128_S1024x128_1_0_0_1_n_n.lhsNonContracting by decide)]
  rfl
theorem mm_agg_l1 (i : S1024x128.Idx) (q : dot_S1024x4096_S4096x128_S1024x128_1_0_0_1_n_n.contr.Idx) : (dot_S1024x4096_S4096x128_S1024x128_1_0_0_1_n_n.lhsIdx i q 1).val = (q ⟨0, by decide⟩).val :=
  dot_S1024x4096_S4096x128_S1024x128_1_0_0_1_n_n.lhsIdx_val_of_single rfl i q
theorem mm_agg_r0 (i : S1024x128.Idx) (q : dot_S1024x4096_S4096x128_S1024x128_1_0_0_1_n_n.contr.Idx) : (dot_S1024x4096_S4096x128_S1024x128_1_0_0_1_n_n.rhsIdx i q 0).val = (q ⟨0, by decide⟩).val :=
  dot_S1024x4096_S4096x128_S1024x128_1_0_0_1_n_n.rhsIdx_val_of_single rfl i q
theorem mm_agg_r1 (i : S1024x128.Idx) (q : dot_S1024x4096_S4096x128_S1024x128_1_0_0_1_n_n.contr.Idx) : (dot_S1024x4096_S4096x128_S1024x128_1_0_0_1_n_n.rhsIdx i q 1).val = (i 1).val := by
  unfold DotDims.rhsIdx
  rw [dif_neg (show ¬(1 : Fin S4096x128.rank) ∈ dot_S1024x4096_S4096x128_S1024x128_1_0_0_1_n_n.rhsBatch by decide), dif_pos (show (1 : Fin S4096x128.rank) ∈ dot_S1024x4096_S4096x128_S1024x128_1_0_0_1_n_n.rhsNonContracting by decide)]
  rfl

theorem mm_agg {φ₁ φ₂ : FTy} (lhs : FVec Ideal S1024x4096 φ₁) (rhs : FVec Ideal S4096x128 φ₂) (p : Fin 1024) (q : Fin 128) :
    matmul dot_S1024x4096_S4096x128_S1024x128_1_0_0_1_n_n none lhs rhs (constant (F := Ideal) S1024x128 .f32 0x00000000#32) (ix2 p q)
      = ∑ k : Fin 4096, lhs (ix2 p k) * rhs (ix2 k q) := by
  simp only [matmul]
  rw [Ideal.matmul_constant_zero_apply, ← Equiv.sum_comp (contrEquiv1 dot_S1024x4096_S4096x128_S1024x128_1_0_0_1_n_n 4096 rfl rfl).symm]
  refine Finset.sum_congr rfl fun k _ => ?_
  have hk := contrEquiv1_symm_val dot_S1024x4096_S4096x128_S1024x128_1_0_0_1_n_n 4096 rfl rfl k
  have el : dot_S1024x4096_S4096x128_S1024x128_1_0_0_1_n_n.lhsIdx (ix2 p q) ((contrEquiv1 dot_S1024x4096_S4096x128_S1024x128_1_0_0_1_n_n 4096 rfl rfl).symm k) = ix2 p k := funext fun a => Fin.ext (by
    match a with
    | ⟨0, _⟩ => exact mm_agg_l0 _ _
    | ⟨1, _⟩ => exact (mm_agg_l1 _ _).trans hk)
  have er : dot_S1024x4096_S4096x128_S1024x128_1_0_0_1_n_n.rhsIdx (ix2 p q) ((contrEquiv1 dot_S1024x4096_S4096x128_S1024x128_1_0_0_1_n_n 4096 rfl rfl).symm k) = ix2 k q := funext fun a => Fin.ext (by
    match a with
    | ⟨0, _⟩ => exact (mm_agg_r0 _ _).trans hk
    | ⟨1, _⟩ => exact mm_agg_r1 _ _)
  rw [el, er]

/-! The product 512×384 by 384×512 into a zero accumulator, read at (p, q): the plain sum over the 384 contraction positions. -/

theorem mm_l0_l0 (i : S512x512.Idx) (q : dot_S512x384_S384x512_S512x512_1_0_0_1_n_n.contr.Idx) : (dot_S512x384_S384x512_S512x512_1_0_0_1_n_n.lhsIdx i q 0).val = (i 0).val := by
  unfold DotDims.lhsIdx
  rw [dif_neg (show ¬(0 : Fin S512x384.rank) ∈ dot_S512x384_S384x512_S512x512_1_0_0_1_n_n.lhsBatch by decide), dif_pos (show (0 : Fin S512x384.rank) ∈ dot_S512x384_S384x512_S512x512_1_0_0_1_n_n.lhsNonContracting by decide)]
  rfl
theorem mm_l0_l1 (i : S512x512.Idx) (q : dot_S512x384_S384x512_S512x512_1_0_0_1_n_n.contr.Idx) : (dot_S512x384_S384x512_S512x512_1_0_0_1_n_n.lhsIdx i q 1).val = (q ⟨0, by decide⟩).val :=
  dot_S512x384_S384x512_S512x512_1_0_0_1_n_n.lhsIdx_val_of_single rfl i q
theorem mm_l0_r0 (i : S512x512.Idx) (q : dot_S512x384_S384x512_S512x512_1_0_0_1_n_n.contr.Idx) : (dot_S512x384_S384x512_S512x512_1_0_0_1_n_n.rhsIdx i q 0).val = (q ⟨0, by decide⟩).val :=
  dot_S512x384_S384x512_S512x512_1_0_0_1_n_n.rhsIdx_val_of_single rfl i q
theorem mm_l0_r1 (i : S512x512.Idx) (q : dot_S512x384_S384x512_S512x512_1_0_0_1_n_n.contr.Idx) : (dot_S512x384_S384x512_S512x512_1_0_0_1_n_n.rhsIdx i q 1).val = (i 1).val := by
  unfold DotDims.rhsIdx
  rw [dif_neg (show ¬(1 : Fin S384x512.rank) ∈ dot_S512x384_S384x512_S512x512_1_0_0_1_n_n.rhsBatch by decide), dif_pos (show (1 : Fin S384x512.rank) ∈ dot_S512x384_S384x512_S512x512_1_0_0_1_n_n.rhsNonContracting by decide)]
  rfl

theorem mm_l0 {φ₁ φ₂ : FTy} (lhs : FVec Ideal S512x384 φ₁) (rhs : FVec Ideal S384x512 φ₂) (p : Fin 512) (q : Fin 512) :
    matmul dot_S512x384_S384x512_S512x512_1_0_0_1_n_n none lhs rhs (constant (F := Ideal) S512x512 .f32 0x00000000#32) (ix2 p q)
      = ∑ k : Fin 384, lhs (ix2 p k) * rhs (ix2 k q) := by
  simp only [matmul]
  rw [Ideal.matmul_constant_zero_apply, ← Equiv.sum_comp (contrEquiv1 dot_S512x384_S384x512_S512x512_1_0_0_1_n_n 384 rfl rfl).symm]
  refine Finset.sum_congr rfl fun k _ => ?_
  have hk := contrEquiv1_symm_val dot_S512x384_S384x512_S512x512_1_0_0_1_n_n 384 rfl rfl k
  have el : dot_S512x384_S384x512_S512x512_1_0_0_1_n_n.lhsIdx (ix2 p q) ((contrEquiv1 dot_S512x384_S384x512_S512x512_1_0_0_1_n_n 384 rfl rfl).symm k) = ix2 p k := funext fun a => Fin.ext (by
    match a with
    | ⟨0, _⟩ => exact mm_l0_l0 _ _
    | ⟨1, _⟩ => exact (mm_l0_l1 _ _).trans hk)
  have er : dot_S512x384_S384x512_S512x512_1_0_0_1_n_n.rhsIdx (ix2 p q) ((contrEquiv1 dot_S512x384_S384x512_S512x512_1_0_0_1_n_n 384 rfl rfl).symm k) = ix2 k q := funext fun a => Fin.ext (by
    match a with
    | ⟨0, _⟩ => exact (mm_l0_r0 _ _).trans hk
    | ⟨1, _⟩ => exact mm_l0_r1 _ _)
  rw [el, er]

/-! The product 512×512 by 512×1024 into a zero accumulator, read at (p, q): the plain sum over the 512 contraction positions. -/

theorem mm_l1_l0 (i : S512x1024.Idx) (q : dot_S512x512_S512x1024_S512x1024_1_0_0_1_n_n.contr.Idx) : (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem mm_l1_l1 (i : S512x1024.Idx) (q : dot_S512x512_S512x1024_S512x1024_1_0_0_1_n_n.contr.Idx) : (dot_S512x512_S512x1024_S512x1024_1_0_0_1_n_n.lhsIdx i q 1).val = (q ⟨0, by decide⟩).val :=
  dot_S512x512_S512x1024_S512x1024_1_0_0_1_n_n.lhsIdx_val_of_single rfl i q
theorem mm_l1_r0 (i : S512x1024.Idx) (q : dot_S512x512_S512x1024_S512x1024_1_0_0_1_n_n.contr.Idx) : (dot_S512x512_S512x1024_S512x1024_1_0_0_1_n_n.rhsIdx i q 0).val = (q ⟨0, by decide⟩).val :=
  dot_S512x512_S512x1024_S512x1024_1_0_0_1_n_n.rhsIdx_val_of_single rfl i q
theorem mm_l1_r1 (i : S512x1024.Idx) (q : dot_S512x512_S512x1024_S512x1024_1_0_0_1_n_n.contr.Idx) : (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

theorem mm_l1 {φ₁ φ₂ : FTy} (lhs : FVec Ideal S512x512 φ₁) (rhs : FVec Ideal S512x1024 φ₂) (p : Fin 512) (q : Fin 1024) :
    matmul dot_S512x512_S512x1024_S512x1024_1_0_0_1_n_n none lhs rhs (constant (F := Ideal) S512x1024 .f32 0x00000000#32) (ix2 p q)
      = ∑ k : Fin 512, lhs (ix2 p k) * rhs (ix2 k q) := by
  simp only [matmul]
  rw [Ideal.matmul_constant_zero_apply, ← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 p q) ((contrEquiv1 dot_S512x512_S512x1024_S512x1024_1_0_0_1_n_n 512 rfl rfl).symm k) = ix2 p k := funext fun a => Fin.ext (by
    match a with
    | ⟨0, _⟩ => exact mm_l1_l0 _ _
    | ⟨1, _⟩ => exact (mm_l1_l1 _ _).trans hk)
  have er : dot_S512x512_S512x1024_S512x1024_1_0_0_1_n_n.rhsIdx (ix2 p q) ((contrEquiv1 dot_S512x512_S512x1024_S512x1024_1_0_0_1_n_n 512 rfl rfl).symm k) = ix2 k q := funext fun a => Fin.ext (by
    match a with
    | ⟨0, _⟩ => exact (mm_l1_r0 _ _).trans hk
    | ⟨1, _⟩ => exact mm_l1_r1 _ _)
  rw [el, er]

/-! ## The layout steps -/

/-- The [2, 512, 4096] block viewed as 1024 rows: row 512 a + p is row p of type a. -/
theorem cast_rows {α : Type} (x : S2x512x4096.Idx → α) (h : S2x512x4096.ShapeCasts S1024x4096)
    (a : Fin 2) (p : Fin 512) (n : Fin 4096) (r : Fin 1024) (hr : r.val = 512 * a.val + p.val) :
    shapeCast S1024x4096 x h (ix2 r n) = x (ix3 a p n) := by
  refine shapeCast_apply x h (ix2 r n) (ix3 a p n) ?_
  rw [Shape.rowMajor_val_three, Shape.rowMajor_val_two]
  show (a.val * 512 + p.val) * 4096 + n.val = r.val * 4096 + n.val
  rw [hr]; ring

/-- The aggregation at row 512 a + p, column c: the sum over the sources of type a's row p against the features. -/
theorem agg_at (x0 : FVec Ideal S2x512x4096 .bf16) (x1 : FVec Ideal S4096x128 .bf16)
    (h0 : S2x512x4096.ShapeCasts S1024x4096) (h1 : S4096x128.ShapeCasts S4096x128)
    (a : Fin 2) (p : Fin 512) (r : Fin 1024) (hr : r.val = 512 * a.val + p.val) (c : Fin 128) :
    matmul dot_S1024x4096_S4096x128_S1024x128_1_0_0_1_n_n none (shapeCast S1024x4096 x0 h0) (shapeCast S4096x128 x1 h1)
        (constant (F := Ideal) S1024x128 .f32 0x00000000#32) (ix2 r c)
      = ∑ n : Fin 4096, x0 (ix3 a p n) * x1 (ix2 n c) := by
  refine (mm_agg _ _ r c).trans ?_
  refine Finset.sum_congr rfl fun n _ => ?_
  rw [cast_rows x0 h0 a p n r hr, shapeCast_self]

section Concat
variable (g : FVec Ideal S1024x128 .f32) (x2 : FVec Ideal S512x128 .bf16)
  (hs0 : S1024x128.Slices ![0, 0] S512x128) (hs1 : S1024x128.Slices ![512, 0] S512x128)
  (hb : FTy.bits .bf16 < FTy.bits .f32) (hc2 : S512x128.ShapeCasts S512x128)
  (hcat : Shape.Concatenates [S512x128, S512x128, S512x128] S512x384 1)

/-- The three pieces the body lays side by side: the two halves of the 1024 x 128 aggregation g and the tile's
    feature rows. -/
abbrev zpieces : List ((s : Shape) × (s.Idx → Ideal .bf16)) :=
  [⟨S512x128, truncf .bf16 (extractStridedSlice S512x128 ![0, 0] g hs0) hb⟩,
   ⟨S512x128, truncf .bf16 (extractStridedSlice S512x128 ![512, 0] g hs1) hb⟩,
   ⟨S512x128, shapeCast S512x128 x2 hc2⟩]

/-- Columns 0 … 127: rows 0 … 511 of the aggregation (the first type). -/
theorem zcat_lo (p : Fin 512) (m : Fin 384) (h : m.val < 128) :
    concatenate S512x384 1 (zpieces g x2 hs0 hs1 hb hc2) hcat (ix2 p m) = g (ix2 ⟨p.val, by omega⟩ ⟨m.val, h⟩) := by
  refine (concatenate_apply_piece (1 : Fin S512x384.rank) (zpieces g x2 hs0 hs1 hb hc2) hcat (ix2 p m) 0 (by show 0 < 3; omega)
    S512x128 _ rfl rfl 0 rfl (ix2 p ⟨m.val, h⟩) ?_ ?_).trans ?_
  · intro b hb'
    match b with
    | ⟨0, _⟩ => rfl
    | ⟨1, _⟩ => exact absurd rfl hb'
  · show 0 + m.val = m.val
    omega
  · refine extractStridedSlice_apply _ g hs0 (ix2 p ⟨m.val, h⟩) _ ?_
    intro a
    match a with
    | ⟨0, _⟩ => show p.val = 0 + p.val; omega
    | ⟨1, _⟩ => show m.val = 0 + m.val; omega

/-- Columns 128 … 255: rows 512 … 1023 of the aggregation (the second type). -/
theorem zcat_mid (p : Fin 512) (m : Fin 384) (h : ¬m.val < 128) (h2 : m.val < 256) :
    concatenate S512x384 1 (zpieces g x2 hs0 hs1 hb hc2) hcat (ix2 p m)
      = g (ix2 ⟨512 + p.val, by omega⟩ ⟨m.val - 128, by omega⟩) := by
  refine (concatenate_apply_piece (1 : Fin S512x384.rank) (zpieces g x2 hs0 hs1 hb hc2) hcat (ix2 p m) 1 (by show 1 < 3; omega)
    S512x128 _ rfl rfl 128 rfl (ix2 p ⟨m.val - 128, by omega⟩) ?_ ?_).trans ?_
  · intro b hb'
    match b with
    | ⟨0, _⟩ => rfl
    | ⟨1, _⟩ => exact absurd rfl hb'
  · show 128 + (m.val - 128) = m.val
    omega
  · refine extractStridedSlice_apply _ g hs1 (ix2 p ⟨m.val - 128, by omega⟩) _ ?_
    intro a
    match a with
    | ⟨0, _⟩ => show 512 + p.val = 512 + p.val; rfl
    | ⟨1, _⟩ => show m.val - 128 = 0 + (m.val - 128); omega

/-- Columns 256 … 383: the tile's own feature rows. -/
theorem zcat_hi (p : Fin 512) (m : Fin 384) (h2 : ¬m.val < 256) :
    concatenate S512x384 1 (zpieces g x2 hs0 hs1 hb hc2) hcat (ix2 p m) = x2 (ix2 p ⟨m.val - 256, by omega⟩) := by
  refine (concatenate_apply_piece (1 : Fin S512x384.rank) (zpieces g x2 hs0 hs1 hb hc2) hcat (ix2 p m) 2 (by show 2 < 3; omega)
    S512x128 _ rfl rfl 256 rfl (ix2 p ⟨m.val - 256, by omega⟩) ?_ ?_).trans ?_
  · intro b hb'
    match b with
    | ⟨0, _⟩ => rfl
    | ⟨1, _⟩ => exact absurd rfl hb'
  · show 256 + (m.val - 256) = m.val
    omega
  · rw [shapeCast_self]

end Concat

/-! ## The bias row, the rectified layer and the projection -/

/-- A [1, 512] row broadcast down 512 rows reads the row's entry in that column. -/
theorem bias_at (x : FVec Ideal S1x512 .f32) (h1 : S1x512.ShapeCasts S1x512) (hbr : S1x512.Broadcasts S512x512) (p q : Fin 512) :
    broadcastTo S512x512 (shapeCast S1x512 x h1) hbr (ix2 p q) = x (ix2 0 q) := by
  rw [shapeCast_self]
  refine broadcastTo_apply x hbr (ix2 p q) (ix2 0 q) ?_
  intro a
  match a with
  | ⟨0, _⟩ => rfl
  | ⟨1, _⟩ => rfl

/-- Layer 0 at (p, k) from the 384 laid-out columns z: the rectified sum against the stacked weight plus the bias. -/
theorem e0_at (z : FVec Ideal S512x384 .bf16) (x3 : FVec Ideal S384x512 .bf16) (x4 : FVec Ideal S1x512 .f32)
    (h3 : S384x512.ShapeCasts S384x512) (h4 : S1x512.ShapeCasts S1x512) (hbr : S1x512.Broadcasts S512x512) (p k : Fin 512) :
    maximumf (addf (matmul dot_S512x384_S384x512_S512x512_1_0_0_1_n_n none z (shapeCast S384x512 x3 h3)
          (constant (F := Ideal) S512x512 .f32 0x00000000#32))
        (broadcastTo S512x512 (shapeCast S1x512 x4 h4) hbr))
      (broadcast S512x512 (Scalar.ofBits (F := Ideal) .f32 0x00000000#32)) (ix2 p k)
      = max ((∑ m : Fin 384, z (ix2 p m) * x3 (ix2 m k)) + x4 (ix2 0 k)) 0 := by
  rw [maximumf_apply, addf_apply, broadcast_apply, mm_l0, bias_at, shapeCast_self]
  show max _ (Ideal.ofBits .f32 0x00000000#32) = _
  rw [Ideal.ofBits_zero_f32]

/-- The layer-1 projection at (p, j) from the layer-0 block e. -/
theorem yp_at (e : FVec Ideal S512x512 .f32) (x5 : FVec Ideal S512x1024 .bf16) (hb : FTy.bits .bf16 < FTy.bits .f32)
    (h5 : S512x1024.ShapeCasts S512x1024) (p : Fin 512) (j : Fin 1024) :
    matmul dot_S512x512_S512x1024_S512x1024_1_0_0_1_n_n none (truncf .bf16 e hb) (shapeCast S512x1024 x5 h5)
        (constant (F := Ideal) S512x1024 .f32 0x00000000#32) (ix2 p j)
      = ∑ k : Fin 512, e (ix2 p k) * x5 (ix2 k j) := by
  rw [mm_l1, shapeCast_self]
  rfl

/-! ## The stored blocks, element by element

Row p of the adjacency block is row i of the adjacency array (both types), row p of the tile's feature rows is row i
of the features, and the whole-array windows are their arrays.  Then the stored elements in row p are the
specification's at row i. -/

section Region0
variable (x0 : Vec Ideal S2x512x4096 .bf16) (x1 : Vec Ideal S4096x128 .bf16) (x2 : Vec Ideal S512x128 .bf16)
  (x3 : Vec Ideal S384x512 .bf16) (x4 : Vec Ideal S1x512 .f32) (x5 : Vec Ideal S512x1024 .bf16)
  (A : Fin 2 → Fin 4096 → Fin 4096 → EReal) (xb : Fin 4096 → Fin 128 → EReal) (W0 : Fin 384 → Fin 512 → EReal)
  (b0 : Fin 512 → EReal) (W1 : Fin 512 → Fin 1024 → EReal) (i : Fin 4096) (p : Fin 512)
  (h0 : ∀ a n, x0 (ix3 a p n) = A a i n) (h1 : ∀ n k, x1 (ix2 n k) = xb n k) (h2 : ∀ k, x2 (ix2 p k) = xb i k)
  (h3 : ∀ k j, x3 (ix2 k j) = W0 k j) (h4 : ∀ j, x4 (ix2 0 j) = b0 j) (h5 : ∀ k j, x5 (ix2 k j) = W1 k j)

include h0 h1 h2 h3 h4 h5

/-- The 512 x 1024 projection the body computes, at row p: the specification's at row i. -/
theorem k0_pay1_at (j : Fin 1024) : k0_pay1 x0 x1 x2 x3 x4 x5 (ix2 p j) = Spec.ypK A xb W0 b0 W1 i j := by
  unfold k0_pay1
  refine (yp_at _ x5 _ _ p j).trans ?_
  unfold Spec.ypK
  refine Finset.sum_congr rfl fun k _ => congrArg₂ (· * ·) ?_ (h5 k j)
  refine (e0_at _ x3 x4 _ _ _ p k).trans ?_
  unfold Spec.e0K Spec.relu
  refine congrArg (max · 0) (congrArg₂ (· + ·) (Finset.sum_congr rfl fun m _ => congrArg₂ (· * ·) ?_ (h3 m k)) (h4 k))
  unfold Spec.zK
  by_cases hm : m.val < 128
  · rw [dif_pos hm]
    refine (zcat_lo _ x2 _ _ _ _ _ p m hm).trans ?_
    refine (agg_at x0 x1 _ _ 0 p _ (by simp) ⟨m.val, hm⟩).trans ?_
    unfold Spec.aggK
    exact Finset.sum_congr rfl fun n _ => congrArg₂ (· * ·) (h0 0 n) (h1 n _)
  · rw [dif_neg hm]
    by_cases hm2 : m.val < 256
    · rw [dif_pos hm2]
      refine (zcat_mid _ x2 _ _ _ _ _ p m hm hm2).trans ?_
      refine (agg_at x0 x1 _ _ 1 p _ (by simp) ⟨m.val - 128, by omega⟩).trans ?_
      unfold Spec.aggK
      exact Finset.sum_congr rfl fun n _ => congrArg₂ (· * ·) (h0 1 n) (h1 n _)
    · rw [dif_neg hm2]
      exact (zcat_hi _ x2 _ _ _ _ _ p m hm2).trans (h2 _)

/-- The first stored block (the projection's first 512 columns), element (p, q). -/
theorem k0_pay2_at (q : Fin 512) : k0_pay2 x0 x1 x2 x3 x4 x5 (ix2 p q) = Spec.y1K A xb W0 b0 W1 i q := by
  unfold k0_pay2
  refine (truncf_apply (φ := .f32) (ψ := .bf16) _ _ (ix2 p q)).trans ?_
  refine (extractStridedSlice_apply _ _ _ (ix2 p q) (ix2 p ⟨q.val, by omega⟩) ?_).trans ?_
  · intro a
    match a with
    | ⟨0, _⟩ => show p.val = 0 + p.val; omega
    | ⟨1, _⟩ => show q.val = 0 + q.val; omega
  · exact k0_pay1_at x0 x1 x2 x3 x4 x5 A xb W0 b0 W1 i p h0 h1 h2 h3 h4 h5 ⟨q.val, by omega⟩

/-- The second stored block (the projection's last 512 columns plus the layer-1 bias), element (p, q). -/
theorem k0_pay3_at (x6 : Vec Ideal S1x512 .f32) (b1 : Fin 512 → EReal) (h6 : ∀ j, x6 (ix2 0 j) = b1 j) (q : Fin 512) :
    k0_pay3 x0 x1 x2 x3 x4 x5 x6 (ix2 p q) = Spec.p1K A xb W0 b0 W1 b1 i q := by
  unfold k0_pay3
  refine (addf_apply _ _ _).trans ?_
  unfold Spec.p1K
  refine congrArg₂ (· + ·) ?_ ((bias_at x6 _ _ p q).trans (h6 q))
  refine (extractStridedSlice_apply _ _ _ (ix2 p q) (ix2 p ⟨512 + q.val, by omega⟩) ?_).trans ?_
  · intro a
    match a with
    | ⟨0, _⟩ => show p.val = 0 + p.val; omega
    | ⟨1, _⟩ => show 512 + q.val = 512 + q.val; rfl
  · exact k0_pay1_at x0 x1 x2 x3 x4 x5 A xb W0 b0 W1 i p h0 h1 h2 h3 h4 h5 ⟨512 + q.val, by omega⟩

end Region0

end Cert.KernelIdeal.HandVal

end
-- ==== Proof.KVal0.lean ====
/-
  The first region's two output arrays after its eight grid points, over the extended reals.  Point t holds rows
  512 t … 512 t + 511 of the adjacency array (both types), of the features, and of the two outputs; every other
  window is its whole array at every point.  So what point t writes back is rows 512 t … 512 t + 511 of one
  whole-array function, the specification's pre-projection at the arrays the region finds; the eight row tiles
  cover the 4096 rows (row r lies in tile r / 512), so after the run each output array is that function.
-/
import proofs.«130397_g2000105430876207_pallasbulk_1247_2_alg».proof.Proof.KBody0
import proofs.«130397_g2000105430876207_pallasbulk_1247_2_alg».proof.Proof.KPay0
import Idealize.ShloMosaic.Lib.Pipeline.Value

noncomputable section

open scoped BigOperators

namespace Cert.KernelIdeal.HandVal

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-! ## The block index of every window at every point -/

/-- Decided over the eight points: the adjacency window, the feature-row window and the two output windows are at
    row tile t; every other window is at block 0. -/
theorem idx_facts0 : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

theorem lt8_0 (t : Fin cfg0.N) : t.val < 8 := lt_of_lt_of_eq t.isLt N_0

/-! ## The input blocks as rows of their arrays -/

section Blocks
variable (c : Dev nD) (t : Fin cfg0.N)

/-- The adjacency block at point t: rows 512 t … 512 t + 511 of both types. -/
theorem iblk0_0_apply (a : Fin 2) (p : Fin 512) (n : Fin 4096) (i : Fin 4096) (hi : i.val = 512 * t.val + p.val) :
    (Hand.iblk0 V c 0 t : S2x512x4096.Idx → EReal) (ix3 a p n) = Spec.cur3 (V c main_arg11 : S2x4096x4096.Idx → EReal) a i n := by
  obtain ⟨f0, f1, f2, -⟩ := idx_facts0 t
  unfold Hand.iblk0
  rw [View.read_apply]
  show (V c main_arg11 : S2x4096x4096.Idx → EReal) _ = (V c main_arg11 : S2x4096x4096.Idx → EReal) (ix3 a i n)
  refine congrArg _ (funext fun d => Fin.ext ?_)
  match d with
  | ⟨0, _⟩ => show win0_0.index t (0 : Fin 3) * 2 + 1 * a.val = a.val; rw [f0]; omega
  | ⟨1, _⟩ => show win0_0.index t (1 : Fin 3) * 512 + 1 * p.val = i.val; rw [f1, hi]; omega
  | ⟨2, _⟩ => show win0_0.index t (2 : Fin 3) * 4096 + 1 * n.val = n.val; rw [f2]; omega

/-- The whole-feature window is the feature array at every point. -/
theorem iblk0_1_apply (n : Fin 4096) (k : Fin 128) :
    (Hand.iblk0 V c 1 t : S4096x128.Idx → EReal) (ix2 n k) = Spec.cur2 (V c main_v0 : S4096x128.Idx → EReal) n k := by
  obtain ⟨-, -, -, f0, f1, -⟩ := idx_facts0 t
  unfold Hand.iblk0
  rw [View.read_apply]
  show (V c main_v0 : S4096x128.Idx → EReal) _ = (V c main_v0 : S4096x128.Idx → EReal) (ix2 n k)
  refine congrArg _ (funext fun d => Fin.ext ?_)
  match d with
  | ⟨0, _⟩ => show win0_1.index t (0 : Fin 2) * 4096 + 1 * n.val = n.val; rw [f0]; omega
  | ⟨1, _⟩ => show win0_1.index t (1 : Fin 2) * 128 + 1 * k.val = k.val; rw [f1]; omega

/-- The feature-row window at point t: rows 512 t … 512 t + 511 of the features. -/
theorem iblk0_2_apply (p : Fin 512) (k : Fin 128) (i : Fin 4096) (hi : i.val = 512 * t.val + p.val) :
    (Hand.iblk0 V c 2 t : S512x128.Idx → EReal) (ix2 p k) = Spec.cur2 (V c main_v0 : S4096x128.Idx → EReal) i k := by
  obtain ⟨-, -, -, -, -, f0, f1, -⟩ := idx_facts0 t
  unfold Hand.iblk0
  rw [View.read_apply]
  show (V c main_v0 : S4096x128.Idx → EReal) _ = (V c main_v0 : S4096x128.Idx → EReal) (ix2 i k)
  refine congrArg _ (funext fun d => Fin.ext ?_)
  match d with
  | ⟨0, _⟩ => show win0_2.index t (0 : Fin 2) * 512 + 1 * p.val = i.val; rw [f0, hi]; omega
  | ⟨1, _⟩ => show win0_2.index t (1 : Fin 2) * 128 + 1 * k.val = k.val; rw [f1]; omega

/-- The stacked layer-0 weight, whole at every point. -/
theorem iblk0_3_apply (k : Fin 384) (j : Fin 512) :
    (Hand.iblk0 V c 3 t : S384x512.Idx → EReal) (ix2 k j) = Spec.cur2 (V c main_v21 : S384x512.Idx → EReal) k j := by
  obtain ⟨-, -, -, -, -, -, -, f0, f1, -⟩ := idx_facts0 t
  unfold Hand.iblk0
  rw [View.read_apply]
  show (V c main_v21 : S384x512.Idx → EReal) _ = (V c main_v21 : S384x512.Idx → EReal) (ix2 k j)
  refine congrArg _ (funext fun d => Fin.ext ?_)
  match d with
  | ⟨0, _⟩ => show win0_3.index t (0 : Fin 2) * 384 + 1 * k.val = k.val; rw [f0]; omega
  | ⟨1, _⟩ => show win0_3.index t (1 : Fin 2) * 512 + 1 * j.val = j.val; rw [f1]; omega

/-- The layer-0 bias row, whole at every point. -/
theorem iblk0_4_apply (j : Fin 512) :
    (Hand.iblk0 V c 4 t : S1x512.Idx → EReal) (ix2 0 j) = Spec.row (V c main_v22 : S1x512.Idx → EReal) j := by
  obtain ⟨-, -, -, -, -, -, -, -, -, f0, f1, -⟩ := idx_facts0 t
  unfold Hand.iblk0
  rw [View.read_apply]
  show (V c main_v22 : S1x512.Idx → EReal) _ = (V c main_v22 : S1x512.Idx → EReal) (ix2 0 j)
  refine congrArg _ (funext fun d => Fin.ext ?_)
  match d with
  | ⟨0, _⟩ => show win0_4.index t (0 : Fin 2) * 1 + 1 * 0 = 0; rw [f0]
  | ⟨1, _⟩ => show win0_4.index t (1 : Fin 2) * 512 + 1 * j.val = j.val; rw [f1]; omega

/-- The layer-1 weights side by side, whole at every point. -/
theorem iblk0_5_apply (k : Fin 512) (j : Fin 1024) :
    (Hand.iblk0 V c 5 t : S512x1024.Idx → EReal) (ix2 k j) = Spec.cur2 (V c main_v34 : S512x1024.Idx → EReal) k j := by
  obtain ⟨-, -, -, -, -, -, -, -, -, -, -, f0, f1, -⟩ := idx_facts0 t
  unfold Hand.iblk0
  rw [View.read_apply]
  show (V c main_v34 : S512x1024.Idx → EReal) _ = (V c main_v34 : S512x1024.Idx → EReal) (ix2 k j)
  refine congrArg _ (funext fun d => Fin.ext ?_)
  match d with
  | ⟨0, _⟩ => show win0_5.index t (0 : Fin 2) * 512 + 1 * k.val = k.val; rw [f0]; omega
  | ⟨1, _⟩ => show win0_5.index t (1 : Fin 2) * 1024 + 1 * j.val = j.val; rw [f1]; omega

/-- The layer-1 bias row, whole at every point. -/
theorem iblk0_6_apply (j : Fin 512) :
    (Hand.iblk0 V c 6 t : S1x512.Idx → EReal) (ix2 0 j) = Spec.row (V c main_v35 : S1x512.Idx → EReal) j := by
  obtain ⟨-, -, -, -, -, -, -, -, -, -, -, -, -, f0, f1, -⟩ := idx_facts0 t
  unfold Hand.iblk0
  rw [View.read_apply]
  show (V c main_v35 : S1x512.Idx → EReal) _ = (V c main_v35 : S1x512.Idx → EReal) (ix2 0 j)
  refine congrArg _ (funext fun d => Fin.ext ?_)
  match d with
  | ⟨0, _⟩ => show win0_6.index t (0 : Fin 2) * 1 + 1 * 0 = 0; rw [f0]
  | ⟨1, _⟩ => show win0_6.index t (1 : Fin 2) * 512 + 1 * j.val = j.val; rw [f1]; omega

end Blocks

/-! ## What a point writes back, and the arrays after the run -/

section Arrays
variable (c : Dev nD)

local notation "A₀" => Spec.cur3 (V c main_arg11 : S2x4096x4096.Idx → EReal)
local notation "X₀" => Spec.cur2 (V c main_v0 : S4096x128.Idx → EReal)
local notation "W0₀" => Spec.cur2 (V c main_v21 : S384x512.Idx → EReal)
local notation "b0₀" => Spec.row (V c main_v22 : S1x512.Idx → EReal)
local notation "W1₀" => Spec.cur2 (V c main_v34 : S512x1024.Idx → EReal)
local notation "b1₀" => Spec.row (V c main_v35 : S1x512.Idx → EReal)

/-- Element (p, q) of what point t stores into the first output's buffer: the pre-projection at row 512 t + p. -/
theorem y1_point (t : Fin cfg0.N) (p q : Fin 512) (i : Fin 4096) (hi : i.val = 512 * t.val + p.val) :
    k0_pay2 (Hand.iblk0 V c 0 t) (Hand.iblk0 V c 1 t) (Hand.iblk0 V c 2 t) (Hand.iblk0 V c 3 t) (Hand.iblk0 V c 4 t)
        (Hand.iblk0 V c 5 t) (ix2 p q)
      = Spec.y1K A₀ X₀ W0₀ b0₀ W1₀ i q :=
  k0_pay2_at (Hand.iblk0 V c 0 t) (Hand.iblk0 V c 1 t) (Hand.iblk0 V c 2 t) (Hand.iblk0 V c 3 t) (Hand.iblk0 V c 4 t)
    (Hand.iblk0 V c 5 t) A₀ X₀ W0₀ b0₀ W1₀ i p
    (fun a n => iblk0_0_apply V c t a p n i hi) (fun n k => iblk0_1_apply V c t n k) (fun k => iblk0_2_apply V c t p k i hi)
    (fun k j => iblk0_3_apply V c t k j) (fun j => iblk0_4_apply V c t j) (fun k j => iblk0_5_apply V c t k j) q

/-- Element (p, q) of what point t stores into the second output's buffer. -/
theorem p1_point (t : Fin cfg0.N) (p q : Fin 512) (i : Fin 4096) (hi : i.val = 512 * t.val + p.val) :
    k0_pay3 (Hand.iblk0 V c 0 t) (Hand.iblk0 V c 1 t) (Hand.iblk0 V c 2 t) (Hand.iblk0 V c 3 t) (Hand.iblk0 V c 4 t)
        (Hand.iblk0 V c 5 t) (Hand.iblk0 V c 6 t) (ix2 p q)
      = Spec.p1K A₀ X₀ W0₀ b0₀ W1₀ b1₀ i q :=
  k0_pay3_at (Hand.iblk0 V c 0 t) (Hand.iblk0 V c 1 t) (Hand.iblk0 V c 2 t) (Hand.iblk0 V c 3 t) (Hand.iblk0 V c 4 t)
    (Hand.iblk0 V c 5 t) A₀ X₀ W0₀ b0₀ W1₀ i p
    (fun a n => iblk0_0_apply V c t a p n i hi) (fun n k => iblk0_1_apply V c t n k) (fun k => iblk0_2_apply V c t p k i hi)
    (fun k j => iblk0_3_apply V c t k j) (fun j => iblk0_4_apply V c t j) (fun k j => iblk0_5_apply V c t k j)
    (Hand.iblk0 V c 6 t) b1₀ (fun j => iblk0_6_apply V c t j) q

/-- What point t writes back of the first output is rows 512 t … 512 t + 511 of the pre-projection's first half. -/
theorem flushed7_eq (t : Fin cfg0.N) :
    (Hand.dat0 V c).flushed 7 t = ((cfg0.win 7).blk t).view.read (Elt Ideal)
      (fun idx => Spec.y1K A₀ X₀ W0₀ b0₀ W1₀ (idx 0) (idx 1)) := by
  obtain ⟨-, -, -, -, -, -, -, -, -, -, -, -, -, -, -, f0, f1, -⟩ := idx_facts0 t
  have ht := lt8_0 t
  show (cfg0.win 7).cut (grid0.coords t) ((Hand.dat0 V c).after 7 t) = _
  rw [Hand.after0_7]
  unfold Hand.out0_7
  rw [View.canon_unit_zero hz2]
  simp only [View.ld_unit_zero (S := S2x512x4096) hz3, View.ld_unit_zero (S := S4096x128) hz2, View.ld_unit_zero (S := S512x128) hz2,
    View.ld_unit_zero (S := S384x512) hz2, View.ld_unit_zero (S := S1x512) hz2, View.ld_unit_zero (S := S512x1024) hz2]
  funext j
  obtain ⟨p, q, rfl⟩ : ∃ (p q : Fin 512), j = ix2 p q := ⟨j 0, j 1, eq_ix2 j⟩
  rw [View.read_apply]
  have e : ((cfg0.win 7).blk t).view.emb (ix2 p q) = ix2 (n0 := 4096) (n1 := 512) ⟨512 * t.val + p.val, by omega⟩ q := by
    funext a; apply Fin.ext
    match a with
    | ⟨0, _⟩ => show win0_7.index t (0 : Fin 2) * 512 + 1 * p.val = 512 * t.val + p.val; rw [f0]; omega
    | ⟨1, _⟩ => show win0_7.index t (1 : Fin 2) * 512 + 1 * q.val = q.val; rw [f1]; omega
  rw [e]
  exact y1_point V c t p q ⟨512 * t.val + p.val, by omega⟩ rfl

/-- What point t writes back of the second output is the same rows of the pre-projection's second half plus the bias. -/
theorem flushed8_eq (t : Fin cfg0.N) :
    (Hand.dat0 V c).flushed 8 t = ((cfg0.win 8).blk t).view.read (Elt Ideal)
      (fun idx => Spec.p1K A₀ X₀ W0₀ b0₀ W1₀ b1₀ (idx 0) (idx 1)) := by
  obtain ⟨-, -, -, -, -, -, -, -, -, -, -, -, -, -, -, -, -, f0, f1⟩ := idx_facts0 t
  have ht := lt8_0 t
  show (cfg0.win 8).cut (grid0.coords t) ((Hand.dat0 V c).after 8 t) = _
  rw [Hand.after0_8]
  unfold Hand.out0_8
  rw [View.canon_unit_zero hz2]
  simp only [View.ld_unit_zero (S := S2x512x4096) hz3, View.ld_unit_zero (S := S4096x128) hz2, View.ld_unit_zero (S := S512x128) hz2,
    View.ld_unit_zero (S := S384x512) hz2, View.ld_unit_zero (S := S1x512) hz2, View.ld_unit_zero (S := S512x1024) hz2]
  funext j
  obtain ⟨p, q, rfl⟩ : ∃ (p q : Fin 512), j = ix2 p q := ⟨j 0, j 1, eq_ix2 j⟩
  rw [View.read_apply]
  have e : ((cfg0.win 8).blk t).view.emb (ix2 p q) = ix2 (n0 := 4096) (n1 := 512) ⟨512 * t.val + p.val, by omega⟩ q := by
    funext a; apply Fin.ext
    match a with
    | ⟨0, _⟩ => show win0_8.index t (0 : Fin 2) * 512 + 1 * p.val = 512 * t.val + p.val; rw [f0]; omega
    | ⟨1, _⟩ => show win0_8.index t (1 : Fin 2) * 512 + 1 * q.val = q.val; rw [f1]; omega
  rw [e]
  exact p1_point V c t p q ⟨512 * t.val + p.val, by omega⟩ rfl

/-- An index of the first output array is in point t's block iff each coordinate is in the block's range. -/
theorem mem_blk7 (t : Fin cfg0.N) (i : S4096x512.Idx) :
    i ∈ ((cfg0.win 7).blk t).view.set ↔ ∀ a : Fin 2, win0_7.index t a * S512x512.size a ≤ (i a).val ∧ (i a).val < win0_7.index t a * S512x512.size a + S512x512.size a := by
  show i ∈ ((View.whole main_v52_0).slice (win0_7.rect t)).set ↔ _
  rw [View.set_slice_whole, Rect.mem_set_unit]
  exact Iff.rfl

theorem mem_blk8 (t : Fin cfg0.N) (i : S4096x512.Idx) :
    i ∈ ((cfg0.win 8).blk t).view.set ↔ ∀ a : Fin 2, win0_8.index t a * S512x512.size a ≤ (i a).val ∧ (i a).val < win0_8.index t a * S512x512.size a + S512x512.size a := by
  show i ∈ ((View.whole main_v52_1).slice (win0_8.rect t)).set ↔ _
  rw [View.set_slice_whole, Rect.mem_set_unit]
  exact Iff.rfl

/-- Row r of the first output lies in the block of point r / 512. -/
theorem cover7 (i : S4096x512.Idx) : ∃ t : Fin cfg0.N, (cfg0.win 7).flush t = true ∧ i ∈ ((cfg0.win 7).blk t).view.set := by
  have hi0 : (i 0).val < 4096 := (i 0).isLt
  have hi1 : (i 1).val < 512 := (i 1).isLt
  obtain ⟨t, ht⟩ : ∃ t : Fin cfg0.N, t.val = (i 0).val / 512 :=
    ⟨⟨(i 0).val / 512, lt_of_lt_of_eq (by omega : (i 0).val / 512 < 8) N_0.symm⟩, rfl⟩
  obtain ⟨-, -, -, -, -, -, -, -, -, -, -, -, -, -, -, f0, f1, -⟩ := idx_facts0 t
  refine ⟨t, flush0_7 t, ?_⟩
  rw [mem_blk7]
  intro a
  match a with
  | ⟨0, _⟩ => show win0_7.index t (0 : Fin 2) * 512 ≤ (i 0).val ∧ (i 0).val < win0_7.index t (0 : Fin 2) * 512 + 512; rw [f0, ht]; omega
  | ⟨1, _⟩ => show win0_7.index t (1 : Fin 2) * 512 ≤ (i 1).val ∧ (i 1).val < win0_7.index t (1 : Fin 2) * 512 + 512; rw [f1]; omega

theorem cover8 (i : S4096x512.Idx) : ∃ t : Fin cfg0.N, (cfg0.win 8).flush t = true ∧ i ∈ ((cfg0.win 8).blk t).view.set := by
  have hi0 : (i 0).val < 4096 := (i 0).isLt
  have hi1 : (i 1).val < 512 := (i 1).isLt
  obtain ⟨t, ht⟩ : ∃ t : Fin cfg0.N, t.val = (i 0).val / 512 :=
    ⟨⟨(i 0).val / 512, lt_of_lt_of_eq (by omega : (i 0).val / 512 < 8) N_0.symm⟩, rfl⟩
  obtain ⟨-, -, -, -, -, -, -, -, -, -, -, -, -, -, -, -, -, f0, f1⟩ := idx_facts0 t
  refine ⟨t, flush0_8 t, ?_⟩
  rw [mem_blk8]
  intro a
  match a with
  | ⟨0, _⟩ => show win0_8.index t (0 : Fin 2) * 512 ≤ (i 0).val ∧ (i 0).val < win0_8.index t (0 : Fin 2) * 512 + 512; rw [f0, ht]; omega
  | ⟨1, _⟩ => show win0_8.index t (1 : Fin 2) * 512 ≤ (i 1).val ∧ (i 1).val < win0_8.index t (1 : Fin 2) * 512 + 512; rw [f1]; omega

/-- THE FIRST OUTPUT after the run: the pre-projection's first 512 columns, at the arrays the region finds. -/
theorem y1_val : (Hand.dat0 V c).arrAt 7 cfg0.N
    = fun idx => Spec.y1K (Spec.cur3 (V c main_arg11 : S2x4096x4096.Idx → EReal)) (Spec.cur2 (V c main_v0 : S4096x128.Idx → EReal))
        (Spec.cur2 (V c main_v21 : S384x512.Idx → EReal)) (Spec.row (V c main_v22 : S1x512.Idx → EReal))
        (Spec.cur2 (V c main_v34 : S512x1024.Idx → EReal)) (idx 0) (idx 1) :=
  (Hand.dat0 V c).arrAt_eq_of_cover 7 _ (fun t _ => flushed7_eq V c t) cover7

/-- THE SECOND OUTPUT after the run: its last 512 columns plus the layer-1 bias. -/
theorem p1_val : (Hand.dat0 V c).arrAt 8 cfg0.N
    = fun idx => Spec.p1K (Spec.cur3 (V c main_arg11 : S2x4096x4096.Idx → EReal)) (Spec.cur2 (V c main_v0 : S4096x128.Idx → EReal))
        (Spec.cur2 (V c main_v21 : S384x512.Idx → EReal)) (Spec.row (V c main_v22 : S1x512.Idx → EReal))
        (Spec.cur2 (V c main_v34 : S512x1024.Idx → EReal)) (Spec.row (V c main_v35 : S1x512.Idx → EReal)) (idx 0) (idx 1) :=
  (Hand.dat0 V c).arrAt_eq_of_cover 8 _ (fun t _ => flushed8_eq V c t) cover8

end Arrays

end Cert.KernelIdeal.HandVal

end
-- ==== Proof.KPay1.lean ====
/-
  The values the second region's body stores, read at one element of its output blocks, over the extended reals.
  For each edge type the body multiplies that type's 512 x 4096 adjacency rows by the type's 256 columns of the
  pre-projection (one sum over the 4096 sources), lays the two types' 256 columns side by side, adds the self term
  and rectifies: that is the stored 512 x 512 embedding block.  The head then multiplies by the padded first weight,
  adds its bias, rectifies, multiplies by the padded second weight and adds the second bias: the stored 512 x 128
  block.  A format change is the identity on the extended reals and a product into a zero accumulator is the plain
  sum, so each stored element is the corresponding term of Spec.lean, whatever the tile: the lemmas are stated for
  arbitrary vectors in the places of the loaded blocks and ask only how row p of each block is row i of its array.
-/
import proofs.«130397_g2000105430876207_pallasbulk_1247_2_alg».proof.Proof.Gen.KernelIdeal.Skeleton
import proofs.«130397_g2000105430876207_pallasbulk_1247_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.HandVal

open Idealize.ShloMosaic Idealize.SL.Sem Idealize.ShloMosaic.ValueIdx Cert.KernelIdeal Cert.KernelIdeal.Gen

/-! ## The three products of the second region -/

/-! The product 512×4096 by 4096×256 into a zero accumulator, read at (p, q): the plain sum over the 4096 contraction positions. -/

theorem mm_acc_l0 (i : S512x256.Idx) (q : dot_S512x4096_S4096x256_S512x256_1_0_0_1_n_n.contr.Idx) : (dot_S512x4096_S4096x256_S512x256_1_0_0_1_n_n.lhsIdx i q 0).val = (i 0).val := by
  unfold DotDims.lhsIdx
  rw [dif_neg (show ¬(0 : Fin S512x4096.rank) ∈ dot_S512x4096_S4096x256_S512x256_1_0_0_1_n_n.lhsBatch by decide), dif_pos (show (0 : Fin S512x4096.rank) ∈ dot_S512x4096_S4096x256_S512x256_1_0_0_1_n_n.lhsNonContracting by decide)]
  rfl
theorem mm_acc_l1 (i : S512x256.Idx) (q : dot_S512x4096_S4096x256_S512x256_1_0_0_1_n_n.contr.Idx) : (dot_S512x4096_S4096x256_S512x256_1_0_0_1_n_n.lhsIdx i q 1).val = (q ⟨0, by decide⟩).val :=
  dot_S512x4096_S4096x256_S512x256_1_0_0_1_n_n.lhsIdx_val_of_single rfl i q
theorem mm_acc_r0 (i : S512x256.Idx) (q : dot_S512x4096_S4096x256_S512x256_1_0_0_1_n_n.contr.Idx) : (dot_S512x4096_S4096x256_S512x256_1_0_0_1_n_n.rhsIdx i q 0).val = (q ⟨0, by decide⟩).val :=
  dot_S512x4096_S4096x256_S512x256_1_0_0_1_n_n.rhsIdx_val_of_single rfl i q
theorem mm_acc_r1 (i : S512x256.Idx) (q : dot_S512x4096_S4096x256_S512x256_1_0_0_1_n_n.contr.Idx) : (dot_S512x4096_S4096x256_S512x256_1_0_0_1_n_n.rhsIdx i q 1).val = (i 1).val := by
  unfold DotDims.rhsIdx
  rw [dif_neg (show ¬(1 : Fin S4096x256.rank) ∈ dot_S512x4096_S4096x256_S512x256_1_0_0_1_n_n.rhsBatch by decide), dif_pos (show (1 : Fin S4096x256.rank) ∈ dot_S512x4096_S4096x256_S512x256_1_0_0_1_n_n.rhsNonContracting by decide)]
  rfl

theorem mm_acc {φ₁ φ₂ : FTy} (lhs : FVec Ideal S512x4096 φ₁) (rhs : FVec Ideal S4096x256 φ₂) (p : Fin 512) (q : Fin 256) :
    matmul dot_S512x4096_S4096x256_S512x256_1_0_0_1_n_n none lhs rhs (constant (F := Ideal) S512x256 .f32 0x00000000#32) (ix2 p q)
      = ∑ k : Fin 4096, lhs (ix2 p k) * rhs (ix2 k q) := by
  simp only [matmul]
  rw [Ideal.matmul_constant_zero_apply, ← Equiv.sum_comp (contrEquiv1 dot_S512x4096_S4096x256_S512x256_1_0_0_1_n_n 4096 rfl rfl).symm]
  refine Finset.sum_congr rfl fun k _ => ?_
  have hk := contrEquiv1_symm_val dot_S512x4096_S4096x256_S512x256_1_0_0_1_n_n 4096 rfl rfl k
  have el : dot_S512x4096_S4096x256_S512x256_1_0_0_1_n_n.lhsIdx (ix2 p q) ((contrEquiv1 dot_S512x4096_S4096x256_S512x256_1_0_0_1_n_n 4096 rfl rfl).symm k) = ix2 p k := funext fun a => Fin.ext (by
    match a with
    | ⟨0, _⟩ => exact mm_acc_l0 _ _
    | ⟨1, _⟩ => exact (mm_acc_l1 _ _).trans hk)
  have er : dot_S512x4096_S4096x256_S512x256_1_0_0_1_n_n.rhsIdx (ix2 p q) ((contrEquiv1 dot_S512x4096_S4096x256_S512x256_1_0_0_1_n_n 4096 rfl rfl).symm k) = ix2 k q := funext fun a => Fin.ext (by
    match a with
    | ⟨0, _⟩ => exact (mm_acc_r0 _ _).trans hk
    | ⟨1, _⟩ => exact mm_acc_r1 _ _)
  rw [el, er]

/-! The product 512×512 by 512×128 into a zero accumulator, read at (p, q): the plain sum over the 512 contraction positions. -/

theorem mm_h1_l0 (i : S512x128.Idx) (q : dot_S512x512_S512x128_S512x128_1_0_0_1_n_n.contr.Idx) : (dot_S512x512_S512x128_S512x128_1_0_0_1_n_n.lhsIdx i q 0).val = (i 0).val := by
  unfold DotDims.lhsIdx
  rw [dif_neg (show ¬(0 : Fin S512x512.rank) ∈ dot_S512x512_S512x128_S512x128_1_0_0_1_n_n.lhsBatch by decide), dif_pos (show (0 : Fin S512x512.rank) ∈ dot_S512x512_S512x128_S512x128_1_0_0_1_n_n.lhsNonContracting by decide)]
  rfl
theorem mm_h1_l1 (i : S512x128.Idx) (q : dot_S512x512_S512x128_S512x128_1_0_0_1_n_n.contr.Idx) : (dot_S512x512_S512x128_S512x128_1_0_0_1_n_n.lhsIdx i q 1).val = (q ⟨0, by decide⟩).val :=
  dot_S512x512_S512x128_S512x128_1_0_0_1_n_n.lhsIdx_val_of_single rfl i q
theorem mm_h1_r0 (i : S512x128.Idx) (q : dot_S512x512_S512x128_S512x128_1_0_0_1_n_n.contr.Idx) : (dot_S512x512_S512x128_S512x128_1_0_0_1_n_n.rhsIdx i q 0).val = (q ⟨0, by decide⟩).val :=
  dot_S512x512_S512x128_S512x128_1_0_0_1_n_n.rhsIdx_val_of_single rfl i q
theorem mm_h1_r1 (i : S512x128.Idx) (q : dot_S512x512_S512x128_S512x128_1_0_0_1_n_n.contr.Idx) : (dot_S512x512_S512x128_S512x128_1_0_0_1_n_n.rhsIdx i q 1).val = (i 1).val := by
  unfold DotDims.rhsIdx
  rw [dif_neg (show ¬(1 : Fin S512x128.rank) ∈ dot_S512x512_S512x128_S512x128_1_0_0_1_n_n.rhsBatch by decide), dif_pos (show (1 : Fin S512x128.rank) ∈ dot_S512x512_S512x128_S512x128_1_0_0_1_n_n.rhsNonContracting by decide)]
  rfl

theorem mm_h1 {φ₁ φ₂ : FTy} (lhs : FVec Ideal S512x512 φ₁) (rhs : FVec Ideal S512x128 φ₂) (p : Fin 512) (q : Fin 128) :
    matmul dot_S512x512_S512x128_S512x128_1_0_0_1_n_n none lhs rhs (constant (F := Ideal) S512x128 .f32 0x00000000#32) (ix2 p q)
      = ∑ k : Fin 512, lhs (ix2 p k) * rhs (ix2 k q) := by
  simp only [matmul]
  rw [Ideal.matmul_constant_zero_apply, ← Equiv.sum_comp (contrEquiv1 dot_S512x512_S512x128_S512x128_1_0_0_1_n_n 512 rfl rfl).symm]
  refine Finset.sum_congr rfl fun k _ => ?_
  have hk := contrEquiv1_symm_val dot_S512x512_S512x128_S512x128_1_0_0_1_n_n 512 rfl rfl k
  have el : dot_S512x512_S512x128_S512x128_1_0_0_1_n_n.lhsIdx (ix2 p q) ((contrEquiv1 dot_S512x512_S512x128_S512x128_1_0_0_1_n_n 512 rfl rfl).symm k) = ix2 p k := funext fun a => Fin.ext (by
    match a with
    | ⟨0, _⟩ => exact mm_h1_l0 _ _
    | ⟨1, _⟩ => exact (mm_h1_l1 _ _).trans hk)
  have er : dot_S512x512_S512x128_S512x128_1_0_0_1_n_n.rhsIdx (ix2 p q) ((contrEquiv1 dot_S512x512_S512x128_S512x128_1_0_0_1_n_n 512 rfl rfl).symm k) = ix2 k q := funext fun a => Fin.ext (by
    match a with
    | ⟨0, _⟩ => exact (mm_h1_r0 _ _).trans hk
    | ⟨1, _⟩ => exact mm_h1_r1 _ _)
  rw [el, er]

/-! The product 512×128 by 128×128 into a zero accumulator, read at (p, q): the plain sum over the 128 contraction positions. -/

theorem mm_h2_l0 (i : S512x128.Idx) (q : dot_S512x128_S128x128_S512x128_1_0_0_1_n_n.contr.Idx) : (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem mm_h2_l1 (i : S512x128.Idx) (q : dot_S512x128_S128x128_S512x128_1_0_0_1_n_n.contr.Idx) : (dot_S512x128_S128x128_S512x128_1_0_0_1_n_n.lhsIdx i q 1).val = (q ⟨0, by decide⟩).val :=
  dot_S512x128_S128x128_S512x128_1_0_0_1_n_n.lhsIdx_val_of_single rfl i q
theorem mm_h2_r0 (i : S512x128.Idx) (q : dot_S512x128_S128x128_S512x128_1_0_0_1_n_n.contr.Idx) : (dot_S512x128_S128x128_S512x128_1_0_0_1_n_n.rhsIdx i q 0).val = (q ⟨0, by decide⟩).val :=
  dot_S512x128_S128x128_S512x128_1_0_0_1_n_n.rhsIdx_val_of_single rfl i q
theorem mm_h2_r1 (i : S512x128.Idx) (q : dot_S512x128_S128x128_S512x128_1_0_0_1_n_n.contr.Idx) : (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

theorem mm_h2 {φ₁ φ₂ : FTy} (lhs : FVec Ideal S512x128 φ₁) (rhs : FVec Ideal S128x128 φ₂) (p : Fin 512) (q : Fin 128) :
    matmul dot_S512x128_S128x128_S512x128_1_0_0_1_n_n none lhs rhs (constant (F := Ideal) S512x128 .f32 0x00000000#32) (ix2 p q)
      = ∑ k : Fin 128, lhs (ix2 p k) * rhs (ix2 k q) := by
  simp only [matmul]
  rw [Ideal.matmul_constant_zero_apply, ← Equiv.sum_comp (contrEquiv1 dot_S512x128_S128x128_S512x128_1_0_0_1_n_n 128 rfl rfl).symm]
  refine Finset.sum_congr rfl fun k _ => ?_
  have hk := contrEquiv1_symm_val dot_S512x128_S128x128_S512x128_1_0_0_1_n_n 128 rfl rfl k
  have el : dot_S512x128_S128x128_S512x128_1_0_0_1_n_n.lhsIdx (ix2 p q) ((contrEquiv1 dot_S512x128_S128x128_S512x128_1_0_0_1_n_n 128 rfl rfl).symm k) = ix2 p k := funext fun a => Fin.ext (by
    match a with
    | ⟨0, _⟩ => exact mm_h2_l0 _ _
    | ⟨1, _⟩ => exact (mm_h2_l1 _ _).trans hk)
  have er : dot_S512x128_S128x128_S512x128_1_0_0_1_n_n.rhsIdx (ix2 p q) ((contrEquiv1 dot_S512x128_S128x128_S512x128_1_0_0_1_n_n 128 rfl rfl).symm k) = ix2 k q := funext fun a => Fin.ext (by
    match a with
    | ⟨0, _⟩ => exact (mm_h2_r0 _ _).trans hk
    | ⟨1, _⟩ => exact mm_h2_r1 _ _)
  rw [el, er]

/-! ## The layout steps -/

/-- One type's [1, 512, 4096] rows viewed as [512, 4096]. -/
theorem cast_type {α : Type} (x : S1x512x4096.Idx → α) (h : S1x512x4096.ShapeCasts S512x4096) (p : Fin 512) (n : Fin 4096) :
    shapeCast S512x4096 x h (ix2 p n) = x (ix3 0 p n) := by
  refine shapeCast_apply x h (ix2 p n) (ix3 0 p n) ?_
  rw [Shape.rowMajor_val_three, Shape.rowMajor_val_two]
  show (0 * 512 + p.val) * 4096 + n.val = p.val * 4096 + n.val
  omega

/-- One type's aggregation of the pre-projection at (p, c): the sum over the sources. -/
theorem acc_at (x0 : FVec Ideal S1x512x4096 .bf16) (x2 : FVec Ideal S4096x256 .bf16)
    (h0 : S1x512x4096.ShapeCasts S512x4096) (h2 : S4096x256.ShapeCasts S4096x256) (p : Fin 512) (c : Fin 256) :
    matmul dot_S512x4096_S4096x256_S512x256_1_0_0_1_n_n none (shapeCast S512x4096 x0 h0) (shapeCast S4096x256 x2 h2)
        (constant (F := Ideal) S512x256 .f32 0x00000000#32) (ix2 p c)
      = ∑ n : Fin 4096, x0 (ix3 0 p n) * x2 (ix2 n c) := by
  refine (mm_acc _ _ p c).trans ?_
  refine Finset.sum_congr rfl fun n _ => ?_
  rw [cast_type x0 h0 p n, shapeCast_self]

/-- The two types' 256 columns side by side: columns 0 … 255 are the first type's. -/
theorem cat2_lo (g0 g1 : FVec Ideal S512x256 .f32) (hcat : Shape.Concatenates [S512x256, S512x256] S512x512 1)
    (p : Fin 512) (q : Fin 512) (hq : q.val < 256) :
    concatenate S512x512 1 [⟨S512x256, g0⟩, ⟨S512x256, g1⟩] hcat (ix2 p q) = g0 (ix2 p ⟨q.val, hq⟩) := by
  refine concatenate_pair_apply_left (1 : Fin S512x512.rank) g0 g1 hcat (ix2 p q) rfl (ix2 p ⟨q.val, hq⟩) ?_
  intro b
  match b with
  | ⟨0, _⟩ => rfl
  | ⟨1, _⟩ => rfl

/-- Columns 256 … 511 are the second type's. -/
theorem cat2_hi (g0 g1 : FVec Ideal S512x256 .f32) (hcat : Shape.Concatenates [S512x256, S512x256] S512x512 1)
    (p : Fin 512) (q : Fin 512) (hq : ¬q.val < 256) :
    concatenate S512x512 1 [⟨S512x256, g0⟩, ⟨S512x256, g1⟩] hcat (ix2 p q) = g1 (ix2 p ⟨q.val - 256, by omega⟩) := by
  refine concatenate_pair_apply_right (1 : Fin S512x512.rank) g0 g1 hcat (ix2 p q) rfl rfl (ix2 p ⟨q.val - 256, by omega⟩) ?_ ?_
  · intro b hb'
    match b with
    | ⟨0, _⟩ => rfl
    | ⟨1, _⟩ => exact absurd rfl hb'
  · show (q.val - 256) + 256 = q.val
    omega

/-- The embedding at (p, q) from the aggregated columns g and the self-term block: add and rectify. -/
theorem emb_at (g : FVec Ideal S512x512 .f32) (x11 : FVec Ideal S512x512 .f32) (h11 : S512x512.ShapeCasts S512x512)
    (p q : Fin 512) :
    maximumf (addf g (shapeCast S512x512 x11 h11)) (broadcast S512x512 (Scalar.ofBits (F := Ideal) .f32 0x00000000#32)) (ix2 p q)
      = max (g (ix2 p q) + x11 (ix2 p q)) 0 := by
  rw [maximumf_apply, addf_apply, broadcast_apply, shapeCast_self]
  show max _ (Ideal.ofBits .f32 0x00000000#32) = _
  rw [Ideal.ofBits_zero_f32]

/-- A [1, 128] row broadcast down 512 rows reads the row's entry in that column. -/
theorem bias128_at (x : FVec Ideal S1x128 .f32) (h1 : S1x128.ShapeCasts S1x128) (hbr : S1x128.Broadcasts S512x128) (p : Fin 512) (o : Fin 128) :
    broadcastTo S512x128 (shapeCast S1x128 x h1) hbr (ix2 p o) = x (ix2 0 o) := by
  rw [shapeCast_self]
  refine broadcastTo_apply x hbr (ix2 p o) (ix2 0 o) ?_
  intro a
  match a with
  | ⟨0, _⟩ => rfl
  | ⟨1, _⟩ => rfl

/-- The head's hidden layer at (p, h) from the embedding block e: the rectified sum against the first weight plus its bias. -/
theorem hid_at (e : FVec Ideal S512x512 .f32) (x18 : FVec Ideal S512x128 .bf16) (x21 : FVec Ideal S1x128 .f32)
    (hb : FTy.bits .bf16 < FTy.bits .f32) (h18 : S512x128.ShapeCasts S512x128) (h21 : S1x128.ShapeCasts S1x128)
    (hbr : S1x128.Broadcasts S512x128) (p : Fin 512) (h : Fin 128) :
    maximumf (addf (matmul dot_S512x512_S512x128_S512x128_1_0_0_1_n_n none (truncf .bf16 e hb) (shapeCast S512x128 x18 h18)
          (constant (F := Ideal) S512x128 .f32 0x00000000#32))
        (broadcastTo S512x128 (shapeCast S1x128 x21 h21) hbr))
      (broadcast S512x128 (Scalar.ofBits (F := Ideal) .f32 0x00000000#32)) (ix2 p h)
      = max ((∑ k : Fin 512, e (ix2 p k) * x18 (ix2 k h)) + x21 (ix2 0 h)) 0 := by
  rw [maximumf_apply, addf_apply, broadcast_apply, mm_h1, bias128_at, shapeCast_self]
  show max _ (Ideal.ofBits .f32 0x00000000#32) = _
  rw [Ideal.ofBits_zero_f32]
  rfl

/-- The head's output product at (p, o) from the hidden block hd. -/
theorem out_at (hd : FVec Ideal S512x128 .f32) (x28 : FVec Ideal S128x128 .bf16) (hb : FTy.bits .bf16 < FTy.bits .f32)
    (h28 : S128x128.ShapeCasts S128x128) (p : Fin 512) (o : Fin 128) :
    matmul dot_S512x128_S128x128_S512x128_1_0_0_1_n_n none (truncf .bf16 hd hb) (shapeCast S128x128 x28 h28)
        (constant (F := Ideal) S512x128 .f32 0x00000000#32) (ix2 p o)
      = ∑ h : Fin 128, hd (ix2 p h) * x28 (ix2 h o) := by
  rw [mm_h2, shapeCast_self]
  rfl

/-! ## The stored blocks, element by element -/

section Region1
variable (v0 : Vec Ideal S1x512x4096 .bf16) (v2 : Vec Ideal S4096x256 .bf16) (v5 : Vec Ideal S1x512x4096 .bf16)
  (v7 : Vec Ideal S4096x256 .bf16) (v11 : Vec Ideal S512x512 .f32)
  (A : Fin 2 → Fin 4096 → Fin 4096 → EReal) (Y1 P1 : Fin 4096 → Fin 512 → EReal) (i : Fin 4096) (p : Fin 512)

/-- The stored embedding block, element (p, q): rows p of the two types' adjacency blocks are row i of the adjacency
    array, the two loaded halves of the pre-projection are its columns 0 … 255 and 256 … 511, and row p of the self
    term is its row i.  Then the element is the specification's at row i. -/
theorem k1_pay2_at (h0 : ∀ n, v0 (ix3 0 p n) = A 0 i n) (h5 : ∀ n, v5 (ix3 0 p n) = A 1 i n)
    (h2 : ∀ n (c : Fin 256), v2 (ix2 n c) = Y1 n ⟨c.val, by omega⟩)
    (h7 : ∀ n (c : Fin 256), v7 (ix2 n c) = Y1 n ⟨256 + c.val, by omega⟩)
    (h11 : ∀ q, v11 (ix2 p q) = P1 i q) (q : Fin 512) :
    k1_pay2 v0 v2 v5 v7 v11 (ix2 p q) = Spec.embK A Y1 P1 i q := by
  unfold k1_pay2
  refine (emb_at _ v11 _ p q).trans ?_
  unfold Spec.embK Spec.relu
  refine congrArg (max · 0) (congrArg₂ (· + ·) ?_ (h11 q))
  by_cases hq : q.val < 256
  · refine (cat2_lo _ _ _ p q hq).trans ?_
    refine (acc_at v0 v2 _ _ p ⟨q.val, hq⟩).trans ?_
    have hty : Spec.ty q = 0 := Fin.ext (by show q.val / 256 = 0; omega)
    rw [hty]
    exact Finset.sum_congr rfl fun n _ => congrArg₂ (· * ·) (h0 n) (h2 n ⟨q.val, hq⟩)
  · refine (cat2_hi _ _ _ p q hq).trans ?_
    refine (acc_at v5 v7 _ _ p ⟨q.val - 256, by omega⟩).trans ?_
    have hty : Spec.ty q = 1 := Fin.ext (by show q.val / 256 = 1; have := q.isLt; omega)
    rw [hty]
    refine Finset.sum_congr rfl fun n _ => congrArg₂ (· * ·) (h5 n) ((h7 n ⟨q.val - 256, by omega⟩).trans ?_)
    exact congrArg (Y1 n) (Fin.ext (by show 256 + (q.val - 256) = q.val; omega))

/-- The stored head block, element (p, o), over whatever the embedding block's row p is (emb at row i): the
    specification's head of it. -/
theorem k1_pred_at (v18 : Vec Ideal S512x128 .bf16) (v21 : Vec Ideal S1x128 .f32) (v28 : Vec Ideal S128x128 .bf16)
    (v31 : Vec Ideal S1x128 .f32) (emb : Fin 4096 → Fin 512 → EReal) (w1p : Fin 512 → Fin 128 → EReal)
    (b1p : Fin 128 → EReal) (w2p : Fin 128 → Fin 128 → EReal) (b2p : Fin 128 → EReal)
    (hemb : ∀ k, k1_pay2 v0 v2 v5 v7 v11 (ix2 p k) = emb i k)
    (h18 : ∀ k h, v18 (ix2 k h) = w1p k h) (h21 : ∀ h, v21 (ix2 0 h) = b1p h)
    (h28 : ∀ h o, v28 (ix2 h o) = w2p h o) (h31 : ∀ o, v31 (ix2 0 o) = b2p o) (o : Fin 128) :
    k1_pay1 (k1_pay3 v0 v2 v5 v7 v11 v18 v21 v28) v31 (ix2 p o) = Spec.head emb w1p b1p w2p b2p i o := by
  unfold k1_pay1
  refine (addf_apply _ _ _).trans ?_
  unfold Spec.head
  refine congrArg₂ (· + ·) ?_ ((bias128_at v31 _ _ p o).trans (h31 o))
  unfold k1_pay3
  refine (out_at _ v28 _ _ p o).trans ?_
  refine Finset.sum_congr rfl fun h _ => congrArg₂ (· * ·) ?_ (h28 h o)
  refine (hid_at _ v18 v21 _ _ _ _ p h).trans ?_
  unfold Spec.hid Spec.relu
  exact congrArg (max · 0) (congrArg₂ (· + ·) (Finset.sum_congr rfl fun k _ => congrArg₂ (· * ·) (hemb k) (h18 k h)) (h21 h))

end Region1

end Cert.KernelIdeal.HandVal

end
-- ==== Proof.KVal1.lean ====
/-
  The second region's two output arrays after its eight grid points, over the extended reals.  Point t holds rows
  512 t … 512 t + 511 of the adjacency array (both types), of the self term and of the two outputs; the
  pre-projection and the head's padded weights are whole at every point.  The body reads the adjacency block through
  its two types and the pre-projection through its two halves of 256 columns.  So what point t writes back is rows
  512 t … 512 t + 511 of one whole-array function, the specification's embedding (and its head) at the arrays the
  region finds; the eight row tiles cover the 4096 rows, so after the run each output array is that function.
-/
import proofs.«130397_g2000105430876207_pallasbulk_1247_2_alg».proof.Proof.KBody1
import proofs.«130397_g2000105430876207_pallasbulk_1247_2_alg».proof.Proof.KPay1
import Idealize.ShloMosaic.Lib.Pipeline.Value

noncomputable section

open scoped BigOperators

namespace Cert.KernelIdeal.HandVal

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz2' : (![0, 0] : Fin 2 → Nat) = fun _ => 0 := funext fun a => by fin_cases a <;> rfl

/-! ## The block index of every window at every point -/

/-- Decided over the eight points: the adjacency window, the self-term window and the two output windows are at row
    tile t; every other window is at block 0. -/
theorem idx_facts1 : ∀ t : Fin cfg1.N,
    win1_0.index t (0 : Fin 3) = 0 ∧ win1_0.index t (1 : Fin 3) = t.val ∧ win1_0.index t (2 : Fin 3) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

theorem lt8_1 (t : Fin cfg1.N) : t.val < 8 := lt_of_lt_of_eq t.isLt N_1

/-! ## The body's partial loads: one type of the adjacency block, one half of the pre-projection's columns -/

theorem ld_type0 (X : S2x512x4096.Idx → EReal) (p : Fin 512) (n : Fin 4096) :
    View.ld (Val := Elt Ideal) (S := S2x512x4096) (e' := .bf16) X Hand.r1_0 (ix3 0 p n) = X (ix3 0 p n) := by
  show X (Hand.r1_0.idx (ix3 0 p n)) = X (ix3 0 p n)
  refine congrArg X (funext fun d => Fin.ext ?_)
  match d with
  | ⟨0, _⟩ => show 0 + 1 * 0 = 0; rfl
  | ⟨1, _⟩ => show 0 + 1 * p.val = p.val; omega
  | ⟨2, _⟩ => show 0 + 1 * n.val = n.val; omega

theorem ld_type1 (X : S2x512x4096.Idx → EReal) (p : Fin 512) (n : Fin 4096) :
    View.ld (Val := Elt Ideal) (S := S2x512x4096) (e' := .bf16) X Hand.r1_2 (ix3 0 p n) = X (ix3 1 p n) := by
  show X (Hand.r1_2.idx (ix3 0 p n)) = X (ix3 1 p n)
  refine congrArg X (funext fun d => Fin.ext ?_)
  match d with
  | ⟨0, _⟩ => show 1 + 1 * 0 = 1; rfl
  | ⟨1, _⟩ => show 0 + 1 * p.val = p.val; omega
  | ⟨2, _⟩ => show 0 + 1 * n.val = n.val; omega

theorem ld_cols0 (X : S4096x512.Idx → EReal) (n : Fin 4096) (k : Fin 256) :
    View.ld (Val := Elt Ideal) (S := S4096x512) (e' := .bf16) X Hand.r1_1 (ix2 n k) = X (ix2 n ⟨k.val, by omega⟩) := by
  show X (Hand.r1_1.idx (ix2 n k)) = X (ix2 n ⟨k.val, _⟩)
  refine congrArg X (funext fun d => Fin.ext ?_)
  match d with
  | ⟨0, _⟩ => show 0 + 1 * n.val = n.val; omega
  | ⟨1, _⟩ => show 0 + 1 * k.val = k.val; omega

theorem ld_cols1 (X : S4096x512.Idx → EReal) (n : Fin 4096) (k : Fin 256) :
    View.ld (Val := Elt Ideal) (S := S4096x512) (e' := .bf16) X Hand.r1_3 (ix2 n k) = X (ix2 n ⟨256 + k.val, by omega⟩) := by
  show X (Hand.r1_3.idx (ix2 n k)) = X (ix2 n ⟨256 + k.val, _⟩)
  refine congrArg X (funext fun d => Fin.ext ?_)
  match d with
  | ⟨0, _⟩ => show 0 + 1 * n.val = n.val; omega
  | ⟨1, _⟩ => show 256 + 1 * k.val = 256 + k.val; omega

/-! ## The input blocks as rows of their arrays -/

section Blocks
variable (c : Dev nD) (t : Fin cfg1.N)

/-- The adjacency block at point t: rows 512 t … 512 t + 511 of both types. -/
theorem iblk1_0_apply (a : Fin 2) (p : Fin 512) (n : Fin 4096) (i : Fin 4096) (hi : i.val = 512 * t.val + p.val) :
    (Hand.iblk1 V c 0 t : S2x512x4096.Idx → EReal) (ix3 a p n) = Spec.cur3 (V c main_arg11 : S2x4096x4096.Idx → EReal) a i n := by
  obtain ⟨f0, f1, f2, -⟩ := idx_facts1 t
  unfold Hand.iblk1
  rw [View.read_apply]
  show (V c main_arg11 : S2x4096x4096.Idx → EReal) _ = (V c main_arg11 : S2x4096x4096.Idx → EReal) (ix3 a i n)
  refine congrArg _ (funext fun d => Fin.ext ?_)
  match d with
  | ⟨0, _⟩ => show win1_0.index t (0 : Fin 3) * 2 + 1 * a.val = a.val; rw [f0]; omega
  | ⟨1, _⟩ => show win1_0.index t (1 : Fin 3) * 512 + 1 * p.val = i.val; rw [f1, hi]; omega
  | ⟨2, _⟩ => show win1_0.index t (2 : Fin 3) * 4096 + 1 * n.val = n.val; rw [f2]; omega

/-- The pre-projection window is its whole array at every point. -/
theorem iblk1_1_apply (n : Fin 4096) (j : Fin 512) :
    (Hand.iblk1 V c 1 t : S4096x512.Idx → EReal) (ix2 n j) = Spec.cur2 (V c main_v52_0 : S4096x512.Idx → EReal) n j := by
  obtain ⟨-, -, -, f0, f1, -⟩ := idx_facts1 t
  unfold Hand.iblk1
  rw [View.read_apply]
  show (V c main_v52_0 : S4096x512.Idx → EReal) _ = (V c main_v52_0 : S4096x512.Idx → EReal) (ix2 n j)
  refine congrArg _ (funext fun d => Fin.ext ?_)
  match d with
  | ⟨0, _⟩ => show win1_1.index t (0 : Fin 2) * 4096 + 1 * n.val = n.val; rw [f0]; omega
  | ⟨1, _⟩ => show win1_1.index t (1 : Fin 2) * 512 + 1 * j.val = j.val; rw [f1]; omega

/-- The self-term window at point t: rows 512 t … 512 t + 511. -/
theorem iblk1_2_apply (p : Fin 512) (q : Fin 512) (i : Fin 4096) (hi : i.val = 512 * t.val + p.val) :
    (Hand.iblk1 V c 2 t : S512x512.Idx → EReal) (ix2 p q) = Spec.cur2 (V c main_v52_1 : S4096x512.Idx → EReal) i q := by
  obtain ⟨-, -, -, -, -, f0, f1, -⟩ := idx_facts1 t
  unfold Hand.iblk1
  rw [View.read_apply]
  show (V c main_v52_1 : S4096x512.Idx → EReal) _ = (V c main_v52_1 : S4096x512.Idx → EReal) (ix2 i q)
  refine congrArg _ (funext fun d => Fin.ext ?_)
  match d with
  | ⟨0, _⟩ => show win1_2.index t (0 : Fin 2) * 512 + 1 * p.val = i.val; rw [f0, hi]; omega
  | ⟨1, _⟩ => show win1_2.index t (1 : Fin 2) * 512 + 1 * q.val = q.val; rw [f1]; omega

/-- The head's padded first weight, whole at every point. -/
theorem iblk1_3_apply (k : Fin 512) (h : Fin 128) :
    (Hand.iblk1 V c 3 t : S512x128.Idx → EReal) (ix2 k h) = Spec.cur2 (V c main_v39 : S512x128.Idx → EReal) k h := by
  obtain ⟨-, -, -, -, -, -, -, f0, f1, -⟩ := idx_facts1 t
  unfold Hand.iblk1
  rw [View.read_apply]
  show (V c main_v39 : S512x128.Idx → EReal) _ = (V c main_v39 : S512x128.Idx → EReal) (ix2 k h)
  refine congrArg _ (funext fun d => Fin.ext ?_)
  match d with
  | ⟨0, _⟩ => show win1_3.index t (0 : Fin 2) * 512 + 1 * k.val = k.val; rw [f0]; omega
  | ⟨1, _⟩ => show win1_3.index t (1 : Fin 2) * 128 + 1 * h.val = h.val; rw [f1]; omega

/-- The head's padded first bias row, whole at every point. -/
theorem iblk1_4_apply (h : Fin 128) :
    (Hand.iblk1 V c 4 t : S1x128.Idx → EReal) (ix2 0 h) = Spec.row (V c main_v42 : S1x128.Idx → EReal) h := by
  obtain ⟨-, -, -, -, -, -, -, -, -, f0, f1, -⟩ := idx_facts1 t
  unfold Hand.iblk1
  rw [View.read_apply]
  show (V c main_v42 : S1x128.Idx → EReal) _ = (V c main_v42 : S1x128.Idx → EReal) (ix2 0 h)
  refine congrArg _ (funext fun d => Fin.ext ?_)
  match d with
  | ⟨0, _⟩ => show win1_4.index t (0 : Fin 2) * 1 + 1 * 0 = 0; rw [f0]
  | ⟨1, _⟩ => show win1_4.index t (1 : Fin 2) * 128 + 1 * h.val = h.val; rw [f1]; omega

/-- The head's padded second weight, whole at every point. -/
theorem iblk1_5_apply (h : Fin 128) (o : Fin 128) :
    (Hand.iblk1 V c 5 t : S128x128.Idx → EReal) (ix2 h o) = Spec.cur2 (V c main_v48 : S128x128.Idx → EReal) h o := by
  obtain ⟨-, -, -, -, -, -, -, -, -, -, -, f0, f1, -⟩ := idx_facts1 t
  unfold Hand.iblk1
  rw [View.read_apply]
  show (V c main_v48 : S128x128.Idx → EReal) _ = (V c main_v48 : S128x128.Idx → EReal) (ix2 h o)
  refine congrArg _ (funext fun d => Fin.ext ?_)
  match d with
  | ⟨0, _⟩ => show win1_5.index t (0 : Fin 2) * 128 + 1 * h.val = h.val; rw [f0]; omega
  | ⟨1, _⟩ => show win1_5.index t (1 : Fin 2) * 128 + 1 * o.val = o.val; rw [f1]; omega

/-- The head's padded second bias row, whole at every point. -/
theorem iblk1_6_apply (o : Fin 128) :
    (Hand.iblk1 V c 6 t : S1x128.Idx → EReal) (ix2 0 o) = Spec.row (V c main_v51 : S1x128.Idx → EReal) o := by
  obtain ⟨-, -, -, -, -, -, -, -, -, -, -, -, -, f0, f1, -⟩ := idx_facts1 t
  unfold Hand.iblk1
  rw [View.read_apply]
  show (V c main_v51 : S1x128.Idx → EReal) _ = (V c main_v51 : S1x128.Idx → EReal) (ix2 0 o)
  refine congrArg _ (funext fun d => Fin.ext ?_)
  match d with
  | ⟨0, _⟩ => show win1_6.index t (0 : Fin 2) * 1 + 1 * 0 = 0; rw [f0]
  | ⟨1, _⟩ => show win1_6.index t (1 : Fin 2) * 128 + 1 * o.val = o.val; rw [f1]; omega

end Blocks

/-! ## What a point writes back, and the arrays after the run -/

section Arrays
variable (c : Dev nD)

local notation "A₁" => Spec.cur3 (V c main_arg11 : S2x4096x4096.Idx → EReal)
local notation "Y₁" => Spec.cur2 (V c main_v52_0 : S4096x512.Idx → EReal)
local notation "P₁" => Spec.cur2 (V c main_v52_1 : S4096x512.Idx → EReal)
local notation "w1₁" => Spec.cur2 (V c main_v39 : S512x128.Idx → EReal)
local notation "b1₁" => Spec.row (V c main_v42 : S1x128.Idx → EReal)
local notation "w2₁" => Spec.cur2 (V c main_v48 : S128x128.Idx → EReal)
local notation "b2₁" => Spec.row (V c main_v51 : S1x128.Idx → EReal)

local notation "L0" t => View.ld (Val := Elt Ideal) (S := S2x512x4096) (e' := EltTy.bf16) (Hand.iblk1 V c 0 t) Hand.r1_0
local notation "L1" t => View.ld (Val := Elt Ideal) (S := S4096x512) (e' := EltTy.bf16) (Hand.iblk1 V c 1 t) Hand.r1_1
local notation "L2" t => View.ld (Val := Elt Ideal) (S := S2x512x4096) (e' := EltTy.bf16) (Hand.iblk1 V c 0 t) Hand.r1_2
local notation "L3" t => View.ld (Val := Elt Ideal) (S := S4096x512) (e' := EltTy.bf16) (Hand.iblk1 V c 1 t) Hand.r1_3

/-- Element (p, q) of what point t stores into the embedding's buffer: the embedding at row 512 t + p. -/
theorem emb_point (t : Fin cfg1.N) (p q : Fin 512) (i : Fin 4096) (hi : i.val = 512 * t.val + p.val) :
    k1_pay2 (L0 t) (L1 t) (L2 t) (L3 t) (Hand.iblk1 V c 2 t) (ix2 p q) = Spec.embK A₁ Y₁ P₁ i q :=
  k1_pay2_at (L0 t) (L1 t) (L2 t) (L3 t) (Hand.iblk1 V c 2 t) A₁ Y₁ P₁ i p
    (fun n => (ld_type0 (Hand.iblk1 V c 0 t) p n).trans (iblk1_0_apply V c t 0 p n i hi))
    (fun n => (ld_type1 (Hand.iblk1 V c 0 t) p n).trans (iblk1_0_apply V c t 1 p n i hi))
    (fun n k => (ld_cols0 (Hand.iblk1 V c 1 t) n k).trans (iblk1_1_apply V c t n ⟨k.val, by omega⟩))
    (fun n k => (ld_cols1 (Hand.iblk1 V c 1 t) n k).trans (iblk1_1_apply V c t n ⟨256 + k.val, by omega⟩))
    (fun q => iblk1_2_apply V c t p q i hi) q

/-- Element (p, o) of what point t stores into the head's buffer: the head of the embedding at row 512 t + p. -/
theorem pred_point (t : Fin cfg1.N) (p : Fin 512) (o : Fin 128) (i : Fin 4096) (hi : i.val = 512 * t.val + p.val) :
    k1_pay1 (k1_pay3 (L0 t) (L1 t) (L2 t) (L3 t) (Hand.iblk1 V c 2 t) (Hand.iblk1 V c 3 t) (Hand.iblk1 V c 4 t)
        (Hand.iblk1 V c 5 t)) (Hand.iblk1 V c 6 t) (ix2 p o)
      = Spec.head (Spec.embK A₁ Y₁ P₁) w1₁ b1₁ w2₁ b2₁ i o :=
  k1_pred_at (L0 t) (L1 t) (L2 t) (L3 t) (Hand.iblk1 V c 2 t) i p (Hand.iblk1 V c 3 t) (Hand.iblk1 V c 4 t)
    (Hand.iblk1 V c 5 t) (Hand.iblk1 V c 6 t) (Spec.embK A₁ Y₁ P₁) w1₁ b1₁ w2₁ b2₁
    (fun k => emb_point V c t p k i hi)
    (fun k h => iblk1_3_apply V c t k h) (fun h => iblk1_4_apply V c t h)
    (fun h o => iblk1_5_apply V c t h o) (fun o => iblk1_6_apply V c t o) o

/-- What point t writes back of the embedding is rows 512 t … 512 t + 511 of the specification's embedding. -/
theorem flushed1_7_eq (t : Fin cfg1.N) :
    (Hand.dat1 V c).flushed 7 t = ((cfg1.win 7).blk t).view.read (Elt Ideal)
      (fun idx => Spec.embK A₁ Y₁ P₁ (idx 0) (idx 1)) := by
  obtain ⟨-, -, -, -, -, -, -, -, -, -, -, -, -, -, -, f0, f1, -⟩ := idx_facts1 t
  have ht := lt8_1 t
  show (cfg1.win 7).cut (grid1.coords t) ((Hand.dat1 V c).after 7 t) = _
  rw [Hand.after1_7]
  unfold Hand.out1_7
  rw [View.canon_unit_zero hz2']
  simp only [View.ld_unit_zero (S := S512x512) hz2']
  funext j
  obtain ⟨p, q, rfl⟩ : ∃ (p q : Fin 512), j = ix2 p q := ⟨j 0, j 1, eq_ix2 j⟩
  rw [View.read_apply]
  have e : ((cfg1.win 7).blk t).view.emb (ix2 p q) = ix2 (n0 := 4096) (n1 := 512) ⟨512 * t.val + p.val, by omega⟩ q := by
    funext a; apply Fin.ext
    match a with
    | ⟨0, _⟩ => show win1_7.index t (0 : Fin 2) * 512 + 1 * p.val = 512 * t.val + p.val; rw [f0]; omega
    | ⟨1, _⟩ => show win1_7.index t (1 : Fin 2) * 512 + 1 * q.val = q.val; rw [f1]; omega
  rw [e]
  exact emb_point V c t p q ⟨512 * t.val + p.val, by omega⟩ rfl

/-- What point t writes back of the head's output is the same rows of the specification's head. -/
theorem flushed1_8_eq (t : Fin cfg1.N) :
    (Hand.dat1 V c).flushed 8 t = ((cfg1.win 8).blk t).view.read (Elt Ideal)
      (fun idx => Spec.head (Spec.embK A₁ Y₁ P₁) w1₁ b1₁ w2₁ b2₁ (idx 0) (idx 1)) := by
  obtain ⟨-, -, -, -, -, -, -, -, -, -, -, -, -, -, -, -, -, f0, f1⟩ := idx_facts1 t
  have ht := lt8_1 t
  show (cfg1.win 8).cut (grid1.coords t) ((Hand.dat1 V c).after 8 t) = _
  rw [Hand.after1_8]
  unfold Hand.out1_8
  rw [View.canon_unit_zero hz2']
  simp only [View.ld_unit_zero (S := S512x512) hz2', View.ld_unit_zero (S := S512x128) hz2', View.ld_unit_zero (S := S1x128) hz2',
    View.ld_unit_zero (S := S128x128) hz2']
  funext j
  obtain ⟨p, o, rfl⟩ : ∃ (p : Fin 512) (o : Fin 128), j = ix2 p o := ⟨j 0, j 1, eq_ix2 j⟩
  rw [View.read_apply]
  have e : ((cfg1.win 8).blk t).view.emb (ix2 p o) = ix2 (n0 := 4096) (n1 := 128) ⟨512 * t.val + p.val, by omega⟩ o := by
    funext a; apply Fin.ext
    match a with
    | ⟨0, _⟩ => show win1_8.index t (0 : Fin 2) * 512 + 1 * p.val = 512 * t.val + p.val; rw [f0]; omega
    | ⟨1, _⟩ => show win1_8.index t (1 : Fin 2) * 128 + 1 * o.val = o.val; rw [f1]; omega
  rw [e]
  exact pred_point V c t p o ⟨512 * t.val + p.val, by omega⟩ rfl

/-- An index of the embedding array is in point t's block iff each coordinate is in the block's range. -/
theorem mem_blk1_7 (t : Fin cfg1.N) (i : S4096x512.Idx) :
    i ∈ ((cfg1.win 7).blk t).view.set ↔ ∀ a : Fin 2, win1_7.index t a * S512x512.size a ≤ (i a).val ∧ (i a).val < win1_7.index t a * S512x512.size a + S512x512.size a := by
  show i ∈ ((View.whole main_v53_0).slice (win1_7.rect t)).set ↔ _
  rw [View.set_slice_whole, Rect.mem_set_unit]
  exact Iff.rfl

theorem mem_blk1_8 (t : Fin cfg1.N) (i : S4096x128.Idx) :
    i ∈ ((cfg1.win 8).blk t).view.set ↔ ∀ a : Fin 2, win1_8.index t a * S512x128.size a ≤ (i a).val ∧ (i a).val < win1_8.index t a * S512x128.size a + S512x128.size a := by
  show i ∈ ((View.whole main_v53_1).slice (win1_8.rect t)).set ↔ _
  rw [View.set_slice_whole, Rect.mem_set_unit]
  exact Iff.rfl

/-- Row r of the embedding lies in the block of point r / 512. -/
theorem cover1_7' (i : S4096x512.Idx) : ∃ t : Fin cfg1.N, (cfg1.win 7).flush t = true ∧ i ∈ ((cfg1.win 7).blk t).view.set := by
  have hi0 : (i 0).val < 4096 := (i 0).isLt
  have hi1 : (i 1).val < 512 := (i 1).isLt
  obtain ⟨t, ht⟩ : ∃ t : Fin cfg1.N, t.val = (i 0).val / 512 :=
    ⟨⟨(i 0).val / 512, lt_of_lt_of_eq (by omega : (i 0).val / 512 < 8) N_1.symm⟩, rfl⟩
  obtain ⟨-, -, -, -, -, -, -, -, -, -, -, -, -, -, -, f0, f1, -⟩ := idx_facts1 t
  refine ⟨t, flush1_7 t, ?_⟩
  rw [mem_blk1_7]
  intro a
  match a with
  | ⟨0, _⟩ => show win1_7.index t (0 : Fin 2) * 512 ≤ (i 0).val ∧ (i 0).val < win1_7.index t (0 : Fin 2) * 512 + 512; rw [f0, ht]; omega
  | ⟨1, _⟩ => show win1_7.index t (1 : Fin 2) * 512 ≤ (i 1).val ∧ (i 1).val < win1_7.index t (1 : Fin 2) * 512 + 512; rw [f1]; omega

theorem cover1_8' (i : S4096x128.Idx) : ∃ t : Fin cfg1.N, (cfg1.win 8).flush t = true ∧ i ∈ ((cfg1.win 8).blk t).view.set := by
  have hi0 : (i 0).val < 4096 := (i 0).isLt
  have hi1 : (i 1).val < 128 := (i 1).isLt
  obtain ⟨t, ht⟩ : ∃ t : Fin cfg1.N, t.val = (i 0).val / 512 :=
    ⟨⟨(i 0).val / 512, lt_of_lt_of_eq (by omega : (i 0).val / 512 < 8) N_1.symm⟩, rfl⟩
  obtain ⟨-, -, -, -, -, -, -, -, -, -, -, -, -, -, -, -, -, f0, f1⟩ := idx_facts1 t
  refine ⟨t, flush1_8 t, ?_⟩
  rw [mem_blk1_8]
  intro a
  match a with
  | ⟨0, _⟩ => show win1_8.index t (0 : Fin 2) * 512 ≤ (i 0).val ∧ (i 0).val < win1_8.index t (0 : Fin 2) * 512 + 512; rw [f0, ht]; omega
  | ⟨1, _⟩ => show win1_8.index t (1 : Fin 2) * 128 ≤ (i 1).val ∧ (i 1).val < win1_8.index t (1 : Fin 2) * 128 + 128; rw [f1]; omega

/-- THE EMBEDDING after the run: the specification's, at the arrays the region finds. -/
theorem emb_val : (Hand.dat1 V c).arrAt 7 cfg1.N
    = fun idx => Spec.embK (Spec.cur3 (V c main_arg11 : S2x4096x4096.Idx → EReal)) (Spec.cur2 (V c main_v52_0 : S4096x512.Idx → EReal))
        (Spec.cur2 (V c main_v52_1 : S4096x512.Idx → EReal)) (idx 0) (idx 1) :=
  (Hand.dat1 V c).arrAt_eq_of_cover 7 _ (fun t _ => flushed1_7_eq V c t) cover1_7'

/-- THE HEAD'S OUTPUT after the run: the specification's head of that embedding, over the padded weights. -/
theorem pred_val : (Hand.dat1 V c).arrAt 8 cfg1.N
    = fun idx => Spec.head (Spec.embK (Spec.cur3 (V c main_arg11 : S2x4096x4096.Idx → EReal)) (Spec.cur2 (V c main_v52_0 : S4096x512.Idx → EReal))
          (Spec.cur2 (V c main_v52_1 : S4096x512.Idx → EReal)))
        (Spec.cur2 (V c main_v39 : S512x128.Idx → EReal)) (Spec.row (V c main_v42 : S1x128.Idx → EReal))
        (Spec.cur2 (V c main_v48 : S128x128.Idx → EReal)) (Spec.row (V c main_v51 : S1x128.Idx → EReal)) (idx 0) (idx 1) :=
  (Hand.dat1 V c).arrAt_eq_of_cover 8 _ (fun t _ => flushed1_8_eq V c t) cover1_8'

end Arrays

end Cert.KernelIdeal.HandVal

end
-- ==== Proof.LibScatter.lean ====
/-
  A scatter whose body returns the update (an overwrite, `x.at[…].set(v)`), read at one index of its result.

  `Host.scatter` is the left fold, over the update indices in row-major order, of the step "replace the element at
  this update's result index by the body applied to it and the update" (an update whose result index leaves the
  operand is dropped).  For the overwriting body the fold reads, at a result index `i`:

  * the operand's own element, when no update index lands at `i` (`scatter_set_miss`);
  * the update's element at `a`, when `a` lands at `i` and no other update index does
    (`scatter_set_hit_of_unique`, and `scatter_set_hit` when landing is injective as a whole).

  Both come from the same two facts about a left fold of overwriting steps along ANY list of update positions
  (`foldl_setStep_miss`, `foldl_setStep_hit`): a step that writes elsewhere leaves the read element alone, and after
  the one step that writes at `i` every later step writes elsewhere.  Nothing is assumed of the element type.

  Where an update index lands is the sum, on every operand axis, of the start read off the scatter indices and the
  window coordinate; `resultIdx?_eq_some_iff` says so in the form the two theorems' hypotheses take.
-/
import Idealize.ShloMosaic.PureOps.ShapeOps

namespace Cert.Lib

open Idealize.ShloMosaic

/-! ## A left fold of overwriting steps -/

section Fold
variable {κ ι α : Type} [DecidableEq ι]

/-- One overwriting step: position `n` of the updates writes its element `v n` at the index `g n` says, when it says one. -/
def setStep (g : κ → Option ι) (v : κ → α) (r : ι → α) (n : κ) : ι → α :=
  match g n with
  | some i₀ => fun i' => if i' = i₀ then v n else r i'
  | none => r

/-- A step that does not write at `i` leaves the element at `i`. -/
theorem setStep_miss (g : κ → Option ι) (v : κ → α) (r : ι → α) (n : κ) (i : ι) (h : g n ≠ some i) :
    setStep g v r n i = r i := by
  unfold setStep
  cases hg : g n with
  | none => rfl
  | some i₀ =>
    have hne : i ≠ i₀ := fun e => h (by rw [hg, e])
    exact if_neg hne

/-- A step that writes at `i` leaves its own element there. -/
theorem setStep_hit (g : κ → Option ι) (v : κ → α) (r : ι → α) (n : κ) (i : ι) (h : g n = some i) :
    setStep g v r n i = v n := by
  unfold setStep
  cases hg : g n with
  | none => exact absurd (h.symm.trans hg) (by simp)
  | some i₀ =>
    have he : i = i₀ := Option.some.inj (h.symm.trans hg)
    exact if_pos he

/-- When no position of the list writes at `i`, the fold leaves the element at `i`. -/
theorem foldl_setStep_miss (g : κ → Option ι) (v : κ → α) (i : ι) :
    ∀ (l : List κ) (r : ι → α), (∀ n ∈ l, g n ≠ some i) → l.foldl (setStep g v) r i = r i := by
  intro l
  induction l with
  | nil => intro r _; rfl
  | cons n l ih =>
    intro r h
    rw [List.foldl_cons, ih _ (fun m hm => h m (List.mem_cons_of_mem _ hm))]
    exact setStep_miss g v r n i (h n (List.mem_cons_self ..))

/-- When position `n₀` of the list writes at `i` and no other position of the list does, the fold leaves `n₀`'s
    element at `i`. -/
theorem foldl_setStep_hit [DecidableEq κ] (g : κ → Option ι) (v : κ → α) (i : ι) (n₀ : κ) (hn₀ : g n₀ = some i) :
    ∀ (l : List κ) (r : ι → α), n₀ ∈ l → (∀ n ∈ l, g n = some i → n = n₀) → l.foldl (setStep g v) r i = v n₀ := by
  intro l
  induction l with
  | nil => intro r hm _; exact absurd hm List.not_mem_nil
  | cons n l ih =>
    intro r hm hu
    rw [List.foldl_cons]
    by_cases hl : n₀ ∈ l
    · exact ih _ hl (fun m hm' => hu m (List.mem_cons_of_mem _ hm'))
    · have hn : n = n₀ := by
        rcases List.mem_cons.1 hm with e | e
        · exact e.symm
        · exact absurd e hl
      subst hn
      rw [foldl_setStep_miss g v i l _ (fun m hm' e => hl (hu m (List.mem_cons_of_mem _ hm') e ▸ hm'))]
      exact setStep_hit g v r n i hn₀

end Fold

/-! ## The overwriting scatter at an index -/

section Scatter
variable {α : Type} {s si u : Shape} {w : Nat}

/-- The overwriting scatter is the fold of `setStep` along the update positions in row-major order. -/
theorem scatter_set_eq_foldl (d : ScatterDims s si u) (x : s.Idx → α) (idx : IVec si w) (upd : u.Idx → α) :
    Host.scatter d (fun _ b => b) x idx upd
      = (List.finRange u.numel).foldl
          (setStep (fun n => d.resultIdx? (u.rowMajor.symm n) idx) (fun n => upd (u.rowMajor.symm n))) x := by
  unfold Host.scatter
  congr 1
  funext r n
  unfold setStep
  beta_reduce
  cases d.resultIdx? (u.rowMajor.symm n) idx <;> rfl

/-- No update index lands at `i`: the scatter leaves the operand's element there. -/
theorem scatter_set_miss (d : ScatterDims s si u) (x : s.Idx → α) (idx : IVec si w) (upd : u.Idx → α) (i : s.Idx)
    (h : ∀ a, d.resultIdx? a idx ≠ some i) :
    Host.scatter d (fun _ b => b) x idx upd i = x i := by
  rw [scatter_set_eq_foldl]
  exact foldl_setStep_miss _ _ i _ x (fun n _ => h (u.rowMajor.symm n))

/-- The update index `a` lands at `i` and is the only one that does: the scatter leaves the update's element at `a` there. -/
theorem scatter_set_hit_of_unique (d : ScatterDims s si u) (x : s.Idx → α) (idx : IVec si w) (upd : u.Idx → α)
    (i : s.Idx) (a : u.Idx) (ha : d.resultIdx? a idx = some i) (huniq : ∀ b, d.resultIdx? b idx = some i → b = a) :
    Host.scatter d (fun _ b => b) x idx upd i = upd a := by
  rw [scatter_set_eq_foldl]
  have h := foldl_setStep_hit (fun n => d.resultIdx? (u.rowMajor.symm n) idx) (fun n => upd (u.rowMajor.symm n)) i
    (u.rowMajor a) (by simpa using ha) (List.finRange u.numel) x (List.mem_finRange _)
    (fun n _ hn => by
      have := huniq _ hn
      rw [← this]; simp)
  simpa using h

/-- Landing is injective and `a` lands at `i`: the scatter leaves the update's element at `a` there. -/
theorem scatter_set_hit (d : ScatterDims s si u) (x : s.Idx → α) (idx : IVec si w) (upd : u.Idx → α)
    (hinj : ∀ a b i, d.resultIdx? a idx = some i → d.resultIdx? b idx = some i → a = b)
    (i : s.Idx) (a : u.Idx) (ha : d.resultIdx? a idx = some i) :
    Host.scatter d (fun _ b => b) x idx upd i = upd a :=
  scatter_set_hit_of_unique d x idx upd i a ha (fun b hb => hinj b a i hb ha)

/-- Where an update index lands: at `i` exactly when, on every operand axis, the start plus the window coordinate is
    `i`'s coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h a
    split at h
    · next hb =>
      have e := Option.some.inj h
      have ea := congrFun e a
      have hv := congrArg Fin.val ea
      simp only at hv
      have := hb a
      omega
    · exact absurd h (by simp)
  · intro h
    have hb : ∀ a, 0 ≤ d.start j idx a + d.window j a ∧ d.start j idx a + d.window j a < s.size a := by
      intro a
      have := h a
      have := (i a).isLt
      omega
    rw [dif_pos hb]
    congr 1
    funext a
    refine Fin.ext ?_
    have := h a
    simp only
    omega

end Scatter

end Cert.Lib
-- ==== Proof.KHost.lean ====
/-
  The stacked layer-0 weight that the kernel program packs on the host before its first kernel call, entry by entry.

  The program starts from a [384, 512] array of zeros and overwrites three rectangles of it: the first edge type's
  neighbour weight [128, 256] at the corner (0, 0), the second type's at (128, 256), and the two types' root weights side
  by side, [128, 512], at row 256; the result changes format (the identity on extended reals).  Read at (k, j) this is
  the specification's `Spec.W0of`: in rows 0 … 127 the first block in the first 256 columns and zero in the others, in
  rows 128 … 255 zero in the first 256 columns and the second block in the others, in rows 256 … 383 the root weight of
  column j's type at column j's position inside the type (`w0_eq`).

  The steps: where each of the two scatter records lands an update index (start plus window coordinate on each axis:
  `land2`, `land1`) and hence the overwriting scatter at an index (`scatter2_apply`, `scatter1_apply`, from the general
  statements of LibScatter.lean); the 67 operations before the first kernel call cut into four stretches, and what each
  leaves at its result as a term over the arrays it finds (`w0_stage_a`, `w0_stage_b`, `w0_stage_c`, together
  `w0_term`); the slices, reshapes and concatenations of that term at an index (`w0_slab0_apply`, `w0_slab1_apply`,
  `w0_pair_apply`); the three writes composed (`w0_triple_apply`).
-/
import proofs.«130397_g2000105430876207_pallasbulk_1247_2_alg».proof.Proof.Gen.KernelIdeal
import proofs.«130397_g2000105430876207_pallasbulk_1247_2_alg».proof.Proof.Gen.KernelIdeal.Launch
import proofs.«130397_g2000105430876207_pallasbulk_1247_2_alg».proof.Proof.LibScatter
import proofs.«130397_g2000105430876207_pallasbulk_1247_2_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run

noncomputable section
namespace Cert.KernelIdeal.HandHost
open Idealize.ShloMosaic Idealize.ShloMosaic.ValueIdx
open Cert.KernelIdeal Cert.KernelIdeal.Gen Cert.Lib

/-! ## Where the two scatter records land an update index -/

section Records
variable {α : Type}

theorem win2_0 (j : S128x256.Idx) : scatter_S384x512_S2_S128x256_01_n_01_0.window j 0 = (j 0).val := rfl
theorem win2_1 (j : S128x256.Idx) : scatter_S384x512_S2_S128x256_01_n_01_0.window j 1 = (j 1).val := rfl

theorem start2_0 {w : Nat} (j : S128x256.Idx) (idx : IVec S2 w) :
    scatter_S384x512_S2_S128x256_01_n_01_0.start j idx 0 = (idx (ix1 0)).toInt := by
  have h : scatter_S384x512_S2_S128x256_01_n_01_0.start j idx 0
      = (idx (scatter_S384x512_S2_S128x256_01_n_01_0.siIdx j ⟨0, by decide⟩)).toInt := rfl
  rw [h]
  congr 2
  funext b
  match b with
  | ⟨0, _⟩ => rfl

theorem start2_1 {w : Nat} (j : S128x256.Idx) (idx : IVec S2 w) :
    scatter_S384x512_S2_S128x256_01_n_01_0.start j idx 1 = (idx (ix1 1)).toInt := by
  have h : scatter_S384x512_S2_S128x256_01_n_01_0.start j idx 1
      = (idx (scatter_S384x512_S2_S128x256_01_n_01_0.siIdx j ⟨1, by decide⟩)).toInt := rfl
  rw [h]
  congr 2
  funext b
  match b with
  | ⟨0, _⟩ => rfl

/-- The two-index record lands the update index `(r, c)` at `(o0 + r, o1 + c)`, the start indices being `o0, o1`. -/
theorem land2 {w : Nat} (idx : IVec S2 w) (o0 o1 : Nat) (h0 : (idx (ix1 0)).toInt = o0) (h1 : (idx (ix1 1)).toInt = o1)
    (b : S128x256.Idx) (k : Fin 384) (j : Fin 512) :
    scatter_S384x512_S2_S128x256_01_n_01_0.resultIdx? b idx = some (ix2 k j)
      ↔ (o0 + (b 0).val = k.val ∧ o1 + (b 1).val = j.val) := by
  rw [resultIdx?_eq_some_iff]
  constructor
  · intro h
    have e0 := h 0
    have e1 := h 1
    rw [start2_0, win2_0, h0] at e0
    rw [start2_1, win2_1, h1] at e1
    have e0' : ((o0 : Int) + ((b 0).val : Int)) = (k.val : Int) := e0
    have e1' : ((o1 : Int) + ((b 1).val : Int)) = (j.val : Int) := e1
    omega
  · rintro ⟨e0, e1⟩ a
    match a with
    | ⟨0, _⟩ =>
      show scatter_S384x512_S2_S128x256_01_n_01_0.start b idx 0 + (scatter_S384x512_S2_S128x256_01_n_01_0.window b 0 : Int) = (k.val : Int)
      rw [start2_0, win2_0, h0]; omega
    | ⟨1, _⟩ =>
      show scatter_S384x512_S2_S128x256_01_n_01_0.start b idx 1 + (scatter_S384x512_S2_S128x256_01_n_01_0.window b 1 : Int) = (j.val : Int)
      rw [start2_1, win2_1, h1]; omega

/-- The overwriting scatter of a `[128, 256]` block at `(o0, o1)` into a `[384, 512]` array, read at `(k, j)`: the block's
    element inside the block's rectangle, the operand's outside it. -/
theorem scatter2_apply {w : Nat} (x : S384x512.Idx → α) (idx : IVec S2 w) (upd : S128x256.Idx → α) (o0 o1 : Nat)
    (h0 : (idx (ix1 0)).toInt = o0) (h1 : (idx (ix1 1)).toInt = o1) (k : Fin 384) (j : Fin 512) :
    Host.scatter scatter_S384x512_S2_S128x256_01_n_01_0 (fun _ b => b) x idx upd (ix2 k j)
      = if h : (o0 ≤ k.val ∧ k.val < o0 + 128) ∧ (o1 ≤ j.val ∧ j.val < o1 + 256)
        then upd (ix2 ⟨k.val - o0, by omega⟩ ⟨j.val - o1, by omega⟩) else x (ix2 k j) := by
  by_cases h : (o0 ≤ k.val ∧ k.val < o0 + 128) ∧ (o1 ≤ j.val ∧ j.val < o1 + 256)
  · rw [dif_pos h]
    refine scatter_set_hit_of_unique _ x idx upd _ _ ?_ ?_
    · refine (land2 idx o0 o1 h0 h1 _ k j).2 ⟨?_, ?_⟩
      · show o0 + (k.val - o0) = k.val; omega
      · show o1 + (j.val - o1) = j.val; omega
    · intro b hb
      obtain ⟨e0, e1⟩ := (land2 idx o0 o1 h0 h1 b k j).1 hb
      funext a
      match a with
      | ⟨0, _⟩ => exact Fin.ext (by show (b 0).val = k.val - o0; omega)
      | ⟨1, _⟩ => exact Fin.ext (by show (b 1).val = j.val - o1; omega)
  · rw [dif_neg h]
    refine scatter_set_miss _ x idx upd _ ?_
    intro b hb
    obtain ⟨e0, e1⟩ := (land2 idx o0 o1 h0 h1 b k j).1 hb
    have := idx2_lt0 b
    have := idx2_lt1 b
    exact h ⟨⟨by omega, by omega⟩, ⟨by omega, by omega⟩⟩

theorem win1_0 (j : S128x512.Idx) : scatter_S384x512_S1_S128x512_01_n_0_0.window j 0 = (j 0).val := rfl
theorem win1_1 (j : S128x512.Idx) : scatter_S384x512_S1_S128x512_01_n_0_0.window j 1 = (j 1).val := rfl
theorem start1_1 {w : Nat} (j : S128x512.Idx) (idx : IVec S1 w) :
    scatter_S384x512_S1_S128x512_01_n_0_0.start j idx 1 = 0 := rfl
theorem start1_0 {w : Nat} (j : S128x512.Idx) (idx : IVec S1 w) :
    scatter_S384x512_S1_S128x512_01_n_0_0.start j idx 0 = (idx (ix1 0)).toInt := by
  have h : scatter_S384x512_S1_S128x512_01_n_0_0.start j idx 0
      = (idx (scatter_S384x512_S1_S128x512_01_n_0_0.siIdx j ⟨0, by decide⟩)).toInt := rfl
  rw [h]
  congr 2
  funext b
  match b with
  | ⟨0, _⟩ => rfl

/-- The one-index record lands the update index `(r, c)` at `(o0 + r, c)`, the start index being `o0`. -/
theorem land1 {w : Nat} (idx : IVec S1 w) (o0 : Nat) (h0 : (idx (ix1 0)).toInt = o0)
    (b : S128x512.Idx) (k : Fin 384) (j : Fin 512) :
    scatter_S384x512_S1_S128x512_01_n_0_0.resultIdx? b idx = some (ix2 k j)
      ↔ (o0 + (b 0).val = k.val ∧ (b 1).val = j.val) := by
  rw [resultIdx?_eq_some_iff]
  constructor
  · intro h
    have e0 := h 0
    have e1 := h 1
    rw [start1_0, win1_0, h0] at e0
    rw [start1_1, win1_1] at e1
    have e0' : ((o0 : Int) + ((b 0).val : Int)) = (k.val : Int) := e0
    have e1' : ((0 : Int) + ((b 1).val : Int)) = (j.val : Int) := e1
    omega
  · rintro ⟨e0, e1⟩ a
    match a with
    | ⟨0, _⟩ =>
      show scatter_S384x512_S1_S128x512_01_n_0_0.start b idx 0 + (scatter_S384x512_S1_S128x512_01_n_0_0.window b 0 : Int) = (k.val : Int)
      rw [start1_0, win1_0, h0]; omega
    | ⟨1, _⟩ =>
      show scatter_S384x512_S1_S128x512_01_n_0_0.start b idx 1 + (scatter_S384x512_S1_S128x512_01_n_0_0.window b 1 : Int) = (j.val : Int)
      rw [start1_1, win1_1]; omega

/-- The overwriting scatter of a `[128, 512]` block of whole rows at row `o0` into a `[384, 512]` array, read at `(k, j)`. -/
theorem scatter1_apply {w : Nat} (x : S384x512.Idx → α) (idx : IVec S1 w) (upd : S128x512.Idx → α) (o0 : Nat)
    (h0 : (idx (ix1 0)).toInt = o0) (k : Fin 384) (j : Fin 512) :
    Host.scatter scatter_S384x512_S1_S128x512_01_n_0_0 (fun _ b => b) x idx upd (ix2 k j)
      = if h : o0 ≤ k.val ∧ k.val < o0 + 128
        then upd (ix2 ⟨k.val - o0, by omega⟩ j) else x (ix2 k j) := by
  by_cases h : o0 ≤ k.val ∧ k.val < o0 + 128
  · rw [dif_pos h]
    refine scatter_set_hit_of_unique _ x idx upd _ _ ?_ ?_
    · refine (land1 idx o0 h0 _ k j).2 ⟨?_, rfl⟩
      show o0 + (k.val - o0) = k.val; omega
    · intro b hb
      obtain ⟨e0, e1⟩ := (land1 idx o0 h0 b k j).1 hb
      funext a
      match a with
      | ⟨0, _⟩ => exact Fin.ext (by show (b 0).val = k.val - o0; omega)
      | ⟨1, _⟩ => exact Fin.ext (by show (b 1).val = j.val; omega)
  · rw [dif_neg h]
    refine scatter_set_miss _ x idx upd _ ?_
    intro b hb
    obtain ⟨e0, e1⟩ := (land1 idx o0 h0 b k j).1 hb
    have := idx2_lt0 b
    exact h ⟨by omega, by omega⟩

end Records

/-! ## The operations before the first kernel call, cut into stretches -/

section Stretches
variable {F : FTy → Type} [FloatOps F]

set_option maxRecDepth 1048
set_option maxHeartbeats 40000000

/-- The input's format change, then the zero array with the first weight block written at its corner: 11 operations. -/
abbrev w0_sa : List (HloOp τ sig (Elt F)) :=
  ( StableHlo.unary main_arg0 main_v0 ((truncf .bf16 · bitsLt_bf16_f32) : (⟨S4096x128, .f32⟩ : BufTy).Contents (Elt F) → (⟨S4096x128, .bf16⟩ : BufTy).Contents (Elt F))
  :: StableHlo.nullary main_cst (constant S_ .f32 0x00000000#32)
  :: StableHlo.unary main_cst main_v1 (broadcastInDim S384x512 ![] bcast_S_S384x512 : (⟨S_, .f32⟩ : BufTy).Contents (Elt F) → (⟨S384x512, .f32⟩ : BufTy).Contents (Elt F))
  :: StableHlo.unary main_arg1 main_v2 ((extractStridedSlice S1x128x256 ![0, 0, 0] · slices_S2x128x256_S1x128x256_0_0_0) : (⟨S2x128x256, .f32⟩ : BufTy).Contents (Elt F) → (⟨S1x128x256, .f32⟩ : BufTy).Contents (Elt F))
  :: StableHlo.reshape main_v2 main_v3 rfl shapeCasts_S1x128x256_S128x256
  :: StableHlo.nullary main_c (constantI S_ 32 0#32)
  :: StableHlo.unary main_c main_v4 (broadcastInDim S1 ![] bcast_S_S1 : (⟨S_, .i32⟩ : BufTy).Contents (Elt F) → (⟨S1, .i32⟩ : BufTy).Contents (Elt F))
  :: StableHlo.nullary main_c_0 (constantI S_ 32 0#32)
  :: StableHlo.unary main_c_0 main_v5 (broadcastInDim S1 ![] bcast_S_S1 : (⟨S_, .i32⟩ : BufTy).Contents (Elt F) → (⟨S1, .i32⟩ : BufTy).Contents (Elt F))
  :: StableHlo.binary main_v4 main_v5 main_v6 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))
  :: StableHlo.ternary main_v1 main_v6 main_v3 main_v7 ((fun x i u => Host.scatter scatter_S384x512_S2_S128x256_01_n_01_0 (fun _ b => b) x i u) : (⟨S384x512, .f32⟩ : BufTy).Contents (Elt F) → (⟨S2, .i32⟩ : BufTy).Contents (Elt F) → (⟨S128x256, .f32⟩ : BufTy).Contents (Elt F) → (⟨S384x512, .f32⟩ : BufTy).Contents (Elt F))
  :: [] )

/-- The second weight block written at (128, 256): 8 operations. -/
abbrev w0_sb : List (HloOp τ sig (Elt F)) :=
  ( StableHlo.unary main_arg1 main_v8 ((extractStridedSlice S1x128x256 ![1, 0, 0] · slices_S2x128x256_S1x128x256_1_0_0) : (⟨S2x128x256, .f32⟩ : BufTy).Contents (Elt F) → (⟨S1x128x256, .f32⟩ : BufTy).Contents (Elt F))
  :: StableHlo.reshape main_v8 main_v9 rfl shapeCasts_S1x128x256_S128x256
  :: StableHlo.nullary main_c_1 (constantI S_ 32 128#32)
  :: StableHlo.unary main_c_1 main_v10 (broadcastInDim S1 ![] bcast_S_S1 : (⟨S_, .i32⟩ : BufTy).Contents (Elt F) → (⟨S1, .i32⟩ : BufTy).Contents (Elt F))
  :: StableHlo.nullary main_c_2 (constantI S_ 32 256#32)
  :: StableHlo.unary main_c_2 main_v11 (broadcastInDim S1 ![] bcast_S_S1 : (⟨S_, .i32⟩ : BufTy).Contents (Elt F) → (⟨S1, .i32⟩ : BufTy).Contents (Elt F))
  :: StableHlo.binary main_v10 main_v11 main_v12 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))
  :: StableHlo.ternary main_v7 main_v12 main_v9 main_v13 ((fun x i u => Host.scatter scatter_S384x512_S2_S128x256_01_n_01_0 (fun _ b => b) x i u) : (⟨S384x512, .f32⟩ : BufTy).Contents (Elt F) → (⟨S2, .i32⟩ : BufTy).Contents (Elt F) → (⟨S128x256, .f32⟩ : BufTy).Contents (Elt F) → (⟨S384x512, .f32⟩ : BufTy).Contents (Elt F))
  :: [] )

/-- The two root weights side by side written at row 256, and the format change: 9 operations. -/
abbrev w0_sc : List (HloOp τ sig (Elt F)) :=
  ( StableHlo.unary main_arg2 main_v14 ((extractStridedSlice S1x128x256 ![0, 0, 0] · slices_S2x128x256_S1x128x256_0_0_0) : (⟨S2x128x256, .f32⟩ : BufTy).Contents (Elt F) → (⟨S1x128x256, .f32⟩ : BufTy).Contents (Elt F))
  :: StableHlo.reshape main_v14 main_v15 rfl shapeCasts_S1x128x256_S128x256
  :: StableHlo.unary main_arg2 main_v16 ((extractStridedSlice S1x128x256 ![1, 0, 0] · slices_S2x128x256_S1x128x256_1_0_0) : (⟨S2x128x256, .f32⟩ : BufTy).Contents (Elt F) → (⟨S1x128x256, .f32⟩ : BufTy).Contents (Elt F))
  :: StableHlo.reshape main_v16 main_v17 rfl shapeCasts_S1x128x256_S128x256
  :: StableHlo.binary main_v15 main_v17 main_v18 ((fun a b => concatenate S128x512 1 [⟨S128x256, a⟩, ⟨S128x256, b⟩] concatenates_S128x256_S128x256_S128x512_d1) : (⟨S128x256, .f32⟩ : BufTy).Contents (Elt F) → (⟨S128x256, .f32⟩ : BufTy).Contents (Elt F) → (⟨S128x512, .f32⟩ : BufTy).Contents (Elt F))
  :: StableHlo.nullary main_c_3 (constantI S_ 32 256#32)
  :: StableHlo.unary main_c_3 main_v19 (broadcastInDim S1 ![] bcast_S_S1 : (⟨S_, .i32⟩ : BufTy).Contents (Elt F) → (⟨S1, .i32⟩ : BufTy).Contents (Elt F))
  :: StableHlo.ternary main_v13 main_v19 main_v18 main_v20 ((fun x i u => Host.scatter scatter_S384x512_S1_S128x512_01_n_0_0 (fun _ b => b) x i u) : (⟨S384x512, .f32⟩ : BufTy).Contents (Elt F) → (⟨S1, .i32⟩ : BufTy).Contents (Elt F) → (⟨S128x512, .f32⟩ : BufTy).Contents (Elt F) → (⟨S384x512, .f32⟩ : BufTy).Contents (Elt F))
  :: StableHlo.unary main_v20 main_v21 ((truncf .bf16 · bitsLt_bf16_f32) : (⟨S384x512, .f32⟩ : BufTy).Contents (Elt F) → (⟨S384x512, .bf16⟩ : BufTy).Contents (Elt F))
  :: [] )

/-- The remaining 39 operations, none of which writes the stacked weight. -/
abbrev w0_rest : List (HloOp τ sig (Elt F)) :=
  ( StableHlo.reshape main_arg3 main_v22 rfl shapeCasts_S2x1x256_S1x512
  :: StableHlo.unary main_arg4 main_v23 ((extractStridedSlice S1x512x256 ![0, 0, 0] · slices_S2x512x256_S1x512x256_0_0_0) : (⟨S2x512x256, .f32⟩ : BufTy).Contents (Elt F) → (⟨S1x512x256, .f32⟩ : BufTy).Contents (Elt F))
  :: StableHlo.reshape main_v23 main_v24 rfl shapeCasts_S1x512x256_S512x256
  :: StableHlo.unary main_arg4 main_v25 ((extractStridedSlice S1x512x256 ![1, 0, 0] · slices_S2x512x256_S1x512x256_1_0_0) : (⟨S2x512x256, .f32⟩ : BufTy).Contents (Elt F) → (⟨S1x512x256, .f32⟩ : BufTy).Contents (Elt F))
  :: StableHlo.reshape main_v25 main_v26 rfl shapeCasts_S1x512x256_S512x256
  :: StableHlo.binary main_v24 main_v26 main_v27 ((fun a b => concatenate S512x512 1 [⟨S512x256, a⟩, ⟨S512x256, b⟩] concatenates_S512x256_S512x256_S512x512_d1) : (⟨S512x256, .f32⟩ : BufTy).Contents (Elt F) → (⟨S512x256, .f32⟩ : BufTy).Contents (Elt F) → (⟨S512x512, .f32⟩ : BufTy).Contents (Elt F))
  :: StableHlo.unary main_arg5 main_v28 ((extractStridedSlice S1x512x256 ![0, 0, 0] · slices_S2x512x256_S1x512x256_0_0_0) : (⟨S2x512x256, .f32⟩ : BufTy).Contents (Elt F) → (⟨S1x512x256, .f32⟩ : BufTy).Contents (Elt F))
  :: StableHlo.reshape main_v28 main_v29 rfl shapeCasts_S1x512x256_S512x256
  :: StableHlo.unary main_arg5 main_v30 ((extractStridedSlice S1x512x256 ![1, 0, 0] · slices_S2x512x256_S1x512x256_1_0_0) : (⟨S2x512x256, .f32⟩ : BufTy).Contents (Elt F) → (⟨S1x512x256, .f32⟩ : BufTy).Contents (Elt F))
  :: StableHlo.reshape main_v30 main_v31 rfl shapeCasts_S1x512x256_S512x256
  :: StableHlo.binary main_v29 main_v31 main_v32 ((fun a b => concatenate S512x512 1 [⟨S512x256, a⟩, ⟨S512x256, b⟩] concatenates_S512x256_S512x256_S512x512_d1) : (⟨S512x256, .f32⟩ : BufTy).Contents (Elt F) → (⟨S512x256, .f32⟩ : BufTy).Contents (Elt F) → (⟨S512x512, .f32⟩ : BufTy).Contents (Elt F))
  :: StableHlo.binary main_v27 main_v32 main_v33 ((fun a b => concatenate S512x1024 1 [⟨S512x512, a⟩, ⟨S512x512, b⟩] concatenates_S512x512_S512x512_S512x1024_d1) : (⟨S512x512, .f32⟩ : BufTy).Contents (Elt F) → (⟨S512x512, .f32⟩ : BufTy).Contents (Elt F) → (⟨S512x1024, .f32⟩ : BufTy).Contents (Elt F))
  :: StableHlo.unary main_v33 main_v34 ((truncf .bf16 · bitsLt_bf16_f32) : (⟨S512x1024, .f32⟩ : BufTy).Contents (Elt F) → (⟨S512x1024, .bf16⟩ : BufTy).Contents (Elt F))
  :: StableHlo.reshape main_arg6 main_v35 rfl shapeCasts_S2x1x256_S1x512
  :: StableHlo.nullary main_cst_4 (constant S_ .bf16 0x0000#16)
  :: StableHlo.unary main_cst_4 main_v36 (broadcastInDim S512x128 ![] bcast_S_S512x128 : (⟨S_, .bf16⟩ : BufTy).Contents (Elt F) → (⟨S512x128, .bf16⟩ : BufTy).Contents (Elt F))
  :: StableHlo.unary main_arg7 main_v37 ((truncf .bf16 · bitsLt_bf16_f32) : (⟨S512x20, .f32⟩ : BufTy).Contents (Elt F) → (⟨S512x20, .bf16⟩ : BufTy).Contents (Elt F))
  :: StableHlo.nullary main_c_5 (constantI S_ 32 0#32)
  :: StableHlo.unary main_c_5 main_v38 (broadcastInDim S1 ![] bcast_S_S1 : (⟨S_, .i32⟩ : BufTy).Contents (Elt F) → (⟨S1, .i32⟩ : BufTy).Contents (Elt F))
  :: StableHlo.ternary main_v36 main_v38 main_v37 main_v39 ((fun x i u => Host.scatter scatter_S512x128_S1_S512x20_01_n_1_0 (fun _ b => b) x i u) : (⟨S512x128, .bf16⟩ : BufTy).Contents (Elt F) → (⟨S1, .i32⟩ : BufTy).Contents (Elt F) → (⟨S512x20, .bf16⟩ : BufTy).Contents (Elt F) → (⟨S512x128, .bf16⟩ : BufTy).Contents (Elt F))
  :: StableHlo.nullary main_cst_6 (constant S_ .f32 0x00000000#32)
  :: StableHlo.unary main_cst_6 main_v40 (broadcastInDim S1x128 ![] bcast_S_S1x128 : (⟨S_, .f32⟩ : BufTy).Contents (Elt F) → (⟨S1x128, .f32⟩ : BufTy).Contents (Elt F))
  :: StableHlo.nullary main_c_7 (constantI S_ 32 0#32)
  :: StableHlo.unary main_c_7 main_v41 (broadcastInDim S1 ![] bcast_S_S1 : (⟨S_, .i32⟩ : BufTy).Contents (Elt F) → (⟨S1, .i32⟩ : BufTy).Contents (Elt F))
  :: StableHlo.ternary main_v40 main_v41 main_arg8 main_v42 ((fun x i u => Host.scatter scatter_S1x128_S1_S1x20_01_n_1_0 (fun _ b => b) x i u) : (⟨S1x128, .f32⟩ : BufTy).Contents (Elt F) → (⟨S1, .i32⟩ : BufTy).Contents (Elt F) → (⟨S1x20, .f32⟩ : BufTy).Contents (Elt F) → (⟨S1x128, .f32⟩ : BufTy).Contents (Elt F))
  :: StableHlo.nullary main_cst_8 (constant S_ .bf16 0x0000#16)
  :: StableHlo.unary main_cst_8 main_v43 (broadcastInDim S128x128 ![] bcast_S_S128x128 : (⟨S_, .bf16⟩ : BufTy).Contents (Elt F) → (⟨S128x128, .bf16⟩ : BufTy).Contents (Elt F))
  :: StableHlo.unary main_arg9 main_v44 ((truncf .bf16 · bitsLt_bf16_f32) : (⟨S20x32, .f32⟩ : BufTy).Contents (Elt F) → (⟨S20x32, .bf16⟩ : BufTy).Contents (Elt F))
  :: StableHlo.nullary main_c_9 (constantI S_ 32 0#32)
  :: StableHlo.unary main_c_9 main_v45 (broadcastInDim S1 ![] bcast_S_S1 : (⟨S_, .i32⟩ : BufTy).Contents (Elt F) → (⟨S1, .i32⟩ : BufTy).Contents (Elt F))
  :: StableHlo.nullary main_c_10 (constantI S_ 32 0#32)
  :: StableHlo.unary main_c_10 main_v46 (broadcastInDim S1 ![] bcast_S_S1 : (⟨S_, .i32⟩ : BufTy).Contents (Elt F) → (⟨S1, .i32⟩ : BufTy).Contents (Elt F))
  :: StableHlo.binary main_v45 main_v46 main_v47 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))
  :: StableHlo.ternary main_v43 main_v47 main_v44 main_v48 ((fun x i u => Host.scatter scatter_S128x128_S2_S20x32_01_n_01_0 (fun _ b => b) x i u) : (⟨S128x128, .bf16⟩ : BufTy).Contents (Elt F) → (⟨S2, .i32⟩ : BufTy).Contents (Elt F) → (⟨S20x32, .bf16⟩ : BufTy).Contents (Elt F) → (⟨S128x128, .bf16⟩ : BufTy).Contents (Elt F))
  :: StableHlo.nullary main_cst_11 (constant S_ .f32 0x00000000#32)
  :: StableHlo.unary main_cst_11 main_v49 (broadcastInDim S1x128 ![] bcast_S_S1x128 : (⟨S_, .f32⟩ : BufTy).Contents (Elt F) → (⟨S1x128, .f32⟩ : BufTy).Contents (Elt F))
  :: StableHlo.nullary main_c_12 (constantI S_ 32 0#32)
  :: StableHlo.unary main_c_12 main_v50 (broadcastInDim S1 ![] bcast_S_S1 : (⟨S_, .i32⟩ : BufTy).Contents (Elt F) → (⟨S1, .i32⟩ : BufTy).Contents (Elt F))
  :: StableHlo.ternary main_v49 main_v50 main_arg10 main_v51 ((fun x i u => Host.scatter scatter_S1x128_S1_S1x32_01_n_1_0 (fun _ b => b) x i u) : (⟨S1x128, .f32⟩ : BufTy).Contents (Elt F) → (⟨S1, .i32⟩ : BufTy).Contents (Elt F) → (⟨S1x32, .f32⟩ : BufTy).Contents (Elt F) → (⟨S1x128, .f32⟩ : BufTy).Contents (Elt F))
  :: [] )

/-- The operations before the first kernel call are the four stretches in order. -/
theorem w0_cut : (hostOps0 : List (HloOp τ sig (Elt F))) = w0_sa ++ (w0_sb ++ (w0_sc ++ w0_rest)) := rfl

/-- Running a concatenation of two lines is running the first, then the second. -/
theorem w0_after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

end Stretches

/-! ## What each stretch leaves at its result -/

section Stages
variable {F : FTy → Type} [FloatOps F]

/-- The `[384, 512]` array of zeros. -/
def w0_zeros : FVec F S384x512 .f32 :=
  broadcastInDim S384x512 ![] bcast_S_S384x512 (constant (F := F) S_ .f32 0x00000000#32)
/-- The start indices `(a, b)` of a two-index scatter, as the program builds them. -/
def w0_idx2 (a b : BitVec 32) : IVec S2 32 :=
  concatenate S2 0 [⟨S1, broadcastInDim S1 ![] bcast_S_S1 (constantI S_ 32 a)⟩,
    ⟨S1, broadcastInDim S1 ![] bcast_S_S1 (constantI S_ 32 b)⟩] concatenates_S1_S1_S2_d0
/-- The start index `a` of a one-index scatter. -/
def w0_idx1 (a : BitVec 32) : IVec S1 32 := broadcastInDim S1 ![] bcast_S_S1 (constantI S_ 32 a)
/-- Slab 0 of a `[2, 128, 256]` array as a `[128, 256]` array. -/
def w0_slab0 {α : Type} (x : S2x128x256.Idx → α) : S128x256.Idx → α :=
  shapeCast S128x256 (extractStridedSlice S1x128x256 ![0, 0, 0] x slices_S2x128x256_S1x128x256_0_0_0) shapeCasts_S1x128x256_S128x256
/-- Slab 1 of a `[2, 128, 256]` array as a `[128, 256]` array. -/
def w0_slab1 {α : Type} (x : S2x128x256.Idx → α) : S128x256.Idx → α :=
  shapeCast S128x256 (extractStridedSlice S1x128x256 ![1, 0, 0] x slices_S2x128x256_S1x128x256_1_0_0) shapeCasts_S1x128x256_S128x256
/-- The two slabs side by side, `[128, 512]`. -/
def w0_pair {α : Type} (x : S2x128x256.Idx → α) : S128x512.Idx → α :=
  concatenate S128x512 1 [⟨S128x256, w0_slab0 x⟩, ⟨S128x256, w0_slab1 x⟩] concatenates_S128x256_S128x256_S128x512_d1

theorem w0_stage_a (V : Valuation τ sig (Elt F)) :
    (StableHlo.after w0_sa V (Proc.devRef .tc main_v7) : FVec F S384x512 .f32)
      = Host.scatter scatter_S384x512_S2_S128x256_01_n_01_0 (fun _ b => b) (w0_zeros (F := F)) (w0_idx2 0#32 0#32)
          (w0_slab0 (V (Proc.devRef .tc main_arg1))) := by
  after_results; rfl
theorem w0_keep_a1 (V : Valuation τ sig (Elt F)) :
    StableHlo.after w0_sa V (Proc.devRef .tc main_arg1) = V (Proc.devRef .tc main_arg1) := by
  after_results
theorem w0_keep_a2 (V : Valuation τ sig (Elt F)) :
    StableHlo.after w0_sa V (Proc.devRef .tc main_arg2) = V (Proc.devRef .tc main_arg2) := by
  after_results

theorem w0_stage_b (V : Valuation τ sig (Elt F)) :
    (StableHlo.after w0_sb V (Proc.devRef .tc main_v13) : FVec F S384x512 .f32)
      = Host.scatter scatter_S384x512_S2_S128x256_01_n_01_0 (fun _ b => b) (V (Proc.devRef .tc main_v7)) (w0_idx2 128#32 256#32)
          (w0_slab1 (V (Proc.devRef .tc main_arg1))) := by
  after_results; rfl
theorem w0_keep_b2 (V : Valuation τ sig (Elt F)) :
    StableHlo.after w0_sb V (Proc.devRef .tc main_arg2) = V (Proc.devRef .tc main_arg2) := by
  after_results

theorem w0_stage_c (V : Valuation τ sig (Elt F)) :
    (StableHlo.after w0_sc V (Proc.devRef .tc main_v21) : FVec F S384x512 .bf16)
      = truncf .bf16 (Host.scatter scatter_S384x512_S1_S128x512_01_n_0_0 (fun _ b => b) (V (Proc.devRef .tc main_v13)) (w0_idx1 256#32)
          (w0_pair (V (Proc.devRef .tc main_arg2)))) bitsLt_bf16_f32 := by
  after_results; rfl

theorem w0_keep_rest (V : Valuation τ sig (Elt F)) :
    StableHlo.after w0_rest V (Proc.devRef .tc main_v21) = V (Proc.devRef .tc main_v21) := by
  after_results

/-- The stacked weight after the operations before the first kernel call, as one term over the two weight arguments. -/
theorem w0_term (V : Valuation τ sig (Elt F)) :
    (StableHlo.after hostOps0 V (Proc.devRef .tc main_v21) : FVec F S384x512 .bf16)
      = truncf .bf16 (Host.scatter scatter_S384x512_S1_S128x512_01_n_0_0 (fun _ b => b)
          (Host.scatter scatter_S384x512_S2_S128x256_01_n_01_0 (fun _ b => b)
            (Host.scatter scatter_S384x512_S2_S128x256_01_n_01_0 (fun _ b => b) (w0_zeros (F := F)) (w0_idx2 0#32 0#32)
              (w0_slab0 (V (Proc.devRef .tc main_arg1))))
            (w0_idx2 128#32 256#32) (w0_slab1 (V (Proc.devRef .tc main_arg1))))
          (w0_idx1 256#32) (w0_pair (V (Proc.devRef .tc main_arg2)))) bitsLt_bf16_f32 := by
  rw [w0_cut, w0_after_append, w0_after_append, w0_after_append, w0_keep_rest, w0_stage_c, w0_stage_b, w0_keep_b2, w0_stage_a,
    w0_keep_a1, w0_keep_a2]
  rfl

end Stages

/-! ## The term read at an index -/

section AtIndex
variable {α : Type}

theorem w0_idx2_at0 (a b : BitVec 32) : w0_idx2 a b (ix1 0) = a := rfl
theorem w0_idx2_at1 (a b : BitVec 32) : w0_idx2 a b (ix1 1) = b := rfl
theorem w0_idx1_at0 (a : BitVec 32) : w0_idx1 a (ix1 0) = a := rfl

/-- Slab 0 at `(r, c)` is the array at `(0, r, c)`. -/
theorem w0_slab0_apply (x : S2x128x256.Idx → α) (r : Fin 128) (c : Fin 256) : w0_slab0 x (ix2 r c) = x (ix3 0 r c) := by
  unfold w0_slab0
  rw [shapeCast_1ab_ab_apply]
  refine extractStridedSlice_apply _ x _ _ _ fun a => ?_
  match a with
  | ⟨0, _⟩ => rfl
  | ⟨1, _⟩ => show r.val = 0 + r.val; omega
  | ⟨2, _⟩ => show c.val = 0 + c.val; omega

/-- Slab 1 at `(r, c)` is the array at `(1, r, c)`. -/
theorem w0_slab1_apply (x : S2x128x256.Idx → α) (r : Fin 128) (c : Fin 256) : w0_slab1 x (ix2 r c) = x (ix3 1 r c) := by
  unfold w0_slab1
  rw [shapeCast_1ab_ab_apply]
  refine extractStridedSlice_apply _ x _ _ _ fun a => ?_
  match a with
  | ⟨0, _⟩ => rfl
  | ⟨1, _⟩ => show r.val = 0 + r.val; omega
  | ⟨2, _⟩ => show c.val = 0 + c.val; omega

/-- The two slabs side by side at `(r, j)`: the slab of `j`'s half at `j`'s column inside it. -/
theorem w0_pair_apply (x : S2x128x256.Idx → α) (r : Fin 128) (j : Fin 512) :
    w0_pair x (ix2 r j) = x (ix3 (Spec.ty j) r (Spec.col j)) := by
  unfold w0_pair
  by_cases hj : j.val < 256
  · rw [concatenate_pair_apply_left (t := S128x512) (s₁ := S128x256) (s₂ := S128x256) 1 _ _ _ (ix2 r j) rfl (ix2 r ⟨j.val, hj⟩)
      (fun b => by match b with | ⟨0, _⟩ => rfl | ⟨1, _⟩ => rfl), w0_slab0_apply]
    congr 1
    funext a
    match a with
    | ⟨0, _⟩ => exact Fin.ext (by show 0 = j.val / 256; omega)
    | ⟨1, _⟩ => rfl
    | ⟨2, _⟩ => exact Fin.ext (by show j.val = j.val % 256; omega)
  · rw [concatenate_pair_apply_right (t := S128x512) (s₁ := S128x256) (s₂ := S128x256) 1 _ _ _ (ix2 r j) rfl rfl (ix2 r ⟨j.val - 256, by omega⟩)
      (fun b hb => by
        match b with
        | ⟨0, _⟩ => rfl
        | ⟨1, _⟩ => exact absurd rfl hb)
      (by show j.val - 256 + 256 = j.val; omega), w0_slab1_apply]
    congr 1
    funext a
    match a with
    | ⟨0, _⟩ => exact Fin.ext (by show 1 = j.val / 256; omega)
    | ⟨1, _⟩ => rfl
    | ⟨2, _⟩ => exact Fin.ext (by show j.val - 256 = j.val % 256; omega)

end AtIndex

/-! ## The stacked weight, entry by entry -/

section Final

theorem w0_toInt_0 : (0#32 : BitVec 32).toInt = ((0 : Nat) : Int) := by decide
theorem w0_toInt_128 : (128#32 : BitVec 32).toInt = ((128 : Nat) : Int) := by decide
theorem w0_toInt_256 : (256#32 : BitVec 32).toInt = ((256 : Nat) : Int) := by decide

/-- The three writes read at `(k, j)`: rows 0 … 127 hold the first block in columns 0 … 255, rows 128 … 255 the second block
    in columns 256 … 511, rows 256 … 383 the two root weights side by side; elsewhere the array written into. -/
theorem w0_triple_apply {α : Type} (x0 : S384x512.Idx → α) (A1 A2 : S2x128x256.Idx → α) (k : Fin 384) (j : Fin 512) :
    Host.scatter scatter_S384x512_S1_S128x512_01_n_0_0 (fun _ b => b)
        (Host.scatter scatter_S384x512_S2_S128x256_01_n_01_0 (fun _ b => b)
          (Host.scatter scatter_S384x512_S2_S128x256_01_n_01_0 (fun _ b => b) x0 (w0_idx2 0#32 0#32) (w0_slab0 A1))
          (w0_idx2 128#32 256#32) (w0_slab1 A1))
        (w0_idx1 256#32) (w0_pair A2) (ix2 k j)
      = if h : k.val < 128 then (if (Spec.ty j).val = 0 then A1 (ix3 0 ⟨k.val, h⟩ (Spec.col j)) else x0 (ix2 k j))
        else if h2 : k.val < 256 then (if (Spec.ty j).val = 1 then A1 (ix3 1 ⟨k.val - 128, by omega⟩ (Spec.col j)) else x0 (ix2 k j))
        else A2 (ix3 (Spec.ty j) ⟨k.val - 256, by omega⟩ (Spec.col j)) := by
  have hty : (Spec.ty j).val = j.val / 256 := rfl
  rw [scatter1_apply _ (w0_idx1 256#32) _ 256 (by rw [w0_idx1_at0]; exact w0_toInt_256) k j]
  by_cases hc : 256 ≤ k.val ∧ k.val < 256 + 128
  · rw [dif_pos hc, dif_neg (by omega), dif_neg (by omega), w0_pair_apply]
  · rw [dif_neg hc,
      scatter2_apply _ (w0_idx2 128#32 256#32) _ 128 256 (by rw [w0_idx2_at0]; exact w0_toInt_128) (by rw [w0_idx2_at1]; exact w0_toInt_256) k j]
    by_cases hb : (128 ≤ k.val ∧ k.val < 128 + 128) ∧ (256 ≤ j.val ∧ j.val < 256 + 256)
    · rw [dif_pos hb, dif_neg (by omega), dif_pos (by omega), if_pos (by omega), w0_slab1_apply]
      congr 1
      funext a
      match a with
      | ⟨0, _⟩ => rfl
      | ⟨1, _⟩ => rfl
      | ⟨2, _⟩ => exact Fin.ext (by show j.val - 256 = j.val % 256; omega)
    · rw [dif_neg hb,
        scatter2_apply _ (w0_idx2 0#32 0#32) _ 0 0 (by rw [w0_idx2_at0]; exact w0_toInt_0) (by rw [w0_idx2_at1]; exact w0_toInt_0) k j]
      by_cases ha : (0 ≤ k.val ∧ k.val < 0 + 128) ∧ (0 ≤ j.val ∧ j.val < 0 + 256)
      · rw [dif_pos ha, dif_pos (by omega), if_pos (by omega), w0_slab0_apply]
        congr 1
        funext a
        match a with
        | ⟨0, _⟩ => rfl
        | ⟨1, _⟩ => rfl
        | ⟨2, _⟩ => exact Fin.ext (by show j.val - 0 = j.val % 256; omega)
      · rw [dif_neg ha]
        by_cases h : k.val < 128
        · rw [dif_pos h, if_neg (by omega)]
        · have h2 : k.val < 256 := by omega
          rw [dif_neg h, dif_pos h2, if_neg (by omega)]

/-- The array of zeros reads zero. -/
theorem w0_zeros_apply (i : S384x512.Idx) : (w0_zeros (F := Ideal) i : EReal) = 0 := Ideal.ofBits_zero_f32

/-- THE STACKED LAYER-0 WEIGHT the program packs before its first kernel call is the specification's: the two types' neighbour
    weights on the diagonal blocks, zero off them, over the two root weights side by side. -/
theorem w0_eq (W : Valuation τ sig (Elt Ideal)) :
    Spec.cur2 (n0 := 384) (n1 := 512) (StableHlo.after hostOps0 W (Proc.devRef .tc main_v21))
      = Spec.W0of (Spec.cur3 (n0 := 2) (n1 := 128) (n2 := 256) (W (Proc.devRef .tc main_arg1)))
          (Spec.cur3 (n0 := 2) (n1 := 128) (n2 := 256) (W (Proc.devRef .tc main_arg2))) := by
  funext k j
  show (StableHlo.after hostOps0 W (Proc.devRef .tc main_v21) : FVec Ideal S384x512 .bf16) (ix2 k j) = _
  rw [w0_term, truncf_apply, w0_triple_apply]
  unfold Spec.W0of Spec.cur3
  by_cases h : k.val < 128
  · rw [dif_pos h, dif_pos h]
    by_cases ht : (Spec.ty j).val = 0
    · rw [if_pos ht, if_pos ht]
    · rw [if_neg ht, if_neg ht]; exact w0_zeros_apply _
  · rw [dif_neg h, dif_neg h]
    by_cases h2 : k.val < 256
    · rw [dif_pos h2, dif_pos h2]
      by_cases ht : (Spec.ty j).val = 1
      · rw [if_pos ht, if_pos ht]
      · rw [if_neg ht, if_neg ht]; exact w0_zeros_apply _
    · rw [dif_neg h2, dif_neg h2]

end Final

end Cert.KernelIdeal.HandHost
end
-- ==== Proof.KHost2.lean ====
/-
  The packed operands of the projecting program, read by coordinates.  Its host stretch converts the node features
  (the identity at the ideal instance), flattens each per-type bias [2, 1, 256] to one 512-wide row (type t's 256
  entries at columns 256 t … 256 t + 255), and lays the layer-1 weights side by side: each per-type weight
  [2, 512, 256] becomes [512, 512] with type t's slab at columns 256 t …, and the left and right weights become one
  [512, 1024] array, left first.  Reading these at an index is bookkeeping: a flattening keeps the row-major position,
  a slice shifts by its offset, a concatenation along the columns reads the piece the column falls in.
-/
import proofs.«130397_g2000105430876207_pallasbulk_1247_2_alg».proof.Proof.Gen.KernelIdeal.Launch
import proofs.«130397_g2000105430876207_pallasbulk_1247_2_alg».proof.Proof.Spec
import Idealize.ShloMosaic.Lib.Pipeline.Value
import Idealize.ShloMosaic.Lib.ValueLayout

noncomputable section

namespace Cert.KernelIdeal.HandHost

open Idealize.ShloMosaic Idealize.ShloMosaic.ValueIdx
open Cert.KernelIdeal Cert.KernelIdeal.Gen
open Cert

/-! ## The layout operations over any element type -/

section Layout
variable {α : Type}

/-- Type 0's [512, 256] slab of a per-type array [2, 512, 256]. -/
def k2_slab0 (a : S2x512x256.Idx → α) : S512x256.Idx → α :=
  shapeCast S512x256 (extractStridedSlice S1x512x256 ![0, 0, 0] a slices_S2x512x256_S1x512x256_0_0_0)
    shapeCasts_S1x512x256_S512x256
/-- Type 1's slab. -/
def k2_slab1 (a : S2x512x256.Idx → α) : S512x256.Idx → α :=
  shapeCast S512x256 (extractStridedSlice S1x512x256 ![1, 0, 0] a slices_S2x512x256_S1x512x256_1_0_0)
    shapeCasts_S1x512x256_S512x256
/-- The two slabs side by side: [512, 512]. -/
def k2_pair (a : S2x512x256.Idx → α) : S512x512.Idx → α :=
  concatenate S512x512 1 [⟨S512x256, k2_slab0 a⟩, ⟨S512x256, k2_slab1 a⟩] concatenates_S512x256_S512x256_S512x512_d1
/-- Two per-type arrays, each as its slabs side by side, side by side: [512, 1024]. -/
def k2_quad (a b : S2x512x256.Idx → α) : S512x1024.Idx → α :=
  concatenate S512x1024 1 [⟨S512x512, k2_pair a⟩, ⟨S512x512, k2_pair b⟩] concatenates_S512x512_S512x512_S512x1024_d1
/-- A per-type row [2, 1, 256] flattened to [1, 512]. -/
def k2_flat (b : S2x1x256.Idx → α) : S1x512.Idx → α := shapeCast S1x512 b shapeCasts_S2x1x256_S1x512

theorem k2_slab0_apply (a : S2x512x256.Idx → α) (k : Fin 512) (c : Fin 256) :
    k2_slab0 a (ix2 k c) = a (ix3 (0 : Fin 2) k c) := by
  unfold k2_slab0
  refine (shapeCast_1ab_ab_apply _ _ k c).trans ?_
  exact extractStridedSlice_apply _ a _ _ _ (fun b => match b with
    | ⟨0, _⟩ => rfl
    | ⟨1, _⟩ => (Nat.zero_add _).symm
    | ⟨2, _⟩ => (Nat.zero_add _).symm)

theorem k2_slab1_apply (a : S2x512x256.Idx → α) (k : Fin 512) (c : Fin 256) :
    k2_slab1 a (ix2 k c) = a (ix3 (1 : Fin 2) k c) := by
  unfold k2_slab1
  refine (shapeCast_1ab_ab_apply _ _ k c).trans ?_
  exact extractStridedSlice_apply _ a _ _ _ (fun b => match b with
    | ⟨0, _⟩ => rfl
    | ⟨1, _⟩ => (Nat.zero_add _).symm
    | ⟨2, _⟩ => (Nat.zero_add _).symm)

/-- Column j of the side-by-side array is column (j mod 256) of type (j div 256). -/
theorem k2_pair_apply (a : S2x512x256.Idx → α) (k : Fin 512) (j : Fin 512) :
    k2_pair a (ix2 k j) = a (ix3 (Spec.ty j) k (Spec.col j)) := by
  unfold k2_pair
  by_cases h : j.val < 256
  · have e1 : (0 : Fin 2) = Spec.ty j := Fin.ext (by show 0 = j.val / 256; omega)
    have e2 : (⟨j.val, h⟩ : Fin 256) = Spec.col j := Fin.ext (by show j.val = j.val % 256; omega)
    refine (concatenate_pair_apply_left (t := S512x512) (s₁ := S512x256) (s₂ := S512x256) (1 : Fin 2) _ _ _ (ix2 k j) rfl (ix2 k (⟨j.val, h⟩ : Fin 256))
      (fun b => match b with | ⟨0, _⟩ => rfl | ⟨1, _⟩ => rfl)).trans ?_
    refine (k2_slab0_apply a k ⟨j.val, h⟩).trans ?_
    rw [← e1, ← e2]
  · have h' : j.val - 256 < 256 := by have := j.isLt; omega
    have e1 : (1 : Fin 2) = Spec.ty j := Fin.ext (by show 1 = j.val / 256; have := j.isLt; omega)
    have e2 : (⟨j.val - 256, h'⟩ : Fin 256) = Spec.col j := Fin.ext (by show j.val - 256 = j.val % 256; have := j.isLt; omega)
    refine (concatenate_pair_apply_right (t := S512x512) (s₁ := S512x256) (s₂ := S512x256) (1 : Fin 2) _ _ _ (ix2 k j) rfl rfl (ix2 k (⟨j.val - 256, h'⟩ : Fin 256))
      (fun b hb => match b, hb with | ⟨0, _⟩, _ => rfl | ⟨1, _⟩, hb => absurd rfl hb)
      (by show (j.val - 256) + 256 = j.val; omega)).trans ?_
    refine (k2_slab1_apply a k ⟨j.val - 256, h'⟩).trans ?_
    rw [← e1, ← e2]

/-- The [512, 1024] array by coordinates: the packed layer-1 weight of the specification. -/
theorem k2_quad_apply (a b : S2x512x256.Idx → EReal) (k : Fin 512) (j : Fin 1024) :
    k2_quad a b (ix2 k j) = Spec.W1of (Spec.cur3 a) (Spec.cur3 b) k j := by
  unfold k2_quad Spec.W1of
  by_cases h : j.val < 512
  · rw [dif_pos h]
    refine (concatenate_pair_apply_left (t := S512x1024) (s₁ := S512x512) (s₂ := S512x512) (1 : Fin 2) _ _ _ (ix2 k j) rfl (ix2 k (⟨j.val, h⟩ : Fin 512))
      (fun b => match b with | ⟨0, _⟩ => rfl | ⟨1, _⟩ => rfl)).trans ?_
    exact k2_pair_apply a k ⟨j.val, h⟩
  · rw [dif_neg h]
    have h' : j.val - 512 < 512 := by have := j.isLt; omega
    refine (concatenate_pair_apply_right (t := S512x1024) (s₁ := S512x512) (s₂ := S512x512) (1 : Fin 2) _ _ _ (ix2 k j) rfl rfl (ix2 k (⟨j.val - 512, h'⟩ : Fin 512))
      (fun b hb => match b, hb with | ⟨0, _⟩, _ => rfl | ⟨1, _⟩, hb => absurd rfl hb)
      (by show (j.val - 512) + 512 = j.val; omega)).trans ?_
    exact k2_pair_apply b k ⟨j.val - 512, h'⟩

/-- Entry j of the flattened row is entry (j mod 256) of type (j div 256). -/
theorem k2_flat_apply (b : S2x1x256.Idx → α) (j : Fin 512) :
    k2_flat b (ix2 (0 : Fin 1) j) = b (ix3 (Spec.ty j) (0 : Fin 1) (Spec.col j)) :=
  shapeCast_apply b _ _ _ (by
    rw [Shape.rowMajor_val_three, Shape.rowMajor_val_two]
    show ((j.val / 256) * 1 + 0) * 256 + j.val % 256 = 0 * 512 + j.val
    omega)

end Layout

/-! ## What the host stretch computes, at any float instance -/

section Terms
variable {F : FTy → Type} [FloatOps F] (V : Valuation τ sig (Elt F))

theorem k2_v0 :
    StableHlo.after (hostOps0 (F := F)) V (Proc.devRef .tc main_v0)
      = truncf .bf16 (V (Proc.devRef .tc main_arg0)) bitsLt_bf16_f32 := by
  after_results_simp

set_option maxHeartbeats 4000000 in
theorem k2_v22 :
    StableHlo.after (hostOps0 (F := F)) V (Proc.devRef .tc main_v22) = k2_flat (V (Proc.devRef .tc main_arg3)) := by
  after_results_simp
  rfl

set_option maxHeartbeats 4000000 in
theorem k2_v35 :
    StableHlo.after (hostOps0 (F := F)) V (Proc.devRef .tc main_v35) = k2_flat (V (Proc.devRef .tc main_arg6)) := by
  after_results_simp
  rfl

set_option maxHeartbeats 4000000 in
theorem k2_v34 :
    StableHlo.after (hostOps0 (F := F)) V (Proc.devRef .tc main_v34)
      = truncf .bf16 (k2_quad (V (Proc.devRef .tc main_arg4)) (V (Proc.devRef .tc main_arg5))) bitsLt_bf16_f32 := by
  after_results_simp
  rfl

/-! The stretch writes no argument. -/

set_option maxHeartbeats 4000000 in
theorem k2_keep_arg11 :
    StableHlo.after (hostOps0 (F := F)) V (Proc.devRef .tc main_arg11) = V (Proc.devRef .tc main_arg11) := by
  after_results_simp
set_option maxHeartbeats 4000000 in
theorem k2_keep_arg7 :
    StableHlo.after (hostOps0 (F := F)) V (Proc.devRef .tc main_arg7) = V (Proc.devRef .tc main_arg7) := by
  after_results_simp
set_option maxHeartbeats 4000000 in
theorem k2_keep_arg8 :
    StableHlo.after (hostOps0 (F := F)) V (Proc.devRef .tc main_arg8) = V (Proc.devRef .tc main_arg8) := by
  after_results_simp
set_option maxHeartbeats 4000000 in
theorem k2_keep_arg9 :
    StableHlo.after (hostOps0 (F := F)) V (Proc.devRef .tc main_arg9) = V (Proc.devRef .tc main_arg9) := by
  after_results_simp
set_option maxHeartbeats 4000000 in
theorem k2_keep_arg10 :
    StableHlo.after (hostOps0 (F := F)) V (Proc.devRef .tc main_arg10) = V (Proc.devRef .tc main_arg10) := by
  after_results_simp

end Terms

/-! ## At the ideal instance, by coordinates -/

section AtIdeal
variable (W : Valuation τ sig (Elt Ideal))

/-- The converted node features are the node features. -/
theorem xb_eq :
    (StableHlo.after (hostOps0 (F := Ideal)) W (Proc.devRef .tc main_v0) : S4096x128.Idx → EReal)
      = W (Proc.devRef .tc main_arg0) := by
  rw [k2_v0]
  rfl

/-- The layer-0 bias as one 512-wide row. -/
theorem b0_eq :
    Spec.row (StableHlo.after (hostOps0 (F := Ideal)) W (Proc.devRef .tc main_v22) : S1x512.Idx → EReal)
      = Spec.bcat (Spec.bias3 (W (Proc.devRef .tc main_arg3) : S2x1x256.Idx → EReal)) := by
  rw [k2_v22]
  funext j
  exact k2_flat_apply _ j

/-- The layer-1 bias as one 512-wide row. -/
theorem b1_eq :
    Spec.row (StableHlo.after (hostOps0 (F := Ideal)) W (Proc.devRef .tc main_v35) : S1x512.Idx → EReal)
      = Spec.bcat (Spec.bias3 (W (Proc.devRef .tc main_arg6) : S2x1x256.Idx → EReal)) := by
  rw [k2_v35]
  funext j
  exact k2_flat_apply _ j

/-- The packed layer-1 weight [512, 1024]: left weights' two types, then right weights' two types. -/
theorem w1_eq :
    Spec.cur2 (StableHlo.after (hostOps0 (F := Ideal)) W (Proc.devRef .tc main_v34) : S512x1024.Idx → EReal)
      = Spec.W1of (Spec.cur3 (W (Proc.devRef .tc main_arg4) : S2x512x256.Idx → EReal))
          (Spec.cur3 (W (Proc.devRef .tc main_arg5) : S2x512x256.Idx → EReal)) := by
  rw [k2_v34]
  funext k j
  exact k2_quad_apply _ _ k j

/-- The adjacency is not written. -/
theorem a_keep :
    StableHlo.after (hostOps0 (F := Ideal)) W (Proc.devRef .tc main_arg11) = W (Proc.devRef .tc main_arg11) :=
  k2_keep_arg11 W

end AtIdeal

end Cert.KernelIdeal.HandHost

end
-- ==== Proof.Pads.lean ====
/-
  The perceptron head's weights and biases, padded to 128 lanes: each program writes the narrow array (its columns, or
  its rows and columns) at the origin of a zero array before its kernel runs.  Both programs do it by the same
  operations, so each padded array is one function of the argument it is made from, the same function in both
  programs; equal arguments give equal padded arrays.  Nothing here depends on what a float is.
-/
import proofs.«130397_g2000105430876207_pallasbulk_1247_2_alg».proof.Proof.Gen.KernelIdeal.Launch
import proofs.«130397_g2000105430876207_pallasbulk_1247_2_alg».proof.Proof.Gen.ReferenceIdeal.Launch

noncomputable section

namespace Cert.ReferenceIdeal.HandHost

open Idealize.ShloMosaic

variable {F : FTy → Type} [FloatOps F]

/-! ## The padded arrays as functions of the arguments -/

/-- The first head weight [512, 20], converted and written into columns 0 … 19 of a zero [512, 128] array. -/
def padW1 (x : (⟨Cert.ReferenceIdeal.S512x20, .f32⟩ : BufTy).Contents (Elt F)) :
    (⟨Cert.ReferenceIdeal.S512x128, .bf16⟩ : BufTy).Contents (Elt F) :=
  Host.scatter Cert.ReferenceIdeal.scatter_S512x128_S1_S512x20_01_n_1_0 (fun _ b => b)
    (broadcastInDim Cert.ReferenceIdeal.S512x128 ![] Cert.ReferenceIdeal.Gen.bcast_S_S512x128 (constant (F := F) Cert.ReferenceIdeal.S_ .bf16 0x0000#16))
    (broadcastInDim Cert.ReferenceIdeal.S1 ![] Cert.ReferenceIdeal.Gen.bcast_S_S1 (constantI Cert.ReferenceIdeal.S_ 32 0#32))
    (truncf .bf16 x Cert.ReferenceIdeal.Gen.bitsLt_bf16_f32)

/-- The first head bias [1, 20] written into columns 0 … 19 of a zero [1, 128] row. -/
def padB1 (x : (⟨Cert.ReferenceIdeal.S1x20, .f32⟩ : BufTy).Contents (Elt F)) :
    (⟨Cert.ReferenceIdeal.S1x128, .f32⟩ : BufTy).Contents (Elt F) :=
  Host.scatter Cert.ReferenceIdeal.scatter_S1x128_S1_S1x20_01_n_1_0 (fun _ b => b)
    (broadcastInDim Cert.ReferenceIdeal.S1x128 ![] Cert.ReferenceIdeal.Gen.bcast_S_S1x128 (constant (F := F) Cert.ReferenceIdeal.S_ .f32 0x00000000#32))
    (broadcastInDim Cert.ReferenceIdeal.S1 ![] Cert.ReferenceIdeal.Gen.bcast_S_S1 (constantI Cert.ReferenceIdeal.S_ 32 0#32))
    x

/-- The second head weight [20, 32], converted and written at rows 0 … 19, columns 0 … 31 of a zero [128, 128] array. -/
def padW2 (x : (⟨Cert.ReferenceIdeal.S20x32, .f32⟩ : BufTy).Contents (Elt F)) :
    (⟨Cert.ReferenceIdeal.S128x128, .bf16⟩ : BufTy).Contents (Elt F) :=
  Host.scatter Cert.ReferenceIdeal.scatter_S128x128_S2_S20x32_01_n_01_0 (fun _ b => b)
    (broadcastInDim Cert.ReferenceIdeal.S128x128 ![] Cert.ReferenceIdeal.Gen.bcast_S_S128x128 (constant (F := F) Cert.ReferenceIdeal.S_ .bf16 0x0000#16))
    (concatenate Cert.ReferenceIdeal.S2 0
      [⟨Cert.ReferenceIdeal.S1, broadcastInDim Cert.ReferenceIdeal.S1 ![] Cert.ReferenceIdeal.Gen.bcast_S_S1 (constantI Cert.ReferenceIdeal.S_ 32 0#32)⟩,
       ⟨Cert.ReferenceIdeal.S1, broadcastInDim Cert.ReferenceIdeal.S1 ![] Cert.ReferenceIdeal.Gen.bcast_S_S1 (constantI Cert.ReferenceIdeal.S_ 32 0#32)⟩]
      Cert.ReferenceIdeal.Gen.concatenates_S1_S1_S2_d0)
    (truncf .bf16 x Cert.ReferenceIdeal.Gen.bitsLt_bf16_f32)

/-- The second head bias [1, 32] written into columns 0 … 31 of a zero [1, 128] row. -/
def padB2 (x : (⟨Cert.ReferenceIdeal.S1x32, .f32⟩ : BufTy).Contents (Elt F)) :
    (⟨Cert.ReferenceIdeal.S1x128, .f32⟩ : BufTy).Contents (Elt F) :=
  Host.scatter Cert.ReferenceIdeal.scatter_S1x128_S1_S1x32_01_n_1_0 (fun _ b => b)
    (broadcastInDim Cert.ReferenceIdeal.S1x128 ![] Cert.ReferenceIdeal.Gen.bcast_S_S1x128 (constant (F := F) Cert.ReferenceIdeal.S_ .f32 0x00000000#32))
    (broadcastInDim Cert.ReferenceIdeal.S1 ![] Cert.ReferenceIdeal.Gen.bcast_S_S1 (constantI Cert.ReferenceIdeal.S_ 32 0#32))
    x

variable (Wk : Valuation Cert.KernelIdeal.τ Cert.KernelIdeal.sig (Elt F))
variable (Wr : Valuation Cert.ReferenceIdeal.τ Cert.ReferenceIdeal.sig (Elt F))

/-! ## The reference's second host stretch computes them -/

theorem padW1_R :
    StableHlo.after (Cert.ReferenceIdeal.Gen.hostOps1 (F := F)) Wr (Proc.devRef .tc Cert.ReferenceIdeal.main_v11)
      = padW1 (Wr (Proc.devRef .tc Cert.ReferenceIdeal.main_arg7)) := by
  after_results
  rfl

theorem padB1_R :
    StableHlo.after (Cert.ReferenceIdeal.Gen.hostOps1 (F := F)) Wr (Proc.devRef .tc Cert.ReferenceIdeal.main_v14)
      = padB1 (Wr (Proc.devRef .tc Cert.ReferenceIdeal.main_arg8)) := by
  after_results
  rfl

theorem padW2_R :
    StableHlo.after (Cert.ReferenceIdeal.Gen.hostOps1 (F := F)) Wr (Proc.devRef .tc Cert.ReferenceIdeal.main_v20)
      = padW2 (Wr (Proc.devRef .tc Cert.ReferenceIdeal.main_arg9)) := by
  after_results
  rfl

theorem padB2_R :
    StableHlo.after (Cert.ReferenceIdeal.Gen.hostOps1 (F := F)) Wr (Proc.devRef .tc Cert.ReferenceIdeal.main_v23)
      = padB2 (Wr (Proc.devRef .tc Cert.ReferenceIdeal.main_arg10)) := by
  after_results
  rfl

/-! ## The other program's host stretch computes the same -/

set_option maxHeartbeats 4000000 in
theorem padW1_K :
    StableHlo.after (Cert.KernelIdeal.Gen.hostOps0 (F := F)) Wk (Proc.devRef .tc Cert.KernelIdeal.main_v39)
      = padW1 (Wk (Proc.devRef .tc Cert.KernelIdeal.main_arg7)) := by
  after_results_simp
  rfl

set_option maxHeartbeats 4000000 in
theorem padB1_K :
    StableHlo.after (Cert.KernelIdeal.Gen.hostOps0 (F := F)) Wk (Proc.devRef .tc Cert.KernelIdeal.main_v42)
      = padB1 (Wk (Proc.devRef .tc Cert.KernelIdeal.main_arg8)) := by
  after_results_simp
  rfl

set_option maxHeartbeats 4000000 in
theorem padW2_K :
    StableHlo.after (Cert.KernelIdeal.Gen.hostOps0 (F := F)) Wk (Proc.devRef .tc Cert.KernelIdeal.main_v48)
      = padW2 (Wk (Proc.devRef .tc Cert.KernelIdeal.main_arg9)) := by
  after_results_simp
  rfl

set_option maxHeartbeats 4000000 in
theorem padB2_K :
    StableHlo.after (Cert.KernelIdeal.Gen.hostOps0 (F := F)) Wk (Proc.devRef .tc Cert.KernelIdeal.main_v51)
      = padB2 (Wk (Proc.devRef .tc Cert.KernelIdeal.main_arg10)) := by
  after_results_simp
  rfl

/-! ## Equal arguments, equal padded arrays -/

theorem pad1 (h : Wk (Proc.devRef .tc Cert.KernelIdeal.main_arg7) = Wr (Proc.devRef .tc Cert.ReferenceIdeal.main_arg7)) :
    StableHlo.after (Cert.KernelIdeal.Gen.hostOps0 (F := F)) Wk (Proc.devRef .tc Cert.KernelIdeal.main_v39)
      = StableHlo.after (Cert.ReferenceIdeal.Gen.hostOps1 (F := F)) Wr (Proc.devRef .tc Cert.ReferenceIdeal.main_v11) :=
  (padW1_K Wk).trans ((congrArg padW1 h).trans (padW1_R Wr).symm)

theorem pad_b1 (h : Wk (Proc.devRef .tc Cert.KernelIdeal.main_arg8) = Wr (Proc.devRef .tc Cert.ReferenceIdeal.main_arg8)) :
    StableHlo.after (Cert.KernelIdeal.Gen.hostOps0 (F := F)) Wk (Proc.devRef .tc Cert.KernelIdeal.main_v42)
      = StableHlo.after (Cert.ReferenceIdeal.Gen.hostOps1 (F := F)) Wr (Proc.devRef .tc Cert.ReferenceIdeal.main_v14) :=
  (padB1_K Wk).trans ((congrArg padB1 h).trans (padB1_R Wr).symm)

theorem pad2 (h : Wk (Proc.devRef .tc Cert.KernelIdeal.main_arg9) = Wr (Proc.devRef .tc Cert.ReferenceIdeal.main_arg9)) :
    StableHlo.after (Cert.KernelIdeal.Gen.hostOps0 (F := F)) Wk (Proc.devRef .tc Cert.KernelIdeal.main_v48)
      = StableHlo.after (Cert.ReferenceIdeal.Gen.hostOps1 (F := F)) Wr (Proc.devRef .tc Cert.ReferenceIdeal.main_v20) :=
  (padW2_K Wk).trans ((congrArg padW2 h).trans (padW2_R Wr).symm)

theorem pad_b2 (h : Wk (Proc.devRef .tc Cert.KernelIdeal.main_arg10) = Wr (Proc.devRef .tc Cert.ReferenceIdeal.main_arg10)) :
    StableHlo.after (Cert.KernelIdeal.Gen.hostOps0 (F := F)) Wk (Proc.devRef .tc Cert.KernelIdeal.main_v51)
      = StableHlo.after (Cert.ReferenceIdeal.Gen.hostOps1 (F := F)) Wr (Proc.devRef .tc Cert.ReferenceIdeal.main_v23) :=
  (padB2_K Wk).trans ((congrArg padB2 h).trans (padB2_R Wr).symm)

end Cert.ReferenceIdeal.HandHost

end
-- ==== Proof.FinalK.lean ====
/-
  The kernel program's two results as the specification's functions of its ARGUMENTS.

  The program packs its weights on the host, runs a first kernel call that leaves the layer-1 projections of the
  layer-0 embedding (Y = E · Wl and P = E · Wr + b), and a second one that aggregates the projection into the embedding
  and applies the perceptron head.  Each kernel call's outputs are known as the specification's functions of the ARRAYS
  THE CALL FINDS; the packed arrays are known as functions of the arguments.  Substituting the second into the first, and
  the first call's outputs for the second call's inputs, gives the embedding and the head's output over the arguments
  alone (`k_emb`, `k_pred`).  The hypotheses say how the memories before the two calls are related: the first call
  starts from the memory the host operations leave, the second finds the first's two outputs and otherwise the same
  arrays.
-/
import proofs.«130397_g2000105430876207_pallasbulk_1247_2_alg».proof.Proof.KVal0
import proofs.«130397_g2000105430876207_pallasbulk_1247_2_alg».proof.Proof.KVal1
import proofs.«130397_g2000105430876207_pallasbulk_1247_2_alg».proof.Proof.KHost
import proofs.«130397_g2000105430876207_pallasbulk_1247_2_alg».proof.Proof.KHost2
import proofs.«130397_g2000105430876207_pallasbulk_1247_2_alg».proof.Proof.Pads
import proofs.«130397_g2000105430876207_pallasbulk_1247_2_alg».proof.Proof.Spec

noncomputable section

namespace Cert.KernelIdeal.FinalK

open Idealize.ShloMosaic Idealize.ShloMosaic.TcCoe Idealize.SL.Sem Idealize.ShloMosaic.ValueIdx
open Idealize.ShloMosaic.Pipeline (Dat)
open Cert.KernelIdeal Cert.KernelIdeal.Gen
open Cert.ReferenceIdeal.HandHost (padW1 padB1 padW2 padB2)

/-! ## The arguments by coordinates -/

section Args
variable (W : Valuation τ sig (Elt Ideal))

/-- The two adjacency matrices. -/
abbrev argA : Fin 2 → Fin 4096 → Fin 4096 → EReal := Spec.cur3 (W (Proc.devRef .tc main_arg11) : S2x4096x4096.Idx → EReal)
/-- The node features. -/
abbrev argX : Fin 4096 → Fin 128 → EReal := Spec.cur2 (W (Proc.devRef .tc main_arg0) : S4096x128.Idx → EReal)
/-- The stacked layer-0 weight. -/
abbrev argW0 : Fin 384 → Fin 512 → EReal :=
  Spec.W0of (Spec.cur3 (W (Proc.devRef .tc main_arg1) : S2x128x256.Idx → EReal)) (Spec.cur3 (W (Proc.devRef .tc main_arg2) : S2x128x256.Idx → EReal))
/-- The layer-0 bias as one row. -/
abbrev argB0 : Fin 512 → EReal := Spec.bcat (Spec.bias3 (W (Proc.devRef .tc main_arg3) : S2x1x256.Idx → EReal))
/-- The packed layer-1 weight. -/
abbrev argW1 : Fin 512 → Fin 1024 → EReal :=
  Spec.W1of (Spec.cur3 (W (Proc.devRef .tc main_arg4) : S2x512x256.Idx → EReal)) (Spec.cur3 (W (Proc.devRef .tc main_arg5) : S2x512x256.Idx → EReal))
/-- The layer-1 bias as one row. -/
abbrev argB1 : Fin 512 → EReal := Spec.bcat (Spec.bias3 (W (Proc.devRef .tc main_arg6) : S2x1x256.Idx → EReal))
/-- The embedding the program computes, as the specification's function of the arguments. -/
abbrev embOf : Fin 4096 → Fin 512 → EReal :=
  Spec.embK (argA W) (Spec.y1K (argA W) (argX W) (argW0 W) (argB0 W) (argW1 W))
    (Spec.p1K (argA W) (argX W) (argW0 W) (argB0 W) (argW1 W) (argB1 W))

end Args

/-- An array given by coordinates, read by coordinates. -/
theorem cur2_mk {n0 n1 : Nat} (G : Fin n0 → Fin n1 → EReal) :
    Spec.cur2 (fun idx : (⟨2, ![n0, n1]⟩ : Shape).Idx => G (idx 0) (idx 1)) = G := rfl

section Compose
variable (W : Valuation τ sig (Elt Ideal))
variable (V2 V3 : (c : Dev nD) → (b : Ref sig .tc) → Buf (Elt Ideal) ((c : Thread nD τ).loc b)) (c : Dev nD)
variable (hV2 : ∀ b : Ref sig .tc, V2 c b = StableHlo.after (hostOps0 (F := Ideal)) W (Proc.devRef .tc b))
variable (hy : V3 c main_v52_0 = (Hand.dat0 V2 c).arrAt 7 cfg0.N) (hp : V3 c main_v52_1 = (Hand.dat0 V2 c).arrAt 8 cfg0.N)
variable (hA : V3 c main_arg11 = V2 c main_arg11)

include hV2 in
/-- The first kernel call's first output: the layer-1 left projection of the layer-0 embedding, over the arguments. -/
theorem y1_of : (Hand.dat0 V2 c).arrAt 7 cfg0.N
    = fun idx => Spec.y1K (argA W) (argX W) (argW0 W) (argB0 W) (argW1 W) (idx 0) (idx 1) := by
  rw [HandVal.y1_val V2 c, hV2 main_arg11, hV2 main_v0, hV2 main_v21, hV2 main_v22, hV2 main_v34,
    HandHost.a_keep W, HandHost.xb_eq W, HandHost.w0_eq W, HandHost.b0_eq W, HandHost.w1_eq W]

include hV2 in
/-- The first kernel call's second output: the right projection plus the bias, over the arguments. -/
theorem p1_of : (Hand.dat0 V2 c).arrAt 8 cfg0.N
    = fun idx => Spec.p1K (argA W) (argX W) (argW0 W) (argB0 W) (argW1 W) (argB1 W) (idx 0) (idx 1) := by
  rw [HandVal.p1_val V2 c, hV2 main_arg11, hV2 main_v0, hV2 main_v21, hV2 main_v22, hV2 main_v34, hV2 main_v35,
    HandHost.a_keep W, HandHost.xb_eq W, HandHost.w0_eq W, HandHost.b0_eq W, HandHost.w1_eq W, HandHost.b1_eq W]

include hV2 hy hp hA in
/-- THE EMBEDDING after the second kernel call, as the specification's function of the program's arguments. -/
theorem k_emb : (Hand.dat1 V3 c).arrAt 7 cfg1.N = fun idx => embOf W (idx 0) (idx 1) := by
  rw [HandVal.emb_val V3 c, hA, hy, hp, hV2 main_arg11, HandHost.a_keep W, y1_of W V2 c hV2, p1_of W V2 c hV2]
  rfl

end Compose

section Head
variable (W : Valuation τ sig (Elt Ideal))
variable (V2 V3 : (c : Dev nD) → (b : Ref sig .tc) → Buf (Elt Ideal) ((c : Thread nD τ).loc b)) (c : Dev nD)
variable (hV2 : ∀ b : Ref sig .tc, V2 c b = StableHlo.after (hostOps0 (F := Ideal)) W (Proc.devRef .tc b))
variable (hy : V3 c main_v52_0 = (Hand.dat0 V2 c).arrAt 7 cfg0.N) (hp : V3 c main_v52_1 = (Hand.dat0 V2 c).arrAt 8 cfg0.N)
variable (hA : V3 c main_arg11 = V2 c main_arg11)
variable (h39 : V3 c main_v39 = V2 c main_v39) (h42 : V3 c main_v42 = V2 c main_v42)
variable (h48 : V3 c main_v48 = V2 c main_v48) (h51 : V3 c main_v51 = V2 c main_v51)

include hV2 hy hp hA h39 h42 h48 h51 in
/-- THE HEAD'S OUTPUT after the second kernel call: the specification's head of that embedding over the padded head
    weights, as functions of the program's arguments. -/
theorem k_pred : (Hand.dat1 V3 c).arrAt 8 cfg1.N
    = fun idx => Spec.head (embOf W)
        (Spec.cur2 (n0 := 512) (n1 := 128) (padW1 (F := Ideal) (W (Proc.devRef .tc main_arg7))))
        (Spec.row (n := 128) (padB1 (F := Ideal) (W (Proc.devRef .tc main_arg8))))
        (Spec.cur2 (n0 := 128) (n1 := 128) (padW2 (F := Ideal) (W (Proc.devRef .tc main_arg9))))
        (Spec.row (n := 128) (padB2 (F := Ideal) (W (Proc.devRef .tc main_arg10)))) (idx 0) (idx 1) := by
  have e39 : (V3 c main_v39 : S512x128.Idx → EReal) = padW1 (F := Ideal) (W (Proc.devRef .tc main_arg7)) := by
    rw [h39, hV2 main_v39]; exact Cert.ReferenceIdeal.HandHost.padW1_K W
  have e42 : (V3 c main_v42 : S1x128.Idx → EReal) = padB1 (F := Ideal) (W (Proc.devRef .tc main_arg8)) := by
    rw [h42, hV2 main_v42]; exact Cert.ReferenceIdeal.HandHost.padB1_K W
  have e48 : (V3 c main_v48 : S128x128.Idx → EReal) = padW2 (F := Ideal) (W (Proc.devRef .tc main_arg9)) := by
    rw [h48, hV2 main_v48]; exact Cert.ReferenceIdeal.HandHost.padW2_K W
  have e51 : (V3 c main_v51 : S1x128.Idx → EReal) = padB2 (F := Ideal) (W (Proc.devRef .tc main_arg10)) := by
    rw [h51, hV2 main_v51]; exact Cert.ReferenceIdeal.HandHost.padB2_K W
  have eE : Spec.embK (Spec.cur3 (V3 c main_arg11 : S2x4096x4096.Idx → EReal)) (Spec.cur2 (V3 c main_v52_0 : S4096x512.Idx → EReal))
      (Spec.cur2 (V3 c main_v52_1 : S4096x512.Idx → EReal)) = embOf W := by
    rw [hA, hy, hp, hV2 main_arg11, HandHost.a_keep W, y1_of W V2 c hV2, p1_of W V2 c hV2]
    rfl
  rw [HandVal.pred_val V3 c, eE, e39, e42, e48, e51]

end Head

end Cert.KernelIdeal.FinalK
end
-- ==== Proof.TopK.lean ====
/-
  The kernel program's run, read back at its two results over the launch contents of its arguments.

  The run leaves each result buffer at the second kernel call's output array (the second result after a slice of its
  first 32 columns), the memories before the two calls being the ones the composition of the two calls' values is stated
  for; reading those outputs as the specification's functions of the arguments gives the two statements below, in the
  same form as the other program's.
-/
import proofs.«130397_g2000105430876207_pallasbulk_1247_2_alg».proof.Proof.KRun
import proofs.«130397_g2000105430876207_pallasbulk_1247_2_alg».proof.Proof.FinalK

noncomputable section

namespace Cert.KernelIdeal.TopK

open Idealize.ShloMosaic Idealize.ShloMosaic.TcCoe Idealize.SL.Sem Idealize.ShloMosaic.ValueIdx
open Idealize.ShloMosaic.Pipeline (Dat)
open Cert.KernelIdeal Cert.KernelIdeal.Gen
open Cert.ReferenceIdeal.HandHost (padW1 padB1 padW2 padB2)

variable (m : (ℓ : Loc nD τ sig) → Buf (Elt Ideal) ℓ) (ρ : Dev nD → PrngReg) (c : Dev nD)

/-- The memory at launch, read at an unscoped reference of core `c`, is the launch contents there. -/
theorem launch_apply (b : Ref sig .tc) : Hand.W0 m ρ c (Proc.devRef .tc b) = m ((c : Thread nD τ).loc b) := rfl

/-- THE EMBEDDING the run leaves at the program's first result, over the launch contents of the arguments. -/
theorem k_emb_run :
    (Hand.W5 m ρ c (Proc.devRef .tc main_v53_0) : S4096x512.Idx → EReal)
      = fun idx => Spec.embK (Spec.cur3 (m ((c : Thread nD τ).loc main_arg11) : S2x4096x4096.Idx → EReal))
          (Spec.y1K (Spec.cur3 (m ((c : Thread nD τ).loc main_arg11) : S2x4096x4096.Idx → EReal))
            (Spec.cur2 (m ((c : Thread nD τ).loc main_arg0) : S4096x128.Idx → EReal))
            (Spec.W0of (Spec.cur3 (m ((c : Thread nD τ).loc main_arg1) : S2x128x256.Idx → EReal))
              (Spec.cur3 (m ((c : Thread nD τ).loc main_arg2) : S2x128x256.Idx → EReal)))
            (Spec.bcat (Spec.bias3 (m ((c : Thread nD τ).loc main_arg3) : S2x1x256.Idx → EReal)))
            (Spec.W1of (Spec.cur3 (m ((c : Thread nD τ).loc main_arg4) : S2x512x256.Idx → EReal))
              (Spec.cur3 (m ((c : Thread nD τ).loc main_arg5) : S2x512x256.Idx → EReal))))
          (Spec.p1K (Spec.cur3 (m ((c : Thread nD τ).loc main_arg11) : S2x4096x4096.Idx → EReal))
            (Spec.cur2 (m ((c : Thread nD τ).loc main_arg0) : S4096x128.Idx → EReal))
            (Spec.W0of (Spec.cur3 (m ((c : Thread nD τ).loc main_arg1) : S2x128x256.Idx → EReal))
              (Spec.cur3 (m ((c : Thread nD τ).loc main_arg2) : S2x128x256.Idx → EReal)))
            (Spec.bcat (Spec.bias3 (m ((c : Thread nD τ).loc main_arg3) : S2x1x256.Idx → EReal)))
            (Spec.W1of (Spec.cur3 (m ((c : Thread nD τ).loc main_arg4) : S2x512x256.Idx → EReal))
              (Spec.cur3 (m ((c : Thread nD τ).loc main_arg5) : S2x512x256.Idx → EReal)))
            (Spec.bcat (Spec.bias3 (m ((c : Thread nD τ).loc main_arg6) : S2x1x256.Idx → EReal))))
          (idx 0) (idx 1) := by
  refine (Hand.W5_main_v53_0 m ρ c).trans ?_
  exact FinalK.k_emb (Hand.W0 m ρ c) (Hand.V2 m ρ) (Hand.V3 m ρ) c (fun _ => rfl)
    (Hand.V3_main_v52_0 m ρ c) (Hand.V3_main_v52_1 m ρ c) (Hand.V3_main_arg11 m ρ c)

/-- THE PREDICTION the run leaves at the program's second result: the first 32 columns of the head's output, over the
    launch contents of the arguments. -/
theorem k_pred_run :
    (Hand.W5 m ρ c (Proc.devRef .tc main_v54) : S4096x32.Idx → EReal)
      = extractStridedSlice S4096x32 ![0, 0]
          (fun idx : S4096x128.Idx => Spec.head
            (Spec.embK (Spec.cur3 (m ((c : Thread nD τ).loc main_arg11) : S2x4096x4096.Idx → EReal))
              (Spec.y1K (Spec.cur3 (m ((c : Thread nD τ).loc main_arg11) : S2x4096x4096.Idx → EReal))
                (Spec.cur2 (m ((c : Thread nD τ).loc main_arg0) : S4096x128.Idx → EReal))
                (Spec.W0of (Spec.cur3 (m ((c : Thread nD τ).loc main_arg1) : S2x128x256.Idx → EReal))
                  (Spec.cur3 (m ((c : Thread nD τ).loc main_arg2) : S2x128x256.Idx → EReal)))
                (Spec.bcat (Spec.bias3 (m ((c : Thread nD τ).loc main_arg3) : S2x1x256.Idx → EReal)))
                (Spec.W1of (Spec.cur3 (m ((c : Thread nD τ).loc main_arg4) : S2x512x256.Idx → EReal))
                  (Spec.cur3 (m ((c : Thread nD τ).loc main_arg5) : S2x512x256.Idx → EReal))))
              (Spec.p1K (Spec.cur3 (m ((c : Thread nD τ).loc main_arg11) : S2x4096x4096.Idx → EReal))
                (Spec.cur2 (m ((c : Thread nD τ).loc main_arg0) : S4096x128.Idx → EReal))
                (Spec.W0of (Spec.cur3 (m ((c : Thread nD τ).loc main_arg1) : S2x128x256.Idx → EReal))
                  (Spec.cur3 (m ((c : Thread nD τ).loc main_arg2) : S2x128x256.Idx → EReal)))
                (Spec.bcat (Spec.bias3 (m ((c : Thread nD τ).loc main_arg3) : S2x1x256.Idx → EReal)))
                (Spec.W1of (Spec.cur3 (m ((c : Thread nD τ).loc main_arg4) : S2x512x256.Idx → EReal))
                  (Spec.cur3 (m ((c : Thread nD τ).loc main_arg5) : S2x512x256.Idx → EReal)))
                (Spec.bcat (Spec.bias3 (m ((c : Thread nD τ).loc main_arg6) : S2x1x256.Idx → EReal)))))
            (Spec.cur2 (n0 := 512) (n1 := 128) (padW1 (F := Ideal) (m ((c : Thread nD τ).loc main_arg7))))
            (Spec.row (n := 128) (padB1 (F := Ideal) (m ((c : Thread nD τ).loc main_arg8))))
            (Spec.cur2 (n0 := 128) (n1 := 128) (padW2 (F := Ideal) (m ((c : Thread nD τ).loc main_arg9))))
            (Spec.row (n := 128) (padB2 (F := Ideal) (m ((c : Thread nD τ).loc main_arg10))))
            (idx 0) (idx 1))
          slices_S4096x128_S4096x32_0_0 := by
  refine (Hand.W5_main_v54 m ρ c).trans ?_
  exact congrArg (fun X : S4096x128.Idx → EReal => extractStridedSlice S4096x32 ![0, 0] X slices_S4096x128_S4096x32_0_0)
    (FinalK.k_pred (Hand.W0 m ρ c) (Hand.V2 m ρ) (Hand.V3 m ρ) c (fun _ => rfl)
      (Hand.V3_main_v52_0 m ρ c) (Hand.V3_main_v52_1 m ρ c) (Hand.V3_main_arg11 m ρ c)
      (Hand.V3_main_v39 m ρ c) (Hand.V3_main_v42 m ρ c) (Hand.V3_main_v48 m ρ c) (Hand.V3_main_v51 m ρ c))

end Cert.KernelIdeal.TopK
end
-- ==== Proof.RPay0.lean ====
/-
  The reference's first region, arithmetic only: each value its body stores, read at one entry over the extended reals,
  as a function of the vectors it loads. A plain matrix product into a zero accumulator is the sum over the contracted
  coordinate; the accumulation step adds one source half's product to the accumulator; the projection of one edge type is
  aggregate times left weight plus own rows times right weight plus bias; the stored block puts the two types' rectified
  projections side by side. Nothing here mentions memory or grid points: the vectors are variables.
-/
import proofs.«130397_g2000105430876207_pallasbulk_1247_2_alg».proof.Proof.Gen.ReferenceIdeal.Skeleton
import proofs.«130397_g2000105430876207_pallasbulk_1247_2_alg».proof.Proof.Spec
import Idealize.ShloMosaic.Lib.ValueIdx
import Idealize.ShloMosaic.Lib.Pipeline.Value
import Idealize.ShloMosaic.PureOps.Ideal.Laws

noncomputable section
open scoped BigOperators

namespace Cert.ReferenceIdeal.HandVal

open Idealize.ShloMosaic Idealize.ShloMosaic.ValueIdx Cert.ReferenceIdeal Cert.ReferenceIdeal.Gen

/-! ## A plain matrix product into the zero accumulator, read at an entry -/

section Plain
variable {sl sr so : Shape} (d : DotDims sl sr so)

/-- With no batch axis and one free left axis, that axis of the left operand's index is the result index's first coordinate. -/
theorem lhsIdx_val_free {a : Fin sl.rank} (hn : d.lhsNonContracting = [a]) (hb : d.lhsBatch = []) (j : so.Idx) (k : d.contr.Idx)
    (h0 : 0 < so.rank) : (d.lhsIdx j k a).val = (j ⟨0, h0⟩).val := by
  have hmem : a ∈ d.lhsNonContracting := by rw [hn]; exact List.mem_singleton.mpr rfl
  have hnb : a ∉ d.lhsBatch := by rw [hb]; exact List.not_mem_nil
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hn, hb])

/-- With no batch axis, one free left axis and one free right axis, that axis of the right operand's index is the result
    index's second coordinate. -/
theorem rhsIdx_val_free {a : Fin sl.rank} {b : Fin sr.rank} (hn : d.lhsNonContracting = [a]) (hb : d.lhsBatch = [])
    (hn' : d.rhsNonContracting = [b]) (hb' : d.rhsBatch = []) (j : so.Idx) (k : d.contr.Idx)
    (h1 : 1 < so.rank) : (d.rhsIdx j k b).val = (j ⟨1, h1⟩).val := by
  have hmem : b ∈ d.rhsNonContracting := by rw [hn']; exact List.mem_singleton.mpr rfl
  have hnb : b ∉ d.rhsBatch := by rw [hb']; exact List.not_mem_nil
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hn, hb, hn'])

end Plain

/-- A plain M×K by K×N product into the zero accumulator, read at (p, q): the sum over the one contracted coordinate. -/
theorem matmul_plain_zero {M K N : Nat} (d : DotDims ⟨2, ![M, K]⟩ ⟨2, ![K, N]⟩ ⟨2, ![M, N]⟩)
    (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  have hrk : d.contr.rank = 1 := by rw [d.rank_contr, hl]; rfl
  have hs : d.contr.size ⟨0, by omega⟩ = K := by
    rw [d.size_contr 0 (by rw [hl]; exact Nat.one_pos)]
    simp [hl]
  rw [Ideal.matmul_constant_zero_apply]
  rw [← Equiv.sum_comp (contrEquiv1 d K hrk hs).symm]
  refine Finset.sum_congr rfl fun k _ => ?_
  have eL : d.lhsIdx (ix2 p q) ((contrEquiv1 d K hrk hs).symm k) = ix2 p k := by
    funext a
    match a with
    | ⟨0, _⟩ => exact Fin.ext (lhsIdx_val_free d hln hlb _ _ Nat.zero_lt_two)
    | ⟨1, _⟩ => exact Fin.ext ((d.lhsIdx_val_of_single hl _ _).trans (contrEquiv1_symm_val d K hrk hs k))
  have eR : d.rhsIdx (ix2 p q) ((contrEquiv1 d K hrk hs).symm k) = ix2 k q := by
    funext a
    match a with
    | ⟨0, _⟩ => exact Fin.ext ((d.rhsIdx_val_of_single hr _ _).trans (contrEquiv1_symm_val d K hrk hs k))
    | ⟨1, _⟩ => exact Fin.ext (rhsIdx_val_free d hln hlb hrn hrb _ _ Nat.one_lt_two)
  rw [eL, eR]

/-! ## Region 0's payloads at an entry, over the extended reals -/

/-- The accumulator's initial value is zero everywhere. -/
theorem pay0_init_apply (i : S1024x128.Idx) : (k0_pay1 (F := Ideal)) i = 0 := by
  unfold k0_pay1
  refine (congrFun (shapeCast_self _ _) i).trans ?_
  exact Ideal.ofBits_zero_f32

/-- The accumulation step at row 512 a + p, column k: the accumulator's entry plus the product of row p of the type-a
    adjacency block with column k of the staged source rows. -/
theorem pay0_acc_apply (v3 : Vec Ideal S2x512x2048 .bf16) (v5 : Vec Ideal S1024x128 .f32) (v6 : Vec Ideal S2048x128 .bf16)
    (r : Fin 1024) (a : Fin 2) (p : Fin 512) (hr : r.val = 512 * a.val + p.val) (k : Fin 128) :
    (k0_pay2 (F := Ideal) v3 v5 v6) (ix2 r k)
      = (v5 (ix2 r k) : EReal) + ∑ n : Fin 2048, (v3 (ix3 a p n) : EReal) * (v6 (ix2 n k) : EReal) := by
  unfold k0_pay2
  refine (congrFun (shapeCast_self _ _) _).trans ?_
  refine congrArg (fun z : EReal => (v5 (ix2 r k) : EReal) + z) ?_
  refine (matmul_plain_zero dot_S1024x2048_S2048x128_S1024x128_1_0_0_1_n_n rfl rfl rfl rfl rfl rfl none _ _ r k).trans ?_
  refine Finset.sum_congr rfl fun n _ => ?_
  have e1 : shapeCast S1024x2048 v3 shapeCasts_S2x512x2048_S1024x2048 (ix2 r n) = v3 (ix3 a p n) :=
    shapeCast_apply v3 _ (ix2 r n) (ix3 a p n) (by
      rw [Shape.rowMajor_val_three, Shape.rowMajor_val_two]
      show (a.val * 512 + p.val) * 2048 + n.val = r.val * 2048 + n.val
      rw [hr]; ring)
  have e2 : shapeCast S2048x128 v6 shapeCasts_S2048x128_S2048x128 (ix2 n k) = v6 (ix2 n k) :=
    congrFun (shapeCast_self v6 _) _
  rw [e1, e2]

/-- The projection of one edge type before its bias is broadcast: aggregate times left weight plus own rows times right
    weight plus bias, at row p and column q of the type's 256. -/
def proj {D : Nat} (ac xs : Fin 512 → Fin D → EReal) (wl wr : Fin D → Fin 256 → EReal) (b : Fin 256 → EReal)
    (p : Fin 512) (q : Fin 256) : EReal :=
  ((∑ k, ac p k * wl k q) + ∑ k, xs p k * wr k q) + b q

/-- A [1, K, 256] weight slab viewed [K, 256] reads (0, k, q) at (k, q). -/
theorem slab_apply {K : Nat} (w : (⟨3, ![1, K, 256]⟩ : Shape).Idx → EReal)
    (h : (⟨3, ![1, K, 256]⟩ : Shape).ShapeCasts ⟨2, ![K, 256]⟩) (k : Fin K) (q : Fin 256) :
    shapeCast ⟨2, ![K, 256]⟩ w h (ix2 k q) = w (ix3 0 k q) :=
  shapeCast_apply w h (ix2 k q) (ix3 0 k q) (by
    rw [Shape.rowMajor_val_three, Shape.rowMajor_val_two]
    show (0 * K + k.val) * 256 + q.val = k.val * 256 + q.val
    rw [Nat.zero_mul, Nat.zero_add])

/-- A [1, 1, 256] bias viewed [1, 256] and broadcast down 512 rows reads (0, 0, q) at (p, q). -/
theorem bias_apply (b : S1x1x256.Idx → EReal) (p : Fin 512) (q : Fin 256) :
    broadcastTo S512x256 (shapeCast S1x256 b shapeCasts_S1x1x256_S1x256) broadcasts_S1x256_S512x256 (ix2 p q) = b (ix3 0 0 q) := by
  refine (broadcastTo_apply _ broadcasts_S1x256_S512x256 (ix2 p q) (ix2 0 q) fun a => ?_).trans ?_
  · match a with
    | ⟨0, _⟩ => rfl
    | ⟨1, _⟩ => rfl
  · exact shapeCast_apply b _ (ix2 0 q) (ix3 0 0 q) (by
      rw [Shape.rowMajor_val_three, Shape.rowMajor_val_two]
      show (0 * 1 + 0) * 256 + q.val = 0 * 256 + q.val
      rfl)

/-- The second type's projection, before the rectifier, at (p, q). -/
theorem pay0_proj1_apply (v16 : Vec Ideal S512x128 .bf16) (v33 : Vec Ideal S512x128 .f32) (v35 v38 : Vec Ideal S1x128x256 .bf16)
    (v42 : Vec Ideal S1x1x256 .f32) (p : Fin 512) (q : Fin 256) :
    (k0_pay6 (F := Ideal) v16 v33 v35 v38 v42) (ix2 p q)
      = proj (fun p k => (v33 (ix2 p k) : EReal)) (fun p k => (v16 (ix2 p k) : EReal)) (fun k q => (v35 (ix3 0 k q) : EReal))
          (fun k q => (v38 (ix3 0 k q) : EReal)) (fun q => (v42 (ix3 0 0 q) : EReal)) p q := by
  unfold k0_pay6 k0_pay4 proj
  refine (addf_apply _ _ _).trans ?_
  refine congrArg₂ (fun x y : EReal => x + y) ((addf_apply _ _ _).trans (congrArg₂ (fun x y : EReal => x + y) ?_ ?_)) ?_
  · refine (matmul_plain_zero dot_S512x128_S128x256_S512x256_1_0_0_1_n_n rfl rfl rfl rfl rfl rfl none _ _ p q).trans ?_
    refine Finset.sum_congr rfl fun k _ => ?_
    exact congrArg (fun z : EReal => (v33 (ix2 p k) : EReal) * z) (slab_apply (K := 128) v35 _ k q)
  · refine (matmul_plain_zero dot_S512x128_S128x256_S512x256_1_0_0_1_n_n rfl rfl rfl rfl rfl rfl none _ _ p q).trans ?_
    refine Finset.sum_congr rfl fun k _ => ?_
    exact congrArg₂ (fun y z : EReal => y * z) (congrFun (shapeCast_self v16 _) _) (slab_apply (K := 128) v38 _ k q)
  · exact bias_apply v42 p q

/-- The first type's projection, rectified, at (p, q). -/
theorem pay0_proj0_apply (v16 : Vec Ideal S512x128 .bf16) (v18 : Vec Ideal S512x128 .f32) (v20 v23 : Vec Ideal S1x128x256 .bf16)
    (v27 : Vec Ideal S1x1x256 .f32) (p : Fin 512) (q : Fin 256) :
    (k0_pay5 (F := Ideal) v16 v18 v20 v23 v27) (ix2 p q)
      = Spec.relu (proj (fun p k => (v18 (ix2 p k) : EReal)) (fun p k => (v16 (ix2 p k) : EReal)) (fun k q => (v20 (ix3 0 k q) : EReal))
          (fun k q => (v23 (ix3 0 k q) : EReal)) (fun q => (v27 (ix3 0 0 q) : EReal)) p q) := by
  unfold k0_pay5 k0_pay4 proj Spec.relu
  refine (maximumf_apply _ _ _).trans ?_
  refine congrArg₂ (fun x y : EReal => max x y) ?_ Ideal.ofBits_zero_f32
  refine (addf_apply _ _ _).trans ?_
  refine congrArg₂ (fun x y : EReal => x + y) ((addf_apply _ _ _).trans (congrArg₂ (fun x y : EReal => x + y) ?_ ?_)) ?_
  · refine (matmul_plain_zero dot_S512x128_S128x256_S512x256_1_0_0_1_n_n rfl rfl rfl rfl rfl rfl none _ _ p q).trans ?_
    refine Finset.sum_congr rfl fun k _ => ?_
    exact congrArg (fun z : EReal => (v18 (ix2 p k) : EReal) * z) (slab_apply (K := 128) v20 _ k q)
  · refine (matmul_plain_zero dot_S512x128_S128x256_S512x256_1_0_0_1_n_n rfl rfl rfl rfl rfl rfl none _ _ p q).trans ?_
    refine Finset.sum_congr rfl fun k _ => ?_
    exact congrArg₂ (fun y z : EReal => y * z) (congrFun (shapeCast_self v16 _) _) (slab_apply (K := 128) v23 _ k q)
  · exact bias_apply v27 p q

/-- The two types' 256 columns side by side: column j of the 512 reads the first piece at j below 256, the second piece
    (rectified against the given scalar) at j - 256 from 256 on. -/
theorem pay0_cat_apply (v32 v45 : FVec Ideal S512x256 .f32) (z : Ideal .f32) (p : Fin 512) (j : Fin 512) :
    (k0_pay3 (F := Ideal) v32 v45 z) (ix2 p j)
      = if (Spec.ty j).val = 0 then (v32 (ix2 p (Spec.col j)) : EReal) else max (v45 (ix2 p (Spec.col j)) : EReal) z := by
  unfold k0_pay3
  refine (truncf_apply (φ := .f32) (ψ := .bf16) _ bitsLt_bf16_f32 (ix2 p j)).trans ?_
  by_cases hj : j.val < 256
  · have ht : (Spec.ty j).val = 0 := by show j.val / 256 = 0; omega
    rw [if_pos ht]
    refine concatenate_pair_apply_left (1 : Fin 2) v32 _ concatenates_S512x256_S512x256_S512x512_d1 (ix2 p j) rfl
      (ix2 p (Spec.col j)) fun b => ?_
    match b with
    | ⟨0, _⟩ => rfl
    | ⟨1, _⟩ => show j.val % 256 = j.val; omega
  · have ht : ¬(Spec.ty j).val = 0 := by show ¬j.val / 256 = 0; omega
    rw [if_neg ht]
    refine (concatenate_pair_apply_right (t := S512x512) (s₁ := S512x256) (s₂ := S512x256) (1 : Fin 2) v32
      (maximumf v45 (broadcast S512x256 z)) concatenates_S512x256_S512x256_S512x512_d1 (ix2 p j) rfl rfl
      (ix2 p (Spec.col j)) (fun b hb => ?_) ?_).trans ?_
    · match b with
      | ⟨0, _⟩ => rfl
      | ⟨1, _⟩ => exact absurd rfl hb
    · show j.val % 256 + 256 = j.val
      have := j.isLt; omega
    · rfl

/-- The block a point of the last source half writes, entry (p, j): the layer's formula over the staged pieces — the
    aggregate agg t (rows 512 t … 512 t + 511 of the accumulator), the own rows, type t's two weights and bias. -/
theorem pay0_out_apply (v16 : Vec Ideal S512x128 .bf16) (v18 v33 : Vec Ideal S512x128 .f32)
    (v20 v23 v35 v38 : Vec Ideal S1x128x256 .bf16) (v27 v42 : Vec Ideal S1x1x256 .f32)
    (agg : Fin 2 → Fin 512 → Fin 128 → EReal) (xr : Fin 512 → Fin 128 → EReal)
    (wl wr : Fin 2 → Fin 128 → Fin 256 → EReal) (b : Fin 2 → Fin 256 → EReal)
    (h18 : ∀ p k, (v18 (ix2 p k) : EReal) = agg 0 p k) (h33 : ∀ p k, (v33 (ix2 p k) : EReal) = agg 1 p k)
    (h16 : ∀ p k, (v16 (ix2 p k) : EReal) = xr p k)
    (h20 : ∀ k q, (v20 (ix3 0 k q) : EReal) = wl 0 k q) (h35 : ∀ k q, (v35 (ix3 0 k q) : EReal) = wl 1 k q)
    (h23 : ∀ k q, (v23 (ix3 0 k q) : EReal) = wr 0 k q) (h38 : ∀ k q, (v38 (ix3 0 k q) : EReal) = wr 1 k q)
    (h27 : ∀ q, (v27 (ix3 0 0 q) : EReal) = b 0 q) (h42 : ∀ q, (v42 (ix3 0 0 q) : EReal) = b 1 q)
    (p : Fin 512) (j : Fin 512) :
    (k0_pay3 (F := Ideal) (k0_pay5 v16 v18 v20 v23 v27) (k0_pay6 v16 v33 v35 v38 v42) (Scalar.ofBits .f32 0x00000000#32)) (ix2 p j)
      = Spec.relu (proj (agg (Spec.ty j)) xr (wl (Spec.ty j)) (wr (Spec.ty j)) (b (Spec.ty j)) p (Spec.col j)) := by
  refine (pay0_cat_apply _ _ _ p j).trans ?_
  by_cases ht : (Spec.ty j).val = 0
  · have e : Spec.ty j = 0 := Fin.ext ht
    rw [if_pos ht, pay0_proj0_apply, e]
    refine congrArg Spec.relu ?_
    unfold proj
    simp only [h18, h16, h20, h23, h27]
  · have e : Spec.ty j = 1 := Fin.ext (by have := (Spec.ty j).isLt; omega)
    rw [if_neg ht, pay0_proj1_apply, e]
    show max _ (Ideal.ofBits .f32 0x00000000#32) = Spec.relu _
    rw [Ideal.ofBits_zero_f32]
    refine congrArg Spec.relu ?_
    unfold proj
    simp only [h33, h16, h35, h38, h42]

/-- Two accumulation steps from a zero accumulator — the first source half, then the second — leave at row 512 a + p the
    aggregate in the layer's own order: (0 + first half's sum) + second half's sum. -/
theorem pay0_agg_apply (A0 A1 : Vec Ideal S2x512x2048 .bf16) (x0 x1 : Vec Ideal S2048x128 .bf16) (z : Vec Ideal S1024x128 .f32)
    (hz : ∀ i, (z i : EReal) = 0) (r : Fin 1024) (a : Fin 2) (p : Fin 512) (hr : r.val = 512 * a.val + p.val) (k : Fin 128) :
    (k0_pay2 (F := Ideal) A1 (k0_pay2 (F := Ideal) A0 z x0) x1) (ix2 r k)
      = (0 + ∑ n : Fin 2048, (A0 (ix3 a p n) : EReal) * (x0 (ix2 n k) : EReal))
        + ∑ n : Fin 2048, (A1 (ix3 a p n) : EReal) * (x1 (ix2 n k) : EReal) := by
  rw [pay0_acc_apply A1 _ x1 r a p hr k, pay0_acc_apply A0 z x0 r a p hr k, hz]

end Cert.ReferenceIdeal.HandVal
end
-- ==== Proof.RVal0.lean ====
/-
  The value of the reference's first region over the extended reals, for any contents V of the core's buffers at the
  region's entry. Each staged block is the array read at (block position × block size + offset); the accumulator after a
  point of the last source half is, row by row, the aggregate in the layer's own order (zero, plus the first half's sum
  left by the point before, plus this half's); the block that point stores is the layer at the rows of its tile; every
  row of the result lies in the block of exactly such a point, so the array after the run is the layer.
-/
import proofs.«130397_g2000105430876207_pallasbulk_1247_2_alg».proof.Proof.RBody0
import proofs.«130397_g2000105430876207_pallasbulk_1247_2_alg».proof.Proof.RPay0
import Idealize.ShloMosaic.Lib.Pipeline.FrameBody
import Idealize.ShloMosaic.Lib.Pipeline.Value

noncomputable section
open scoped BigOperators

namespace Cert.ReferenceIdeal.HandVal

open Idealize.ShloMosaic Idealize.ShloMosaic.TcCoe Idealize.ShloMosaic.ValueIdx Cert.ReferenceIdeal Cert.ReferenceIdeal.Gen

/-! ## Where each window's block sits -/

/-- Where each window's block sits at point t = 2 i + k (row tile i, source half k), decided over the sixteen points. -/
theorem idx_facts0 : ∀ t : Fin cfg0.N,
    win0_0.index t (0 : Fin 3) = 0 ∧ win0_0.index t (1 : Fin 3) = t.val / 2 ∧ win0_0.index t (2 : Fin 3) = t.val % 2
    ∧ win0_1.index t (0 : Fin 2) = t.val % 2 ∧ win0_1.index t (1 : Fin 2) = 0
    ∧ win0_2.index t (0 : Fin 2) = t.val / 2 ∧ win0_2.index t (1 : Fin 2) = 0
    ∧ win0_3.index t (0 : Fin 3) = 0 ∧ win0_3.index t (1 : Fin 3) = 0 ∧ win0_3.index t (2 : Fin 3) = 0
    ∧ win0_4.index t (0 : Fin 3) = 0 ∧ win0_4.index t (1 : Fin 3) = 0 ∧ win0_4.index t (2 : Fin 3) = 0
    ∧ win0_5.index t (0 : Fin 3) = 0 ∧ win0_5.index t (1 : Fin 3) = 0 ∧ win0_5.index t (2 : Fin 3) = 0
    ∧ win0_6.index t (0 : Fin 2) = t.val / 2 ∧ win0_6.index t (1 : Fin 2) = 0 :=
  (by decide +kernel : ∀ t : Fin grid0.N, _)

/-- Row p of point t's row tile, as a row of the whole array. -/
def row0 (t : Fin cfg0.N) (p : Fin 512) : Fin 4096 :=
  ⟨512 * (t.val / 2) + p.val, by have h := t.isLt; have hN : cfg0.N = 16 := N_0; have := p.isLt; omega⟩

theorem row0_val (t : Fin cfg0.N) (p : Fin 512) : (row0 t p).val = 512 * (t.val / 2) + p.val := rfl

variable (V : (c : Dev nD) → (b : Ref sig .tc) → Buf (Elt Ideal) ((c : Thread nD τ).loc b))

/-! ## The staged blocks, read at an entry -/

/-- The adjacency block at point t reads the adjacency at (type, row of the tile, source of the half). -/
theorem blk0_A_apply (c : Dev nD) (t : Fin cfg0.N) (a : Fin 2) (p : Fin 512) (n : Fin 2048) (i m : Fin 4096)
    (hi : i.val = 512 * (t.val / 2) + p.val) (hm : m.val = 2048 * (t.val % 2) + n.val) :
    (Hand.iblk0 V c 0 t (ix3 a p n) : EReal) = (V c main_arg11 : S2x4096x4096.Idx → EReal) (ix3 a i m) := by
  obtain ⟨e0, e1, e2, -⟩ := idx_facts0 t
  show (V c main_arg11 : S2x4096x4096.Idx → EReal) (((cfg0.win 0).blk t).view.emb (ix3 a p n)) = _
  refine congrArg (V c main_arg11 : S2x4096x4096.Idx → EReal) (funext fun ax => Fin.ext ?_)
  match ax with
  | ⟨0, _⟩ => show win0_0.index t (0 : Fin 3) * 2 + 1 * a.val = a.val; rw [e0]; omega
  | ⟨1, _⟩ => show win0_0.index t (1 : Fin 3) * 512 + 1 * p.val = i.val; rw [e1, hi]; omega
  | ⟨2, _⟩ => show win0_0.index t (2 : Fin 3) * 2048 + 1 * n.val = m.val; rw [e2, hm]; omega

/-- The source rows' block at point t reads the features at (source of the half, column). -/
theorem blk0_src_apply (c : Dev nD) (t : Fin cfg0.N) (n : Fin 2048) (k : Fin 128) (m : Fin 4096)
    (hm : m.val = 2048 * (t.val % 2) + n.val) :
    (Hand.iblk0 V c 1 t (ix2 n k) : EReal) = (V c main_v2 : S4096x128.Idx → EReal) (ix2 m k) := by
  obtain ⟨-, -, -, e0, e1, -⟩ := idx_facts0 t
  show (V c main_v2 : S4096x128.Idx → EReal) (((cfg0.win 1).blk t).view.emb (ix2 n k)) = _
  refine congrArg (V c main_v2 : S4096x128.Idx → EReal) (funext fun ax => Fin.ext ?_)
  match ax with
  | ⟨0, _⟩ => show win0_1.index t (0 : Fin 2) * 2048 + 1 * n.val = m.val; rw [e0, hm]; omega
  | ⟨1, _⟩ => show win0_1.index t (1 : Fin 2) * 128 + 1 * k.val = k.val; rw [e1]; omega

/-- The own rows' block at point t reads the features at (row of the tile, column). -/
theorem blk0_own_apply (c : Dev nD) (t : Fin cfg0.N) (p : Fin 512) (k : Fin 128) (i : Fin 4096)
    (hi : i.val = 512 * (t.val / 2) + p.val) :
    (Hand.iblk0 V c 2 t (ix2 p k) : EReal) = (V c main_v2 : S4096x128.Idx → EReal) (ix2 i k) := by
  obtain ⟨-, -, -, -, -, e0, e1, -⟩ := idx_facts0 t
  show (V c main_v2 : S4096x128.Idx → EReal) (((cfg0.win 2).blk t).view.emb (ix2 p k)) = _
  refine congrArg (V c main_v2 : S4096x128.Idx → EReal) (funext fun ax => Fin.ext ?_)
  match ax with
  | ⟨0, _⟩ => show win0_2.index t (0 : Fin 2) * 512 + 1 * p.val = i.val; rw [e0, hi]; omega
  | ⟨1, _⟩ => show win0_2.index t (1 : Fin 2) * 128 + 1 * k.val = k.val; rw [e1]; omega

/-- The left weight's one block is the whole array. -/
theorem blk0_wl_apply (c : Dev nD) (t : Fin cfg0.N) (a : Fin 2) (k : Fin 128) (q : Fin 256) :
    (Hand.iblk0 V c 3 t (ix3 a k q) : EReal) = (V c main_v3 : S2x128x256.Idx → EReal) (ix3 a k q) := by
  obtain ⟨-, -, -, -, -, -, -, e0, e1, e2, -⟩ := idx_facts0 t
  show (V c main_v3 : S2x128x256.Idx → EReal) (((cfg0.win 3).blk t).view.emb (ix3 a k q)) = _
  refine congrArg (V c main_v3 : S2x128x256.Idx → EReal) (funext fun ax => Fin.ext ?_)
  match ax with
  | ⟨0, _⟩ => show win0_3.index t (0 : Fin 3) * 2 + 1 * a.val = a.val; rw [e0]; omega
  | ⟨1, _⟩ => show win0_3.index t (1 : Fin 3) * 128 + 1 * k.val = k.val; rw [e1]; omega
  | ⟨2, _⟩ => show win0_3.index t (2 : Fin 3) * 256 + 1 * q.val = q.val; rw [e2]; omega

/-- The right weight's one block is the whole array. -/
theorem blk0_wr_apply (c : Dev nD) (t : Fin cfg0.N) (a : Fin 2) (k : Fin 128) (q : Fin 256) :
    (Hand.iblk0 V c 4 t (ix3 a k q) : EReal) = (V c main_v4 : S2x128x256.Idx → EReal) (ix3 a k q) := by
  obtain ⟨-, -, -, -, -, -, -, -, -, -, e0, e1, e2, -⟩ := idx_facts0 t
  show (V c main_v4 : S2x128x256.Idx → EReal) (((cfg0.win 4).blk t).view.emb (ix3 a k q)) = _
  refine congrArg (V c main_v4 : S2x128x256.Idx → EReal) (funext fun ax => Fin.ext ?_)
  match ax with
  | ⟨0, _⟩ => show win0_4.index t (0 : Fin 3) * 2 + 1 * a.val = a.val; rw [e0]; omega
  | ⟨1, _⟩ => show win0_4.index t (1 : Fin 3) * 128 + 1 * k.val = k.val; rw [e1]; omega
  | ⟨2, _⟩ => show win0_4.index t (2 : Fin 3) * 256 + 1 * q.val = q.val; rw [e2]; omega

/-- The bias's one block is the whole array. -/
theorem blk0_b_apply (c : Dev nD) (t : Fin cfg0.N) (a : Fin 2) (q : Fin 256) :
    (Hand.iblk0 V c 5 t (ix3 a 0 q) : EReal) = (V c main_arg3 : S2x1x256.Idx → EReal) (ix3 a 0 q) := by
  obtain ⟨-, -, -, -, -, -, -, -, -, -, -, -, -, e0, e1, e2, -⟩ := idx_facts0 t
  show (V c main_arg3 : S2x1x256.Idx → EReal) (((cfg0.win 5).blk t).view.emb (ix3 a 0 q)) = _
  refine congrArg (V c main_arg3 : S2x1x256.Idx → EReal) (funext fun ax => Fin.ext ?_)
  match ax with
  | ⟨0, _⟩ => show win0_5.index t (0 : Fin 3) * 2 + 1 * a.val = a.val; rw [e0]; omega
  | ⟨1, _⟩ => show win0_5.index t (1 : Fin 3) * 1 + 1 * 0 = 0; rw [e1]
  | ⟨2, _⟩ => show win0_5.index t (2 : Fin 3) * 256 + 1 * q.val = q.val; rw [e2]; omega

/-! ## The body's partial loads, read at an entry -/

/-- Rows 0 … 511 of the accumulator. -/
theorem ld_lo0 (s : Vec Ideal S1024x128 .f32) (p : Fin 512) (k : Fin 128) (r : Fin 1024) (hr : r.val = p.val) :
    (View.ld s Hand.rLo0 (ix2 p k) : EReal) = (s (ix2 r k) : EReal) := by
  refine congrArg (fun i => (s i : EReal)) (funext fun ax => Fin.ext ?_)
  match ax with
  | ⟨0, _⟩ => show 0 + 1 * p.val = r.val; omega
  | ⟨1, _⟩ => show 0 + 1 * k.val = k.val; omega

/-- Rows 512 … 1023 of the accumulator. -/
theorem ld_hi0 (s : Vec Ideal S1024x128 .f32) (p : Fin 512) (k : Fin 128) (r : Fin 1024) (hr : r.val = 512 + p.val) :
    (View.ld s Hand.rHi0 (ix2 p k) : EReal) = (s (ix2 r k) : EReal) := by
  refine congrArg (fun i => (s i : EReal)) (funext fun ax => Fin.ext ?_)
  match ax with
  | ⟨0, _⟩ => show 512 + 1 * p.val = r.val; omega
  | ⟨1, _⟩ => show 0 + 1 * k.val = k.val; omega

/-- Type a's slab of a per-type weight. -/
theorem ld_w0 (w : Vec Ideal S2x128x256 .bf16) (k : Fin 128) (q : Fin 256) :
    (View.ld w Hand.rW0_0 (ix3 0 k q) : EReal) = (w (ix3 0 k q) : EReal) := by
  refine congrArg (fun i => (w i : EReal)) (funext fun ax => Fin.ext ?_)
  match ax with
  | ⟨0, _⟩ => rfl
  | ⟨1, _⟩ => show 0 + 1 * k.val = k.val; omega
  | ⟨2, _⟩ => show 0 + 1 * q.val = q.val; omega

theorem ld_w1 (w : Vec Ideal S2x128x256 .bf16) (k : Fin 128) (q : Fin 256) :
    (View.ld w Hand.rW0_1 (ix3 0 k q) : EReal) = (w (ix3 1 k q) : EReal) := by
  refine congrArg (fun i => (w i : EReal)) (funext fun ax => Fin.ext ?_)
  match ax with
  | ⟨0, _⟩ => rfl
  | ⟨1, _⟩ => show 0 + 1 * k.val = k.val; omega
  | ⟨2, _⟩ => show 0 + 1 * q.val = q.val; omega

/-- Type a's row of the bias. -/
theorem ld_b0 (b : Vec Ideal S2x1x256 .f32) (q : Fin 256) :
    (View.ld b Hand.rB_0 (ix3 0 0 q) : EReal) = (b (ix3 0 0 q) : EReal) := by
  refine congrArg (fun i => (b i : EReal)) (funext fun ax => Fin.ext ?_)
  match ax with
  | ⟨0, _⟩ => rfl
  | ⟨1, _⟩ => rfl
  | ⟨2, _⟩ => show 0 + 1 * q.val = q.val; omega

theorem ld_b1 (b : Vec Ideal S2x1x256 .f32) (q : Fin 256) :
    (View.ld b Hand.rB_1 (ix3 0 0 q) : EReal) = (b (ix3 1 0 q) : EReal) := by
  refine congrArg (fun i => (b i : EReal)) (funext fun ax => Fin.ext ?_)
  match ax with
  | ⟨0, _⟩ => rfl
  | ⟨1, _⟩ => rfl
  | ⟨2, _⟩ => show 0 + 1 * q.val = q.val; omega

/-! ## The arrays the region reads, by coordinates -/

/-- The adjacency, the features and the layer's weights and bias as the region finds them. -/
abbrev adj (c : Dev nD) : Fin 2 → Fin 4096 → Fin 4096 → EReal := Spec.cur3 (V c main_arg11 : S2x4096x4096.Idx → EReal)
abbrev feat0 (c : Dev nD) : Fin 4096 → Fin 128 → EReal := Spec.cur2 (V c main_v2 : S4096x128.Idx → EReal)
abbrev wl0 (c : Dev nD) : Fin 2 → Fin 128 → Fin 256 → EReal := Spec.cur3 (V c main_v3 : S2x128x256.Idx → EReal)
abbrev wr0 (c : Dev nD) : Fin 2 → Fin 128 → Fin 256 → EReal := Spec.cur3 (V c main_v4 : S2x128x256.Idx → EReal)
abbrev b0 (c : Dev nD) : Fin 2 → Fin 256 → EReal := Spec.bias3 (V c main_arg3 : S2x1x256.Idx → EReal)

/-! ## One point of the last source half -/

/-- The accumulator after a point of the last half, at row 512 a + p: type a's aggregate of row p of the tile, the first
    half's sum (left by the point before, from zero) then this half's. -/
theorem sc0_apply (c : Dev nD) (t : Fin cfg0.N) (ht : t.val % 2 = 1) (a : Fin 2) (p : Fin 512) (k : Fin 128) (r : Fin 1024)
    (hr : r.val = 512 * a.val + p.val) :
    (Hand.scAt0 V c t (ix2 r k) : EReal) = Spec.aggR (adj V c) (feat0 V c) a (row0 t p) k := by
  unfold Hand.scAt0
  rw [if_neg (by omega)]
  unfold Hand.acc0
  refine (pay0_agg_apply (Hand.iblk0 V c 0 (Hand.prev0 t)) (Hand.iblk0 V c 0 t) (Hand.iblk0 V c 1 (Hand.prev0 t))
    (Hand.iblk0 V c 1 t) (k0_pay1 (F := Ideal)) pay0_init_apply r a p hr k).trans ?_
  unfold Spec.aggR
  have hp : (Hand.prev0 t).val = t.val - 1 := rfl
  refine congrArg₂ (fun x y : EReal => x + y) (congrArg (fun x : EReal => 0 + x) (Finset.sum_congr rfl fun n _ => ?_))
    (Finset.sum_congr rfl fun n _ => ?_)
  · refine congrArg₂ (fun x y : EReal => x * y)
      (blk0_A_apply V c (Hand.prev0 t) a p n (row0 t p) (Spec.lo n) (by rw [row0_val, hp]; omega) (by rw [hp]; show n.val = _; omega))
      (blk0_src_apply V c (Hand.prev0 t) n k (Spec.lo n) (by rw [hp]; show n.val = _; omega))
  · refine congrArg₂ (fun x y : EReal => x * y)
      (blk0_A_apply V c t a p n (row0 t p) (Spec.hi n) (row0_val t p) (by show 2048 + n.val = _; omega))
      (blk0_src_apply V c t n k (Spec.hi n) (by show 2048 + n.val = _; omega))

/-- The block a point of the last half leaves in the output's buffer, entry (p, j): the layer at row p of the tile. -/
theorem out0_point (c : Dev nD) (t : Fin cfg0.N) (ht : t.val % 2 = 1) (p j : Fin 512) :
    (Hand.outAt0 V c t (ix2 p j) : EReal)
      = Spec.layerR (adj V c) (feat0 V c) (wl0 V c) (wr0 V c) (b0 V c) (row0 t p) j := by
  unfold Hand.outAt0 Hand.out0_6
  refine (pay0_out_apply (Hand.iblk0 V c 2 t) (View.ld (Hand.scAt0 V c t) Hand.rLo0) (View.ld (Hand.scAt0 V c t) Hand.rHi0)
    (View.ld (Hand.iblk0 V c 3 t) Hand.rW0_0) (View.ld (Hand.iblk0 V c 4 t) Hand.rW0_0)
    (View.ld (Hand.iblk0 V c 3 t) Hand.rW0_1) (View.ld (Hand.iblk0 V c 4 t) Hand.rW0_1)
    (View.ld (Hand.iblk0 V c 5 t) Hand.rB_0) (View.ld (Hand.iblk0 V c 5 t) Hand.rB_1)
    (fun a p k => Spec.aggR (adj V c) (feat0 V c) a (row0 t p) k) (fun p k => feat0 V c (row0 t p) k)
    (wl0 V c) (wr0 V c) (b0 V c)
    (fun p k => (ld_lo0 _ p k ⟨p.val, by have := p.isLt; omega⟩ rfl).trans
      (sc0_apply V c t ht 0 p k _ (by show p.val = 512 * 0 + p.val; omega)))
    (fun p k => (ld_hi0 _ p k ⟨512 + p.val, by have := p.isLt; omega⟩ rfl).trans
      (sc0_apply V c t ht 1 p k _ (by show 512 + p.val = 512 * 1 + p.val; omega)))
    (fun p k => blk0_own_apply V c t p k (row0 t p) (row0_val t p))
    (fun k q => (ld_w0 _ k q).trans (blk0_wl_apply V c t 0 k q))
    (fun k q => (ld_w1 _ k q).trans (blk0_wl_apply V c t 1 k q))
    (fun k q => (ld_w0 _ k q).trans (blk0_wr_apply V c t 0 k q))
    (fun k q => (ld_w1 _ k q).trans (blk0_wr_apply V c t 1 k q))
    (fun q => (ld_b0 _ q).trans (blk0_b_apply V c t 0 q))
    (fun q => (ld_b1 _ q).trans (blk0_b_apply V c t 1 q))
    p j).trans ?_
  rfl

/-! ## From the blocks to the array -/

/-- The first layer as one array: entry (i, j) is the layer at row i, column j. -/
def G0 (c : Dev nD) : S4096x512.Idx → EReal :=
  fun idx => Spec.layerR (adj V c) (feat0 V c) (wl0 V c) (wr0 V c) (b0 V c) (idx 0) (idx 1)

/-- What a point of the last half writes back is its block of that array. -/
theorem flushed0_eq (c : Dev nD) (t : Fin cfg0.N) (hf : (cfg0.win 6).flush t = true) :
    (Hand.dat0 V c).flushed 6 t = ((cfg0.win 6).blk t).view.read (Elt Ideal) (G0 V c) := by
  have ht : t.val % 2 = 1 := (flush0_6 t).mp hf
  obtain ⟨-, -, -, -, -, -, -, -, -, -, -, -, -, -, -, -, e0, e1⟩ := idx_facts0 t
  show (cfg0.win 6).cut (grid0.coords t) ((Hand.dat0 V c).after 6 t) = _
  rw [Hand.after0_6]
  funext y
  obtain ⟨p, j, rfl⟩ : ∃ (p j : Fin 512), y = ix2 p j := ⟨y 0, y 1, eq_ix2 y⟩
  refine (out0_point V c t ht p j).trans ?_
  show _ = G0 V c (((cfg0.win 6).blk t).view.emb (ix2 p j))
  unfold G0
  refine congrArg₂ (Spec.layerR (adj V c) (feat0 V c) (wl0 V c) (wr0 V c) (b0 V c)) (Fin.ext ?_) (Fin.ext ?_)
  · show 512 * (t.val / 2) + p.val = win0_6.index t (0 : Fin 2) * 512 + 1 * p.val
    rw [e0]; omega
  · show j.val = win0_6.index t (1 : Fin 2) * 512 + 1 * j.val
    rw [e1]; omega

/-- An entry of the result is in point t's block iff each coordinate is in the block's range on its axis. -/
theorem mem_blk0_6 (t : Fin cfg0.N) (i : S4096x512.Idx) :
    i ∈ ((cfg0.win 6).blk t).view.set ↔ ∀ a : Fin 2, win0_6.index t a * S512x512.size a ≤ (i a).val
      ∧ (i a).val < win0_6.index t a * S512x512.size a + S512x512.size a := by
  show i ∈ ((View.whole main_v5).slice (win0_6.rect t)).set ↔ _
  rw [View.set_slice_whole, Rect.mem_set_unit]
  exact Iff.rfl

/-- Row r of the result is written back by the last-half point of its row tile, point 2 (r / 512) + 1. -/
theorem cover0_6 (i : S4096x512.Idx) : ∃ t : Fin cfg0.N, (cfg0.win 6).flush t = true ∧ i ∈ ((cfg0.win 6).blk t).view.set := by
  have hi0 : (i 0).val < 4096 := (i 0).isLt
  have hi1 : (i 1).val < 512 := (i 1).isLt
  have hN : cfg0.N = 16 := N_0
  let t : Fin cfg0.N := ⟨2 * ((i 0).val / 512) + 1, by rw [hN]; omega⟩
  have htv : t.val = 2 * ((i 0).val / 512) + 1 := rfl
  refine ⟨t, (flush0_6 t).mpr (by rw [htv]; omega), ?_⟩
  rw [mem_blk0_6]
  obtain ⟨-, -, -, -, -, -, -, -, -, -, -, -, -, -, -, -, e0, e1⟩ := idx_facts0 t
  intro a
  match a with
  | ⟨0, _⟩ =>
    show win0_6.index t (0 : Fin 2) * 512 ≤ (i 0).val ∧ (i 0).val < win0_6.index t (0 : Fin 2) * 512 + 512
    rw [e0, htv]; omega
  | ⟨1, _⟩ =>
    show win0_6.index t (1 : Fin 2) * 512 ≤ (i 1).val ∧ (i 1).val < win0_6.index t (1 : Fin 2) * 512 + 512
    rw [e1]; omega

/-- The first region's result array after the run: the first layer of the arrays the region found. -/
theorem e0_val (c : Dev nD) :
    (Hand.dat0 V c).arrAt 6 cfg0.N = fun idx => Spec.layerR (Spec.cur3 (V c main_arg11 : S2x4096x4096.Idx → EReal))
      (Spec.cur2 (V c main_v2 : S4096x128.Idx → EReal)) (Spec.cur3 (V c main_v3 : S2x128x256.Idx → EReal))
      (Spec.cur3 (V c main_v4 : S2x128x256.Idx → EReal)) (Spec.bias3 (V c main_arg3 : S2x1x256.Idx → EReal)) (idx 0) (idx 1) :=
  (Hand.dat0 V c).arrAt_eq_of_cover 6 (G0 V c) (flushed0_eq V c) cover0_6

end Cert.ReferenceIdeal.HandVal
end
-- ==== Proof.RPay1.lean ====
/-
  The reference's second region, arithmetic only: the same layer at width 512 (each stored value read at one entry over
  the extended reals, as a function of the vectors the body loads), and the perceptron head applied to the embedding
  block: rectified (block times first weight plus first bias) times second weight plus second bias.
-/
import proofs.«130397_g2000105430876207_pallasbulk_1247_2_alg».proof.Proof.Gen.ReferenceIdeal.Skeleton
import proofs.«130397_g2000105430876207_pallasbulk_1247_2_alg».proof.Proof.Spec
import proofs.«130397_g2000105430876207_pallasbulk_1247_2_alg».proof.Proof.RPay0
import Idealize.ShloMosaic.Lib.ValueIdx
import Idealize.ShloMosaic.Lib.Pipeline.Value
import Idealize.ShloMosaic.PureOps.Ideal.Laws

noncomputable section
open scoped BigOperators

namespace Cert.ReferenceIdeal.HandVal

open Idealize.ShloMosaic Idealize.ShloMosaic.ValueIdx Cert.ReferenceIdeal Cert.ReferenceIdeal.Gen

/-! ## Region 1's payloads at an entry, over the extended reals: the same layer at width 512, then the perceptron head -/

/-- The accumulator's initial value is zero everywhere. -/
theorem pay1_init_apply (i : S1024x512.Idx) : (k1_pay1 (F := Ideal)) i = 0 := by
  unfold k1_pay1
  refine (congrFun (shapeCast_self _ _) i).trans ?_
  exact Ideal.ofBits_zero_f32

/-- The accumulation step at row 512 a + p, column k: the accumulator's entry plus the product of row p of the type-a
    adjacency block with column k of the staged source rows. -/
theorem pay1_acc_apply (v3 : Vec Ideal S2x512x2048 .bf16) (v5 : Vec Ideal S1024x512 .f32) (v6 : Vec Ideal S2048x512 .bf16)
    (r : Fin 1024) (a : Fin 2) (p : Fin 512) (hr : r.val = 512 * a.val + p.val) (k : Fin 512) :
    (k1_pay2 (F := Ideal) v3 v5 v6) (ix2 r k)
      = (v5 (ix2 r k) : EReal) + ∑ n : Fin 2048, (v3 (ix3 a p n) : EReal) * (v6 (ix2 n k) : EReal) := by
  unfold k1_pay2
  refine (congrFun (shapeCast_self _ _) _).trans ?_
  refine congrArg (fun z : EReal => (v5 (ix2 r k) : EReal) + z) ?_
  refine (matmul_plain_zero dot_S1024x2048_S2048x512_S1024x512_1_0_0_1_n_n rfl rfl rfl rfl rfl rfl none _ _ r k).trans ?_
  refine Finset.sum_congr rfl fun n _ => ?_
  have e1 : shapeCast S1024x2048 v3 shapeCasts_S2x512x2048_S1024x2048 (ix2 r n) = v3 (ix3 a p n) :=
    shapeCast_apply v3 _ (ix2 r n) (ix3 a p n) (by
      rw [Shape.rowMajor_val_three, Shape.rowMajor_val_two]
      show (a.val * 512 + p.val) * 2048 + n.val = r.val * 2048 + n.val
      rw [hr]; ring)
  have e2 : shapeCast S2048x512 v6 shapeCasts_S2048x512_S2048x512 (ix2 n k) = v6 (ix2 n k) :=
    congrFun (shapeCast_self v6 _) _
  rw [e1, e2]

/-- Two accumulation steps from a zero accumulator leave at row 512 a + p the aggregate in the layer's own order. -/
theorem pay1_agg_apply (A0 A1 : Vec Ideal S2x512x2048 .bf16) (x0 x1 : Vec Ideal S2048x512 .bf16) (z : Vec Ideal S1024x512 .f32)
    (hz : ∀ i, (z i : EReal) = 0) (r : Fin 1024) (a : Fin 2) (p : Fin 512) (hr : r.val = 512 * a.val + p.val) (k : Fin 512) :
    (k1_pay2 (F := Ideal) A1 (k1_pay2 (F := Ideal) A0 z x0) x1) (ix2 r k)
      = (0 + ∑ n : Fin 2048, (A0 (ix3 a p n) : EReal) * (x0 (ix2 n k) : EReal))
        + ∑ n : Fin 2048, (A1 (ix3 a p n) : EReal) * (x1 (ix2 n k) : EReal) := by
  rw [pay1_acc_apply A1 _ x1 r a p hr k, pay1_acc_apply A0 z x0 r a p hr k, hz]

/-- The second type's projection, before the rectifier, at (p, q). -/
theorem pay1_proj1_apply (v16 : Vec Ideal S512x512 .bf16) (v33 : Vec Ideal S512x512 .f32) (v35 v38 : Vec Ideal S1x512x256 .bf16)
    (v42 : Vec Ideal S1x1x256 .f32) (p : Fin 512) (q : Fin 256) :
    (k1_pay7 (F := Ideal) v16 v33 v35 v38 v42) (ix2 p q)
      = proj (fun p k => (v33 (ix2 p k) : EReal)) (fun p k => (v16 (ix2 p k) : EReal)) (fun k q => (v35 (ix3 0 k q) : EReal))
          (fun k q => (v38 (ix3 0 k q) : EReal)) (fun q => (v42 (ix3 0 0 q) : EReal)) p q := by
  unfold k1_pay7 k1_pay5 proj
  refine (addf_apply _ _ _).trans ?_
  refine congrArg₂ (fun x y : EReal => x + y) ((addf_apply _ _ _).trans (congrArg₂ (fun x y : EReal => x + y) ?_ ?_)) ?_
  · refine (matmul_plain_zero dot_S512x512_S512x256_S512x256_1_0_0_1_n_n rfl rfl rfl rfl rfl rfl none _ _ p q).trans ?_
    refine Finset.sum_congr rfl fun k _ => ?_
    exact congrArg (fun z : EReal => (v33 (ix2 p k) : EReal) * z) (slab_apply (K := 512) v35 _ k q)
  · refine (matmul_plain_zero dot_S512x512_S512x256_S512x256_1_0_0_1_n_n rfl rfl rfl rfl rfl rfl none _ _ p q).trans ?_
    refine Finset.sum_congr rfl fun k _ => ?_
    exact congrArg₂ (fun y z : EReal => y * z) (congrFun (shapeCast_self v16 _) _) (slab_apply (K := 512) v38 _ k q)
  · exact bias_apply v42 p q

/-- The first type's projection, rectified, at (p, q). -/
theorem pay1_proj0_apply (v16 : Vec Ideal S512x512 .bf16) (v18 : Vec Ideal S512x512 .f32) (v20 v23 : Vec Ideal S1x512x256 .bf16)
    (v27 : Vec Ideal S1x1x256 .f32) (p : Fin 512) (q : Fin 256) :
    (k1_pay6 (F := Ideal) v16 v18 v20 v23 v27) (ix2 p q)
      = Spec.relu (proj (fun p k => (v18 (ix2 p k) : EReal)) (fun p k => (v16 (ix2 p k) : EReal)) (fun k q => (v20 (ix3 0 k q) : EReal))
          (fun k q => (v23 (ix3 0 k q) : EReal)) (fun q => (v27 (ix3 0 0 q) : EReal)) p q) := by
  unfold k1_pay6 k1_pay5 proj Spec.relu
  refine (maximumf_apply _ _ _).trans ?_
  refine congrArg₂ (fun x y : EReal => max x y) ?_ Ideal.ofBits_zero_f32
  refine (addf_apply _ _ _).trans ?_
  refine congrArg₂ (fun x y : EReal => x + y) ((addf_apply _ _ _).trans (congrArg₂ (fun x y : EReal => x + y) ?_ ?_)) ?_
  · refine (matmul_plain_zero dot_S512x512_S512x256_S512x256_1_0_0_1_n_n rfl rfl rfl rfl rfl rfl none _ _ p q).trans ?_
    refine Finset.sum_congr rfl fun k _ => ?_
    exact congrArg (fun z : EReal => (v18 (ix2 p k) : EReal) * z) (slab_apply (K := 512) v20 _ k q)
  · refine (matmul_plain_zero dot_S512x512_S512x256_S512x256_1_0_0_1_n_n rfl rfl rfl rfl rfl rfl none _ _ p q).trans ?_
    refine Finset.sum_congr rfl fun k _ => ?_
    exact congrArg₂ (fun y z : EReal => y * z) (congrFun (shapeCast_self v16 _) _) (slab_apply (K := 512) v23 _ k q)
  · exact bias_apply v27 p q

/-- The two types' 256 columns side by side (see the first region's). -/
theorem pay1_cat_apply (v32 v45 : FVec Ideal S512x256 .f32) (z : Ideal .f32) (p : Fin 512) (j : Fin 512) :
    (k1_pay3 (F := Ideal) v32 v45 z) (ix2 p j)
      = if (Spec.ty j).val = 0 then (v32 (ix2 p (Spec.col j)) : EReal) else max (v45 (ix2 p (Spec.col j)) : EReal) z := by
  unfold k1_pay3
  by_cases hj : j.val < 256
  · have ht : (Spec.ty j).val = 0 := by show j.val / 256 = 0; omega
    rw [if_pos ht]
    refine concatenate_pair_apply_left (1 : Fin 2) v32 _ concatenates_S512x256_S512x256_S512x512_d1 (ix2 p j) rfl
      (ix2 p (Spec.col j)) fun b => ?_
    match b with
    | ⟨0, _⟩ => rfl
    | ⟨1, _⟩ => show j.val % 256 = j.val; omega
  · have ht : ¬(Spec.ty j).val = 0 := by show ¬j.val / 256 = 0; omega
    rw [if_neg ht]
    refine (concatenate_pair_apply_right (t := S512x512) (s₁ := S512x256) (s₂ := S512x256) (1 : Fin 2) v32
      (maximumf v45 (broadcast S512x256 z)) concatenates_S512x256_S512x256_S512x512_d1 (ix2 p j) rfl rfl
      (ix2 p (Spec.col j)) (fun b hb => ?_) ?_).trans ?_
    · match b with
      | ⟨0, _⟩ => rfl
      | ⟨1, _⟩ => exact absurd rfl hb
    · show j.val % 256 + 256 = j.val
      have := j.isLt; omega
    · rfl

/-- The embedding block a point of the last source half writes, entry (p, j): the layer's formula over the staged pieces. -/
theorem pay1_out_apply (v16 : Vec Ideal S512x512 .bf16) (v18 v33 : Vec Ideal S512x512 .f32)
    (v20 v23 v35 v38 : Vec Ideal S1x512x256 .bf16) (v27 v42 : Vec Ideal S1x1x256 .f32)
    (agg : Fin 2 → Fin 512 → Fin 512 → EReal) (xr : Fin 512 → Fin 512 → EReal)
    (wl wr : Fin 2 → Fin 512 → Fin 256 → EReal) (b : Fin 2 → Fin 256 → EReal)
    (h18 : ∀ p k, (v18 (ix2 p k) : EReal) = agg 0 p k) (h33 : ∀ p k, (v33 (ix2 p k) : EReal) = agg 1 p k)
    (h16 : ∀ p k, (v16 (ix2 p k) : EReal) = xr p k)
    (h20 : ∀ k q, (v20 (ix3 0 k q) : EReal) = wl 0 k q) (h35 : ∀ k q, (v35 (ix3 0 k q) : EReal) = wl 1 k q)
    (h23 : ∀ k q, (v23 (ix3 0 k q) : EReal) = wr 0 k q) (h38 : ∀ k q, (v38 (ix3 0 k q) : EReal) = wr 1 k q)
    (h27 : ∀ q, (v27 (ix3 0 0 q) : EReal) = b 0 q) (h42 : ∀ q, (v42 (ix3 0 0 q) : EReal) = b 1 q)
    (p : Fin 512) (j : Fin 512) :
    (k1_pay3 (F := Ideal) (k1_pay6 v16 v18 v20 v23 v27) (k1_pay7 v16 v33 v35 v38 v42) (Scalar.ofBits .f32 0x00000000#32)) (ix2 p j)
      = Spec.relu (proj (agg (Spec.ty j)) xr (wl (Spec.ty j)) (wr (Spec.ty j)) (b (Spec.ty j)) p (Spec.col j)) := by
  refine (pay1_cat_apply _ _ _ p j).trans ?_
  by_cases ht : (Spec.ty j).val = 0
  · have e : Spec.ty j = 0 := Fin.ext ht
    rw [if_pos ht, pay1_proj0_apply, e]
    refine congrArg Spec.relu ?_
    unfold proj
    simp only [h18, h16, h20, h23, h27]
  · have e : Spec.ty j = 1 := Fin.ext (by have := (Spec.ty j).isLt; omega)
    rw [if_neg ht, pay1_proj1_apply, e]
    show max _ (Ideal.ofBits .f32 0x00000000#32) = Spec.relu _
    rw [Ideal.ofBits_zero_f32]
    refine congrArg Spec.relu ?_
    unfold proj
    simp only [h33, h16, h35, h38, h42]

/-- A [1, 128] bias broadcast down 512 rows reads (0, o) at (p, o). -/
theorem bias1_apply (b : S1x128.Idx → EReal) (p : Fin 512) (o : Fin 128) :
    broadcastTo S512x128 (shapeCast S1x128 b shapeCasts_S1x128_S1x128) broadcasts_S1x128_S512x128 (ix2 p o) = b (ix2 0 o) := by
  refine (broadcastTo_apply _ broadcasts_S1x128_S512x128 (ix2 p o) (ix2 0 o) fun a => ?_).trans ?_
  · match a with
    | ⟨0, _⟩ => rfl
    | ⟨1, _⟩ => rfl
  · exact congrFun (shapeCast_self b _) _

/-- The perceptron head on an embedding block E, entry (p, o): the rectified hidden layer times the second weight plus
    the second bias. -/
theorem pay1_head_apply (v32 v45 : FVec Ideal S512x256 .f32) (z : Ideal .f32) (v51 : Vec Ideal S512x128 .bf16)
    (v54 : Vec Ideal S1x128 .f32) (v61 : Vec Ideal S128x128 .bf16) (v64 : Vec Ideal S1x128 .f32) (p : Fin 512) (o : Fin 128) :
    (k1_pay4 (F := Ideal) v32 v45 z v51 v54 v61 v64) (ix2 p o)
      = (∑ h : Fin 128, Spec.relu ((∑ k : Fin 512, ((k1_pay3 (F := Ideal) v32 v45 z) (ix2 p k) : EReal) * (v51 (ix2 k h) : EReal))
            + (v54 (ix2 0 h) : EReal)) * (v61 (ix2 h o) : EReal)) + (v64 (ix2 0 o) : EReal) := by
  unfold k1_pay4
  refine (addf_apply _ _ _).trans ?_
  refine congrArg₂ (fun x y : EReal => x + y) ?_ (bias1_apply v64 p o)
  refine (matmul_plain_zero dot_S512x128_S128x128_S512x128_1_0_0_1_n_n rfl rfl rfl rfl rfl rfl none _ _ p o).trans ?_
  refine Finset.sum_congr rfl fun h _ => ?_
  refine congrArg₂ (fun y z : EReal => y * z) ?_ (congrFun (shapeCast_self v61 _) _)
  refine (truncf_apply (φ := .f32) (ψ := .bf16) _ bitsLt_bf16_f32 (ix2 p h)).trans ?_
  refine (maximumf_apply _ _ _).trans ?_
  unfold Spec.relu
  refine congrArg₂ (fun x y : EReal => max x y) ?_ Ideal.ofBits_zero_f32
  refine (addf_apply _ _ _).trans ?_
  refine congrArg₂ (fun x y : EReal => x + y) ?_ (bias1_apply v54 p h)
  refine (matmul_plain_zero dot_S512x512_S512x128_S512x128_1_0_0_1_n_n rfl rfl rfl rfl rfl rfl none _ _ p h).trans ?_
  refine Finset.sum_congr rfl fun k _ => ?_
  exact congrArg₂ (fun y z : EReal => y * z) (truncf_apply (φ := .f32) (ψ := .bf16) _ bitsLt_bf16_f32 (ix2 p k))
    (congrFun (shapeCast_self v51 _) _)

end Cert.ReferenceIdeal.HandVal
end
-- ==== Proof.RVal1.lean ====
/-
  The value of the reference's second region over the extended reals, for any contents V of the core's buffers at the
  region's entry: the same layer at width 512 over the first layer's result, and the perceptron head of it. As in the
  first region each staged block is the array read at (block position × block size + offset), the accumulator after a
  point of the last source half is the aggregate in the layer's own order, the two blocks that point stores are the layer
  and its head at the rows of its tile, and every row of either result lies in the block of exactly such a point.
-/
import proofs.«130397_g2000105430876207_pallasbulk_1247_2_alg».proof.Proof.RBody1
import proofs.«130397_g2000105430876207_pallasbulk_1247_2_alg».proof.Proof.RPay1
import proofs.«130397_g2000105430876207_pallasbulk_1247_2_alg».proof.Proof.RVal0
import Idealize.ShloMosaic.Lib.Pipeline.FrameBody
import Idealize.ShloMosaic.Lib.Pipeline.Value

noncomputable section
open scoped BigOperators

namespace Cert.ReferenceIdeal.HandVal

open Idealize.ShloMosaic Idealize.ShloMosaic.TcCoe Idealize.ShloMosaic.ValueIdx Cert.ReferenceIdeal Cert.ReferenceIdeal.Gen

/-! ## Where each window's block sits -/

/-- Where each window's block sits at point t = 2 i + k (row tile i, source half k), decided over the sixteen points. -/
theorem idx_facts1 : ∀ t : Fin cfg1.N,
    win1_0.index t (0 : Fin 3) = 0 ∧ win1_0.index t (1 : Fin 3) = t.val / 2 ∧ win1_0.index t (2 : Fin 3) = t.val % 2
    ∧ win1_1.index t (0 : Fin 2) = t.val % 2 ∧ win1_1.index t (1 : Fin 2) = 0
    ∧ win1_2.index t (0 : Fin 2) = t.val / 2 ∧ win1_2.index t (1 : Fin 2) = 0
    ∧ win1_3.index t (0 : Fin 3) = 0 ∧ win1_3.index t (1 : Fin 3) = 0 ∧ win1_3.index t (2 : Fin 3) = 0
    ∧ win1_4.index t (0 : Fin 3) = 0 ∧ win1_4.index t (1 : Fin 3) = 0 ∧ win1_4.index t (2 : Fin 3) = 0
    ∧ win1_5.index t (0 : Fin 3) = 0 ∧ win1_5.index t (1 : Fin 3) = 0 ∧ win1_5.index t (2 : Fin 3) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val / 2 ∧ win1_10.index t (1 : Fin 2) = 0
    ∧ win1_11.index t (0 : Fin 2) = t.val / 2 ∧ win1_11.index t (1 : Fin 2) = 0 :=
  (by decide +kernel : ∀ t : Fin grid1.N, _)

/-- Row p of point t's row tile, as a row of the whole array. -/
def row1 (t : Fin cfg1.N) (p : Fin 512) : Fin 4096 :=
  ⟨512 * (t.val / 2) + p.val, by have h := t.isLt; have hN : cfg1.N = 16 := N_1; have := p.isLt; omega⟩

theorem row1_val (t : Fin cfg1.N) (p : Fin 512) : (row1 t p).val = 512 * (t.val / 2) + p.val := rfl

variable (V : (c : Dev nD) → (b : Ref sig .tc) → Buf (Elt Ideal) ((c : Thread nD τ).loc b))

/-! ## The staged blocks, read at an entry -/

/-- The adjacency block at point t reads the adjacency at (type, row of the tile, source of the half). -/
theorem blk1_A_apply (c : Dev nD) (t : Fin cfg1.N) (a : Fin 2) (p : Fin 512) (n : Fin 2048) (i m : Fin 4096)
    (hi : i.val = 512 * (t.val / 2) + p.val) (hm : m.val = 2048 * (t.val % 2) + n.val) :
    (Hand.iblk1 V c 0 t (ix3 a p n) : EReal) = (V c main_arg11 : S2x4096x4096.Idx → EReal) (ix3 a i m) := by
  obtain ⟨e0, e1, e2, -, -, -, -, -, -, -, -, -, -, -, -, -, -, -, -, -, -, -, -, -, -, -, -, -⟩ := idx_facts1 t
  show (V c main_arg11 : S2x4096x4096.Idx → EReal) (((cfg1.win 0).blk t).view.emb (ix3 a p n)) = _
  refine congrArg (V c main_arg11 : S2x4096x4096.Idx → EReal) (funext fun ax => Fin.ext ?_)
  match ax with
  | ⟨0, _⟩ => show win1_0.index t (0 : Fin 3) * 2 + 1 * a.val = a.val; rw [e0]; omega
  | ⟨1, _⟩ => show win1_0.index t (1 : Fin 3) * 512 + 1 * p.val = i.val; rw [e1, hi]; omega
  | ⟨2, _⟩ => show win1_0.index t (2 : Fin 3) * 2048 + 1 * n.val = m.val; rw [e2, hm]; omega

/-- The source rows' block at point t reads the first layer's result at (source of the half, column). -/
theorem blk1_src_apply (c : Dev nD) (t : Fin cfg1.N) (n : Fin 2048) (k : Fin 512) (m : Fin 4096)
    (hm : m.val = 2048 * (t.val % 2) + n.val) :
    (Hand.iblk1 V c 1 t (ix2 n k) : EReal) = (V c main_v5 : S4096x512.Idx → EReal) (ix2 m k) := by
  obtain ⟨-, -, -, e0, e1, -, -, -, -, -, -, -, -, -, -, -, -, -, -, -, -, -, -, -, -, -, -, -⟩ := idx_facts1 t
  show (V c main_v5 : S4096x512.Idx → EReal) (((cfg1.win 1).blk t).view.emb (ix2 n k)) = _
  refine congrArg (V c main_v5 : S4096x512.Idx → EReal) (funext fun ax => Fin.ext ?_)
  match ax with
  | ⟨0, _⟩ => show win1_1.index t (0 : Fin 2) * 2048 + 1 * n.val = m.val; rw [e0, hm]; omega
  | ⟨1, _⟩ => show win1_1.index t (1 : Fin 2) * 512 + 1 * k.val = k.val; rw [e1]; omega

/-- The own rows' block at point t reads the first layer's result at (row of the tile, column). -/
theorem blk1_own_apply (c : Dev nD) (t : Fin cfg1.N) (p : Fin 512) (k : Fin 512) (i : Fin 4096)
    (hi : i.val = 512 * (t.val / 2) + p.val) :
    (Hand.iblk1 V c 2 t (ix2 p k) : EReal) = (V c main_v5 : S4096x512.Idx → EReal) (ix2 i k) := by
  obtain ⟨-, -, -, -, -, e0, e1, -, -, -, -, -, -, -, -, -, -, -, -, -, -, -, -, -, -, -, -, -⟩ := idx_facts1 t
  show (V c main_v5 : S4096x512.Idx → EReal) (((cfg1.win 2).blk t).view.emb (ix2 p k)) = _
  refine congrArg (V c main_v5 : S4096x512.Idx → EReal) (funext fun ax => Fin.ext ?_)
  match ax with
  | ⟨0, _⟩ => show win1_2.index t (0 : Fin 2) * 512 + 1 * p.val = i.val; rw [e0, hi]; omega
  | ⟨1, _⟩ => show win1_2.index t (1 : Fin 2) * 512 + 1 * k.val = k.val; rw [e1]; omega

/-- The left weight's one block is the whole array. -/
theorem blk1_wl_apply (c : Dev nD) (t : Fin cfg1.N) (a : Fin 2) (k : Fin 512) (q : Fin 256) :
    (Hand.iblk1 V c 3 t (ix3 a k q) : EReal) = (V c main_v6 : S2x512x256.Idx → EReal) (ix3 a k q) := by
  obtain ⟨-, -, -, -, -, -, -, e0, e1, e2, -, -, -, -, -, -, -, -, -, -, -, -, -, -, -, -, -, -⟩ := idx_facts1 t
  show (V c main_v6 : S2x512x256.Idx → EReal) (((cfg1.win 3).blk t).view.emb (ix3 a k q)) = _
  refine congrArg (V c main_v6 : S2x512x256.Idx → EReal) (funext fun ax => Fin.ext ?_)
  match ax with
  | ⟨0, _⟩ => show win1_3.index t (0 : Fin 3) * 2 + 1 * a.val = a.val; rw [e0]; omega
  | ⟨1, _⟩ => show win1_3.index t (1 : Fin 3) * 512 + 1 * k.val = k.val; rw [e1]; omega
  | ⟨2, _⟩ => show win1_3.index t (2 : Fin 3) * 256 + 1 * q.val = q.val; rw [e2]; omega

/-- The right weight's one block is the whole array. -/
theorem blk1_wr_apply (c : Dev nD) (t : Fin cfg1.N) (a : Fin 2) (k : Fin 512) (q : Fin 256) :
    (Hand.iblk1 V c 4 t (ix3 a k q) : EReal) = (V c main_v7 : S2x512x256.Idx → EReal) (ix3 a k q) := by
  obtain ⟨-, -, -, -, -, -, -, -, -, -, e0, e1, e2, -, -, -, -, -, -, -, -, -, -, -, -, -, -, -⟩ := idx_facts1 t
  show (V c main_v7 : S2x512x256.Idx → EReal) (((cfg1.win 4).blk t).view.emb (ix3 a k q)) = _
  refine congrArg (V c main_v7 : S2x512x256.Idx → EReal) (funext fun ax => Fin.ext ?_)
  match ax with
  | ⟨0, _⟩ => show win1_4.index t (0 : Fin 3) * 2 + 1 * a.val = a.val; rw [e0]; omega
  | ⟨1, _⟩ => show win1_4.index t (1 : Fin 3) * 512 + 1 * k.val = k.val; rw [e1]; omega
  | ⟨2, _⟩ => show win1_4.index t (2 : Fin 3) * 256 + 1 * q.val = q.val; rw [e2]; omega

/-- The bias's one block is the whole array. -/
theorem blk1_b_apply (c : Dev nD) (t : Fin cfg1.N) (a : Fin 2) (q : Fin 256) :
    (Hand.iblk1 V c 5 t (ix3 a 0 q) : EReal) = (V c main_arg6 : S2x1x256.Idx → EReal) (ix3 a 0 q) := by
  obtain ⟨-, -, -, -, -, -, -, -, -, -, -, -, -, e0, e1, e2, -, -, -, -, -, -, -, -, -, -, -, -⟩ := idx_facts1 t
  show (V c main_arg6 : S2x1x256.Idx → EReal) (((cfg1.win 5).blk t).view.emb (ix3 a 0 q)) = _
  refine congrArg (V c main_arg6 : S2x1x256.Idx → EReal) (funext fun ax => Fin.ext ?_)
  match ax with
  | ⟨0, _⟩ => show win1_5.index t (0 : Fin 3) * 2 + 1 * a.val = a.val; rw [e0]; omega
  | ⟨1, _⟩ => show win1_5.index t (1 : Fin 3) * 1 + 1 * 0 = 0; rw [e1]
  | ⟨2, _⟩ => show win1_5.index t (2 : Fin 3) * 256 + 1 * q.val = q.val; rw [e2]; omega

/-- The head's first weight: one block, the whole array. -/
theorem blk1_w1_apply (c : Dev nD) (t : Fin cfg1.N) (k : Fin 512) (h : Fin 128) :
    (Hand.iblk1 V c 6 t (ix2 k h) : EReal) = (V c main_v11 : S512x128.Idx → EReal) (ix2 k h) := by
  obtain ⟨-, -, -, -, -, -, -, -, -, -, -, -, -, -, -, -, e0, e1, -, -, -, -, -, -, -, -, -, -⟩ := idx_facts1 t
  show (V c main_v11 : S512x128.Idx → EReal) (((cfg1.win 6).blk t).view.emb (ix2 k h)) = _
  refine congrArg (V c main_v11 : S512x128.Idx → EReal) (funext fun ax => Fin.ext ?_)
  match ax with
  | ⟨0, _⟩ => show win1_6.index t (0 : Fin 2) * 512 + 1 * k.val = k.val; rw [e0]; omega
  | ⟨1, _⟩ => show win1_6.index t (1 : Fin 2) * 128 + 1 * h.val = h.val; rw [e1]; omega

/-- The head's first bias: one block, the whole array. -/
theorem blk1_b1_apply (c : Dev nD) (t : Fin cfg1.N) (h : Fin 128) :
    (Hand.iblk1 V c 7 t (ix2 0 h) : EReal) = (V c main_v14 : S1x128.Idx → EReal) (ix2 0 h) := by
  obtain ⟨-, -, -, -, -, -, -, -, -, -, -, -, -, -, -, -, -, -, e0, e1, -, -, -, -, -, -, -, -⟩ := idx_facts1 t
  show (V c main_v14 : S1x128.Idx → EReal) (((cfg1.win 7).blk t).view.emb (ix2 0 h)) = _
  refine congrArg (V c main_v14 : S1x128.Idx → EReal) (funext fun ax => Fin.ext ?_)
  match ax with
  | ⟨0, _⟩ => show win1_7.index t (0 : Fin 2) * 1 + 1 * 0 = 0; rw [e0]
  | ⟨1, _⟩ => show win1_7.index t (1 : Fin 2) * 128 + 1 * h.val = h.val; rw [e1]; omega

/-- The head's second weight: one block, the whole array. -/
theorem blk1_w2_apply (c : Dev nD) (t : Fin cfg1.N) (h : Fin 128) (o : Fin 128) :
    (Hand.iblk1 V c 8 t (ix2 h o) : EReal) = (V c main_v20 : S128x128.Idx → EReal) (ix2 h o) := by
  obtain ⟨-, -, -, -, -, -, -, -, -, -, -, -, -, -, -, -, -, -, -, -, e0, e1, -, -, -, -, -, -⟩ := idx_facts1 t
  show (V c main_v20 : S128x128.Idx → EReal) (((cfg1.win 8).blk t).view.emb (ix2 h o)) = _
  refine congrArg (V c main_v20 : S128x128.Idx → EReal) (funext fun ax => Fin.ext ?_)
  match ax with
  | ⟨0, _⟩ => show win1_8.index t (0 : Fin 2) * 128 + 1 * h.val = h.val; rw [e0]; omega
  | ⟨1, _⟩ => show win1_8.index t (1 : Fin 2) * 128 + 1 * o.val = o.val; rw [e1]; omega

/-- The head's second bias: one block, the whole array. -/
theorem blk1_b2_apply (c : Dev nD) (t : Fin cfg1.N) (o : Fin 128) :
    (Hand.iblk1 V c 9 t (ix2 0 o) : EReal) = (V c main_v23 : S1x128.Idx → EReal) (ix2 0 o) := by
  obtain ⟨-, -, -, -, -, -, -, -, -, -, -, -, -, -, -, -, -, -, -, -, -, -, e0, e1, -, -, -, -⟩ := idx_facts1 t
  show (V c main_v23 : S1x128.Idx → EReal) (((cfg1.win 9).blk t).view.emb (ix2 0 o)) = _
  refine congrArg (V c main_v23 : S1x128.Idx → EReal) (funext fun ax => Fin.ext ?_)
  match ax with
  | ⟨0, _⟩ => show win1_9.index t (0 : Fin 2) * 1 + 1 * 0 = 0; rw [e0]
  | ⟨1, _⟩ => show win1_9.index t (1 : Fin 2) * 128 + 1 * o.val = o.val; rw [e1]; omega

/-! ## The body's partial loads, read at an entry -/

/-- Rows 0 … 511 of the accumulator. -/
theorem ld_lo1 (s : Vec Ideal S1024x512 .f32) (p : Fin 512) (k : Fin 512) (r : Fin 1024) (hr : r.val = p.val) :
    (View.ld s Hand.rLo1 (ix2 p k) : EReal) = (s (ix2 r k) : EReal) := by
  refine congrArg (fun i => (s i : EReal)) (funext fun ax => Fin.ext ?_)
  match ax with
  | ⟨0, _⟩ => show 0 + 1 * p.val = r.val; omega
  | ⟨1, _⟩ => show 0 + 1 * k.val = k.val; omega

/-- Rows 512 … 1023 of the accumulator. -/
theorem ld_hi1 (s : Vec Ideal S1024x512 .f32) (p : Fin 512) (k : Fin 512) (r : Fin 1024) (hr : r.val = 512 + p.val) :
    (View.ld s Hand.rHi1 (ix2 p k) : EReal) = (s (ix2 r k) : EReal) := by
  refine congrArg (fun i => (s i : EReal)) (funext fun ax => Fin.ext ?_)
  match ax with
  | ⟨0, _⟩ => show 512 + 1 * p.val = r.val; omega
  | ⟨1, _⟩ => show 0 + 1 * k.val = k.val; omega

/-- Type 0's slab of a per-type weight, -/
theorem ld_w0' (w : Vec Ideal S2x512x256 .bf16) (k : Fin 512) (q : Fin 256) :
    (View.ld w Hand.rW1_0 (ix3 0 k q) : EReal) = (w (ix3 0 k q) : EReal) := by
  refine congrArg (fun i => (w i : EReal)) (funext fun ax => Fin.ext ?_)
  match ax with
  | ⟨0, _⟩ => rfl
  | ⟨1, _⟩ => show 0 + 1 * k.val = k.val; omega
  | ⟨2, _⟩ => show 0 + 1 * q.val = q.val; omega

/-- and type 1's. -/
theorem ld_w1' (w : Vec Ideal S2x512x256 .bf16) (k : Fin 512) (q : Fin 256) :
    (View.ld w Hand.rW1_1 (ix3 0 k q) : EReal) = (w (ix3 1 k q) : EReal) := by
  refine congrArg (fun i => (w i : EReal)) (funext fun ax => Fin.ext ?_)
  match ax with
  | ⟨0, _⟩ => rfl
  | ⟨1, _⟩ => show 0 + 1 * k.val = k.val; omega
  | ⟨2, _⟩ => show 0 + 1 * q.val = q.val; omega

/-! ## The arrays the region reads, by coordinates -/

/-- The adjacency, the first layer's result and the second layer's weights and bias as the region finds them. -/
abbrev adj1 (c : Dev nD) : Fin 2 → Fin 4096 → Fin 4096 → EReal := Spec.cur3 (V c main_arg11 : S2x4096x4096.Idx → EReal)
abbrev feat1 (c : Dev nD) : Fin 4096 → Fin 512 → EReal := Spec.cur2 (V c main_v5 : S4096x512.Idx → EReal)
abbrev wl1 (c : Dev nD) : Fin 2 → Fin 512 → Fin 256 → EReal := Spec.cur3 (V c main_v6 : S2x512x256.Idx → EReal)
abbrev wr1 (c : Dev nD) : Fin 2 → Fin 512 → Fin 256 → EReal := Spec.cur3 (V c main_v7 : S2x512x256.Idx → EReal)
abbrev b1 (c : Dev nD) : Fin 2 → Fin 256 → EReal := Spec.bias3 (V c main_arg6 : S2x1x256.Idx → EReal)
/-- The second layer as a function of (row, column). -/
abbrev emb1 (c : Dev nD) : Fin 4096 → Fin 512 → EReal := Spec.layerR (adj1 V c) (feat1 V c) (wl1 V c) (wr1 V c) (b1 V c)

/-! ## One point of the last source half -/

/-- The accumulator after a point of the last half, at row 512 a + p: type a's aggregate of row p of the tile. -/
theorem sc1_apply (c : Dev nD) (t : Fin cfg1.N) (ht : t.val % 2 = 1) (a : Fin 2) (p : Fin 512) (k : Fin 512) (r : Fin 1024)
    (hr : r.val = 512 * a.val + p.val) :
    (Hand.scAt1 V c t (ix2 r k) : EReal) = Spec.aggR (adj1 V c) (feat1 V c) a (row1 t p) k := by
  unfold Hand.scAt1
  rw [if_neg (by omega)]
  unfold Hand.acc1
  refine (pay1_agg_apply (Hand.iblk1 V c 0 (Hand.prev1 t)) (Hand.iblk1 V c 0 t) (Hand.iblk1 V c 1 (Hand.prev1 t))
    (Hand.iblk1 V c 1 t) (k1_pay1 (F := Ideal)) pay1_init_apply r a p hr k).trans ?_
  unfold Spec.aggR
  have hp : (Hand.prev1 t).val = t.val - 1 := rfl
  refine congrArg₂ (fun x y : EReal => x + y) (congrArg (fun x : EReal => 0 + x) (Finset.sum_congr rfl fun n _ => ?_))
    (Finset.sum_congr rfl fun n _ => ?_)
  · refine congrArg₂ (fun x y : EReal => x * y)
      (blk1_A_apply V c (Hand.prev1 t) a p n (row1 t p) (Spec.lo n) (by rw [row1_val, hp]; omega) (by rw [hp]; show n.val = _; omega))
      (blk1_src_apply V c (Hand.prev1 t) n k (Spec.lo n) (by rw [hp]; show n.val = _; omega))
  · refine congrArg₂ (fun x y : EReal => x * y)
      (blk1_A_apply V c t a p n (row1 t p) (Spec.hi n) (row1_val t p) (by show 2048 + n.val = _; omega))
      (blk1_src_apply V c t n k (Spec.hi n) (by show 2048 + n.val = _; omega))

/-- The embedding block a point of the last half leaves, entry (p, j): the second layer at row p of the tile. -/
theorem out1_point (c : Dev nD) (t : Fin cfg1.N) (ht : t.val % 2 = 1) (p j : Fin 512) :
    (Hand.outAt1_10 V c t (ix2 p j) : EReal) = emb1 V c (row1 t p) j := by
  unfold Hand.outAt1_10 Hand.out1_10 Hand.proj1_lo Hand.proj1_hi
  refine (pay1_out_apply (Hand.iblk1 V c 2 t) (View.ld (Hand.scAt1 V c t) Hand.rLo1) (View.ld (Hand.scAt1 V c t) Hand.rHi1)
    (View.ld (Hand.iblk1 V c 3 t) Hand.rW1_0) (View.ld (Hand.iblk1 V c 4 t) Hand.rW1_0)
    (View.ld (Hand.iblk1 V c 3 t) Hand.rW1_1) (View.ld (Hand.iblk1 V c 4 t) Hand.rW1_1)
    (View.ld (Hand.iblk1 V c 5 t) Hand.rB_0) (View.ld (Hand.iblk1 V c 5 t) Hand.rB_1)
    (fun a p k => Spec.aggR (adj1 V c) (feat1 V c) a (row1 t p) k) (fun p k => feat1 V c (row1 t p) k)
    (wl1 V c) (wr1 V c) (b1 V c)
    (fun p k => (ld_lo1 _ p k ⟨p.val, by have := p.isLt; omega⟩ rfl).trans
      (sc1_apply V c t ht 0 p k _ (by show p.val = 512 * 0 + p.val; omega)))
    (fun p k => (ld_hi1 _ p k ⟨512 + p.val, by have := p.isLt; omega⟩ rfl).trans
      (sc1_apply V c t ht 1 p k _ (by show 512 + p.val = 512 * 1 + p.val; omega)))
    (fun p k => blk1_own_apply V c t p k (row1 t p) (row1_val t p))
    (fun k q => (ld_w0' _ k q).trans (blk1_wl_apply V c t 0 k q))
    (fun k q => (ld_w1' _ k q).trans (blk1_wl_apply V c t 1 k q))
    (fun k q => (ld_w0' _ k q).trans (blk1_wr_apply V c t 0 k q))
    (fun k q => (ld_w1' _ k q).trans (blk1_wr_apply V c t 1 k q))
    (fun q => (ld_b0 _ q).trans (blk1_b_apply V c t 0 q))
    (fun q => (ld_b1 _ q).trans (blk1_b_apply V c t 1 q))
    p j).trans ?_
  rfl

/-- The prediction block a point of the last half leaves, entry (p, o): the perceptron head at row p of the tile. -/
theorem pred1_point (c : Dev nD) (t : Fin cfg1.N) (ht : t.val % 2 = 1) (p : Fin 512) (o : Fin 128) :
    (Hand.outAt1_11 V c t (ix2 p o) : EReal)
      = Spec.head (emb1 V c) (Spec.cur2 (V c main_v11 : S512x128.Idx → EReal)) (Spec.row (V c main_v14 : S1x128.Idx → EReal))
          (Spec.cur2 (V c main_v20 : S128x128.Idx → EReal)) (Spec.row (V c main_v23 : S1x128.Idx → EReal)) (row1 t p) o := by
  unfold Hand.outAt1_11 Hand.out1_11
  refine (pay1_head_apply _ _ _ (Hand.iblk1 V c 6 t) (Hand.iblk1 V c 7 t) (Hand.iblk1 V c 8 t) (Hand.iblk1 V c 9 t) p o).trans ?_
  unfold Spec.head Spec.hid
  refine congrArg₂ (fun x y : EReal => x + y) (Finset.sum_congr rfl fun h _ => ?_) (blk1_b2_apply V c t o)
  refine congrArg₂ (fun x y : EReal => x * y) (congrArg Spec.relu ?_) (blk1_w2_apply V c t h o)
  refine congrArg₂ (fun x y : EReal => x + y) (Finset.sum_congr rfl fun k _ => ?_) (blk1_b1_apply V c t h)
  exact congrArg₂ (fun x y : EReal => x * y) (out1_point V c t ht p k) (blk1_w1_apply V c t k h)

/-! ## From the blocks to the arrays -/

/-- The second layer as one array, -/
def G1 (c : Dev nD) : S4096x512.Idx → EReal := fun idx => emb1 V c (idx 0) (idx 1)

/-- and its perceptron head as one array. -/
def P1 (c : Dev nD) : S4096x128.Idx → EReal :=
  fun idx => Spec.head (emb1 V c) (Spec.cur2 (V c main_v11 : S512x128.Idx → EReal)) (Spec.row (V c main_v14 : S1x128.Idx → EReal))
    (Spec.cur2 (V c main_v20 : S128x128.Idx → EReal)) (Spec.row (V c main_v23 : S1x128.Idx → EReal)) (idx 0) (idx 1)

/-- What a point of the last half writes back of the embedding is its block of the layer's array. -/
theorem flushed1_10_eq (c : Dev nD) (t : Fin cfg1.N) (hf : (cfg1.win 10).flush t = true) :
    (Hand.dat1 V c).flushed 10 t = ((cfg1.win 10).blk t).view.read (Elt Ideal) (G1 V c) := by
  have ht : t.val % 2 = 1 := (flush1_10 t).mp hf
  obtain ⟨-, -, -, -, -, -, -, -, -, -, -, -, -, -, -, -, -, -, -, -, -, -, -, -, e0, e1, -, -⟩ := idx_facts1 t
  show (cfg1.win 10).cut (grid1.coords t) ((Hand.dat1 V c).after 10 t) = _
  rw [Hand.after1_10]
  funext y
  obtain ⟨p, j, rfl⟩ : ∃ (p j : Fin 512), y = ix2 p j := ⟨y 0, y 1, eq_ix2 y⟩
  refine (out1_point V c t ht p j).trans ?_
  show _ = G1 V c (((cfg1.win 10).blk t).view.emb (ix2 p j))
  unfold G1
  refine congrArg₂ (emb1 V c) (Fin.ext ?_) (Fin.ext ?_)
  · show 512 * (t.val / 2) + p.val = win1_10.index t (0 : Fin 2) * 512 + 1 * p.val
    rw [e0]; omega
  · show j.val = win1_10.index t (1 : Fin 2) * 512 + 1 * j.val
    rw [e1]; omega

/-- What a point of the last half writes back of the prediction is its block of the head's array. -/
theorem flushed1_11_eq (c : Dev nD) (t : Fin cfg1.N) (hf : (cfg1.win 11).flush t = true) :
    (Hand.dat1 V c).flushed 11 t = ((cfg1.win 11).blk t).view.read (Elt Ideal) (P1 V c) := by
  have ht : t.val % 2 = 1 := (flush1_11 t).mp hf
  obtain ⟨-, -, -, -, -, -, -, -, -, -, -, -, -, -, -, -, -, -, -, -, -, -, -, -, -, -, e0, e1⟩ := idx_facts1 t
  show (cfg1.win 11).cut (grid1.coords t) ((Hand.dat1 V c).after 11 t) = _
  rw [Hand.after1_11]
  funext y
  obtain ⟨p, o, rfl⟩ : ∃ (p : Fin 512) (o : Fin 128), y = ix2 p o := ⟨y 0, y 1, eq_ix2 y⟩
  refine (pred1_point V c t ht p o).trans ?_
  show _ = P1 V c (((cfg1.win 11).blk t).view.emb (ix2 p o))
  unfold P1
  refine congrArg₂ (Spec.head (emb1 V c) (Spec.cur2 (V c main_v11 : S512x128.Idx → EReal)) (Spec.row (V c main_v14 : S1x128.Idx → EReal))
    (Spec.cur2 (V c main_v20 : S128x128.Idx → EReal)) (Spec.row (V c main_v23 : S1x128.Idx → EReal))) (Fin.ext ?_) (Fin.ext ?_)
  · show 512 * (t.val / 2) + p.val = win1_11.index t (0 : Fin 2) * 512 + 1 * p.val
    rw [e0]; omega
  · show o.val = win1_11.index t (1 : Fin 2) * 128 + 1 * o.val
    rw [e1]; omega

/-- An entry of the embedding is in point t's block iff each coordinate is in the block's range on its axis. -/
theorem mem_blk1_10 (t : Fin cfg1.N) (i : S4096x512.Idx) :
    i ∈ ((cfg1.win 10).blk t).view.set ↔ ∀ a : Fin 2, win1_10.index t a * S512x512.size a ≤ (i a).val
      ∧ (i a).val < win1_10.index t a * S512x512.size a + S512x512.size a := by
  show i ∈ ((View.whole main_v24_0).slice (win1_10.rect t)).set ↔ _
  rw [View.set_slice_whole, Rect.mem_set_unit]
  exact Iff.rfl

/-- The same for the prediction. -/
theorem mem_blk1_11 (t : Fin cfg1.N) (i : S4096x128.Idx) :
    i ∈ ((cfg1.win 11).blk t).view.set ↔ ∀ a : Fin 2, win1_11.index t a * S512x128.size a ≤ (i a).val
      ∧ (i a).val < win1_11.index t a * S512x128.size a + S512x128.size a := by
  show i ∈ ((View.whole main_v24_1).slice (win1_11.rect t)).set ↔ _
  rw [View.set_slice_whole, Rect.mem_set_unit]
  exact Iff.rfl

/-- Row r of the embedding is written back by the last-half point of its row tile, point 2 (r / 512) + 1. -/
theorem cover1_10 (i : S4096x512.Idx) : ∃ t : Fin cfg1.N, (cfg1.win 10).flush t = true ∧ i ∈ ((cfg1.win 10).blk t).view.set := by
  have hi0 : (i 0).val < 4096 := (i 0).isLt
  have hi1 : (i 1).val < 512 := (i 1).isLt
  have hN : cfg1.N = 16 := N_1
  let t : Fin cfg1.N := ⟨2 * ((i 0).val / 512) + 1, by rw [hN]; omega⟩
  have htv : t.val = 2 * ((i 0).val / 512) + 1 := rfl
  refine ⟨t, (flush1_10 t).mpr (by rw [htv]; omega), ?_⟩
  rw [mem_blk1_10]
  obtain ⟨-, -, -, -, -, -, -, -, -, -, -, -, -, -, -, -, -, -, -, -, -, -, -, -, e0, e1, -, -⟩ := idx_facts1 t
  intro a
  match a with
  | ⟨0, _⟩ =>
    show win1_10.index t (0 : Fin 2) * 512 ≤ (i 0).val ∧ (i 0).val < win1_10.index t (0 : Fin 2) * 512 + 512
    rw [e0, htv]; omega
  | ⟨1, _⟩ =>
    show win1_10.index t (1 : Fin 2) * 512 ≤ (i 1).val ∧ (i 1).val < win1_10.index t (1 : Fin 2) * 512 + 512
    rw [e1]; omega

/-- The same for the prediction. -/
theorem cover1_11 (i : S4096x128.Idx) : ∃ t : Fin cfg1.N, (cfg1.win 11).flush t = true ∧ i ∈ ((cfg1.win 11).blk t).view.set := by
  have hi0 : (i 0).val < 4096 := (i 0).isLt
  have hi1 : (i 1).val < 128 := (i 1).isLt
  have hN : cfg1.N = 16 := N_1
  let t : Fin cfg1.N := ⟨2 * ((i 0).val / 512) + 1, by rw [hN]; omega⟩
  have htv : t.val = 2 * ((i 0).val / 512) + 1 := rfl
  refine ⟨t, (flush1_11 t).mpr (by rw [htv]; omega), ?_⟩
  rw [mem_blk1_11]
  obtain ⟨-, -, -, -, -, -, -, -, -, -, -, -, -, -, -, -, -, -, -, -, -, -, -, -, -, -, e0, e1⟩ := idx_facts1 t
  intro a
  match a with
  | ⟨0, _⟩ =>
    show win1_11.index t (0 : Fin 2) * 512 ≤ (i 0).val ∧ (i 0).val < win1_11.index t (0 : Fin 2) * 512 + 512
    rw [e0, htv]; omega
  | ⟨1, _⟩ =>
    show win1_11.index t (1 : Fin 2) * 128 ≤ (i 1).val ∧ (i 1).val < win1_11.index t (1 : Fin 2) * 128 + 128
    rw [e1]; omega

/-- The second region's embedding array after the run: the second layer of the arrays the region found. -/
theorem emb_val (c : Dev nD) :
    (Hand.dat1 V c).arrAt 10 cfg1.N = fun idx => Spec.layerR (Spec.cur3 (V c main_arg11 : S2x4096x4096.Idx → EReal))
      (Spec.cur2 (V c main_v5 : S4096x512.Idx → EReal)) (Spec.cur3 (V c main_v6 : S2x512x256.Idx → EReal))
      (Spec.cur3 (V c main_v7 : S2x512x256.Idx → EReal)) (Spec.bias3 (V c main_arg6 : S2x1x256.Idx → EReal)) (idx 0) (idx 1) :=
  (Hand.dat1 V c).arrAt_eq_of_cover 10 (G1 V c) (flushed1_10_eq V c) cover1_10

/-- The second region's prediction array after the run: the perceptron head of that layer. -/
theorem pred_val (c : Dev nD) :
    (Hand.dat1 V c).arrAt 11 cfg1.N = fun idx => Spec.head (Spec.layerR (Spec.cur3 (V c main_arg11 : S2x4096x4096.Idx → EReal))
      (Spec.cur2 (V c main_v5 : S4096x512.Idx → EReal)) (Spec.cur3 (V c main_v6 : S2x512x256.Idx → EReal))
      (Spec.cur3 (V c main_v7 : S2x512x256.Idx → EReal)) (Spec.bias3 (V c main_arg6 : S2x1x256.Idx → EReal)))
      (Spec.cur2 (V c main_v11 : S512x128.Idx → EReal)) (Spec.row (V c main_v14 : S1x128.Idx → EReal))
      (Spec.cur2 (V c main_v20 : S128x128.Idx → EReal)) (Spec.row (V c main_v23 : S1x128.Idx → EReal)) (idx 0) (idx 1) :=
  (Hand.dat1 V c).arrAt_eq_of_cover 11 (P1 V c) (flushed1_11_eq V c) cover1_11

end Cert.ReferenceIdeal.HandVal
end
-- ==== Proof.RHost.lean ====
/-
  The reference program's host operations before each of its two kernel calls, read at the ideal instance.
  Before the first call the node features and the layer-0 weights are converted to the narrow float format (at the
  ideal instance a change of format is the identity) and the features are written whole over a zero array; before the
  second call the layer-1 weights are converted.  Every other buffer the stretches do not write keeps its contents.
-/
import proofs.«130397_g2000105430876207_pallasbulk_1247_2_alg».proof.Proof.Gen.ReferenceIdeal.Regions
import proofs.«130397_g2000105430876207_pallasbulk_1247_2_alg».proof.Proof.Spec

noncomputable section

namespace Cert.ReferenceIdeal.HandHost

open Idealize.ShloMosaic Idealize.ShloMosaic.ValueIdx
open Cert.ReferenceIdeal Cert.ReferenceIdeal.Gen

variable (W : Valuation τ sig (Elt Ideal))

/-! ## The first stretch -/

/-- The converted layer-0 left weights are the weights. -/
theorem wl0_eq :
    (StableHlo.after (hostOps0 (F := Ideal)) W (Proc.devRef .tc main_v3) : S2x128x256.Idx → EReal)
      = W (Proc.devRef .tc main_arg1) := by
  after_results
  rfl

/-- The converted layer-0 right weights are the weights. -/
theorem wr0_eq :
    (StableHlo.after (hostOps0 (F := Ideal)) W (Proc.devRef .tc main_v4) : S2x128x256.Idx → EReal)
      = W (Proc.devRef .tc main_arg2) := by
  after_results
  rfl

/-- The first stretch leaves the adjacency untouched. -/
theorem kept0_arg11 :
    StableHlo.after (hostOps0 (F := Ideal)) W (Proc.devRef .tc main_arg11) = W (Proc.devRef .tc main_arg11) :=
  StableHlo.after_of_writes_sub hostOps0 _ hostOps0_writes (by decide)

/-- The first stretch leaves the layer-0 bias untouched. -/
theorem kept0_arg3 :
    StableHlo.after (hostOps0 (F := Ideal)) W (Proc.devRef .tc main_arg3) = W (Proc.devRef .tc main_arg3) :=
  StableHlo.after_of_writes_sub hostOps0 _ hostOps0_writes (by decide)

/-! ## The second stretch -/

/-- The converted layer-1 left weights are the weights. -/
theorem wl1_eq :
    (StableHlo.after (hostOps1 (F := Ideal)) W (Proc.devRef .tc main_v6) : S2x512x256.Idx → EReal)
      = W (Proc.devRef .tc main_arg4) := by
  after_results
  rfl

/-- The converted layer-1 right weights are the weights. -/
theorem wr1_eq :
    (StableHlo.after (hostOps1 (F := Ideal)) W (Proc.devRef .tc main_v7) : S2x512x256.Idx → EReal)
      = W (Proc.devRef .tc main_arg5) := by
  after_results
  rfl

/-- The second stretch leaves the adjacency untouched. -/
theorem kept1_arg11 :
    StableHlo.after (hostOps1 (F := Ideal)) W (Proc.devRef .tc main_arg11) = W (Proc.devRef .tc main_arg11) :=
  StableHlo.after_of_writes_sub hostOps1 _ hostOps1_writes (by decide)

/-- The second stretch leaves the layer-1 bias untouched. -/
theorem kept1_arg6 :
    StableHlo.after (hostOps1 (F := Ideal)) W (Proc.devRef .tc main_arg6) = W (Proc.devRef .tc main_arg6) :=
  StableHlo.after_of_writes_sub hostOps1 _ hostOps1_writes (by decide)

/-- The second stretch leaves the first call's result, the layer-0 embedding, untouched. -/
theorem kept1_v5 :
    StableHlo.after (hostOps1 (F := Ideal)) W (Proc.devRef .tc main_v5) = W (Proc.devRef .tc main_v5) :=
  StableHlo.after_of_writes_sub hostOps1 _ hostOps1_writes (by decide)

end Cert.ReferenceIdeal.HandHost

end
-- ==== Proof.RHostX.lean ====
/-
  The reference program's node features as its first kernel call finds them.  The host writes the converted features
  over a zero array of the same shape by an overwrite with no index at all: both axes of the update are window axes
  and there is no start to read, so update entry (r, c) lands at (r, c), every entry is written once, and the result
  is the update.  At the ideal instance the conversion is the identity, so the array is the features themselves.
  Also: the first host stretch does not write the head's four arguments.
-/
import proofs.«130397_g2000105430876207_pallasbulk_1247_2_alg».proof.Proof.Gen.ReferenceIdeal.Regions
import proofs.«130397_g2000105430876207_pallasbulk_1247_2_alg».proof.Proof.Spec
import proofs.«130397_g2000105430876207_pallasbulk_1247_2_alg».proof.Proof.LibScatter

noncomputable section

namespace Cert.ReferenceIdeal.HandHost

open Idealize.ShloMosaic Idealize.ShloMosaic.ValueIdx
open Cert.ReferenceIdeal Cert.ReferenceIdeal.Gen

/-! ## The whole-array overwrite -/

/-- With no scatter index and both update axes window axes, update index `j` lands at `j`: the start is zero on
    both axes and the window coordinate on an axis is `j`'s own. -/
theorem whole_lands {w : Nat} (j : S4096x128.Idx) (idx : IVec S0 w) :
    scatter_S4096x128_S0_S4096x128_01_n_n_0.resultIdx? j idx = some j := by
  rw [Cert.Lib.resultIdx?_eq_some_iff]
  intro a
  have hs : scatter_S4096x128_S0_S4096x128_01_n_n_0.start j idx a = 0 := by
    unfold ScatterDims.start
    exact dif_neg List.not_mem_nil
  rw [hs, Int.zero_add]
  congr 1
  match a with
  | ⟨0, _⟩ => rfl
  | ⟨1, _⟩ => rfl

/-- The overwrite of a whole array leaves the update, whatever was there and whatever the (empty) index array. -/
theorem whole_overwrite {α : Type} {w : Nat} (x : S4096x128.Idx → α) (idx : IVec S0 w) (upd : S4096x128.Idx → α)
    (i : S4096x128.Idx) :
    Host.scatter scatter_S4096x128_S0_S4096x128_01_n_n_0 (fun _ b => b) x idx upd i = upd i :=
  Cert.Lib.scatter_set_hit _ x idx upd
    (fun a b i' ha hb => by
      rw [whole_lands] at ha hb
      exact (Option.some.inj ha).trans (Option.some.inj hb).symm)
    i i (whole_lands i idx)

/-! ## The features after the first host stretch -/

/-- Entry (i, k) of the array the first call reads its features from is entry (i, k) of the features. -/
theorem x_eq (W : Valuation τ sig (Elt Ideal)) (i : Fin 4096) (k : Fin 128) :
    (StableHlo.after (hostOps0 (F := Ideal)) W (Proc.devRef .tc main_v2) : S4096x128.Idx → EReal) (ix2 i k)
      = (W (Proc.devRef .tc main_arg0) : S4096x128.Idx → EReal) (ix2 i k) := by
  have e : (StableHlo.after (hostOps0 (F := Ideal)) W (Proc.devRef .tc main_v2) : S4096x128.Idx → EReal)
      = Host.scatter scatter_S4096x128_S0_S4096x128_01_n_n_0 (fun _ b => b)
          (broadcastInDim S4096x128 ![] bcast_S_S4096x128 (constant (F := Ideal) S_ .bf16 0x0000#16))
          (emptyVec S0 hz_S0 : IVec S0 32)
          (W (Proc.devRef .tc main_arg0) : S4096x128.Idx → EReal) := by
    after_results
    rfl
  rw [e]
  exact whole_overwrite _ _ _ _

/-! ## What the first host stretch leaves alone, at any float instance -/

section Kept
variable {F : FTy → Type} [FloatOps F] (V : Valuation τ sig (Elt F))

theorem kept0_arg7 :
    StableHlo.after (hostOps0 (F := F)) V (Proc.devRef .tc main_arg7) = V (Proc.devRef .tc main_arg7) :=
  StableHlo.after_of_writes_sub hostOps0 _ hostOps0_writes (by decide)
theorem kept0_arg8 :
    StableHlo.after (hostOps0 (F := F)) V (Proc.devRef .tc main_arg8) = V (Proc.devRef .tc main_arg8) :=
  StableHlo.after_of_writes_sub hostOps0 _ hostOps0_writes (by decide)
theorem kept0_arg9 :
    StableHlo.after (hostOps0 (F := F)) V (Proc.devRef .tc main_arg9) = V (Proc.devRef .tc main_arg9) :=
  StableHlo.after_of_writes_sub hostOps0 _ hostOps0_writes (by decide)
theorem kept0_arg10 :
    StableHlo.after (hostOps0 (F := F)) V (Proc.devRef .tc main_arg10) = V (Proc.devRef .tc main_arg10) :=
  StableHlo.after_of_writes_sub hostOps0 _ hostOps0_writes (by decide)

end Kept

end Cert.ReferenceIdeal.HandHost

end
-- ==== Proof.FinalR.lean ====
/-
  The reference program's two results as functions of its arguments.  Its first kernel call finds, after the first host
  stretch, the features, the layer-0 weights and bias and the adjacency themselves, and leaves the layer-0 embedding;
  its second call finds, after the second host stretch, that embedding, the layer-1 weights and bias, the adjacency
  and the four padded head arrays, and leaves the layer-1 embedding and the head's prediction.  Chaining the two calls'
  values through the host stretches' readings gives both results over the launch contents alone.
-/
import proofs.«130397_g2000105430876207_pallasbulk_1247_2_alg».proof.Proof.Gen.ReferenceIdeal.Regions
import proofs.«130397_g2000105430876207_pallasbulk_1247_2_alg».proof.Proof.Spec
import proofs.«130397_g2000105430876207_pallasbulk_1247_2_alg».proof.Proof.RVal0
import proofs.«130397_g2000105430876207_pallasbulk_1247_2_alg».proof.Proof.RVal1
import proofs.«130397_g2000105430876207_pallasbulk_1247_2_alg».proof.Proof.RHost
import proofs.«130397_g2000105430876207_pallasbulk_1247_2_alg».proof.Proof.RHostX
import proofs.«130397_g2000105430876207_pallasbulk_1247_2_alg».proof.Proof.Pads

noncomputable section

namespace Cert.ReferenceIdeal.FinalR

open Cert.ReferenceIdeal Cert.ReferenceIdeal.Gen
open Idealize.ShloMosaic Idealize.ShloMosaic.TcCoe Idealize.ShloMosaic.ValueIdx
open Idealize.SL.Sem
open Cert

/-! ## Congruences of the specification's functions (never unfolded) -/

theorem layerR_congr {D : Nat} {A A' : Fin 2 → Fin 4096 → Fin 4096 → EReal} {X X' : Fin 4096 → Fin D → EReal}
    {wl wl' wr wr' : Fin 2 → Fin D → Fin 256 → EReal} {b b' : Fin 2 → Fin 256 → EReal}
    (hA : A = A') (hX : X = X') (hwl : wl = wl') (hwr : wr = wr') (hb : b = b') :
    Spec.layerR A X wl wr b = Spec.layerR A' X' wl' wr' b' := by
  subst hA hX hwl hwr hb; rfl

theorem head_congr {emb emb' : Fin 4096 → Fin 512 → EReal} {w1 w1' : Fin 512 → Fin 128 → EReal} {b1 b1' : Fin 128 → EReal}
    {w2 w2' : Fin 128 → Fin 128 → EReal} {b2 b2' : Fin 128 → EReal}
    (he : emb = emb') (hw1 : w1 = w1') (hb1 : b1 = b1') (hw2 : w2 = w2') (hb2 : b2 = b2') :
    Spec.head emb w1 b1 w2 b2 = Spec.head emb' w1' b1' w2' b2' := by
  subst he hw1 hb1 hw2 hb2; rfl

/-- A rank-2 array given by coordinates, read by coordinates. -/
theorem cur2_mk {n0 n1 : Nat} (G : Fin n0 → Fin n1 → EReal) :
    Spec.cur2 (fun idx : (⟨2, ![n0, n1]⟩ : Shape).Idx => G (idx 0) (idx 1)) = G := rfl

variable (m : (ℓ : Loc nD τ sig) → Buf (Elt Ideal) ℓ) (outs : Gen.Outs (F := Ideal)) (c : Dev nD)

/-! ## What the first call reads -/

/-- A reference neither host stretch writes and no call may change holds its launch contents before the second call. -/
theorem v3_launch (r : Ref sig .tc) (h3 : r ∉ Gen.hostOps1_W) (h2 : r ∉ ([main_v5] : List (Ref sig .tc))) (h1 : r ∉ Gen.hostOps0_W) :
    Gen.V3 m outs c r = m ((c : Thread nD τ).loc r) :=
  (Gen.V3_of m outs c r h3).trans ((Gen.V2_of m outs c r h2).trans ((Gen.V1_of m c r h1).trans rfl))

theorem v2_launch (r : Ref sig .tc) (h2 : r ∉ ([main_v5] : List (Ref sig .tc))) (h1 : r ∉ Gen.hostOps0_W) :
    Gen.V2 m outs c r = m ((c : Thread nD τ).loc r) :=
  (Gen.V2_of m outs c r h2).trans ((Gen.V1_of m c r h1).trans rfl)

theorem v1_launch (r : Ref sig .tc) (h1 : r ∉ Gen.hostOps0_W) : Gen.V1 m c r = m ((c : Thread nD τ).loc r) :=
  (Gen.V1_of m c r h1).trans rfl

/-- The layer-0 embedding, the first call's result, over the launch contents. -/
theorem r_e0 :
    ((Hand.dat0 (fun c b => Gen.V1 m c b) c).arrAt 6 cfg0.N : S4096x512.Idx → EReal)
      = fun idx => (Spec.layerR (Spec.cur3 (m ((c : Thread nD τ).loc main_arg11) : S2x4096x4096.Idx → EReal)) (Spec.cur2 (m ((c : Thread nD τ).loc main_arg0) : S4096x128.Idx → EReal)) (Spec.cur3 (m ((c : Thread nD τ).loc main_arg1) : S2x128x256.Idx → EReal)) (Spec.cur3 (m ((c : Thread nD τ).loc main_arg2) : S2x128x256.Idx → EReal)) (Spec.bias3 (m ((c : Thread nD τ).loc main_arg3) : S2x1x256.Idx → EReal))) (idx 0) (idx 1) := by
  refine (HandVal.e0_val (fun c b => Gen.V1 m c b) c).trans ?_
  funext idx
  refine congrFun (congrFun (layerR_congr ?_ ?_ ?_ ?_ ?_) (idx 0)) (idx 1)
  · exact congrArg (Spec.cur3 (n0 := 2) (n1 := 4096) (n2 := 4096)) (v1_launch m c main_arg11 (by decide))
  · funext i k
    exact HandHost.x_eq (Gen.V0 m c) i k
  · exact congrArg (Spec.cur3 (n0 := 2) (n1 := 128) (n2 := 256)) (HandHost.wl0_eq (Gen.V0 m c))
  · exact congrArg (Spec.cur3 (n0 := 2) (n1 := 128) (n2 := 256)) (HandHost.wr0_eq (Gen.V0 m c))
  · exact congrArg (Spec.bias3 (n := 256)) (v1_launch m c main_arg3 (by decide))

/-! ## What the second call reads -/

/-- Before the second call the first call's output array holds what the first call left. -/
theorem v3_v5 : Gen.V3 m outs c main_v5 = outs 2 main_v5 c :=
  (Gen.V3_of m outs c main_v5 (by decide)).trans (by unfold Gen.V2; exact Function.update_self _ _ _)

variable (h2 : outs 2 main_v5 c = (Hand.dat0 (fun c b => Gen.V1 m c b) c).arrAt 6 cfg0.N)
include h2

/-- The layer-0 embedding as the second call reads it. -/
theorem v3_e0 :
    Spec.cur2 (Gen.V3 m outs c main_v5 : S4096x512.Idx → EReal) = (Spec.layerR (Spec.cur3 (m ((c : Thread nD τ).loc main_arg11) : S2x4096x4096.Idx → EReal)) (Spec.cur2 (m ((c : Thread nD τ).loc main_arg0) : S4096x128.Idx → EReal)) (Spec.cur3 (m ((c : Thread nD τ).loc main_arg1) : S2x128x256.Idx → EReal)) (Spec.cur3 (m ((c : Thread nD τ).loc main_arg2) : S2x128x256.Idx → EReal)) (Spec.bias3 (m ((c : Thread nD τ).loc main_arg3) : S2x1x256.Idx → EReal))) := by
  rw [v3_v5, h2, r_e0]
  exact cur2_mk _

/-- The layer-1 embedding, the second call's first result, over the launch contents. -/
theorem r_emb :
    ((Hand.dat1 (fun c b => Gen.V3 m outs c b) c).arrAt 10 cfg1.N : S4096x512.Idx → EReal)
      = fun idx => (Spec.layerR (Spec.cur3 (m ((c : Thread nD τ).loc main_arg11) : S2x4096x4096.Idx → EReal)) (Spec.layerR (Spec.cur3 (m ((c : Thread nD τ).loc main_arg11) : S2x4096x4096.Idx → EReal)) (Spec.cur2 (m ((c : Thread nD τ).loc main_arg0) : S4096x128.Idx → EReal)) (Spec.cur3 (m ((c : Thread nD τ).loc main_arg1) : S2x128x256.Idx → EReal)) (Spec.cur3 (m ((c : Thread nD τ).loc main_arg2) : S2x128x256.Idx → EReal)) (Spec.bias3 (m ((c : Thread nD τ).loc main_arg3) : S2x1x256.Idx → EReal))) (Spec.cur3 (m ((c : Thread nD τ).loc main_arg4) : S2x512x256.Idx → EReal)) (Spec.cur3 (m ((c : Thread nD τ).loc main_arg5) : S2x512x256.Idx → EReal)) (Spec.bias3 (m ((c : Thread nD τ).loc main_arg6) : S2x1x256.Idx → EReal))) (idx 0) (idx 1) := by
  refine (HandVal.emb_val (fun c b => Gen.V3 m outs c b) c).trans ?_
  funext idx
  refine congrFun (congrFun (layerR_congr ?_ ?_ ?_ ?_ ?_) (idx 0)) (idx 1)
  · exact congrArg (Spec.cur3 (n0 := 2) (n1 := 4096) (n2 := 4096)) (v3_launch m outs c main_arg11 (by decide) (by decide) (by decide))
  · exact v3_e0 m outs c h2
  · exact congrArg (Spec.cur3 (n0 := 2) (n1 := 512) (n2 := 256)) ((HandHost.wl1_eq (Gen.V2 m outs c)).trans (v2_launch m outs c main_arg4 (by decide) (by decide)))
  · exact congrArg (Spec.cur3 (n0 := 2) (n1 := 512) (n2 := 256)) ((HandHost.wr1_eq (Gen.V2 m outs c)).trans (v2_launch m outs c main_arg5 (by decide) (by decide)))
  · exact congrArg (Spec.bias3 (n := 256)) (v3_launch m outs c main_arg6 (by decide) (by decide) (by decide))

/-- The prediction, the second call's second result, over the launch contents. -/
theorem r_pred :
    ((Hand.dat1 (fun c b => Gen.V3 m outs c b) c).arrAt 11 cfg1.N : S4096x128.Idx → EReal)
      = fun idx => Spec.head (Spec.layerR (Spec.cur3 (m ((c : Thread nD τ).loc main_arg11) : S2x4096x4096.Idx → EReal)) (Spec.layerR (Spec.cur3 (m ((c : Thread nD τ).loc main_arg11) : S2x4096x4096.Idx → EReal)) (Spec.cur2 (m ((c : Thread nD τ).loc main_arg0) : S4096x128.Idx → EReal)) (Spec.cur3 (m ((c : Thread nD τ).loc main_arg1) : S2x128x256.Idx → EReal)) (Spec.cur3 (m ((c : Thread nD τ).loc main_arg2) : S2x128x256.Idx → EReal)) (Spec.bias3 (m ((c : Thread nD τ).loc main_arg3) : S2x1x256.Idx → EReal))) (Spec.cur3 (m ((c : Thread nD τ).loc main_arg4) : S2x512x256.Idx → EReal)) (Spec.cur3 (m ((c : Thread nD τ).loc main_arg5) : S2x512x256.Idx → EReal)) (Spec.bias3 (m ((c : Thread nD τ).loc main_arg6) : S2x1x256.Idx → EReal))) (Spec.cur2 (HandHost.padW1 (m ((c : Thread nD τ).loc main_arg7)) : S512x128.Idx → EReal)) (Spec.row (HandHost.padB1 (m ((c : Thread nD τ).loc main_arg8)) : S1x128.Idx → EReal)) (Spec.cur2 (HandHost.padW2 (m ((c : Thread nD τ).loc main_arg9)) : S128x128.Idx → EReal)) (Spec.row (HandHost.padB2 (m ((c : Thread nD τ).loc main_arg10)) : S1x128.Idx → EReal)) (idx 0) (idx 1) := by
  refine (HandVal.pred_val (fun c b => Gen.V3 m outs c b) c).trans ?_
  funext idx
  refine congrFun (congrFun (head_congr (layerR_congr ?_ ?_ ?_ ?_ ?_) ?_ ?_ ?_ ?_) (idx 0)) (idx 1)
  · exact congrArg (Spec.cur3 (n0 := 2) (n1 := 4096) (n2 := 4096)) (v3_launch m outs c main_arg11 (by decide) (by decide) (by decide))
  · exact v3_e0 m outs c h2
  · exact congrArg (Spec.cur3 (n0 := 2) (n1 := 512) (n2 := 256)) ((HandHost.wl1_eq (Gen.V2 m outs c)).trans (v2_launch m outs c main_arg4 (by decide) (by decide)))
  · exact congrArg (Spec.cur3 (n0 := 2) (n1 := 512) (n2 := 256)) ((HandHost.wr1_eq (Gen.V2 m outs c)).trans (v2_launch m outs c main_arg5 (by decide) (by decide)))
  · exact congrArg (Spec.bias3 (n := 256)) (v3_launch m outs c main_arg6 (by decide) (by decide) (by decide))
  · exact congrArg (Spec.cur2 (n0 := 512) (n1 := 128)) ((HandHost.padW1_R (Gen.V2 m outs c)).trans (congrArg HandHost.padW1 (v2_launch m outs c main_arg7 (by decide) (by decide))))
  · exact congrArg (Spec.row (n := 128)) ((HandHost.padB1_R (Gen.V2 m outs c)).trans (congrArg HandHost.padB1 (v2_launch m outs c main_arg8 (by decide) (by decide))))
  · exact congrArg (Spec.cur2 (n0 := 128) (n1 := 128)) ((HandHost.padW2_R (Gen.V2 m outs c)).trans (congrArg HandHost.padW2 (v2_launch m outs c main_arg9 (by decide) (by decide))))
  · exact congrArg (Spec.row (n := 128)) ((HandHost.padB2_R (Gen.V2 m outs c)).trans (congrArg HandHost.padB2 (v2_launch m outs c main_arg10 (by decide) (by decide))))

end Cert.ReferenceIdeal.FinalR

end
-- ==== Proof.TopR.lean ====
/-
  The reference program's two results over the launch contents alone: the run's read-backs of the last valuation (the
  second kernel call's first output array; the leading 32 columns of its second) composed with the two calls' values
  chained through the host stretches.
-/
import proofs.«130397_g2000105430876207_pallasbulk_1247_2_alg».proof.Proof.RRun
import proofs.«130397_g2000105430876207_pallasbulk_1247_2_alg».proof.Proof.FinalR

noncomputable section

namespace Cert.ReferenceIdeal.TopR

open Cert.ReferenceIdeal Cert.ReferenceIdeal.Gen
open Idealize.ShloMosaic Idealize.ShloMosaic.TcCoe Idealize.ShloMosaic.ValueIdx
open Idealize.SL.Sem
open Cert

variable (m : (ℓ : Loc nD τ sig) → Buf (Elt Ideal) ℓ) (c : Dev nD)

/-- What the first call leaves is what the run's unknowns name at its output array. -/
theorem h2 : Hand.outs2 m 2 main_v5 c = (Hand.dat0 (fun c b => Gen.V1 m c b) c).arrAt 6 cfg0.N :=
  (Hand.outs2_v5 m c).trans rfl

/-- THE FIRST RESULT: the layer-1 embedding of the layer-0 embedding, over the launch contents. -/
theorem r_emb_run :
    (Gen.V5 m (Hand.outsR m) c main_v24_0 : S4096x512.Idx → EReal)
      = fun idx => (Spec.layerR (Spec.cur3 (m ((c : Thread nD τ).loc main_arg11) : S2x4096x4096.Idx → EReal)) (Spec.layerR (Spec.cur3 (m ((c : Thread nD τ).loc main_arg11) : S2x4096x4096.Idx → EReal)) (Spec.cur2 (m ((c : Thread nD τ).loc main_arg0) : S4096x128.Idx → EReal)) (Spec.cur3 (m ((c : Thread nD τ).loc main_arg1) : S2x128x256.Idx → EReal)) (Spec.cur3 (m ((c : Thread nD τ).loc main_arg2) : S2x128x256.Idx → EReal)) (Spec.bias3 (m ((c : Thread nD τ).loc main_arg3) : S2x1x256.Idx → EReal))) (Spec.cur3 (m ((c : Thread nD τ).loc main_arg4) : S2x512x256.Idx → EReal)) (Spec.cur3 (m ((c : Thread nD τ).loc main_arg5) : S2x512x256.Idx → EReal)) (Spec.bias3 (m ((c : Thread nD τ).loc main_arg6) : S2x1x256.Idx → EReal))) (idx 0) (idx 1) :=
  (Hand.V5_v24_0 m c).trans (FinalR.r_emb m (Hand.outs2 m) c (h2 m c))

/-- THE SECOND RESULT: the leading 32 columns of the perceptron head of that embedding, over the launch contents. -/
theorem r_pred_run :
    (Gen.V5 m (Hand.outsR m) c main_v25 : S4096x32.Idx → EReal)
      = extractStridedSlice S4096x32 ![0, 0] (fun idx : S4096x128.Idx => Spec.head (Spec.layerR (Spec.cur3 (m ((c : Thread nD τ).loc main_arg11) : S2x4096x4096.Idx → EReal)) (Spec.layerR (Spec.cur3 (m ((c : Thread nD τ).loc main_arg11) : S2x4096x4096.Idx → EReal)) (Spec.cur2 (m ((c : Thread nD τ).loc main_arg0) : S4096x128.Idx → EReal)) (Spec.cur3 (m ((c : Thread nD τ).loc main_arg1) : S2x128x256.Idx → EReal)) (Spec.cur3 (m ((c : Thread nD τ).loc main_arg2) : S2x128x256.Idx → EReal)) (Spec.bias3 (m ((c : Thread nD τ).loc main_arg3) : S2x1x256.Idx → EReal))) (Spec.cur3 (m ((c : Thread nD τ).loc main_arg4) : S2x512x256.Idx → EReal)) (Spec.cur3 (m ((c : Thread nD τ).loc main_arg5) : S2x512x256.Idx → EReal)) (Spec.bias3 (m ((c : Thread nD τ).loc main_arg6) : S2x1x256.Idx → EReal))) (Spec.cur2 (HandHost.padW1 (m ((c : Thread nD τ).loc main_arg7)) : S512x128.Idx → EReal)) (Spec.row (HandHost.padB1 (m ((c : Thread nD τ).loc main_arg8)) : S1x128.Idx → EReal)) (Spec.cur2 (HandHost.padW2 (m ((c : Thread nD τ).loc main_arg9)) : S128x128.Idx → EReal)) (Spec.row (HandHost.padB2 (m ((c : Thread nD τ).loc main_arg10)) : S1x128.Idx → EReal)) (idx 0) (idx 1)) slices_S4096x128_S4096x32_0_0 :=
  (Hand.V5_v25 m c).trans
    (congrArg (fun x : S4096x128.Idx → EReal => extractStridedSlice S4096x32 ![0, 0] x slices_S4096x128_S4096x32_0_0)
      (FinalR.r_pred m (Hand.outs2 m) c (h2 m c)))

end Cert.ReferenceIdeal.TopR

end
-- ==== Proof.Algebra.lean ====
/-
  The algebra over the extended reals that identifies the two arrangements of the two-layer graph convolution.
  Layer 0: the stacked product  [agg_0 | agg_1 | x] · W0  splits into three blocks of 128 columns; the block of the
  other edge type meets zero weights and contributes a sum of zeros.  No distributivity is used.
  Layer 1: projecting first and aggregating afterwards,  A_t · (E · Wl_t),  equals aggregating first,
  (A_t · E) · Wl_t.  The extended reals do not distribute at infinities, so this identity is proved for entries that are
  real numbers: every quantity is the image of a real, the image commutes with sums and products, and in the reals the
  identity is an exchange of two finite sums.
-/
import proofs.«130397_g2000105430876207_pallasbulk_1247_2_alg».proof.Proof.Spec
import Mathlib.Data.EReal.Operations
import Mathlib.Algebra.BigOperators.Fin
import Mathlib.Tactic.Ring

noncomputable section

open scoped BigOperators

namespace Cert.Spec

/-! ## Extended reals that are real numbers -/

/-- An extended real that is the image of a real number. -/
def IsR (v : EReal) : Prop := ∃ r : ℝ, v = (r : EReal)

theorem IsR.zero : IsR 0 := ⟨0, rfl⟩

theorem IsR.add {a b : EReal} (ha : IsR a) (hb : IsR b) : IsR (a + b) := by
  obtain ⟨r, rfl⟩ := ha
  obtain ⟨s, rfl⟩ := hb
  exact ⟨r + s, (EReal.coe_add r s).symm⟩

theorem IsR.mul {a b : EReal} (ha : IsR a) (hb : IsR b) : IsR (a * b) := by
  obtain ⟨r, rfl⟩ := ha
  obtain ⟨s, rfl⟩ := hb
  exact ⟨r * s, (EReal.coe_mul r s).symm⟩

theorem IsR.max {a b : EReal} (ha : IsR a) (hb : IsR b) : IsR (max a b) := by
  rcases le_total a b with h | h
  · rw [max_eq_right h]; exact hb
  · rw [max_eq_left h]; exact ha

theorem IsR.relu {a : EReal} (ha : IsR a) : IsR (relu a) := IsR.max ha IsR.zero

theorem IsR.sum {ι : Type*} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact IsR.add (h a (Finset.mem_insert_self a s)) (ih fun i hi => h i (Finset.mem_insert_of_mem hi))

theorem IsR.sum_univ {ι : Type*} [Fintype ι] (f : ι → EReal) (h : ∀ i, IsR (f i)) : IsR (∑ i, f i) :=
  IsR.sum Finset.univ f fun i _ => h i

/-- The image of a finite sum of reals is the sum of the images. -/
theorem coe_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty]; rfl
  | insert a s ha ih => rw [Finset.sum_insert ha, Finset.sum_insert ha, EReal.coe_add, ih]

/-! ## The exchange of the two sums -/

/-- In the reals: a · (e · w) = (a · e) · w. -/
theorem sum_mul_sum_real {ι κ : Type*} [Fintype ι] [Fintype κ] (a : ι → ℝ) (e : ι → κ → ℝ) (w : κ → ℝ) :
    ∑ n, a n * ∑ k, e n k * w k = ∑ k, (∑ n, a n * e n k) * w k := by
  simp_rw [Finset.mul_sum, Finset.sum_mul]
  rw [Finset.sum_comm]
  refine Finset.sum_congr rfl fun k _ => Finset.sum_congr rfl fun n _ => ?_
  ring

/-- The same over the extended reals, for real entries. -/
theorem sum_mul_sum {ι κ : Type*} [Fintype ι] [Fintype κ] (a : ι → EReal) (e : ι → κ → EReal) (w : κ → EReal)
    (ha : ∀ n, IsR (a n)) (he : ∀ n k, IsR (e n k)) (hw : ∀ k, IsR (w k)) :
    ∑ n, a n * ∑ k, e n k * w k = ∑ k, (∑ n, a n * e n k) * w k := by
  choose a' ha' using ha
  choose e' he' using he
  choose w' hw' using hw
  have h1 : ∀ n, a n * ∑ k, e n k * w k = ((a' n * ∑ k, e' n k * w' k : ℝ) : EReal) := by
    intro n
    rw [EReal.coe_mul, coe_sum, ha' n]
    refine congrArg (fun z => (a' n : EReal) * z) (Finset.sum_congr rfl fun k _ => ?_)
    rw [he' n k, hw' k, EReal.coe_mul]
  have h2 : ∀ k, (∑ n, a n * e n k) * w k = (((∑ n, a' n * e' n k) * w' k : ℝ) : EReal) := by
    intro k
    rw [EReal.coe_mul, coe_sum, hw' k]
    refine congrArg (fun z => z * (w' k : EReal)) (Finset.sum_congr rfl fun n _ => ?_)
    rw [ha' n, he' n k, EReal.coe_mul]
  rw [Finset.sum_congr rfl fun n _ => h1 n, Finset.sum_congr rfl fun k _ => h2 k, ← coe_sum, ← coe_sum,
    sum_mul_sum_real]

/-! ## Splitting the index ranges -/

/-- A sum over the 4096 sources is the sum over the first half plus the sum over the second half. -/
theorem sum_lo_hi {M : Type*} [AddCommMonoid M] (f : Fin 4096 → M) :
    ∑ n, f n = (∑ n : Fin 2048, f (lo n)) + ∑ n : Fin 2048, f (hi n) :=
  Fin.sum_univ_add (a := 2048) (b := 2048) f

/-- A sum over 384 columns is the sum of its three blocks of 128. -/
theorem sum_384 {M : Type*} [AddCommMonoid M] (f : Fin 384 → M) :
    ∑ k, f k = ((∑ k : Fin 128, f ⟨k.val, by omega⟩) + ∑ k : Fin 128, f ⟨128 + k.val, by omega⟩)
      + ∑ k : Fin 128, f ⟨256 + k.val, by omega⟩ := by
  have h1 := Fin.sum_univ_add (a := 256) (b := 128) f
  have h2 := Fin.sum_univ_add (a := 128) (b := 128) (fun i : Fin (128 + 128) => f (Fin.castAdd 128 i))
  exact h1.trans (congrArg (fun z => z + ∑ k : Fin 128, f ⟨256 + k.val, by omega⟩) h2)

/-- The aggregation in two halves from a zero accumulator is the whole sum. -/
theorem aggR_eq {D : Nat} (A : Fin 2 → Fin 4096 → Fin 4096 → EReal) (X : Fin 4096 → Fin D → EReal)
    (t : Fin 2) (i : Fin 4096) (k : Fin D) : aggR A X t i k = ∑ n, A t i n * X n k := by
  unfold aggR
  rw [zero_add]
  exact (sum_lo_hi fun n => A t i n * X n k).symm

theorem aggK_eq_aggR (A : Fin 2 → Fin 4096 → Fin 4096 → EReal) (xb : Fin 4096 → Fin 128 → EReal)
    (t : Fin 2) (i : Fin 4096) (k : Fin 128) : aggK A xb t i k = aggR A xb t i k :=
  (aggR_eq A xb t i k).symm

/-! ## The blocks of the stacked row and of the packed weights -/

section blocks

variable (A : Fin 2 → Fin 4096 → Fin 4096 → EReal) (xb : Fin 4096 → Fin 128 → EReal)

theorem zK_blk0 (i : Fin 4096) (k : Fin 128) (h : k.val < 384) : zK A xb i ⟨k.val, h⟩ = aggK A xb 0 i k := by
  unfold zK
  rw [dif_pos (show (⟨k.val, h⟩ : Fin 384).val < 128 from k.isLt)]

theorem zK_blk1 (i : Fin 4096) (k : Fin 128) (h : 128 + k.val < 384) :
    zK A xb i ⟨128 + k.val, h⟩ = aggK A xb 1 i k := by
  unfold zK
  rw [dif_neg (show ¬ (⟨128 + k.val, h⟩ : Fin 384).val < 128 from by simp),
    dif_pos (show (⟨128 + k.val, h⟩ : Fin 384).val < 256 from by have := k.isLt; simp; omega)]
  exact congrArg (aggK A xb 1 i) (Fin.ext (Nat.add_sub_cancel_left (n := 128) (m := k.val)))

theorem zK_blk2 (i : Fin 4096) (k : Fin 128) (h : 256 + k.val < 384) : zK A xb i ⟨256 + k.val, h⟩ = xb i k := by
  unfold zK
  rw [dif_neg (show ¬ (⟨256 + k.val, h⟩ : Fin 384).val < 128 from by simp; omega),
    dif_neg (show ¬ (⟨256 + k.val, h⟩ : Fin 384).val < 256 from by simp)]
  exact congrArg (xb i) (Fin.ext (Nat.add_sub_cancel_left (n := 256) (m := k.val)))

end blocks

section weights

variable (wl0 wr0 : Fin 2 → Fin 128 → Fin 256 → EReal)

theorem W0of_blk0 (j : Fin 512) (k : Fin 128) (h : k.val < 384) :
    W0of wl0 wr0 ⟨k.val, h⟩ j = if (ty j).val = 0 then wl0 0 k (col j) else 0 := by
  unfold W0of
  rw [dif_pos (show (⟨k.val, h⟩ : Fin 384).val < 128 from k.isLt)]

theorem W0of_blk1 (j : Fin 512) (k : Fin 128) (h : 128 + k.val < 384) :
    W0of wl0 wr0 ⟨128 + k.val, h⟩ j = if (ty j).val = 1 then wl0 1 k (col j) else 0 := by
  unfold W0of
  rw [dif_neg (show ¬ (⟨128 + k.val, h⟩ : Fin 384).val < 128 from by simp),
    dif_pos (show (⟨128 + k.val, h⟩ : Fin 384).val < 256 from by have := k.isLt; simp; omega)]
  have e : (⟨(⟨128 + k.val, h⟩ : Fin 384).val - 128, by have := k.isLt; simp⟩ : Fin 128) = k :=
    Fin.ext (Nat.add_sub_cancel_left (n := 128) (m := k.val))
  rw [e]

theorem W0of_blk2 (j : Fin 512) (k : Fin 128) (h : 256 + k.val < 384) :
    W0of wl0 wr0 ⟨256 + k.val, h⟩ j = wr0 (ty j) k (col j) := by
  unfold W0of
  rw [dif_neg (show ¬ (⟨256 + k.val, h⟩ : Fin 384).val < 128 from by simp; omega),
    dif_neg (show ¬ (⟨256 + k.val, h⟩ : Fin 384).val < 256 from by simp)]
  exact congrArg (fun q => wr0 (ty j) q (col j)) (Fin.ext (Nat.add_sub_cancel_left (n := 256) (m := k.val)))

variable (wl1 wr1 : Fin 2 → Fin 512 → Fin 256 → EReal)

theorem W1of_left (k : Fin 512) (j : Fin 512) (h : j.val < 1024) :
    W1of wl1 wr1 k ⟨j.val, h⟩ = wl1 (ty j) k (col j) := by
  unfold W1of
  rw [dif_pos (show (⟨j.val, h⟩ : Fin 1024).val < 512 from j.isLt)]

theorem W1of_right (k : Fin 512) (j : Fin 512) (h : 512 + j.val < 1024) :
    W1of wl1 wr1 k ⟨512 + j.val, h⟩ = wr1 (ty j) k (col j) := by
  unfold W1of
  rw [dif_neg (show ¬ (⟨512 + j.val, h⟩ : Fin 1024).val < 512 from by simp)]
  have e : (⟨(⟨512 + j.val, h⟩ : Fin 1024).val - 512, by have := j.isLt; simp⟩ : Fin 512) = j :=
    Fin.ext (Nat.add_sub_cancel_left (n := 512) (m := j.val))
  rw [e]

end weights

/-! ## Layer 0 -/

/-- The stacked product at one entry, by blocks, for a column of type t at inner column c. -/
theorem e0_sum (A : Fin 2 → Fin 4096 → Fin 4096 → EReal) (xb : Fin 4096 → Fin 128 → EReal)
    (wl0 wr0 : Fin 2 → Fin 128 → Fin 256 → EReal) (i : Fin 4096) (j : Fin 512) :
    ∑ k, zK A xb i k * W0of wl0 wr0 k j
      = (∑ k, aggR A xb (ty j) i k * wl0 (ty j) k (col j)) + ∑ k, xb i k * wr0 (ty j) k (col j) := by
  rw [sum_384]
  have h0 : ∀ k : Fin 128, zK A xb i ⟨k.val, by omega⟩ * W0of wl0 wr0 ⟨k.val, by omega⟩ j
      = aggR A xb 0 i k * (if (ty j).val = 0 then wl0 0 k (col j) else 0) := fun k => by
    rw [zK_blk0, W0of_blk0, aggK_eq_aggR]
  have h1 : ∀ k : Fin 128, zK A xb i ⟨128 + k.val, by omega⟩ * W0of wl0 wr0 ⟨128 + k.val, by omega⟩ j
      = aggR A xb 1 i k * (if (ty j).val = 1 then wl0 1 k (col j) else 0) := fun k => by
    rw [zK_blk1, W0of_blk1, aggK_eq_aggR]
  have h2 : ∀ k : Fin 128, zK A xb i ⟨256 + k.val, by omega⟩ * W0of wl0 wr0 ⟨256 + k.val, by omega⟩ j
      = xb i k * wr0 (ty j) k (col j) := fun k => by
    rw [zK_blk2, W0of_blk2]
  rw [Finset.sum_congr rfl fun k _ => h0 k, Finset.sum_congr rfl fun k _ => h1 k,
    Finset.sum_congr rfl fun k _ => h2 k]
  generalize col j = c
  generalize ty j = t
  have ht : t = 0 ∨ t = 1 := by
    rcases t with ⟨v, hv⟩
    rcases (show v = 0 ∨ v = 1 by omega) with rfl | rfl
    · exact Or.inl rfl
    · exact Or.inr rfl
  rcases ht with rfl | rfl
  · have z : ∀ k : Fin 128, aggR A xb 1 i k * (if ((0 : Fin 2)).val = 1 then wl0 1 k c else 0) = 0 := fun k => by
      rw [if_neg (by decide), mul_zero]
    have p : ∀ k : Fin 128, aggR A xb 0 i k * (if ((0 : Fin 2)).val = 0 then wl0 0 k c else 0)
        = aggR A xb 0 i k * wl0 0 k c := fun k => by
      rw [if_pos (show ((0 : Fin 2)).val = 0 from rfl)]
    rw [Finset.sum_congr rfl fun k _ => z k, Finset.sum_congr rfl fun k _ => p k, Finset.sum_const_zero, add_zero]
  · have z : ∀ k : Fin 128, aggR A xb 0 i k * (if ((1 : Fin 2)).val = 0 then wl0 0 k c else 0) = 0 := fun k => by
      rw [if_neg (by decide), mul_zero]
    have p : ∀ k : Fin 128, aggR A xb 1 i k * (if ((1 : Fin 2)).val = 1 then wl0 1 k c else 0)
        = aggR A xb 1 i k * wl0 1 k c := fun k => by
      rw [if_pos (show ((1 : Fin 2)).val = 1 from rfl)]
    rw [Finset.sum_congr rfl fun k _ => z k, Finset.sum_congr rfl fun k _ => p k, Finset.sum_const_zero, zero_add]

/-- Layer 0 through the stacked weight is layer 0 as written.  Holds for all extended-real entries. -/
theorem e0_eq (A : Fin 2 → Fin 4096 → Fin 4096 → EReal) (xb : Fin 4096 → Fin 128 → EReal)
    (wl0 wr0 : Fin 2 → Fin 128 → Fin 256 → EReal) (b0 : Fin 2 → Fin 256 → EReal) :
    e0K A xb (W0of wl0 wr0) (bcat b0) = layerR A xb wl0 wr0 b0 := by
  funext i j
  unfold e0K layerR bcat
  rw [e0_sum]

/-! ## Real entries stay real through a layer -/

theorem IsR.aggR {D : Nat} {A : Fin 2 → Fin 4096 → Fin 4096 → EReal} {X : Fin 4096 → Fin D → EReal}
    (hA : ∀ t i n, IsR (A t i n)) (hX : ∀ n k, IsR (X n k)) (t : Fin 2) (i : Fin 4096) (k : Fin D) :
    IsR (aggR A X t i k) := by
  rw [aggR_eq]
  exact IsR.sum_univ _ fun n => IsR.mul (hA t i n) (hX n k)

theorem IsR.layerR {D : Nat} {A : Fin 2 → Fin 4096 → Fin 4096 → EReal} {X : Fin 4096 → Fin D → EReal}
    {wl wr : Fin 2 → Fin D → Fin 256 → EReal} {b : Fin 2 → Fin 256 → EReal}
    (hA : ∀ t i n, IsR (A t i n)) (hX : ∀ n k, IsR (X n k)) (hwl : ∀ t k c, IsR (wl t k c))
    (hwr : ∀ t k c, IsR (wr t k c)) (hb : ∀ t c, IsR (b t c)) (i : Fin 4096) (j : Fin 512) :
    IsR (layerR A X wl wr b i j) := by
  unfold Cert.Spec.layerR
  exact IsR.relu (IsR.add (IsR.add
    (IsR.sum_univ _ fun k => IsR.mul (IsR.aggR hA hX (ty j) i k) (hwl (ty j) k (col j)))
    (IsR.sum_univ _ fun k => IsR.mul (hX i k) (hwr (ty j) k (col j)))) (hb (ty j) (col j)))

/-! ## Layer 1 -/

/-- Layer 1 from the pre-projection, for any layer-0 embedding E with real entries and real A, Wl:
    relu(A_t · (E · Wl_t) + (E · Wr_t + b)) = relu(((A_t · E) · Wl_t + E · Wr_t) + b). -/
theorem emb_core (A : Fin 2 → Fin 4096 → Fin 4096 → EReal) (E : Fin 4096 → Fin 512 → EReal)
    (wl1 wr1 : Fin 2 → Fin 512 → Fin 256 → EReal) (b1 : Fin 2 → Fin 256 → EReal)
    (hA : ∀ t i n, IsR (A t i n)) (hE : ∀ n k, IsR (E n k)) (hwl1 : ∀ t k c, IsR (wl1 t k c))
    (i : Fin 4096) (j : Fin 512) :
    relu ((∑ n, A (ty j) i n * ∑ k, E n k * wl1 (ty j) k (col j))
        + ((∑ k, E i k * wr1 (ty j) k (col j)) + b1 (ty j) (col j)))
      = layerR A E wl1 wr1 b1 i j := by
  unfold layerR
  rw [sum_mul_sum (fun n => A (ty j) i n) E (fun k => wl1 (ty j) k (col j)) (fun n => hA (ty j) i n) hE
    (fun k => hwl1 (ty j) k (col j)), ← add_assoc]
  have h : ∀ k : Fin 512, (∑ n, A (ty j) i n * E n k) * wl1 (ty j) k (col j)
      = aggR A E (ty j) i k * wl1 (ty j) k (col j) := fun k => by rw [aggR_eq]
  rw [Finset.sum_congr rfl fun k _ => h k]

/-- Layer 1 by projecting first and aggregating afterwards is layer 1 as written, when the adjacency, the features
    and the layer-0 parameters and the layer-1 left weights are real numbers. -/
theorem emb_eq (A : Fin 2 → Fin 4096 → Fin 4096 → EReal) (xb : Fin 4096 → Fin 128 → EReal)
    (wl0 wr0 : Fin 2 → Fin 128 → Fin 256 → EReal) (b0 : Fin 2 → Fin 256 → EReal)
    (wl1 wr1 : Fin 2 → Fin 512 → Fin 256 → EReal) (b1 : Fin 2 → Fin 256 → EReal)
    (hA : ∀ t i n, ∃ r : ℝ, A t i n = (r : EReal)) (hx : ∀ n k, ∃ r : ℝ, xb n k = (r : EReal))
    (hwl0 : ∀ t k c, ∃ r : ℝ, wl0 t k c = (r : EReal)) (hwr0 : ∀ t k c, ∃ r : ℝ, wr0 t k c = (r : EReal))
    (hb0 : ∀ t c, ∃ r : ℝ, b0 t c = (r : EReal)) (hwl1 : ∀ t k c, ∃ r : ℝ, wl1 t k c = (r : EReal)) :
    embK A (y1K A xb (W0of wl0 wr0) (bcat b0) (W1of wl1 wr1))
        (p1K A xb (W0of wl0 wr0) (bcat b0) (W1of wl1 wr1) (bcat b1))
      = layerR A (layerR A xb wl0 wr0 b0) wl1 wr1 b1 := by
  funext i j
  have hE : ∀ n k, IsR (layerR A xb wl0 wr0 b0 n k) := fun n k => IsR.layerR hA hx hwl0 hwr0 hb0 n k
  rw [← emb_core A (layerR A xb wl0 wr0 b0) wl1 wr1 b1 hA hE hwl1 i j]
  unfold embK y1K p1K ypK
  rw [e0_eq]
  unfold bcat
  have hy : ∀ n : Fin 4096, A (ty j) i n * ∑ k, layerR A xb wl0 wr0 b0 n k * W1of wl1 wr1 k ⟨j.val, by omega⟩
      = A (ty j) i n * ∑ k, layerR A xb wl0 wr0 b0 n k * wl1 (ty j) k (col j) := fun n =>
    congrArg (fun z => A (ty j) i n * z) (Finset.sum_congr rfl fun k _ => by rw [W1of_left])
  have hp : ∑ k, layerR A xb wl0 wr0 b0 i k * W1of wl1 wr1 k ⟨512 + j.val, by omega⟩
      = ∑ k, layerR A xb wl0 wr0 b0 i k * wr1 (ty j) k (col j) :=
    Finset.sum_congr rfl fun k _ => by rw [W1of_right]
  rw [Finset.sum_congr rfl fun n _ => hy n, hp]

/-- The head is a function of the embedding. -/
theorem head_congr {emb emb' : Fin 4096 → Fin 512 → EReal} (h : emb = emb') (w1p : Fin 512 → Fin 128 → EReal)
    (b1p : Fin 128 → EReal) (w2p : Fin 128 → Fin 128 → EReal) (b2p : Fin 128 → EReal) :
    head emb w1p b1p w2p b2p = head emb' w1p b1p w2p b2p := by
  subst h; rfl

end Cert.Spec

end
-- ==== Proof.Finite.lean ====
/-
  Finiteness of the inputs.  The precondition is the conjunction, over the twelve argument arrays, of
  "every entry x satisfies |x| < +∞".  Over the extended reals |x| = max x (-x), and max x (-x) < ⊤ excludes both
  x = ⊤ and x = ⊥, so every entry is a real number.
-/
import proofs.«130397_g2000105430876207_pallasbulk_1247_2_alg».proof.Defs
import proofs.«130397_g2000105430876207_pallasbulk_1247_2_alg».proof.Proof.Gen.Pre_finite_inputs
import Idealize.ShloMosaic.Lib.ReduceAll
import Idealize.ShloMosaic.Lib.IdealHost

noncomputable section

namespace Cert.Finite

open Idealize.ShloMosaic Idealize.ShloMosaic.ValueIdx Idealize.SL.Sem

instance : Subsingleton Cert.Pre_finite_inputs.S_.Idx := ⟨fun a b => funext fun d => d.elim0⟩

/-- The pattern 0x7F800000 denotes +∞. -/
theorem inf_bits : Ideal.ofBits .f32 0x7F800000#32 = (⊤ : EReal) := by
  simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The element test of the precondition, read back. -/
theorem real_of_test (x : EReal)
    (h : FloatOps.cmpf (F := Ideal) (φ := .f32) .olt (FloatOps.absf (F := Ideal) (φ := .f32) x) (Ideal.ofBits .f32 0x7F800000#32) = 1#1) :
    ∃ r : ℝ, x = (r : EReal) := by
  rw [inf_bits] at h
  refine real_of_abs_lt_top x ?_
  change BitVec.ofBool (decide (max x (-x) < ⊤)) = 1#1 at h
  by_contra hn
  rw [decide_eq_false hn] at h
  exact absurd h (by decide)

/-- One conjunct of the precondition, read back: an array all of whose entries pass the test has real entries. -/
theorem real_of_all {s : Shape} {axes : List (Fin s.rank)} (x : FVec Ideal s .f32)
    (hbc : Cert.Pre_finite_inputs.S_.BroadcastsInDim s (![] : Fin 0 → Fin s.rank))
    (hred : s.ReducesTo axes Cert.Pre_finite_inputs.S_) (hu : 0 < Cert.Pre_finite_inputs.S_.numel)
    (init : IVec Cert.Pre_finite_inputs.S_ 1)
    (e : Host.reduce IntOp.andi
          (cmpf .olt (Host.absf x) (broadcastInDim s ![] hbc (constant Cert.Pre_finite_inputs.S_ .f32 0x7F800000#32)))
          init hred hu ix0 = 1#1)
    (i : s.Idx) : ∃ r : ℝ, x i = (r : EReal) := by
  have h := Host.reduce_andi_all _ init hred hu ix0 e i
  exact real_of_test (x i) h

/-! ## The twelve conjuncts -/

section decode

variable [Cert.Pre_finite_inputs.Facts]

open Cert.Pre_finite_inputs in
/-- The whole precondition over arbitrary arrays: every entry of every array is a real number. -/
theorem fn_real (a0 : FVec Ideal S4096x128 .f32) (a1 a2 : FVec Ideal S2x128x256 .f32) (a3 : FVec Ideal S2x1x256 .f32)
    (a4 a5 : FVec Ideal S2x512x256 .f32) (a6 : FVec Ideal S2x1x256 .f32) (a7 : FVec Ideal S512x20 .f32)
    (a8 : FVec Ideal S1x20 .f32) (a9 : FVec Ideal S20x32 .f32) (a10 : FVec Ideal S1x32 .f32)
    (a11 : FVec Ideal S2x4096x4096 .bf16)
    (h : Cert.Pre_finite_inputs.fn (F := Ideal) a0 a1 a2 a3 a4 a5 a6 a7 a8 a9 a10 a11 = fun _ => 1#1) :
    (∀ i, ∃ r : ℝ, a0 i = (r : EReal)) ∧ (∀ i, ∃ r : ℝ, a1 i = (r : EReal)) ∧ (∀ i, ∃ r : ℝ, a2 i = (r : EReal)) ∧
    (∀ i, ∃ r : ℝ, a3 i = (r : EReal)) ∧ (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) ∧ (∀ i, ∃ r : ℝ, a8 i = (r : EReal)) ∧
    (∀ i, ∃ r : ℝ, a9 i = (r : EReal)) ∧ (∀ i, ∃ r : ℝ, a10 i = (r : EReal)) ∧ (∀ i, ∃ r : ℝ, a11 i = (r : EReal)) := by
  have h0 := congrFun h ix0
  dsimp only [Cert.Pre_finite_inputs.fn, Cert.Pre_finite_inputs.fn_part1, Cert.Pre_finite_inputs.fn_part2,
    Cert.Pre_finite_inputs.fn_part3] at h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all a0 _ _ _ _ e0, real_of_all a1 _ _ _ _ e1, real_of_all a2 _ _ _ _ e2, real_of_all a3 _ _ _ _ e3,
    real_of_all a4 _ _ _ _ e4, real_of_all a5 _ _ _ _ e5, real_of_all a6 _ _ _ _ e6, real_of_all a7 _ _ _ _ e7,
    real_of_all a8 _ _ _ _ e8, real_of_all a9 _ _ _ _ e9, real_of_all a10 _ _ _ _ e10,
    real_of_all (extf .f32 a11 Cert.Pre_finite_inputs.Facts.bitsLt_bf16_f32) _ _ _ _ e11⟩

end decode

/-! ## The arguments of the program -/

section args

variable [Cert.Pre_finite_inputs.Facts]

/-- Every entry of argument 0 is a real number. -/
theorem real_arg0 {m : (ℓ : Loc Cert.KernelIdeal.nD Cert.KernelIdeal.τ Cert.KernelIdeal.sig) → Buf (Elt Ideal) ℓ}
    (h : Cert.Pre_KernelIdeal m) (c : Dev Cert.KernelIdeal.nD) (idx : (⟨2, ![4096, 128]⟩ : Shape).Idx) :
    ∃ r : ℝ, m ((c.tc : Thread Cert.KernelIdeal.nD Cert.KernelIdeal.τ).loc Cert.KernelIdeal.main_arg0) idx = (r : EReal) :=
  (fn_real _ _ _ _ _ _ _ _ _ _ _ _ (h c)).1 idx

/-- Every entry of argument 1 is a real number. -/
theorem real_arg1 {m : (ℓ : Loc Cert.KernelIdeal.nD Cert.KernelIdeal.τ Cert.KernelIdeal.sig) → Buf (Elt Ideal) ℓ}
    (h : Cert.Pre_KernelIdeal m) (c : Dev Cert.KernelIdeal.nD) (idx : (⟨3, ![2, 128, 256]⟩ : Shape).Idx) :
    ∃ r : ℝ, m ((c.tc : Thread Cert.KernelIdeal.nD Cert.KernelIdeal.τ).loc Cert.KernelIdeal.main_arg1) idx = (r : EReal) :=
  (fn_real _ _ _ _ _ _ _ _ _ _ _ _ (h c)).2.1 idx

/-- Every entry of argument 2 is a real number. -/
theorem real_arg2 {m : (ℓ : Loc Cert.KernelIdeal.nD Cert.KernelIdeal.τ Cert.KernelIdeal.sig) → Buf (Elt Ideal) ℓ}
    (h : Cert.Pre_KernelIdeal m) (c : Dev Cert.KernelIdeal.nD) (idx : (⟨3, ![2, 128, 256]⟩ : Shape).Idx) :
    ∃ r : ℝ, m ((c.tc : Thread Cert.KernelIdeal.nD Cert.KernelIdeal.τ).loc Cert.KernelIdeal.main_arg2) idx = (r : EReal) :=
  (fn_real _ _ _ _ _ _ _ _ _ _ _ _ (h c)).2.2.1 idx

/-- Every entry of argument 3 is a real number. -/
theorem real_arg3 {m : (ℓ : Loc Cert.KernelIdeal.nD Cert.KernelIdeal.τ Cert.KernelIdeal.sig) → Buf (Elt Ideal) ℓ}
    (h : Cert.Pre_KernelIdeal m) (c : Dev Cert.KernelIdeal.nD) (idx : (⟨3, ![2, 1, 256]⟩ : Shape).Idx) :
    ∃ r : ℝ, m ((c.tc : Thread Cert.KernelIdeal.nD Cert.KernelIdeal.τ).loc Cert.KernelIdeal.main_arg3) idx = (r : EReal) :=
  (fn_real _ _ _ _ _ _ _ _ _ _ _ _ (h c)).2.2.2.1 idx

/-- Every entry of argument 4 is a real number. -/
theorem real_arg4 {m : (ℓ : Loc Cert.KernelIdeal.nD Cert.KernelIdeal.τ Cert.KernelIdeal.sig) → Buf (Elt Ideal) ℓ}
    (h : Cert.Pre_KernelIdeal m) (c : Dev Cert.KernelIdeal.nD) (idx : (⟨3, ![2, 512, 256]⟩ : Shape).Idx) :
    ∃ r : ℝ, m ((c.tc : Thread Cert.KernelIdeal.nD Cert.KernelIdeal.τ).loc Cert.KernelIdeal.main_arg4) idx = (r : EReal) :=
  (fn_real _ _ _ _ _ _ _ _ _ _ _ _ (h c)).2.2.2.2.1 idx

/-- Every entry of argument 5 is a real number. -/
theorem real_arg5 {m : (ℓ : Loc Cert.KernelIdeal.nD Cert.KernelIdeal.τ Cert.KernelIdeal.sig) → Buf (Elt Ideal) ℓ}
    (h : Cert.Pre_KernelIdeal m) (c : Dev Cert.KernelIdeal.nD) (idx : (⟨3, ![2, 512, 256]⟩ : Shape).Idx) :
    ∃ r : ℝ, m ((c.tc : Thread Cert.KernelIdeal.nD Cert.KernelIdeal.τ).loc Cert.KernelIdeal.main_arg5) idx = (r : EReal) :=
  (fn_real _ _ _ _ _ _ _ _ _ _ _ _ (h c)).2.2.2.2.2.1 idx

/-- Every entry of argument 6 is a real number. -/
theorem real_arg6 {m : (ℓ : Loc Cert.KernelIdeal.nD Cert.KernelIdeal.τ Cert.KernelIdeal.sig) → Buf (Elt Ideal) ℓ}
    (h : Cert.Pre_KernelIdeal m) (c : Dev Cert.KernelIdeal.nD) (idx : (⟨3, ![2, 1, 256]⟩ : Shape).Idx) :
    ∃ r : ℝ, m ((c.tc : Thread Cert.KernelIdeal.nD Cert.KernelIdeal.τ).loc Cert.KernelIdeal.main_arg6) idx = (r : EReal) :=
  (fn_real _ _ _ _ _ _ _ _ _ _ _ _ (h c)).2.2.2.2.2.2.1 idx

/-- Every entry of argument 7 is a real number. -/
theorem real_arg7 {m : (ℓ : Loc Cert.KernelIdeal.nD Cert.KernelIdeal.τ Cert.KernelIdeal.sig) → Buf (Elt Ideal) ℓ}
    (h : Cert.Pre_KernelIdeal m) (c : Dev Cert.KernelIdeal.nD) (idx : (⟨2, ![512, 20]⟩ : Shape).Idx) :
    ∃ r : ℝ, m ((c.tc : Thread Cert.KernelIdeal.nD Cert.KernelIdeal.τ).loc Cert.KernelIdeal.main_arg7) idx = (r : EReal) :=
  (fn_real _ _ _ _ _ _ _ _ _ _ _ _ (h c)).2.2.2.2.2.2.2.1 idx

/-- Every entry of argument 8 is a real number. -/
theorem real_arg8 {m : (ℓ : Loc Cert.KernelIdeal.nD Cert.KernelIdeal.τ Cert.KernelIdeal.sig) → Buf (Elt Ideal) ℓ}
    (h : Cert.Pre_KernelIdeal m) (c : Dev Cert.KernelIdeal.nD) (idx : (⟨2, ![1, 20]⟩ : Shape).Idx) :
    ∃ r : ℝ, m ((c.tc : Thread Cert.KernelIdeal.nD Cert.KernelIdeal.τ).loc Cert.KernelIdeal.main_arg8) idx = (r : EReal) :=
  (fn_real _ _ _ _ _ _ _ _ _ _ _ _ (h c)).2.2.2.2.2.2.2.2.1 idx

/-- Every entry of argument 9 is a real number. -/
theorem real_arg9 {m : (ℓ : Loc Cert.KernelIdeal.nD Cert.KernelIdeal.τ Cert.KernelIdeal.sig) → Buf (Elt Ideal) ℓ}
    (h : Cert.Pre_KernelIdeal m) (c : Dev Cert.KernelIdeal.nD) (idx : (⟨2, ![20, 32]⟩ : Shape).Idx) :
    ∃ r : ℝ, m ((c.tc : Thread Cert.KernelIdeal.nD Cert.KernelIdeal.τ).loc Cert.KernelIdeal.main_arg9) idx = (r : EReal) :=
  (fn_real _ _ _ _ _ _ _ _ _ _ _ _ (h c)).2.2.2.2.2.2.2.2.2.1 idx

/-- Every entry of argument 10 is a real number. -/
theorem real_arg10 {m : (ℓ : Loc Cert.KernelIdeal.nD Cert.KernelIdeal.τ Cert.KernelIdeal.sig) → Buf (Elt Ideal) ℓ}
    (h : Cert.Pre_KernelIdeal m) (c : Dev Cert.KernelIdeal.nD) (idx : (⟨2, ![1, 32]⟩ : Shape).Idx) :
    ∃ r : ℝ, m ((c.tc : Thread Cert.KernelIdeal.nD Cert.KernelIdeal.τ).loc Cert.KernelIdeal.main_arg10) idx = (r : EReal) :=
  (fn_real _ _ _ _ _ _ _ _ _ _ _ _ (h c)).2.2.2.2.2.2.2.2.2.2.1 idx

/-- Every entry of argument 11 is a real number. -/
theorem real_arg11 {m : (ℓ : Loc Cert.KernelIdeal.nD Cert.KernelIdeal.τ Cert.KernelIdeal.sig) → Buf (Elt Ideal) ℓ}
    (h : Cert.Pre_KernelIdeal m) (c : Dev Cert.KernelIdeal.nD) (idx : (⟨3, ![2, 4096, 4096]⟩ : Shape).Idx) :
    ∃ r : ℝ, m ((c.tc : Thread Cert.KernelIdeal.nD Cert.KernelIdeal.τ).loc Cert.KernelIdeal.main_arg11) idx = (r : EReal) :=
  (fn_real _ _ _ _ _ _ _ _ _ _ _ _ (h c)).2.2.2.2.2.2.2.2.2.2.2 idx

end args

end Cert.Finite

end
-- ==== Proof.Final.lean ====
/-
  The five claims, assembled.  Each program's run ends with every unscoped buffer at the last valuation of a fold through
  its host stretches and its two regions; the argument arrays are read back unchanged (the three frames), and at the ideal
  instance the two result arrays are read back as functions of the argument arrays: the layer-1 embedding and the
  perceptron head over it (first 32 of 128 lanes).  One program aggregates then projects, the other projects then
  aggregates; for real-entried inputs (the precondition) the two embeddings are one function, and the heads are the same
  function of the embedding and of the same padded weights.
-/
import proofs.«130397_g2000105430876207_pallasbulk_1247_2_alg».proof.Defs
import proofs.«130397_g2000105430876207_pallasbulk_1247_2_alg».proof.Proof.KRun
import proofs.«130397_g2000105430876207_pallasbulk_1247_2_alg».proof.Proof.BRun
import proofs.«130397_g2000105430876207_pallasbulk_1247_2_alg».proof.Proof.RRun
import proofs.«130397_g2000105430876207_pallasbulk_1247_2_alg».proof.Proof.TopK
import proofs.«130397_g2000105430876207_pallasbulk_1247_2_alg».proof.Proof.TopR
import proofs.«130397_g2000105430876207_pallasbulk_1247_2_alg».proof.Proof.Algebra
import proofs.«130397_g2000105430876207_pallasbulk_1247_2_alg».proof.Proof.Finite

set_option maxRecDepth 16384

noncomputable section

namespace Cert.Final

open Idealize.ShloMosaic Idealize.ShloMosaic.TcCoe Idealize.SL.Sem Idealize.ShloMosaic.ValueIdx

/-! ## The frames: every argument array is read back off the last valuation as launched -/

theorem frame_k : Cert.frame_Kernel := fun m ρ _ =>
  (θ_run _ _ _).mono (fun r h c => ⟨(h c _ (Cert.Kernel.Hand.mem_uc Cert.Kernel.main_arg0 (by decide))).trans (Cert.Kernel.Hand.W5_main_arg0 m ρ c),
    (h c _ (Cert.Kernel.Hand.mem_uc Cert.Kernel.main_arg1 (by decide))).trans (Cert.Kernel.Hand.W5_main_arg1 m ρ c),
    (h c _ (Cert.Kernel.Hand.mem_uc Cert.Kernel.main_arg2 (by decide))).trans (Cert.Kernel.Hand.W5_main_arg2 m ρ c),
    (h c _ (Cert.Kernel.Hand.mem_uc Cert.Kernel.main_arg3 (by decide))).trans (Cert.Kernel.Hand.W5_main_arg3 m ρ c),
    (h c _ (Cert.Kernel.Hand.mem_uc Cert.Kernel.main_arg4 (by decide))).trans (Cert.Kernel.Hand.W5_main_arg4 m ρ c),
    (h c _ (Cert.Kernel.Hand.mem_uc Cert.Kernel.main_arg5 (by decide))).trans (Cert.Kernel.Hand.W5_main_arg5 m ρ c),
    (h c _ (Cert.Kernel.Hand.mem_uc Cert.Kernel.main_arg6 (by decide))).trans (Cert.Kernel.Hand.W5_main_arg6 m ρ c),
    (h c _ (Cert.Kernel.Hand.mem_uc Cert.Kernel.main_arg7 (by decide))).trans (Cert.Kernel.Hand.W5_main_arg7 m ρ c),
    (h c _ (Cert.Kernel.Hand.mem_uc Cert.Kernel.main_arg8 (by decide))).trans (Cert.Kernel.Hand.W5_main_arg8 m ρ c),
    (h c _ (Cert.Kernel.Hand.mem_uc Cert.Kernel.main_arg9 (by decide))).trans (Cert.Kernel.Hand.W5_main_arg9 m ρ c),
    (h c _ (Cert.Kernel.Hand.mem_uc Cert.Kernel.main_arg10 (by decide))).trans (Cert.Kernel.Hand.W5_main_arg10 m ρ c),
    (h c _ (Cert.Kernel.Hand.mem_uc Cert.Kernel.main_arg11 (by decide))).trans (Cert.Kernel.Hand.W5_main_arg11 m ρ c)⟩)
    (Cert.Kernel.Hand.run (F := Bits) m ρ)

theorem frame_ki : Cert.frame_KernelIdeal := fun m ρ _ =>
  (θ_run _ _ _).mono (fun r h c => ⟨(h c _ (Cert.KernelIdeal.Hand.mem_uc Cert.KernelIdeal.main_arg0 (by decide))).trans (Cert.KernelIdeal.Hand.W5_main_arg0 m ρ c),
    (h c _ (Cert.KernelIdeal.Hand.mem_uc Cert.KernelIdeal.main_arg1 (by decide))).trans (Cert.KernelIdeal.Hand.W5_main_arg1 m ρ c),
    (h c _ (Cert.KernelIdeal.Hand.mem_uc Cert.KernelIdeal.main_arg2 (by decide))).trans (Cert.KernelIdeal.Hand.W5_main_arg2 m ρ c),
    (h c _ (Cert.KernelIdeal.Hand.mem_uc Cert.KernelIdeal.main_arg3 (by decide))).trans (Cert.KernelIdeal.Hand.W5_main_arg3 m ρ c),
    (h c _ (Cert.KernelIdeal.Hand.mem_uc Cert.KernelIdeal.main_arg4 (by decide))).trans (Cert.KernelIdeal.Hand.W5_main_arg4 m ρ c),
    (h c _ (Cert.KernelIdeal.Hand.mem_uc Cert.KernelIdeal.main_arg5 (by decide))).trans (Cert.KernelIdeal.Hand.W5_main_arg5 m ρ c),
    (h c _ (Cert.KernelIdeal.Hand.mem_uc Cert.KernelIdeal.main_arg6 (by decide))).trans (Cert.KernelIdeal.Hand.W5_main_arg6 m ρ c),
    (h c _ (Cert.KernelIdeal.Hand.mem_uc Cert.KernelIdeal.main_arg7 (by decide))).trans (Cert.KernelIdeal.Hand.W5_main_arg7 m ρ c),
    (h c _ (Cert.KernelIdeal.Hand.mem_uc Cert.KernelIdeal.main_arg8 (by decide))).trans (Cert.KernelIdeal.Hand.W5_main_arg8 m ρ c),
    (h c _ (Cert.KernelIdeal.Hand.mem_uc Cert.KernelIdeal.main_arg9 (by decide))).trans (Cert.KernelIdeal.Hand.W5_main_arg9 m ρ c),
    (h c _ (Cert.KernelIdeal.Hand.mem_uc Cert.KernelIdeal.main_arg10 (by decide))).trans (Cert.KernelIdeal.Hand.W5_main_arg10 m ρ c),
    (h c _ (Cert.KernelIdeal.Hand.mem_uc Cert.KernelIdeal.main_arg11 (by decide))).trans (Cert.KernelIdeal.Hand.W5_main_arg11 m ρ c)⟩)
    (Cert.KernelIdeal.Hand.run (F := Ideal) m ρ)

theorem frame_ri : Cert.frame_ReferenceIdeal := fun m ρ _ =>
  (θ_run _ _ _).mono (fun r h c => ⟨(h c _ (Cert.ReferenceIdeal.Hand.mem_uc Cert.ReferenceIdeal.main_arg0 (by decide))).trans (Cert.ReferenceIdeal.Gen.V5_main_arg0 m _ c),
    (h c _ (Cert.ReferenceIdeal.Hand.mem_uc Cert.ReferenceIdeal.main_arg1 (by decide))).trans (Cert.ReferenceIdeal.Gen.V5_main_arg1 m _ c),
    (h c _ (Cert.ReferenceIdeal.Hand.mem_uc Cert.ReferenceIdeal.main_arg2 (by decide))).trans (Cert.ReferenceIdeal.Gen.V5_main_arg2 m _ c),
    (h c _ (Cert.ReferenceIdeal.Hand.mem_uc Cert.ReferenceIdeal.main_arg3 (by decide))).trans (Cert.ReferenceIdeal.Gen.V5_main_arg3 m _ c),
    (h c _ (Cert.ReferenceIdeal.Hand.mem_uc Cert.ReferenceIdeal.main_arg4 (by decide))).trans (Cert.ReferenceIdeal.Gen.V5_main_arg4 m _ c),
    (h c _ (Cert.ReferenceIdeal.Hand.mem_uc Cert.ReferenceIdeal.main_arg5 (by decide))).trans (Cert.ReferenceIdeal.Gen.V5_main_arg5 m _ c),
    (h c _ (Cert.ReferenceIdeal.Hand.mem_uc Cert.ReferenceIdeal.main_arg6 (by decide))).trans (Cert.ReferenceIdeal.Gen.V5_main_arg6 m _ c),
    (h c _ (Cert.ReferenceIdeal.Hand.mem_uc Cert.ReferenceIdeal.main_arg7 (by decide))).trans (Cert.ReferenceIdeal.Gen.V5_main_arg7 m _ c),
    (h c _ (Cert.ReferenceIdeal.Hand.mem_uc Cert.ReferenceIdeal.main_arg8 (by decide))).trans (Cert.ReferenceIdeal.Gen.V5_main_arg8 m _ c),
    (h c _ (Cert.ReferenceIdeal.Hand.mem_uc Cert.ReferenceIdeal.main_arg9 (by decide))).trans (Cert.ReferenceIdeal.Gen.V5_main_arg9 m _ c),
    (h c _ (Cert.ReferenceIdeal.Hand.mem_uc Cert.ReferenceIdeal.main_arg10 (by decide))).trans (Cert.ReferenceIdeal.Gen.V5_main_arg10 m _ c),
    (h c _ (Cert.ReferenceIdeal.Hand.mem_uc Cert.ReferenceIdeal.main_arg11 (by decide))).trans (Cert.ReferenceIdeal.Gen.V5_main_arg11 m _ c)⟩)
    (Cert.ReferenceIdeal.Hand.run (F := Ideal) m ρ)

/-! ## The two embeddings are one function of real-entried arguments -/

/-- Aggregate-then-project equals project-then-aggregate, for argument arrays whose entries are real numbers. -/
theorem emb_core (a0 : (⟨2, ![4096, 128]⟩ : Shape).Idx → EReal) (a1 a2 : (⟨3, ![2, 128, 256]⟩ : Shape).Idx → EReal)
    (a3 : (⟨3, ![2, 1, 256]⟩ : Shape).Idx → EReal) (a4 a5 : (⟨3, ![2, 512, 256]⟩ : Shape).Idx → EReal)
    (a6 : (⟨3, ![2, 1, 256]⟩ : Shape).Idx → EReal) (a11 : (⟨3, ![2, 4096, 4096]⟩ : Shape).Idx → EReal)
    (h0 : ∀ i, ∃ r : ℝ, a0 i = (r : EReal)) (h1 : ∀ i, ∃ r : ℝ, a1 i = (r : EReal)) (h2 : ∀ i, ∃ r : ℝ, a2 i = (r : EReal))
    (h3 : ∀ i, ∃ r : ℝ, a3 i = (r : EReal)) (h4 : ∀ i, ∃ r : ℝ, a4 i = (r : EReal)) (h11 : ∀ i, ∃ r : ℝ, a11 i = (r : EReal)) :
    Spec.layerR (Spec.cur3 a11) (Spec.layerR (Spec.cur3 a11) (Spec.cur2 a0) (Spec.cur3 a1) (Spec.cur3 a2) (Spec.bias3 a3))
        (Spec.cur3 a4) (Spec.cur3 a5) (Spec.bias3 a6)
      = Spec.embK (Spec.cur3 a11)
          (Spec.y1K (Spec.cur3 a11) (Spec.cur2 a0) (Spec.W0of (Spec.cur3 a1) (Spec.cur3 a2)) (Spec.bcat (Spec.bias3 a3))
            (Spec.W1of (Spec.cur3 a4) (Spec.cur3 a5)))
          (Spec.p1K (Spec.cur3 a11) (Spec.cur2 a0) (Spec.W0of (Spec.cur3 a1) (Spec.cur3 a2)) (Spec.bcat (Spec.bias3 a3))
            (Spec.W1of (Spec.cur3 a4) (Spec.cur3 a5)) (Spec.bcat (Spec.bias3 a6))) :=
  (Spec.emb_eq (Spec.cur3 a11) (Spec.cur2 a0) (Spec.cur3 a1) (Spec.cur3 a2) (Spec.bias3 a3) (Spec.cur3 a4) (Spec.cur3 a5) (Spec.bias3 a6)
    (fun t i n => h11 (ix3 t i n)) (fun n k => h0 (ix2 n k)) (fun t k c => h1 (ix3 t k c)) (fun t k c => h2 (ix3 t k c))
    (fun t c => h3 (ix3 t 0 c)) (fun t k c => h4 (ix3 t k c))).symm

/-! ## The two programs' results, as functions of arguments that agree -/

/-- Both results over argument arrays that agree and are real-entried: the embeddings by `emb_core`, the heads as the
    same function of equal embeddings and equal padded weights. -/
theorem results_core
    (a0 a0' : (⟨2, ![4096, 128]⟩ : Shape).Idx → EReal) (a1 a1' a2 a2' : (⟨3, ![2, 128, 256]⟩ : Shape).Idx → EReal) (a3 a3' : (⟨3, ![2, 1, 256]⟩ : Shape).Idx → EReal)
    (a4 a4' a5 a5' : (⟨3, ![2, 512, 256]⟩ : Shape).Idx → EReal) (a6 a6' : (⟨3, ![2, 1, 256]⟩ : Shape).Idx → EReal)
    (a7 a7' : (⟨2, ![512, 20]⟩ : Shape).Idx → EReal) (a8 a8' : (⟨2, ![1, 20]⟩ : Shape).Idx → EReal) (a9 a9' : (⟨2, ![20, 32]⟩ : Shape).Idx → EReal) (a10 a10' : (⟨2, ![1, 32]⟩ : Shape).Idx → EReal)
    (a11 a11' : (⟨3, ![2, 4096, 4096]⟩ : Shape).Idx → EReal)
    (e0 : a0' = a0) (e1 : a1' = a1) (e2 : a2' = a2) (e3 : a3' = a3) (e4 : a4' = a4) (e5 : a5' = a5) (e6 : a6' = a6)
    (e7 : a7' = a7) (e8 : a8' = a8) (e9 : a9' = a9) (e10 : a10' = a10) (e11 : a11' = a11)
    (h0 : ∀ i, ∃ r : ℝ, a0 i = (r : EReal)) (h1 : ∀ i, ∃ r : ℝ, a1 i = (r : EReal)) (h2 : ∀ i, ∃ r : ℝ, a2 i = (r : EReal))
    (h3 : ∀ i, ∃ r : ℝ, a3 i = (r : EReal)) (h4 : ∀ i, ∃ r : ℝ, a4 i = (r : EReal)) (h11 : ∀ i, ∃ r : ℝ, a11 i = (r : EReal)) :
    ((fun idx : (⟨2, ![4096, 512]⟩ : Shape).Idx => (Spec.layerR (Spec.cur3 a11') (Spec.layerR (Spec.cur3 a11') (Spec.cur2 a0') (Spec.cur3 a1') (Spec.cur3 a2') (Spec.bias3 a3')) (Spec.cur3 a4') (Spec.cur3 a5') (Spec.bias3 a6')) (idx 0) (idx 1))
        = fun idx : (⟨2, ![4096, 512]⟩ : Shape).Idx => (Spec.embK (Spec.cur3 a11) (Spec.y1K (Spec.cur3 a11) (Spec.cur2 a0) (Spec.W0of (Spec.cur3 a1) (Spec.cur3 a2)) (Spec.bcat (Spec.bias3 a3)) (Spec.W1of (Spec.cur3 a4) (Spec.cur3 a5))) (Spec.p1K (Spec.cur3 a11) (Spec.cur2 a0) (Spec.W0of (Spec.cur3 a1) (Spec.cur3 a2)) (Spec.bcat (Spec.bias3 a3)) (Spec.W1of (Spec.cur3 a4) (Spec.cur3 a5)) (Spec.bcat (Spec.bias3 a6)))) (idx 0) (idx 1))
    ∧ ((fun idx : (⟨2, ![4096, 128]⟩ : Shape).Idx => Spec.head (Spec.layerR (Spec.cur3 a11') (Spec.layerR (Spec.cur3 a11') (Spec.cur2 a0') (Spec.cur3 a1') (Spec.cur3 a2') (Spec.bias3 a3')) (Spec.cur3 a4') (Spec.cur3 a5') (Spec.bias3 a6')) (Spec.cur2 (Cert.ReferenceIdeal.HandHost.padW1 (F := Ideal) a7')) (Spec.row (Cert.ReferenceIdeal.HandHost.padB1 (F := Ideal) a8')) (Spec.cur2 (Cert.ReferenceIdeal.HandHost.padW2 (F := Ideal) a9')) (Spec.row (Cert.ReferenceIdeal.HandHost.padB2 (F := Ideal) a10')) (idx 0) (idx 1))
        = fun idx : (⟨2, ![4096, 128]⟩ : Shape).Idx => Spec.head (Spec.embK (Spec.cur3 a11) (Spec.y1K (Spec.cur3 a11) (Spec.cur2 a0) (Spec.W0of (Spec.cur3 a1) (Spec.cur3 a2)) (Spec.bcat (Spec.bias3 a3)) (Spec.W1of (Spec.cur3 a4) (Spec.cur3 a5))) (Spec.p1K (Spec.cur3 a11) (Spec.cur2 a0) (Spec.W0of (Spec.cur3 a1) (Spec.cur3 a2)) (Spec.bcat (Spec.bias3 a3)) (Spec.W1of (Spec.cur3 a4) (Spec.cur3 a5)) (Spec.bcat (Spec.bias3 a6)))) (Spec.cur2 (Cert.ReferenceIdeal.HandHost.padW1 (F := Ideal) a7)) (Spec.row (Cert.ReferenceIdeal.HandHost.padB1 (F := Ideal) a8)) (Spec.cur2 (Cert.ReferenceIdeal.HandHost.padW2 (F := Ideal) a9)) (Spec.row (Cert.ReferenceIdeal.HandHost.padB2 (F := Ideal) a10)) (idx 0) (idx 1)) := by
  subst e0 e1 e2 e3 e4 e5 e6 e7 e8 e9 e10 e11
  rw [emb_core a0' a1' a2' a3' a4' a5' a6' a11' h0 h1 h2 h3 h4 h11]
  exact ⟨rfl, rfl⟩

/-- The slice of equal arrays is equal. -/
theorem slice_congr {f g : (⟨2, ![4096, 128]⟩ : Shape).Idx → EReal}
    (hs : Cert.KernelIdeal.S4096x128.Slices ![0, 0] Cert.KernelIdeal.S4096x32) (h : f = g) :
    extractStridedSlice Cert.KernelIdeal.S4096x32 ![0, 0] f hs = extractStridedSlice Cert.KernelIdeal.S4096x32 ![0, 0] g hs := by
  rw [h]

/-- From memories agreeing on the arguments, under the precondition, the reference's two results are the kernel's. -/
theorem agree (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    (Cert.ReferenceIdeal.Gen.V5 m' (Cert.ReferenceIdeal.Hand.outsR m') c Cert.ReferenceIdeal.main_v24_0
        = Cert.KernelIdeal.Hand.W5 m ρ c (Proc.devRef .tc Cert.KernelIdeal.main_v53_0))
    ∧ (Cert.ReferenceIdeal.Gen.V5 m' (Cert.ReferenceIdeal.Hand.outsR m') c Cert.ReferenceIdeal.main_v25
        = Cert.KernelIdeal.Hand.W5 m ρ c (Proc.devRef .tc Cert.KernelIdeal.main_v54)) := by
  have core := results_core
      (m ((c.tc : Thread Cert.KernelIdeal.nD Cert.KernelIdeal.τ).loc Cert.KernelIdeal.main_arg0)) (m' ((c.tc : Thread Cert.ReferenceIdeal.nD Cert.ReferenceIdeal.τ).loc Cert.ReferenceIdeal.main_arg0))
      (m ((c.tc : Thread Cert.KernelIdeal.nD Cert.KernelIdeal.τ).loc Cert.KernelIdeal.main_arg1)) (m' ((c.tc : Thread Cert.ReferenceIdeal.nD Cert.ReferenceIdeal.τ).loc Cert.ReferenceIdeal.main_arg1))
      (m ((c.tc : Thread Cert.KernelIdeal.nD Cert.KernelIdeal.τ).loc Cert.KernelIdeal.main_arg2)) (m' ((c.tc : Thread Cert.ReferenceIdeal.nD Cert.ReferenceIdeal.τ).loc Cert.ReferenceIdeal.main_arg2))
      (m ((c.tc : Thread Cert.KernelIdeal.nD Cert.KernelIdeal.τ).loc Cert.KernelIdeal.main_arg3)) (m' ((c.tc : Thread Cert.ReferenceIdeal.nD Cert.ReferenceIdeal.τ).loc Cert.ReferenceIdeal.main_arg3))
      (m ((c.tc : Thread Cert.KernelIdeal.nD Cert.KernelIdeal.τ).loc Cert.KernelIdeal.main_arg4)) (m' ((c.tc : Thread Cert.ReferenceIdeal.nD Cert.ReferenceIdeal.τ).loc Cert.ReferenceIdeal.main_arg4))
      (m ((c.tc : Thread Cert.KernelIdeal.nD Cert.KernelIdeal.τ).loc Cert.KernelIdeal.main_arg5)) (m' ((c.tc : Thread Cert.ReferenceIdeal.nD Cert.ReferenceIdeal.τ).loc Cert.ReferenceIdeal.main_arg5))
      (m ((c.tc : Thread Cert.KernelIdeal.nD Cert.KernelIdeal.τ).loc Cert.KernelIdeal.main_arg6)) (m' ((c.tc : Thread Cert.ReferenceIdeal.nD Cert.ReferenceIdeal.τ).loc Cert.ReferenceIdeal.main_arg6))
      (m ((c.tc : Thread Cert.KernelIdeal.nD Cert.KernelIdeal.τ).loc Cert.KernelIdeal.main_arg7)) (m' ((c.tc : Thread Cert.ReferenceIdeal.nD Cert.ReferenceIdeal.τ).loc Cert.ReferenceIdeal.main_arg7))
      (m ((c.tc : Thread Cert.KernelIdeal.nD Cert.KernelIdeal.τ).loc Cert.KernelIdeal.main_arg8)) (m' ((c.tc : Thread Cert.ReferenceIdeal.nD Cert.ReferenceIdeal.τ).loc Cert.ReferenceIdeal.main_arg8))
      (m ((c.tc : Thread Cert.KernelIdeal.nD Cert.KernelIdeal.τ).loc Cert.KernelIdeal.main_arg9)) (m' ((c.tc : Thread Cert.ReferenceIdeal.nD Cert.ReferenceIdeal.τ).loc Cert.ReferenceIdeal.main_arg9))
      (m ((c.tc : Thread Cert.KernelIdeal.nD Cert.KernelIdeal.τ).loc Cert.KernelIdeal.main_arg10)) (m' ((c.tc : Thread Cert.ReferenceIdeal.nD Cert.ReferenceIdeal.τ).loc Cert.ReferenceIdeal.main_arg10))
      (m ((c.tc : Thread Cert.KernelIdeal.nD Cert.KernelIdeal.τ).loc Cert.KernelIdeal.main_arg11)) (m' ((c.tc : Thread Cert.ReferenceIdeal.nD Cert.ReferenceIdeal.τ).loc Cert.ReferenceIdeal.main_arg11))
      e0 e1 e2 e3 e4 e5 e6 e7 e8 e9 e10 e11
      (Cert.Finite.real_arg0 hpre c) (Cert.Finite.real_arg1 hpre c) (Cert.Finite.real_arg2 hpre c) (Cert.Finite.real_arg3 hpre c)
      (Cert.Finite.real_arg4 hpre c) (Cert.Finite.real_arg11 hpre c)
  exact ⟨(Cert.ReferenceIdeal.TopR.r_emb_run m' c).trans (core.1.trans (Cert.KernelIdeal.TopK.k_emb_run m ρ c).symm),
    (Cert.ReferenceIdeal.TopR.r_pred_run m' c).trans ((slice_congr _ core.2).trans (Cert.KernelIdeal.TopK.k_pred_run m ρ c).symm)⟩

/-! ## The algebraic claim -/

theorem algebraic : Cert.algebraic_KernelIdeal_ReferenceIdeal := by
  intro m ρ m' ρ' hpre hagree
  refine ⟨fun c => Cert.KernelIdeal.Hand.W5 m ρ c (Proc.devRef .tc Cert.KernelIdeal.main_v53_0),
    fun c => Cert.KernelIdeal.Hand.W5 m ρ c (Proc.devRef .tc Cert.KernelIdeal.main_v54), ?_, ?_⟩
  · exact (θ_run _ _ _).mono (fun r h c => ⟨h c _ (Cert.KernelIdeal.Hand.mem_uc Cert.KernelIdeal.main_v53_0 (by decide)),
      h c _ (Cert.KernelIdeal.Hand.mem_uc Cert.KernelIdeal.main_v54 (by decide)),
      (h c _ (Cert.KernelIdeal.Hand.mem_uc Cert.KernelIdeal.main_arg0 (by decide))).trans (Cert.KernelIdeal.Hand.W5_main_arg0 m ρ c),
      (h c _ (Cert.KernelIdeal.Hand.mem_uc Cert.KernelIdeal.main_arg1 (by decide))).trans (Cert.KernelIdeal.Hand.W5_main_arg1 m ρ c),
      (h c _ (Cert.KernelIdeal.Hand.mem_uc Cert.KernelIdeal.main_arg2 (by decide))).trans (Cert.KernelIdeal.Hand.W5_main_arg2 m ρ c),
      (h c _ (Cert.KernelIdeal.Hand.mem_uc Cert.KernelIdeal.main_arg3 (by decide))).trans (Cert.KernelIdeal.Hand.W5_main_arg3 m ρ c),
      (h c _ (Cert.KernelIdeal.Hand.mem_uc Cert.KernelIdeal.main_arg4 (by decide))).trans (Cert.KernelIdeal.Hand.W5_main_arg4 m ρ c),
      (h c _ (Cert.KernelIdeal.Hand.mem_uc Cert.KernelIdeal.main_arg5 (by decide))).trans (Cert.KernelIdeal.Hand.W5_main_arg5 m ρ c),
      (h c _ (Cert.KernelIdeal.Hand.mem_uc Cert.KernelIdeal.main_arg6 (by decide))).trans (Cert.KernelIdeal.Hand.W5_main_arg6 m ρ c),
      (h c _ (Cert.KernelIdeal.Hand.mem_uc Cert.KernelIdeal.main_arg7 (by decide))).trans (Cert.KernelIdeal.Hand.W5_main_arg7 m ρ c),
      (h c _ (Cert.KernelIdeal.Hand.mem_uc Cert.KernelIdeal.main_arg8 (by decide))).trans (Cert.KernelIdeal.Hand.W5_main_arg8 m ρ c),
      (h c _ (Cert.KernelIdeal.Hand.mem_uc Cert.KernelIdeal.main_arg9 (by decide))).trans (Cert.KernelIdeal.Hand.W5_main_arg9 m ρ c),
      (h c _ (Cert.KernelIdeal.Hand.mem_uc Cert.KernelIdeal.main_arg10 (by decide))).trans (Cert.KernelIdeal.Hand.W5_main_arg10 m ρ c),
      (h c _ (Cert.KernelIdeal.Hand.mem_uc Cert.KernelIdeal.main_arg11 (by decide))).trans (Cert.KernelIdeal.Hand.W5_main_arg11 m ρ c)⟩)
      (Cert.KernelIdeal.Hand.run (F := Ideal) m ρ)
  · refine (θ_run _ _ _).mono (fun r h c => ?_) (Cert.ReferenceIdeal.Hand.run (F := Ideal) m' ρ')
    obtain ⟨e0, e1, e2, e3, e4, e5, e6, e7, e8, e9, e10, e11⟩ := hagree c
    have ag := agree m ρ m' hpre c e0 e1 e2 e3 e4 e5 e6 e7 e8 e9 e10 e11
    exact ⟨(h c _ (Cert.ReferenceIdeal.Hand.mem_uc Cert.ReferenceIdeal.main_v24_0 (by decide))).trans ag.1,
      (h c _ (Cert.ReferenceIdeal.Hand.mem_uc Cert.ReferenceIdeal.main_v25 (by decide))).trans ag.2,
      (h c _ (Cert.ReferenceIdeal.Hand.mem_uc Cert.ReferenceIdeal.main_arg0 (by decide))).trans (Cert.ReferenceIdeal.Gen.V5_main_arg0 m' _ c),
      (h c _ (Cert.ReferenceIdeal.Hand.mem_uc Cert.ReferenceIdeal.main_arg1 (by decide))).trans (Cert.ReferenceIdeal.Gen.V5_main_arg1 m' _ c),
      (h c _ (Cert.ReferenceIdeal.Hand.mem_uc Cert.ReferenceIdeal.main_arg2 (by decide))).trans (Cert.ReferenceIdeal.Gen.V5_main_arg2 m' _ c),
      (h c _ (Cert.ReferenceIdeal.Hand.mem_uc Cert.ReferenceIdeal.main_arg3 (by decide))).trans (Cert.ReferenceIdeal.Gen.V5_main_arg3 m' _ c),
      (h c _ (Cert.ReferenceIdeal.Hand.mem_uc Cert.ReferenceIdeal.main_arg4 (by decide))).trans (Cert.ReferenceIdeal.Gen.V5_main_arg4 m' _ c),
      (h c _ (Cert.ReferenceIdeal.Hand.mem_uc Cert.ReferenceIdeal.main_arg5 (by decide))).trans (Cert.ReferenceIdeal.Gen.V5_main_arg5 m' _ c),
      (h c _ (Cert.ReferenceIdeal.Hand.mem_uc Cert.ReferenceIdeal.main_arg6 (by decide))).trans (Cert.ReferenceIdeal.Gen.V5_main_arg6 m' _ c),
      (h c _ (Cert.ReferenceIdeal.Hand.mem_uc Cert.ReferenceIdeal.main_arg7 (by decide))).trans (Cert.ReferenceIdeal.Gen.V5_main_arg7 m' _ c),
      (h c _ (Cert.ReferenceIdeal.Hand.mem_uc Cert.ReferenceIdeal.main_arg8 (by decide))).trans (Cert.ReferenceIdeal.Gen.V5_main_arg8 m' _ c),
      (h c _ (Cert.ReferenceIdeal.Hand.mem_uc Cert.ReferenceIdeal.main_arg9 (by decide))).trans (Cert.ReferenceIdeal.Gen.V5_main_arg9 m' _ c),
      (h c _ (Cert.ReferenceIdeal.Hand.mem_uc Cert.ReferenceIdeal.main_arg10 (by decide))).trans (Cert.ReferenceIdeal.Gen.V5_main_arg10 m' _ c),
      (h c _ (Cert.ReferenceIdeal.Hand.mem_uc Cert.ReferenceIdeal.main_arg11 (by decide))).trans (Cert.ReferenceIdeal.Gen.V5_main_arg11 m' _ c)⟩

end Cert.Final

end
-- ==== Proof.lean ====
/-
  The certificate's conclusion.  The word-level kernel, its reading over the extended reals and the reference's reading
  each run to the end with the argument arrays unchanged (three frames, each read off the last valuation of the program's
  fold through its host stretches and its two pipelined regions); the idealization rewrote nothing, so it is preserved
  trivially; and over the extended reals, from memories agreeing on the arguments and under finiteness of the inputs, the
  two programs' results — the layer-1 embedding and the perceptron head — are equal entry by entry: aggregating and then
  projecting equals projecting and then aggregating when every entry is a real number.
-/
import proofs.«130397_g2000105430876207_pallasbulk_1247_2_alg».proof.Defs
import proofs.«130397_g2000105430876207_pallasbulk_1247_2_alg».proof.Proof.Gen.Kernel
import proofs.«130397_g2000105430876207_pallasbulk_1247_2_alg».proof.Proof.Gen.KernelIdeal
import proofs.«130397_g2000105430876207_pallasbulk_1247_2_alg».proof.Proof.Gen.ReferenceIdeal
import proofs.«130397_g2000105430876207_pallasbulk_1247_2_alg».proof.Proof.Gen.Pre_finite_inputs
import proofs.«130397_g2000105430876207_pallasbulk_1247_2_alg».proof.Proof.Final

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Final.frame_k, Cert.Final.frame_ki, Cert.Final.frame_ri, trivial, Cert.Final.algebraic⟩

end Cert.Proof

end
